-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg15 : FVec F S128x128 .f32) (main_arg16 : FVec F S128 .f32) (main_arg17 : FVec F S128x64 .f32) (main_arg18 : FVec F S64 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S2x128 .f32) (main_arg13 : FVec F S2x128 .f32) (main_arg14 : FVec F S2x128 .f32) (main_arg15 : FVec F S128x128 .f32) (main_arg16 : FVec F S128 .f32) (main_arg17 : FVec F S128x64 .f32) (main_arg18 : FVec F S64 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg12
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128 .f32 := Host.absf main_arg13
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S2x128 .f32 := Host.absf main_arg14
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_arg15 main_arg16 main_arg17 main_arg18 main_v63 main_v67

def fn_part2 {F : FTy → Type} [FloatOps F] (main_arg8 : FVec F S128 .f32) (main_arg9 : FVec F S2x128x128 .f32) (main_arg10 : FVec F S2x128 .f32) (main_arg11 : FVec F S2x128 .f32) (main_arg12 : FVec F S2x128 .f32) (main_arg13 : FVec F S2x128 .f32) (main_arg14 : FVec F S2x128 .f32) (main_arg15 : FVec F S128x128 .f32) (main_arg16 : FVec F S128 .f32) (main_arg17 : FVec F S128x64 .f32) (main_arg18 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2x128x128 .f32 := Host.absf main_arg9
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg11
  let main_cst_18 : FVec F S_ .f32 := constant S_ .f32 0x7F800000#32
  let main_v50 : FVec F S2x128 .f32 := broadcastInDim S2x128 ![] bcast_S_S2x128 main_cst_18
  fn_part3 (F := F) main_arg12 main_arg13 main_arg14 main_arg15 main_arg16 main_arg17 main_arg18 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S2x128x128 .f32) (main_arg10 : FVec F S2x128 .f32) (main_arg11 : FVec F S2x128 .f32) (main_arg12 : FVec F S2x128 .f32) (main_arg13 : FVec F S2x128 .f32) (main_arg14 : FVec F S2x128 .f32) (main_arg15 : FVec F S128x128 .f32) (main_arg16 : FVec F S128 .f32) (main_arg17 : FVec F S128x64 .f32) (main_arg18 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S2x128x128 .f32) (main_arg10 : FVec F S2x128 .f32) (main_arg11 : FVec F S2x128 .f32) (main_arg12 : FVec F S2x128 .f32) (main_arg13 : FVec F S2x128 .f32) (main_arg14 : FVec F S2x128 .f32) (main_arg15 : FVec F S128x128 .f32) (main_arg16 : FVec F S128 .f32) (main_arg17 : FVec F S128x64 .f32) (main_arg18 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S5000x128 : Shape := ⟨2, ![5000, 128]⟩
abbrev S1x128x128 : Shape := ⟨3, ![1, 128, 128]⟩
abbrev S1x64 : Shape := ⟨2, ![1, 64]⟩
abbrev S50000x64 : Shape := ⟨2, ![50000, 64]⟩
abbrev S10000x64 : Shape := ⟨2, ![10000, 64]⟩

abbrev nBuf : Space → Nat
  | .hbm => 158
  | .vmem => 58
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S2x128x128, .f32⟩
  | 10 => ⟨S2x128, .f32⟩
  | 11 => ⟨S2x128, .f32⟩
  | 12 => ⟨S2x128, .f32⟩
  | 13 => ⟨S2x128, .f32⟩
  | 14 => ⟨S2x128, .f32⟩
  | 15 => ⟨S128x128, .f32⟩
  | 16 => ⟨S128, .f32⟩
  | 17 => ⟨S128x64, .f32⟩
  | 18 => ⟨S64, .f32⟩
  | 19 => ⟨S50000, .i32⟩
  | 20 => ⟨S1x800000, .i32⟩
  | 21 => ⟨S800000, .i32⟩
  | 22 => ⟨S850000, .i32⟩
  | 23 => ⟨S1x800000, .i32⟩
  | 24 => ⟨S800000, .i32⟩
  | 25 => ⟨S850000, .i32⟩
  | 26 => ⟨S_, .f32⟩
  | 27 => ⟨S50000, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S50000x128, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x128, .f32⟩
  | 71 => ⟨S850000x1, .f32⟩
  | 72 => ⟨S850000x128, .f32⟩
  | 73 => ⟨S850000x128, .f32⟩
  | 74 => ⟨S_, .f32⟩
  | 75 => ⟨S50000x128, .f32⟩
  | 76 => ⟨S850000x1, .i32⟩
  | 77 => ⟨S50000x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S50000x128, .f32⟩
  | 84 => ⟨S1x128x128, .f32⟩
  | 85 => ⟨S128x128, .f32⟩
  | 86 => ⟨S50000x128, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x128, .f32⟩
  | 96 => ⟨S850000x1, .f32⟩
  | 97 => ⟨S850000x128, .f32⟩
  | 98 => ⟨S850000x128, .f32⟩
  | 99 => ⟨S_, .f32⟩
  | 100 => ⟨S50000x128, .f32⟩
  | 101 => ⟨S850000x1, .i32⟩
  | 102 => ⟨S50000x128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S50000x128, .f32⟩
  | 119 => ⟨S1x128x128, .f32⟩
  | 120 => ⟨S128x128, .f32⟩
  | 121 => ⟨S50000x128, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x128, .f32⟩

abbrev hbmTy0_1 (i : Nat) : BufTy := match i % 128 with
  | 0 => ⟨S850000, .i32⟩
  | 1 => ⟨S850000x1, .i32⟩
  | 2 => ⟨S850000x128, .f32⟩
  | 3 => ⟨S850000x1, .f32⟩
  | 4 => ⟨S850000x128, .f32⟩
  | 5 => ⟨S850000x128, .f32⟩
  | 6 => ⟨S_, .f32⟩
  | 7 => ⟨S50000x128, .f32⟩
  | 8 => ⟨S850000x1, .i32⟩
  | 9 => ⟨S50000x128, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S1x128, .f32⟩
  | 22 => ⟨S1x128, .f32⟩
  | 23 => ⟨S1x128, .f32⟩
  | 24 => ⟨S1x128, .f32⟩
  | 25 => ⟨S50000x128, .f32⟩
  | 26 => ⟨S1x128, .f32⟩
  | 27 => ⟨S50000x128, .f32⟩
  | 28 => ⟨S1x64, .f32⟩
  | 29 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x128, .f32⟩
  | .local _ .vmem, ⟨18, _⟩ => ⟨S10000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S10000x128, .f32⟩
  | .local _ .vmem, ⟨31, _⟩ => ⟨S10000x128, .f32⟩
  | .local _ .vmem, ⟨32, _⟩ => ⟨S128x128, .f32⟩
  | .local _ .vmem, ⟨33, _⟩ => ⟨S10000x128, .f32⟩
  | .local _ .vmem, ⟨34, _⟩ => ⟨S10000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S10000x128, .f32⟩
  | .local _ .vmem, ⟨47, _⟩ => ⟨S10000x128, .f32⟩
  | .local _ .vmem, ⟨48, _⟩ => ⟨S128x128, .f32⟩
  | .local _ .vmem, ⟨49, _⟩ => ⟨S1x128, .f32⟩
  | .local _ .vmem, ⟨50, _⟩ => ⟨S10000x128, .f32⟩
  | .local _ .vmem, ⟨51, _⟩ => ⟨S10000x128, .f32⟩
  | .local _ .vmem, ⟨52, _⟩ => ⟨S10000x128, .f32⟩
  | .local _ .vmem, ⟨53, _⟩ => ⟨S10000x128, .f32⟩
  | .local _ .vmem, ⟨54, _⟩ => ⟨S128x64, .f32⟩
  | .local _ .vmem, ⟨55, _⟩ => ⟨S1x64, .f32⟩
  | .local _ .vmem, ⟨56, _⟩ => ⟨S10000x64, .f32⟩
  | .local _ .vmem, ⟨57, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_c_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_6 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_c_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_11 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_12 : Ref sig .tc := ⟨.hbm, 122, rfl⟩
abbrev main_v87 : Ref sig .tc := ⟨.hbm, 123, rfl⟩
abbrev main_v88 : Ref sig .tc := ⟨.hbm, 124, rfl⟩
abbrev main_c_13 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_14 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc3_stg7_0 : Ref sig .tc := ⟨.vmem, 28, rfl⟩
abbrev cc3_stg7_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc5_stg7_0 : Ref sig .tc := ⟨.vmem, 44, rfl⟩
abbrev cc5_stg7_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg3_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc3_sem7_0 : DmaSem sig := 28
abbrev cc3_sem7_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc5_sem7_0 : DmaSem sig := 44
abbrev cc5_sem7_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc7_sem3_1 : DmaSem sig := 57

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_0_0_0 : S2x128x128.Slices ![0, 0, 0] S1x128x128
  shapeCasts_S1x128x128_S128x128 : S1x128x128.ShapeCasts S128x128
  shapeCasts_S10000x128_S10000x128 : S10000x128.ShapeCasts S10000x128
  shapeCasts_S128x128_S128x128 : S128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  broadcasts_S1x128_S10000x128 : S1x128.Broadcasts S10000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S50000x128.size a
  hwx4_2 : ∀ i : grid4.Coords, EltTy.bits .f32 = 32 ∨ (Rect.block (s := S50000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x128.size a ≤ S50000x128.size a
  hwx6_3 : ∀ i : grid6.Coords, EltTy.bits .f32 = 32 ∨ (Rect.block (s := S50000x128) S10000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S50000x64.size a
  hwx7_3 : ∀ i : grid7.Coords, EltTy.bits .f32 = 32 ∨ (Rect.block (s := S50000x64) S10000x64.size (cc7_transform_3 i) (hinb7_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v51) S5000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v83) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v83) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v99) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v110) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v111) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v112) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v113) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v114) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v83) S5000x128.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v115) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v115) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v116) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v117) S10000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v117) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg17) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v118) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v119) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x128x128 : Shape := ⟨3, ![1, 128, 128]⟩
abbrev S50000x64 : Shape := ⟨2, ![50000, 64]⟩
abbrev S1x64 : Shape := ⟨2, ![1, 64]⟩

abbrev nBuf : Space → Nat
  | .hbm => 231
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S2x128x128, .f32⟩
  | 10 => ⟨S2x128, .f32⟩
  | 11 => ⟨S2x128, .f32⟩
  | 12 => ⟨S2x128, .f32⟩
  | 13 => ⟨S2x128, .f32⟩
  | 14 => ⟨S2x128, .f32⟩
  | 15 => ⟨S128x128, .f32⟩
  | 16 => ⟨S128, .f32⟩
  | 17 => ⟨S128x64, .f32⟩
  | 18 => ⟨S64, .f32⟩
  | 19 => ⟨S50000, .i32⟩
  | 20 => ⟨S1x800000, .i32⟩
  | 21 => ⟨S800000, .i32⟩
  | 22 => ⟨S850000, .i32⟩
  | 23 => ⟨S1x800000, .i32⟩
  | 24 => ⟨S800000, .i32⟩
  | 25 => ⟨S850000, .i32⟩
  | 26 => ⟨S_, .f32⟩
  | 27 => ⟨S50000, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S50000x128, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x128, .f32⟩
  | 71 => ⟨S850000x1, .f32⟩
  | 72 => ⟨S850000x128, .f32⟩
  | 73 => ⟨S850000x128, .f32⟩
  | 74 => ⟨S_, .f32⟩
  | 75 => ⟨S50000x128, .f32⟩
  | 76 => ⟨S850000x1, .i32⟩
  | 77 => ⟨S50000x128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .i1⟩
  | 100 => ⟨S_, .f32⟩
  | 101 => ⟨S50000x128, .f32⟩
  | 102 => ⟨S50000x128, .f32⟩
  | 103 => ⟨S50000x128, .f32⟩
  | 104 => ⟨S1x128x128, .f32⟩
  | 105 => ⟨S128x128, .f32⟩
  | 106 => ⟨S1x128, .f32⟩
  | 107 => ⟨S128, .f32⟩
  | 108 => ⟨S50000x128, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x1, .f32⟩
  | 119 => ⟨S850000x128, .f32⟩
  | 120 => ⟨S850000x128, .f32⟩
  | 121 => ⟨S_, .f32⟩
  | 122 => ⟨S50000x128, .f32⟩
  | 123 => ⟨S850000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S50000x128, .f32⟩
  | 25 => ⟨S_, .f32⟩
  | 26 => ⟨S50000x128, .f32⟩
  | 27 => ⟨S50000x128, .i1⟩
  | 28 => ⟨S_, .f32⟩
  | 29 => ⟨S50000x128, .f32⟩
  | 30 => ⟨S50000x128, .f32⟩
  | 31 => ⟨S50000x128, .f32⟩
  | 32 => ⟨S1x128x128, .f32⟩
  | 33 => ⟨S128x128, .f32⟩
  | 34 => ⟨S1x128, .f32⟩
  | 35 => ⟨S128, .f32⟩
  | 36 => ⟨S50000x128, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000x128, .f32⟩
  | 46 => ⟨S850000x1, .f32⟩
  | 47 => ⟨S850000x128, .f32⟩
  | 48 => ⟨S850000x128, .f32⟩
  | 49 => ⟨S_, .f32⟩
  | 50 => ⟨S50000x128, .f32⟩
  | 51 => ⟨S850000x1, .i32⟩
  | 52 => ⟨S50000x128, .f32⟩
  | 53 => ⟨S1x128, .f32⟩
  | 54 => ⟨S50000x128, .f32⟩
  | 55 => ⟨S50000x128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S50000x128, .f32⟩
  | 66 => ⟨S50000x128, .f32⟩
  | 67 => ⟨S_, .f32⟩
  | 68 => ⟨S128, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S50000x128, .f32⟩
  | 81 => ⟨S_, .f32⟩
  | 82 => ⟨S50000x128, .f32⟩
  | 83 => ⟨S50000x128, .i1⟩
  | 84 => ⟨S_, .f32⟩
  | 85 => ⟨S50000x128, .f32⟩
  | 86 => ⟨S50000x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .i1⟩
  | 95 => ⟨S_, .f32⟩
  | 96 => ⟨S50000x128, .f32⟩
  | 97 => ⟨S50000x128, .f32⟩
  | 98 => ⟨S50000x128, .f32⟩
  | 99 => ⟨S50000x64, .f32⟩
  | 100 => ⟨S1x64, .f32⟩
  | 101 => ⟨S50000x64, .f32⟩
  | 102 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_c_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_6 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_cst_0 : Ref sig .tc := ⟨.hbm, 100, rfl⟩
abbrev main_call1_v2 : Ref sig .tc := ⟨.hbm, 101, rfl⟩
abbrev main_call1_v3 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_10 : Ref sig .tc := ⟨.hbm, 109, rfl⟩
abbrev main_v70 : Ref sig .tc := ⟨.hbm, 110, rfl⟩
abbrev main_v71 : Ref sig .tc := ⟨.hbm, 111, rfl⟩
abbrev main_c_11 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_12 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_13 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_call2_cst : Ref sig .tc := ⟨.hbm, 153, rfl⟩
abbrev main_call2_v0 : Ref sig .tc := ⟨.hbm, 154, rfl⟩
abbrev main_call2_v1 : Ref sig .tc := ⟨.hbm, 155, rfl⟩
abbrev main_call2_cst_0 : Ref sig .tc := ⟨.hbm, 156, rfl⟩
abbrev main_call2_v2 : Ref sig .tc := ⟨.hbm, 157, rfl⟩
abbrev main_call2_v3 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_14 : Ref sig .tc := ⟨.hbm, 165, rfl⟩
abbrev main_v116 : Ref sig .tc := ⟨.hbm, 166, rfl⟩
abbrev main_v117 : Ref sig .tc := ⟨.hbm, 167, rfl⟩
abbrev main_c_15 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_16 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_17 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_call3_cst : Ref sig .tc := ⟨.hbm, 209, rfl⟩
abbrev main_call3_v0 : Ref sig .tc := ⟨.hbm, 210, rfl⟩
abbrev main_call3_v1 : Ref sig .tc := ⟨.hbm, 211, rfl⟩
abbrev main_call3_cst_0 : Ref sig .tc := ⟨.hbm, 212, rfl⟩
abbrev main_call3_v2 : Ref sig .tc := ⟨.hbm, 213, rfl⟩
abbrev main_call3_v3 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_call4_cst : Ref sig .tc := ⟨.hbm, 220, rfl⟩
abbrev main_call4_v0 : Ref sig .tc := ⟨.hbm, 221, rfl⟩
abbrev main_call4_v1 : Ref sig .tc := ⟨.hbm, 222, rfl⟩
abbrev main_call4_cst_0 : Ref sig .tc := ⟨.hbm, 223, rfl⟩
abbrev main_call4_v2 : Ref sig .tc := ⟨.hbm, 224, rfl⟩
abbrev main_call4_v3 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The layers of the network as functions of entries, on the extended reals.

  A matrix is a function of its two coordinates.  A dense product's entry (p, c) is the sum over k of x (p, k) · w (k, c).
  A normalised entry is ((a + b) − μ) · (σ² + ε)^(−1/2) · γ + β, the bias added before the running mean is removed and
  the scale applied before the shift, in that order.  The leaky rectifier keeps a positive entry and multiplies any other
  by a fixed slope; since the slope times zero is zero, testing "positive" and testing "not negative" give one function.
  ε and the slope are the two binary constants both programs carry; they are never evaluated.
-/
import Idealize.ShloMosaic.Lib.ValueIdx
import Idealize.ShloMosaic.PureOps.Ideal.Laws

noncomputable section

open scoped BigOperators

namespace Cert.Net

open Idealize.ShloMosaic Idealize.ShloMosaic.ValueIdx

/-- A matrix of extended reals, indexed as the programs index a rank-2 array. -/
abbrev Mat (a b : Nat) : Type := (⟨2, ![a, b]⟩ : Shape).Idx → EReal

/-- The matrix whose entry (p, q) is `f p q`. -/
def ofEntries {a b : Nat} (f : Fin a → Fin b → EReal) : Mat a b := fun i => f (i 0) (i 1)

theorem ofEntries_apply {a b : Nat} (f : Fin a → Fin b → EReal) (p : Fin a) (q : Fin b) :
    ofEntries f (ix2 p q) = f p q := rfl

/-- Two matrices with the same entries are equal. -/
theorem mat_ext {a b : Nat} {x y : Mat a b} (h : ∀ (p : Fin a) (q : Fin b), x (ix2 p q) = y (ix2 p q)) : x = y := by
  funext j
  rw [eq_ix2 j]
  exact h _ _

/-- The variance offset ε of the normalisation: the binary constant nearest 1e-5. -/
def eps : EReal := Ideal.ofBits .f32 0x3727C5AC#32
/-- The rectifier's slope: the binary constant nearest 0.01. -/
def slope : EReal := Ideal.ofBits .f32 0x3C23D70A#32

/-- The leaky rectifier: a positive entry is kept, any other is multiplied by the slope. -/
def lrelu (x : EReal) : EReal := if 0 < x then x else slope * x

/-- Testing "not negative" instead of "positive" gives the same function: at zero both branches are zero. -/
theorem lrelu_of_le (x : EReal) : (if 0 ≤ x then x else slope * x) = lrelu x := by
  unfold lrelu
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- One normalised entry: ((a + b) − μ) · (σ² + ε)^(−1/2) · γ + β. -/
def norm1 (a b mu var g beta : EReal) : EReal := ((a + b) - mu) * Ideal.rsqrt (var + eps) * g + beta

/-- Entry (p, c) of the product x · w. -/
def dot {n K M : Nat} (x : Mat n K) (w : Mat K M) (p : Fin n) (c : Fin M) : EReal :=
  ∑ k : Fin K, x (ix2 p k) * w (ix2 k c)

/-- The product x · w. -/
def dense {n K M : Nat} (x : Mat n K) (w : Mat K M) : Mat n M := ofEntries (dot x w)

/-- Bias, normalisation over running statistics, leaky rectifier, entry by entry; the per-channel parameters are
    functions of the channel. -/
def normAct {n C : Nat} (agg : Mat n C) (b g beta mu var : Fin C → EReal) : Mat n C :=
  ofEntries fun p q => lrelu (norm1 (agg (ix2 p q)) (b q) (mu q) (var q) (g q) (beta q))

/-- The same with the layer's input added back before the rectifier. -/
def normResAct {n C : Nat} (agg : Mat n C) (b g beta mu var : Fin C → EReal) (h : Mat n C) : Mat n C :=
  ofEntries fun p q => lrelu (norm1 (agg (ix2 p q)) (b q) (mu q) (var q) (g q) (beta q) + h (ix2 p q))

/-- A dense layer with bias and leaky rectifier. -/
def denseAct {n K M : Nat} (h : Mat n K) (w : Mat K M) (b : Fin M → EReal) : Mat n M :=
  ofEntries fun p q => lrelu (dot h w p q + b q)

/-- A dense layer with bias. -/
def denseBias {n K M : Nat} (h : Mat n K) (w : Mat K M) (b : Fin M → EReal) : Mat n M :=
  ofEntries fun p q => dot h w p q + b q

/-- The rectifier as the vector unit spells it: select on "greater than zero". -/
theorem select_gt (x : EReal) :
    Scalar.select (Ideal.cmp .ogt x (Ideal.ofBits .f32 0x00000000#32)) x (slope * x) = lrelu x := by
  unfold lrelu Scalar.select Ideal.cmp
  rw [Ideal.ofBits_zero_f32]
  by_cases h : (0 : EReal) < x <;> simp [h]

/-- The rectifier as the host spells it: select on "at least zero". -/
theorem select_ge (x : EReal) :
    Scalar.select (Ideal.cmp .oge x (Ideal.ofBits .f32 0x00000000#32)) x (slope * x) = lrelu x := by
  rw [← lrelu_of_le]
  unfold Scalar.select Ideal.cmp
  rw [Ideal.ofBits_zero_f32]
  by_cases h : (0 : EReal) ≤ x <;> simp [h]

end Cert.Net

end
-- ==== Proof.Glue.lean ====
/-
  The host functions the two programs share, and the network as one function of its nineteen arguments.

  The graph enters through three arrays over the 850000 edges (the 800000 given ones followed by one self loop per node):
  the source node of each edge, its target node, and its normalised weight d(src)^(−1/2) · w · d(dst)^(−1/2), where
  d is the sum of the weights of the edges into a node and d^(−1/2) is read as zero where d is not positive.  A layer's
  aggregation gathers the projected features' row at each edge's source, multiplies it by the edge's weight and adds it
  into the row of the edge's target.  A negative index is wrapped by the number of nodes before a row is gathered, as the
  host's indexing does.  None of this is opened in the proof: both programs apply these same operations to equal arrays.
  The network is three such layers (the second and third with the layer's input added back), then two dense layers.
-/
import proofs.«132849_j12000138625377_2_alg».proof.Proof.Gen.ReferenceIdeal
import proofs.«132849_j12000138625377_2_alg».proof.Proof.Spec
import Idealize.ShloMosaic.PureOps.Ideal

noncomputable section

namespace Cert.Glue

open Cert.ReferenceIdeal Cert.ReferenceIdeal.Facts₀ Idealize.ShloMosaic Idealize.ShloMosaic.ValueIdx

/-- A float array of a given shape, on the extended reals. -/
abbrev Arr (s : Shape) : Type := (⟨s, .f32⟩ : BufTy).Contents (Elt Ideal)
/-- An array of 32-bit indices of a given shape. -/
abbrev Ind (s : Shape) : Type := (⟨s, .i32⟩ : BufTy).Contents (Elt Ideal)

/-- Each edge's source node: row 0 of the 2 × 800000 edge list, then the self loops 0, 1, …, 49999. -/
def src (ei : Ind S2x800000) : Ind S850000 :=
  concatenate S850000 0
    [⟨S800000, shapeCast S800000 (extractStridedSlice S1x800000 ![0, 0] ei slices_S2x800000_S1x800000_0_0) shapeCasts_S1x800000_S800000⟩,
     ⟨S50000, iotaInDim S50000 32 0⟩] concatenates_S800000_S50000_S850000_d0
/-- Each edge's target node: row 1 of the edge list, then the self loops. -/
def dst (ei : Ind S2x800000) : Ind S850000 :=
  concatenate S850000 0
    [⟨S800000, shapeCast S800000 (extractStridedSlice S1x800000 ![1, 0] ei slices_S2x800000_S1x800000_1_0) shapeCasts_S1x800000_S800000⟩,
     ⟨S50000, iotaInDim S50000 32 0⟩] concatenates_S800000_S50000_S850000_d0

/-- The edge weights followed by weight one for every self loop. -/
def weights (w : Arr S800000) : Arr S850000 :=
  concatenate S850000 0
    [⟨S800000, w⟩, ⟨S50000, broadcastInDim S50000 ![] bcast_S_S50000 (constant (F := Ideal) S_ .f32 0x3F800000#32)⟩]
    concatenates_S800000_S50000_S850000_d0

/-- An index array as a column, negative entries first wrapped by the number of nodes. -/
def wrapCol (i : Ind S850000) : Ind S850000x1 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-- An index array as a column. -/
def col (i : Ind S850000) : Ind S850000x1 := broadcastInDim S850000x1 ![0] bcast_S850000_S850000x1_0 i

/-- Each node's degree: the sum of the weights of the edges into it. -/
def degree (ei : Ind S2x800000) (w : Arr S800000) : Arr S50000 :=
  Host.scatterAdd (F := Ideal) scatter_S50000_S850000x1_S850000_n_0_0_1
    (broadcastInDim S50000 ![] bcast_S_S50000 (constant (F := Ideal) S_ .f32 0x00000000#32)) (col (dst ei)) (weights w)

/-- d^(−1/2) where the degree is positive, zero elsewhere. -/
def invSqrtDegree (ei : Ind S2x800000) (w : Arr S800000) : Arr S50000 :=
  select (cmpf (F := Ideal) (φ := .f32) .ogt (degree ei w) (broadcastInDim S50000 ![] bcast_S_S50000 (constant (F := Ideal) S_ .f32 0x00000000#32)))
    (Host.rsqrt (F := Ideal) (φ := .f32) (degree ei w)) (broadcastInDim S50000 ![] bcast_S_S50000 (constant (F := Ideal) S_ .f32 0x00000000#32))

/-- Each edge's normalised weight. -/
def norm (ei : Ind S2x800000) (w : Arr S800000) : Arr S850000 :=
  mulf (F := Ideal) (φ := .f32) (mulf (F := Ideal) (φ := .f32) (Host.gather gather_S50000_S850000x1_S850000_n_0_n_n_0_1_1 (invSqrtDegree ei w) (wrapCol (src ei))) (weights w))
    (Host.gather gather_S50000_S850000x1_S850000_n_0_n_n_0_1_1 (invSqrtDegree ei w) (wrapCol (dst ei)))

/-- A layer's aggregation: row `n` is the sum over the edges into `n` of the edge's weight times the source's row. -/
def aggr (hw : Arr S50000x128) (s d : Ind S850000) (nrm : Arr S850000) : Arr S50000x128 :=
  Host.scatterAdd (F := Ideal) scatter_S50000x128_S850000x1_S850000x128_1_0_0_1
    (broadcastInDim S50000x128 ![] bcast_S_S50000x128 (constant (F := Ideal) S_ .f32 0x00000000#32)) (col d)
    (mulf (F := Ideal) (φ := .f32) (Host.gather gather_S50000x128_S850000x1_S850000x128_1_0_n_n_0_1_1128 hw (wrapCol s))
      (broadcastInDim S850000x128 ![0, 1] bcast_S850000x1_S850000x128_0_1
        (broadcastInDim S850000x1 ![0] bcast_S850000_S850000x1_0 nrm)))

/-- A vector's entries as a function of the position. -/
def vec {n : Nat} (v : (⟨1, ![n]⟩ : Shape).Idx → EReal) : Fin n → EReal := fun q => v (ix1 q)
/-- Row `j` of a matrix as a function of the position. -/
def rowOf {a n : Nat} (v : Cert.Net.Mat a n) (j : Fin a) : Fin n → EReal := fun q => v (ix2 j q)
/-- Slab `j` of a stack of matrices. -/
def slab {a n k : Nat} (v : (⟨3, ![a, n, k]⟩ : Shape).Idx → EReal) (j : Fin a) : Cert.Net.Mat n k :=
  Cert.Net.ofEntries fun p q => v (ix3 j p q)

/-- The first layer: project, aggregate over the graph, normalise, rectify. -/
def layer1 (x : Arr S50000x128) (w : Arr S128x128) (b g be mu va : Arr S128) (s d : Ind S850000) (nrm : Arr S850000) :
    Arr S50000x128 :=
  Cert.Net.normAct (n := 50000) (C := 128) (aggr (Cert.Net.dense (n := 50000) (K := 128) (M := 128) x w) s d nrm)
    (vec b) (vec g) (vec be) (vec mu) (vec va)

/-- A residual layer: the same with the layer's input added back before the rectifier. -/
def layerR (h : Arr S50000x128) (w : Cert.Net.Mat 128 128) (b g be mu va : Fin 128 → EReal) (s d : Ind S850000)
    (nrm : Arr S850000) : Arr S50000x128 :=
  Cert.Net.normResAct (n := 50000) (C := 128) (aggr (Cert.Net.dense (n := 50000) (K := 128) (M := 128) h w) s d nrm)
    b g be mu va h

/-- The network's output as a function of its nineteen arguments. -/
def net (a0 : Arr S50000x128) (a1 : Ind S2x800000) (a2 : Arr S800000) (a3 : Arr S128x128) (a4 a5 a6 a7 a8 : Arr S128)
    (a9 : Arr S2x128x128) (a10 a11 a12 a13 a14 : Arr S2x128) (a15 : Arr S128x128) (a16 : Arr S128) (a17 : Arr S128x64)
    (a18 : Arr S64) : Arr S50000x64 :=
  Cert.Net.denseBias (n := 50000) (K := 128) (M := 64)
    (Cert.Net.denseAct (n := 50000) (K := 128) (M := 128)
      (layerR
        (layerR (layer1 a0 a3 a4 a5 a6 a7 a8 (src a1) (dst a1) (norm a1 a2))
          (slab a9 0) (rowOf a10 0) (rowOf a11 0) (rowOf a12 0) (rowOf a13 0) (rowOf a14 0) (src a1) (dst a1) (norm a1 a2))
        (slab a9 1) (rowOf a10 1) (rowOf a11 1) (rowOf a12 1) (rowOf a13 1) (rowOf a14 1) (src a1) (dst a1) (norm a1 a2))
      a15 (vec a16))
    a17 (vec a18)

end Cert.Glue

end
-- ==== Proof.KernelRun.lean ====
/-
  The idealized kernel's run, with its result named.

  Every weakly fair execution of the program ends, and at the end each unscoped buffer of a core holds what the fold
  through the program's eighteen segments leaves there: a stretch of host operations applied to what the segment before
  left, a region's arrays at what its write-backs leave.  The result array is the last region's output, so it ends at the
  fold's value there; the nineteen argument arrays end as launched.  This is the frame's run with one more buffer read.
-/
import proofs.«132849_j12000138625377_2_alg».proof.Proof.Gen.KernelIdeal.Frame

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution ends with the result array at the fold's value and the arguments as launched. -/
theorem run_fold : θ_run defs (onTc (τ := τ) (main (F := F))) ⟨m, fun _ => 0, ρ⟩ (fun r => ∀ c : Dev nD,
      r.2.mem ((c.tc : Thread nD τ).loc main_v119) = W18 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v119 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c)⟩)

end Cert.KernelIdeal.Whole

end
-- ==== Proof.KernelSteps.lean ====
/-
  Which buffers each segment of the idealized kernel's program leaves alone.

  The program is eighteen segments: ten stretches of host operations and eight regions.  A stretch changes only the
  buffers its operations write; a region changes only its windows' arrays (and of those only the output's).  So a buffer
  that no segment up to a boundary touches still holds what it was launched with, and a buffer written once holds that
  value at every later boundary up to the next segment that touches it.  The lists below name what each stretch writes.
-/
import proofs.«132849_j12000138625377_2_alg».proof.Proof.Gen.KernelIdeal.Frame

noncomputable section

namespace Cert.KernelIdeal.Whole

open Cert.KernelIdeal.Gen
open Idealize.ShloMosaic Idealize.ShloMosaic.TcCoe Idealize.SL.Sem

variable {F : FTy → Type} [FloatOps F]

/-! ## What each stretch writes -/

abbrev writes0 : List (Ref sig .tc) := [main_v0, main_v1, main_v2, main_v3, main_v4, main_v5, main_v6, main_cst, main_v7, main_v8, main_cst_0, main_v9, main_v10, main_v11, main_cst_1, main_v12, main_v13, main_v14, main_cst_2]
abbrev writes0_1 : List (Ref sig .tc) := [main_call0_v0, main_call0_v1, main_v15]
abbrev writes0_2 : List (Ref sig .tc) := [main_c, main_v16, main_v17, main_c_3, main_v18, main_v19, main_v20, main_v21, main_v22, main_v23, main_c_4, main_v24, main_v25, main_c_5, main_v26, main_v27, main_v28, main_v29, main_v30, main_v31]
abbrev writes1 : List (Ref sig .tc) := [main_c_6, main_v33, main_v34, main_c_7, main_v35, main_v36, main_v37, main_v38, main_v39, main_v40, main_v41, main_v42, main_cst_8, main_v43, main_v44, main_v45, main_v46, main_v47, main_v48, main_v49, main_v50]
abbrev writes2 : List (Ref sig .tc) := [main_v52, main_v53]
abbrev writes3 : List (Ref sig .tc) := [main_c_9, main_v55, main_v56, main_c_10, main_v57, main_v58, main_v59, main_v60, main_v61, main_v62, main_v63, main_v64, main_cst_11, main_v65, main_v66, main_v67, main_v68, main_v69, main_v70, main_v71, main_v72, main_v73, main_v74, main_v75, main_v76, main_v77, main_v78, main_v79, main_v80, main_v81, main_v82]
abbrev writes4 : List (Ref sig .tc) := [main_v84, main_v85]
abbrev writes5 : List (Ref sig .tc) := [main_c_12, main_v87, main_v88, main_c_13, main_v89, main_v90, main_v91, main_v92, main_v93, main_v94, main_v95, main_v96, main_cst_14, main_v97, main_v98, main_v99, main_v100, main_v101, main_v102, main_v103, main_v104, main_v105, main_v106, main_v107, main_v108, main_v109, main_v110, main_v111, main_v112, main_v113, main_v114]
abbrev writes6 : List (Ref sig .tc) := [main_v116]
abbrev writes7 : List (Ref sig .tc) := [main_v118]

/-- Every operation of the first stretch writes a buffer of its list. -/
theorem sub0 : (hostOps0 (F := F)).Forall fun op => op.writes ⊆ ((writes0.map (Proc.devRef (τ := τ) .tc)).toFinset) := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem sub0_1 : (hostOps0_1 (F := F)).Forall fun op => op.writes ⊆ ((writes0_1.map (Proc.devRef (τ := τ) .tc)).toFinset) := by
  simp only [hostOps0_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem sub0_2 : (hostOps0_2 (F := F)).Forall fun op => op.writes ⊆ ((writes0_2.map (Proc.devRef (τ := τ) .tc)).toFinset) := by
  simp only [hostOps0_2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem sub1 : (hostOps1 (F := F)).Forall fun op => op.writes ⊆ ((writes1.map (Proc.devRef (τ := τ) .tc)).toFinset) := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem sub2 : (hostOps2 (F := F)).Forall fun op => op.writes ⊆ ((writes2.map (Proc.devRef (τ := τ) .tc)).toFinset) := by
  simp only [hostOps2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem sub3 : (hostOps3 (F := F)).Forall fun op => op.writes ⊆ ((writes3.map (Proc.devRef (τ := τ) .tc)).toFinset) := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem sub4 : (hostOps4 (F := F)).Forall fun op => op.writes ⊆ ((writes4.map (Proc.devRef (τ := τ) .tc)).toFinset) := by
  simp only [hostOps4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem sub5 : (hostOps5 (F := F)).Forall fun op => op.writes ⊆ ((writes5.map (Proc.devRef (τ := τ) .tc)).toFinset) := by
  simp only [hostOps5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem sub6 : (hostOps6 (F := F)).Forall fun op => op.writes ⊆ ((writes6.map (Proc.devRef (τ := τ) .tc)).toFinset) := by
  simp only [hostOps6, List.Forall, StableHlo.nullary_writes, StableHlo.unary_writes, StableHlo.binary_writes, StableHlo.ternary_writes, StableHlo.reshape_writes, Finset.singleton_subset_iff, List.mem_toFinset]
  exact List.mem_map_of_mem (by decide)
theorem sub7 : (hostOps7 (F := F)).Forall fun op => op.writes ⊆ ((writes7.map (Proc.devRef (τ := τ) .tc)).toFinset) := by
  simp only [hostOps7, List.Forall, StableHlo.nullary_writes, StableHlo.unary_writes, StableHlo.binary_writes, StableHlo.ternary_writes, StableHlo.reshape_writes, Finset.singleton_subset_iff, List.mem_toFinset]
  exact List.mem_map_of_mem (by decide)

/-! ## A buffer a stretch does not write keeps its contents, from any contents -/

theorem keep0 (W : Valuation τ sig (Elt F)) (r : Ref sig .tc) (hr : r ∉ writes0) :
    StableHlo.after (hostOps0 (F := F)) W (Proc.devRef .tc r) = W (Proc.devRef .tc r) := StableHlo.after_of_writes_sub _ W sub0 hr
theorem keep0_1 (W : Valuation τ sig (Elt F)) (r : Ref sig .tc) (hr : r ∉ writes0_1) :
    StableHlo.after (hostOps0_1 (F := F)) W (Proc.devRef .tc r) = W (Proc.devRef .tc r) := StableHlo.after_of_writes_sub _ W sub0_1 hr
theorem keep0_2 (W : Valuation τ sig (Elt F)) (r : Ref sig .tc) (hr : r ∉ writes0_2) :
    StableHlo.after (hostOps0_2 (F := F)) W (Proc.devRef .tc r) = W (Proc.devRef .tc r) := StableHlo.after_of_writes_sub _ W sub0_2 hr
theorem keep1 (W : Valuation τ sig (Elt F)) (r : Ref sig .tc) (hr : r ∉ writes1) :
    StableHlo.after (hostOps1 (F := F)) W (Proc.devRef .tc r) = W (Proc.devRef .tc r) := StableHlo.after_of_writes_sub _ W sub1 hr
theorem keep2 (W : Valuation τ sig (Elt F)) (r : Ref sig .tc) (hr : r ∉ writes2) :
    StableHlo.after (hostOps2 (F := F)) W (Proc.devRef .tc r) = W (Proc.devRef .tc r) := StableHlo.after_of_writes_sub _ W sub2 hr
theorem keep3 (W : Valuation τ sig (Elt F)) (r : Ref sig .tc) (hr : r ∉ writes3) :
    StableHlo.after (hostOps3 (F := F)) W (Proc.devRef .tc r) = W (Proc.devRef .tc r) := StableHlo.after_of_writes_sub _ W sub3 hr
theorem keep4 (W : Valuation τ sig (Elt F)) (r : Ref sig .tc) (hr : r ∉ writes4) :
    StableHlo.after (hostOps4 (F := F)) W (Proc.devRef .tc r) = W (Proc.devRef .tc r) := StableHlo.after_of_writes_sub _ W sub4 hr
theorem keep5 (W : Valuation τ sig (Elt F)) (r : Ref sig .tc) (hr : r ∉ writes5) :
    StableHlo.after (hostOps5 (F := F)) W (Proc.devRef .tc r) = W (Proc.devRef .tc r) := StableHlo.after_of_writes_sub _ W sub5 hr
theorem keep6 (W : Valuation τ sig (Elt F)) (r : Ref sig .tc) (hr : r ∉ writes6) :
    StableHlo.after (hostOps6 (F := F)) W (Proc.devRef .tc r) = W (Proc.devRef .tc r) := StableHlo.after_of_writes_sub _ W sub6 hr
theorem keep7 (W : Valuation τ sig (Elt F)) (r : Ref sig .tc) (hr : r ∉ writes7) :
    StableHlo.after (hostOps7 (F := F)) W (Proc.devRef .tc r) = W (Proc.devRef .tc r) := StableHlo.after_of_writes_sub _ W sub7 hr

/-! ## Untouched since the launch -/

/-- No segment before boundary k touches the buffer (k = 1 … 17): decided per buffer. -/
abbrev Clean1 (r : Ref sig .tc) : Prop := r ∉ writes0
abbrev Clean2 (r : Ref sig .tc) : Prop := Clean1 r ∧ r ∉ writes0_1
abbrev Clean3 (r : Ref sig .tc) : Prop := Clean2 r ∧ r ∉ writes0_2
abbrev Clean4 (r : Ref sig .tc) : Prop := Clean3 r ∧ ∀ w, Pipeline.arrRef spec0 w ≠ r
abbrev Clean5 (r : Ref sig .tc) : Prop := Clean4 r ∧ r ∉ writes1
abbrev Clean6 (r : Ref sig .tc) : Prop := Clean5 r ∧ ∀ w, Pipeline.arrRef spec1 w ≠ r
abbrev Clean7 (r : Ref sig .tc) : Prop := Clean6 r ∧ r ∉ writes2
abbrev Clean8 (r : Ref sig .tc) : Prop := Clean7 r ∧ ∀ w, Pipeline.arrRef spec2 w ≠ r
abbrev Clean9 (r : Ref sig .tc) : Prop := Clean8 r ∧ r ∉ writes3
abbrev Clean10 (r : Ref sig .tc) : Prop := Clean9 r ∧ ∀ w, Pipeline.arrRef spec3 w ≠ r
abbrev Clean11 (r : Ref sig .tc) : Prop := Clean10 r ∧ r ∉ writes4
abbrev Clean12 (r : Ref sig .tc) : Prop := Clean11 r ∧ ∀ w, Pipeline.arrRef spec4 w ≠ r
abbrev Clean13 (r : Ref sig .tc) : Prop := Clean12 r ∧ r ∉ writes5
abbrev Clean14 (r : Ref sig .tc) : Prop := Clean13 r ∧ ∀ w, Pipeline.arrRef spec5 w ≠ r
abbrev Clean15 (r : Ref sig .tc) : Prop := Clean14 r ∧ r ∉ writes6
abbrev Clean16 (r : Ref sig .tc) : Prop := Clean15 r ∧ ∀ w, Pipeline.arrRef spec6 w ≠ r
abbrev Clean17 (r : Ref sig .tc) : Prop := Clean16 r ∧ r ∉ writes7

variable (m : (ℓ : Loc nD τ sig) → Buf (Elt F) ℓ) (ρ : Dev nD → PrngReg) (c : Dev nD)

/-- A buffer untouched up to boundary k holds there what it was launched with. -/
theorem upTo1 (r : Ref sig .tc) (h : Clean1 r) : W1 m ρ c (Proc.devRef .tc r) = m ((c : Thread nD τ).loc r) :=
  (keep0 (W0 m ρ c) r h).trans rfl
theorem upTo2 (r : Ref sig .tc) (h : Clean2 r) : W2 m ρ c (Proc.devRef .tc r) = m ((c : Thread nD τ).loc r) :=
  (keep0_1 (W1 m ρ c) r h.2).trans (upTo1 m ρ c r h.1)
theorem upTo3 (r : Ref sig .tc) (h : Clean3 r) : W3 m ρ c (Proc.devRef .tc r) = m ((c : Thread nD τ).loc r) :=
  (keep0_2 (W2 m ρ c) r h.2).trans (upTo2 m ρ c r h.1)
theorem upTo4 (r : Ref sig .tc) (h : Clean4 r) : W4 m ρ c (Proc.devRef .tc r) = m ((c : Thread nD τ).loc r) :=
  (W4_of_ne m ρ c r h.2).trans (upTo3 m ρ c r h.1)
theorem upTo5 (r : Ref sig .tc) (h : Clean5 r) : W5 m ρ c (Proc.devRef .tc r) = m ((c : Thread nD τ).loc r) :=
  (keep1 (W4 m ρ c) r h.2).trans (upTo4 m ρ c r h.1)
theorem upTo6 (r : Ref sig .tc) (h : Clean6 r) : W6 m ρ c (Proc.devRef .tc r) = m ((c : Thread nD τ).loc r) :=
  (W6_of_ne m ρ c r h.2).trans (upTo5 m ρ c r h.1)
theorem upTo7 (r : Ref sig .tc) (h : Clean7 r) : W7 m ρ c (Proc.devRef .tc r) = m ((c : Thread nD τ).loc r) :=
  (keep2 (W6 m ρ c) r h.2).trans (upTo6 m ρ c r h.1)
theorem upTo8 (r : Ref sig .tc) (h : Clean8 r) : W8 m ρ c (Proc.devRef .tc r) = m ((c : Thread nD τ).loc r) :=
  (W8_of_ne m ρ c r h.2).trans (upTo7 m ρ c r h.1)
theorem upTo9 (r : Ref sig .tc) (h : Clean9 r) : W9 m ρ c (Proc.devRef .tc r) = m ((c : Thread nD τ).loc r) :=
  (keep3 (W8 m ρ c) r h.2).trans (upTo8 m ρ c r h.1)
theorem upTo10 (r : Ref sig .tc) (h : Clean10 r) : W10 m ρ c (Proc.devRef .tc r) = m ((c : Thread nD τ).loc r) :=
  (W10_of_ne m ρ c r h.2).trans (upTo9 m ρ c r h.1)
theorem upTo11 (r : Ref sig .tc) (h : Clean11 r) : W11 m ρ c (Proc.devRef .tc r) = m ((c : Thread nD τ).loc r) :=
  (keep4 (W10 m ρ c) r h.2).trans (upTo10 m ρ c r h.1)
theorem upTo12 (r : Ref sig .tc) (h : Clean12 r) : W12 m ρ c (Proc.devRef .tc r) = m ((c : Thread nD τ).loc r) :=
  (W12_of_ne m ρ c r h.2).trans (upTo11 m ρ c r h.1)
theorem upTo13 (r : Ref sig .tc) (h : Clean13 r) : W13 m ρ c (Proc.devRef .tc r) = m ((c : Thread nD τ).loc r) :=
  (keep5 (W12 m ρ c) r h.2).trans (upTo12 m ρ c r h.1)
theorem upTo14 (r : Ref sig .tc) (h : Clean14 r) : W14 m ρ c (Proc.devRef .tc r) = m ((c : Thread nD τ).loc r) :=
  (W14_of_ne m ρ c r h.2).trans (upTo13 m ρ c r h.1)
theorem upTo15 (r : Ref sig .tc) (h : Clean15 r) : W15 m ρ c (Proc.devRef .tc r) = m ((c : Thread nD τ).loc r) :=
  (keep6 (W14 m ρ c) r h.2).trans (upTo14 m ρ c r h.1)
theorem upTo16 (r : Ref sig .tc) (h : Clean16 r) : W16 m ρ c (Proc.devRef .tc r) = m ((c : Thread nD τ).loc r) :=
  (W16_of_ne m ρ c r h.2).trans (upTo15 m ρ c r h.1)
theorem upTo17 (r : Ref sig .tc) (h : Clean17 r) : W17 m ρ c (Proc.devRef .tc r) = m ((c : Thread nD τ).loc r) :=
  (keep7 (W16 m ρ c) r h.2).trans (upTo16 m ρ c r h.1)

/-! ## The graph's three arrays, written before the first region, at the three places they are read -/

/-- Untouched from boundary 3 to boundary 4, to 8, to 12. -/
theorem graph4 (r : Ref sig .tc) (h : ∀ w, Pipeline.arrRef spec0 w ≠ r) :
    W4 m ρ c (Proc.devRef .tc r) = W3 m ρ c (Proc.devRef .tc r) := W4_of_ne m ρ c r h
theorem graph8 (r : Ref sig .tc) (h : ((∀ w, Pipeline.arrRef spec0 w ≠ r) ∧ r ∉ writes1) ∧ ((∀ w, Pipeline.arrRef spec1 w ≠ r) ∧ r ∉ writes2) ∧ ∀ w, Pipeline.arrRef spec2 w ≠ r) :
    W8 m ρ c (Proc.devRef .tc r) = W3 m ρ c (Proc.devRef .tc r) :=
  (W8_of_ne m ρ c r h.2.2).trans ((keep2 (W6 m ρ c) r h.2.1.2).trans ((W6_of_ne m ρ c r h.2.1.1).trans
    ((keep1 (W4 m ρ c) r h.1.2).trans (W4_of_ne m ρ c r h.1.1))))
theorem graph12 (r : Ref sig .tc) (h8 : ((∀ w, Pipeline.arrRef spec0 w ≠ r) ∧ r ∉ writes1) ∧ ((∀ w, Pipeline.arrRef spec1 w ≠ r) ∧ r ∉ writes2) ∧ ∀ w, Pipeline.arrRef spec2 w ≠ r)
    (h : (r ∉ writes3 ∧ ∀ w, Pipeline.arrRef spec3 w ≠ r) ∧ r ∉ writes4 ∧ ∀ w, Pipeline.arrRef spec4 w ≠ r) :
    W12 m ρ c (Proc.devRef .tc r) = W3 m ρ c (Proc.devRef .tc r) :=
  (W12_of_ne m ρ c r h.2.2).trans ((keep4 (W10 m ρ c) r h.2.1).trans ((W10_of_ne m ρ c r h.1.2).trans
    ((keep3 (W8 m ρ c) r h.1.1).trans (graph8 m ρ c r h8))))

/-! ## A region's input array is as the region found it -/

/-- The first layer's output is the third region's first input: unchanged by it. -/
theorem W8_v51 : W8 m ρ c (Proc.devRef .tc main_v51) = W7 m ρ c (Proc.devRef .tc main_v51) :=
  (W8_arr m ρ c 0).trans (((dat2 (V7 m ρ) c).arrAt_in 0 rfl _).trans (A_eq2 (V7 m ρ) c 0))
/-- The second layer's output is the fifth region's first input: unchanged by it. -/
theorem W12_v83 : W12 m ρ c (Proc.devRef .tc main_v83) = W11 m ρ c (Proc.devRef .tc main_v83) :=
  (W12_arr m ρ c 0).trans (((dat4 (V11 m ρ) c).arrAt_in 0 rfl _).trans (A_eq4 (V11 m ρ) c 0))

end Cert.KernelIdeal.Whole

end
-- ==== Proof.LibHostLine.lean ====
/-
  Two facts about a line of host operations, general in the program.

  Running two lines in a row is running the second from the buffer contents the first leaves.  And a value written
  through a typed reference and read back through the same reference is the value: the two transports along the
  reference's type equation cancel, whatever the buffer — so the transports inside a called function's operations
  (each result written through its typed reference, each operand read through its own) collapse pairwise without the
  buffers' types ever being computed.  After the results of such a line are rewritten, `simp only [ofBuf_toBuf]` leaves
  only the transports at the line's own inputs and at its result.
-/
import Idealize.ShloMosaic.Lib.StableHlo.Run

noncomputable section

namespace Cert.LibHostLine

open Idealize.ShloMosaic Idealize.ShloMosaic.StableHlo

variable {τ : Topo} {sig : RefSig} {Val : EltTy → Type}

/-- Running two lines in a row is running the second from where the first ends. -/
theorem after_append (l1 l2 : List (HloOp τ sig Val)) (V : Valuation τ sig Val) :
    StableHlo.after (l1 ++ l2) V = StableHlo.after l2 (StableHlo.after l1 V) := by
  induction l1 generalizing V with
  | nil => rfl
  | cons op l ih => exact ih _

/-- Reading back through a typed reference what was written through it gives the value back. -/
theorem ofBuf_toBuf {T : BufTy} (x : TRef sig T) (v : T.Contents Val) : x.ofBuf (x.toBuf v) = v := by
  obtain ⟨r, h, h2, h3⟩ := x
  subst h
  rfl

end Cert.LibHostLine

end
-- ==== Proof.LibStackedRows.lean ====
/-
  Rows and slabs of stacked parameters read at an index.

  A network's per-channel parameters arrive either as a vector of length a or as row k of an n × a stack; a program that
  wants them as a 1 × a row reshapes the vector, or cuts the one row out, flattens it and reshapes it again.  Read at
  (0, q) each of these is the parameter's entry q: a reshape keeps the row-major position, and the row cut out at offset
  k starts at row k.  Likewise slab k of an n × a × b stack, cut out and flattened to a × b, reads at (p, q) as the
  stack's entry (k, p, q).
-/
import Idealize.ShloMosaic.Lib.ValueIdx
import Idealize.ShloMosaic.Lib.ValueLayout
import Idealize.ShloMosaic.Lib.Pipeline.Value

noncomputable section

namespace Cert.StackedRows

open Idealize.ShloMosaic Idealize.ShloMosaic.ValueIdx

variable {α : Type}

/-- A vector reshaped to a 1 × a row reads at (0, q) as the vector's entry q. -/
theorem row_of_vec {a : ℕ} (x : (⟨1, ![a]⟩ : Shape).Idx → α) (h : (⟨1, ![a]⟩ : Shape).ShapeCasts ⟨2, ![1, a]⟩) (q : Fin a) :
    shapeCast ⟨2, ![1, a]⟩ x h (ix2 (0 : Fin 1) q) = x (ix1 q) := shapeCast_a_1a_apply x h 0 q

/-- Row k of an n × a stack, cut out, flattened and reshaped to a 1 × a row, reads at (0, q) as the stack's entry (k, q). -/
theorem row_of_stack {n a : ℕ} (j : ℕ) (X : (⟨2, ![n, a]⟩ : Shape).Idx → α)
    (hs : (⟨2, ![n, a]⟩ : Shape).Slices ![j, 0] ⟨2, ![1, a]⟩)
    (h1 : (⟨2, ![1, a]⟩ : Shape).ShapeCasts ⟨1, ![a]⟩) (h2 : (⟨1, ![a]⟩ : Shape).ShapeCasts ⟨2, ![1, a]⟩)
    (k : Fin n) (hk : k.val = j) (q : Fin a) :
    shapeCast ⟨2, ![1, a]⟩ (shapeCast ⟨1, ![a]⟩ (extractStridedSlice ⟨2, ![1, a]⟩ ![j, 0] X hs) h1) h2 (ix2 (0 : Fin 1) q)
      = X (ix2 k q) := by
  rw [shapeCast_a_1a_apply, shapeCast_1a_a_apply]
  exact slice2_axis0_apply j X hs (0 : Fin 1) q k (by rw [hk]; rfl)

/-- Slab k of an n × a × b stack, cut out and flattened to a × b, reads at (p, q) as the stack's entry (k, p, q). -/
theorem slab_of_stack {n a b : ℕ} (j : ℕ) (X : (⟨3, ![n, a, b]⟩ : Shape).Idx → α)
    (hs : (⟨3, ![n, a, b]⟩ : Shape).Slices ![j, 0, 0] ⟨3, ![1, a, b]⟩)
    (h1 : (⟨3, ![1, a, b]⟩ : Shape).ShapeCasts ⟨2, ![a, b]⟩) (k : Fin n) (hk : k.val = j) (p : Fin a) (q : Fin b) :
    shapeCast ⟨2, ![a, b]⟩ (extractStridedSlice ⟨3, ![1, a, b]⟩ ![j, 0, 0] X hs) h1 (ix2 p q) = X (ix3 k p q) := by
  rw [shapeCast_1ab_ab_apply]
  exact extractStridedSlice_apply _ _ _ _ _ (fun ax => by
    match ax with
    | ⟨0, _⟩ => exact hk.trans (Nat.add_zero j).symm
    | ⟨1, _⟩ => exact (Nat.zero_add _).symm
    | ⟨2, _⟩ => exact (Nat.zero_add _).symm)

end Cert.StackedRows

end
-- ==== Proof.KernelHost.lean ====
/-
  What the host's lines of operations leave in the arrays the matrix-product and normalisation regions read.

  Between the regions the program runs short lines of array operations on the host.  Read over any contents W of the
  buffers when a line starts, each array a later region reads is one of the shared host functions of the line's inputs:
  the edge lists with their self loops and the normalised edge weights after the first three lines; a layer's
  aggregation over the graph after each layer's line; each per-channel parameter as a function of the channel (a vector
  reshaped to one row, or one row cut out of a stack of two, flattened and reshaped); and each slab of the stacked
  weights as a matrix.  Nothing is computed: an operation's result buffer holds the operation's function of its operand
  buffers, a buffer a line does not write keeps its contents, and a reshape keeps the row-major position.
-/
import proofs.«132849_j12000138625377_2_alg».proof.Proof.Gen.KernelIdeal.Launch
import proofs.«132849_j12000138625377_2_alg».proof.Proof.Glue
import proofs.«132849_j12000138625377_2_alg».proof.Proof.LibHostLine
import proofs.«132849_j12000138625377_2_alg».proof.Proof.LibStackedRows
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx

variable (W : Valuation τ sig (Elt Ideal))

set_option maxHeartbeats 4000000

/-! ## The graph: three lines in a row

The first line builds the edge lists with their self loops, the edge weights, each node's degree, the test "the degree
is positive" and d^(−1/2); the second selects d^(−1/2) where the test holds and zero elsewhere; the third gathers that at
each edge's two wrapped ends and multiplies the three factors. -/

section FirstLine

set_option maxHeartbeats 8000000

/-- The source of each edge: row 0 of the edge list, then the self loops. -/
theorem line0_v3 : after (hostOps0 (F := Ideal)) W (Proc.devRef .tc main_v3) = Cert.Glue.src (W (Proc.devRef .tc main_arg1)) := by
  after_results
  rfl

/-- The target of each edge: row 1 of the edge list, then the self loops. -/
theorem line0_v6 : after (hostOps0 (F := Ideal)) W (Proc.devRef .tc main_v6) = Cert.Glue.dst (W (Proc.devRef .tc main_arg1)) := by
  after_results
  rfl

/-- The edge weights followed by weight one for every self loop. -/
theorem line0_v8 : after (hostOps0 (F := Ideal)) W (Proc.devRef .tc main_v8) = Cert.Glue.weights (W (Proc.devRef .tc main_arg2)) := by
  after_results
  rfl

/-- The test "the degree is positive", node by node. -/
theorem line0_v13 : after (hostOps0 (F := Ideal)) W (Proc.devRef .tc main_v13)
    = cmpf (F := Ideal) (φ := .f32) .ogt (Cert.Glue.degree (W (Proc.devRef .tc main_arg1)) (W (Proc.devRef .tc main_arg2)))
        (broadcastInDim S50000 ![] bcast_S_S50000 (constant (F := Ideal) S_ .f32 0x00000000#32)) := by
  after_results
  rfl

/-- d^(−1/2), node by node. -/
theorem line0_v14 : after (hostOps0 (F := Ideal)) W (Proc.devRef .tc main_v14)
    = Host.rsqrt (F := Ideal) (φ := .f32) (Cert.Glue.degree (W (Proc.devRef .tc main_arg1)) (W (Proc.devRef .tc main_arg2))) := by
  after_results
  rfl

/-- The constant zero the selection falls back to. -/
theorem line0_zero : after (hostOps0 (F := Ideal)) W (Proc.devRef .tc main_cst_2) = constant (F := Ideal) S_ .f32 0x00000000#32 := by
  after_results

end FirstLine

section SecondLine

/-- d^(−1/2) where the test holds, zero elsewhere. -/
theorem line1_v15 : after (hostOps0_1 (F := Ideal)) W (Proc.devRef .tc main_v15)
    = select (W (Proc.devRef .tc main_v13)) (W (Proc.devRef .tc main_v14)) (broadcastInDim S50000 ![] bcast_S_S50000 (W (Proc.devRef .tc main_cst_2))) := by
  after_results
  simp only [Cert.LibHostLine.ofBuf_toBuf]
  rfl

/-- The second line leaves the edge lists and the edge weights as they were. -/
theorem line1_v3 : after (hostOps0_1 (F := Ideal)) W (Proc.devRef .tc main_v3) = W (Proc.devRef .tc main_v3) := by after_results
theorem line1_v6 : after (hostOps0_1 (F := Ideal)) W (Proc.devRef .tc main_v6) = W (Proc.devRef .tc main_v6) := by after_results
theorem line1_v8 : after (hostOps0_1 (F := Ideal)) W (Proc.devRef .tc main_v8) = W (Proc.devRef .tc main_v8) := by after_results

end SecondLine

section ThirdLine

set_option maxHeartbeats 8000000

/-- Each edge's normalised weight: d^(−1/2) at the wrapped source, times the edge's weight, times d^(−1/2) at the
    wrapped target. -/
theorem line2_v31 : after (hostOps0_2 (F := Ideal)) W (Proc.devRef .tc main_v31)
    = mulf (F := Ideal) (φ := .f32)
        (mulf (F := Ideal) (φ := .f32)
          (Host.gather gather_S50000_S850000x1_S850000_n_0_n_n_0_1_1 (W (Proc.devRef .tc main_v15)) (Cert.Glue.wrapCol (W (Proc.devRef .tc main_v3))))
          (W (Proc.devRef .tc main_v8)))
        (Host.gather gather_S50000_S850000x1_S850000_n_0_n_n_0_1_1 (W (Proc.devRef .tc main_v15)) (Cert.Glue.wrapCol (W (Proc.devRef .tc main_v6)))) := by
  after_results_simp
  rfl

/-- The third line leaves the edge lists as they were. -/
theorem line2_v3 : after (hostOps0_2 (F := Ideal)) W (Proc.devRef .tc main_v3) = W (Proc.devRef .tc main_v3) := by after_results_simp
theorem line2_v6 : after (hostOps0_2 (F := Ideal)) W (Proc.devRef .tc main_v6) = W (Proc.devRef .tc main_v6) := by after_results_simp

end ThirdLine

/-- After the three lines the source list is the graph's. -/
theorem graph_v3 : after (hostOps0_2 (F := Ideal)) (after (hostOps0_1 (F := Ideal)) (after (hostOps0 (F := Ideal)) W)) (Proc.devRef .tc main_v3)
    = Cert.Glue.src (W (Proc.devRef .tc main_arg1)) := by
  rw [line2_v3, line1_v3, line0_v3]

/-- After the three lines the target list is the graph's. -/
theorem graph_v6 : after (hostOps0_2 (F := Ideal)) (after (hostOps0_1 (F := Ideal)) (after (hostOps0 (F := Ideal)) W)) (Proc.devRef .tc main_v6)
    = Cert.Glue.dst (W (Proc.devRef .tc main_arg1)) := by
  rw [line2_v6, line1_v6, line0_v6]

/-- After the three lines the edges carry their normalised weights. -/
theorem graph_v31 : after (hostOps0_2 (F := Ideal)) (after (hostOps0_1 (F := Ideal)) (after (hostOps0 (F := Ideal)) W)) (Proc.devRef .tc main_v31)
    = Cert.Glue.norm (W (Proc.devRef .tc main_arg1)) (W (Proc.devRef .tc main_arg2)) := by
  rw [line2_v31, line1_v15, line1_v3, line1_v6, line1_v8, line0_v13, line0_v14, line0_zero, line0_v3, line0_v6, line0_v8]
  rfl

/-! ## A layer's aggregation -/

/-- The layer's aggregation over the graph of the projected features: the rows gathered at each edge's wrapped source,
    multiplied by the edge's weight, added into the row of the edge's target. -/
theorem host1_v45 : after (hostOps1 (F := Ideal)) W (Proc.devRef .tc main_v45)
    = Cert.Glue.aggr (W (Proc.devRef .tc main_v32)) (W (Proc.devRef .tc main_v3)) (W (Proc.devRef .tc main_v6)) (W (Proc.devRef .tc main_v31)) := by
  after_results_simp
  rfl

/-- The layer's aggregation over the graph of the projected features: the rows gathered at each edge's wrapped source,
    multiplied by the edge's weight, added into the row of the edge's target. -/
theorem host3_v67 : after (hostOps3 (F := Ideal)) W (Proc.devRef .tc main_v67)
    = Cert.Glue.aggr (W (Proc.devRef .tc main_v54)) (W (Proc.devRef .tc main_v3)) (W (Proc.devRef .tc main_v6)) (W (Proc.devRef .tc main_v31)) := by
  after_results_simp
  rfl

/-- The layer's aggregation over the graph of the projected features: the rows gathered at each edge's wrapped source,
    multiplied by the edge's weight, added into the row of the edge's target. -/
theorem host5_v99 : after (hostOps5 (F := Ideal)) W (Proc.devRef .tc main_v99)
    = Cert.Glue.aggr (W (Proc.devRef .tc main_v86)) (W (Proc.devRef .tc main_v3)) (W (Proc.devRef .tc main_v6)) (W (Proc.devRef .tc main_v31)) := by
  after_results_simp
  rfl

/-! ## The per-channel parameter rows, as functions of the channel -/

/-- Parameter vector 4, reshaped to one row, read at column q is the vector's entry q. -/
theorem host1_row46 : (fun q : Fin 128 => after (hostOps1 (F := Ideal)) W (Proc.devRef .tc main_v46) (ix2 (0 : Fin 1) q))
    = Cert.Glue.vec (W (Proc.devRef .tc main_arg4)) := by
  funext q
  after_results_simp
  exact Cert.StackedRows.row_of_vec (W (Proc.devRef .tc main_arg4)) _ q

/-- Parameter vector 5, reshaped to one row, read at column q is the vector's entry q. -/
theorem host1_row47 : (fun q : Fin 128 => after (hostOps1 (F := Ideal)) W (Proc.devRef .tc main_v47) (ix2 (0 : Fin 1) q))
    = Cert.Glue.vec (W (Proc.devRef .tc main_arg5)) := by
  funext q
  after_results_simp
  exact Cert.StackedRows.row_of_vec (W (Proc.devRef .tc main_arg5)) _ q

/-- Parameter vector 6, reshaped to one row, read at column q is the vector's entry q. -/
theorem host1_row48 : (fun q : Fin 128 => after (hostOps1 (F := Ideal)) W (Proc.devRef .tc main_v48) (ix2 (0 : Fin 1) q))
    = Cert.Glue.vec (W (Proc.devRef .tc main_arg6)) := by
  funext q
  after_results_simp
  exact Cert.StackedRows.row_of_vec (W (Proc.devRef .tc main_arg6)) _ q

/-- Parameter vector 7, reshaped to one row, read at column q is the vector's entry q. -/
theorem host1_row49 : (fun q : Fin 128 => after (hostOps1 (F := Ideal)) W (Proc.devRef .tc main_v49) (ix2 (0 : Fin 1) q))
    = Cert.Glue.vec (W (Proc.devRef .tc main_arg7)) := by
  funext q
  after_results_simp
  exact Cert.StackedRows.row_of_vec (W (Proc.devRef .tc main_arg7)) _ q

/-- Parameter vector 8, reshaped to one row, read at column q is the vector's entry q. -/
theorem host1_row50 : (fun q : Fin 128 => after (hostOps1 (F := Ideal)) W (Proc.devRef .tc main_v50) (ix2 (0 : Fin 1) q))
    = Cert.Glue.vec (W (Proc.devRef .tc main_arg8)) := by
  funext q
  after_results_simp
  exact Cert.StackedRows.row_of_vec (W (Proc.devRef .tc main_arg8)) _ q

/-- Row 0 of parameter stack 10, cut out, flattened and reshaped to one row, read at column q is the stack's entry (0, q). -/
theorem host3_row78 : (fun q : Fin 128 => after (hostOps3 (F := Ideal)) W (Proc.devRef .tc main_v78) (ix2 (0 : Fin 1) q))
    = Cert.Glue.rowOf (W (Proc.devRef .tc main_arg10)) (0 : Fin 2) := by
  funext q
  after_results_simp
  exact Cert.StackedRows.row_of_stack 0 (W (Proc.devRef .tc main_arg10)) _ _ _ (0 : Fin 2) rfl q

/-- Row 0 of parameter stack 11, cut out, flattened and reshaped to one row, read at column q is the stack's entry (0, q). -/
theorem host3_row79 : (fun q : Fin 128 => after (hostOps3 (F := Ideal)) W (Proc.devRef .tc main_v79) (ix2 (0 : Fin 1) q))
    = Cert.Glue.rowOf (W (Proc.devRef .tc main_arg11)) (0 : Fin 2) := by
  funext q
  after_results_simp
  exact Cert.StackedRows.row_of_stack 0 (W (Proc.devRef .tc main_arg11)) _ _ _ (0 : Fin 2) rfl q

/-- Row 0 of parameter stack 12, cut out, flattened and reshaped to one row, read at column q is the stack's entry (0, q). -/
theorem host3_row80 : (fun q : Fin 128 => after (hostOps3 (F := Ideal)) W (Proc.devRef .tc main_v80) (ix2 (0 : Fin 1) q))
    = Cert.Glue.rowOf (W (Proc.devRef .tc main_arg12)) (0 : Fin 2) := by
  funext q
  after_results_simp
  exact Cert.StackedRows.row_of_stack 0 (W (Proc.devRef .tc main_arg12)) _ _ _ (0 : Fin 2) rfl q

/-- Row 0 of parameter stack 13, cut out, flattened and reshaped to one row, read at column q is the stack's entry (0, q). -/
theorem host3_row81 : (fun q : Fin 128 => after (hostOps3 (F := Ideal)) W (Proc.devRef .tc main_v81) (ix2 (0 : Fin 1) q))
    = Cert.Glue.rowOf (W (Proc.devRef .tc main_arg13)) (0 : Fin 2) := by
  funext q
  after_results_simp
  exact Cert.StackedRows.row_of_stack 0 (W (Proc.devRef .tc main_arg13)) _ _ _ (0 : Fin 2) rfl q

/-- Row 0 of parameter stack 14, cut out, flattened and reshaped to one row, read at column q is the stack's entry (0, q). -/
theorem host3_row82 : (fun q : Fin 128 => after (hostOps3 (F := Ideal)) W (Proc.devRef .tc main_v82) (ix2 (0 : Fin 1) q))
    = Cert.Glue.rowOf (W (Proc.devRef .tc main_arg14)) (0 : Fin 2) := by
  funext q
  after_results_simp
  exact Cert.StackedRows.row_of_stack 0 (W (Proc.devRef .tc main_arg14)) _ _ _ (0 : Fin 2) rfl q

/-- Row 1 of parameter stack 10, cut out, flattened and reshaped to one row, read at column q is the stack's entry (1, q). -/
theorem host5_row110 : (fun q : Fin 128 => after (hostOps5 (F := Ideal)) W (Proc.devRef .tc main_v110) (ix2 (0 : Fin 1) q))
    = Cert.Glue.rowOf (W (Proc.devRef .tc main_arg10)) (1 : Fin 2) := by
  funext q
  after_results_simp
  exact Cert.StackedRows.row_of_stack 1 (W (Proc.devRef .tc main_arg10)) _ _ _ (1 : Fin 2) rfl q

/-- Row 1 of parameter stack 11, cut out, flattened and reshaped to one row, read at column q is the stack's entry (1, q). -/
theorem host5_row111 : (fun q : Fin 128 => after (hostOps5 (F := Ideal)) W (Proc.devRef .tc main_v111) (ix2 (0 : Fin 1) q))
    = Cert.Glue.rowOf (W (Proc.devRef .tc main_arg11)) (1 : Fin 2) := by
  funext q
  after_results_simp
  exact Cert.StackedRows.row_of_stack 1 (W (Proc.devRef .tc main_arg11)) _ _ _ (1 : Fin 2) rfl q

/-- Row 1 of parameter stack 12, cut out, flattened and reshaped to one row, read at column q is the stack's entry (1, q). -/
theorem host5_row112 : (fun q : Fin 128 => after (hostOps5 (F := Ideal)) W (Proc.devRef .tc main_v112) (ix2 (0 : Fin 1) q))
    = Cert.Glue.rowOf (W (Proc.devRef .tc main_arg12)) (1 : Fin 2) := by
  funext q
  after_results_simp
  exact Cert.StackedRows.row_of_stack 1 (W (Proc.devRef .tc main_arg12)) _ _ _ (1 : Fin 2) rfl q

/-- Row 1 of parameter stack 13, cut out, flattened and reshaped to one row, read at column q is the stack's entry (1, q). -/
theorem host5_row113 : (fun q : Fin 128 => after (hostOps5 (F := Ideal)) W (Proc.devRef .tc main_v113) (ix2 (0 : Fin 1) q))
    = Cert.Glue.rowOf (W (Proc.devRef .tc main_arg13)) (1 : Fin 2) := by
  funext q
  after_results_simp
  exact Cert.StackedRows.row_of_stack 1 (W (Proc.devRef .tc main_arg13)) _ _ _ (1 : Fin 2) rfl q

/-- Row 1 of parameter stack 14, cut out, flattened and reshaped to one row, read at column q is the stack's entry (1, q). -/
theorem host5_row114 : (fun q : Fin 128 => after (hostOps5 (F := Ideal)) W (Proc.devRef .tc main_v114) (ix2 (0 : Fin 1) q))
    = Cert.Glue.rowOf (W (Proc.devRef .tc main_arg14)) (1 : Fin 2) := by
  funext q
  after_results_simp
  exact Cert.StackedRows.row_of_stack 1 (W (Proc.devRef .tc main_arg14)) _ _ _ (1 : Fin 2) rfl q

/-- The fourth layer's bias vector, reshaped to one row, read at column q is the vector's entry q. -/
theorem host6_row116 : (fun q : Fin 128 => after (hostOps6 (F := Ideal)) W (Proc.devRef .tc main_v116) (ix2 (0 : Fin 1) q))
    = Cert.Glue.vec (W (Proc.devRef .tc main_arg16)) := by
  funext q
  after_results
  exact Cert.StackedRows.row_of_vec (W (Proc.devRef .tc main_arg16)) _ q

/-- The last layer's bias vector, reshaped to one row, read at column q is the vector's entry q. -/
theorem host7_row118 : (fun q : Fin 64 => after (hostOps7 (F := Ideal)) W (Proc.devRef .tc main_v118) (ix2 (0 : Fin 1) q))
    = Cert.Glue.vec (W (Proc.devRef .tc main_arg18)) := by
  funext q
  after_results
  exact Cert.StackedRows.row_of_vec (W (Proc.devRef .tc main_arg18)) _ q

/-! ## The two stacked weight matrices -/

/-- Slab 0 of the stacked weights, cut out and flattened, is the second layer's weight matrix. -/
theorem host2_v53 : after (hostOps2 (F := Ideal)) W (Proc.devRef .tc main_v53)
    = Cert.Glue.slab (W (Proc.devRef .tc main_arg9)) (0 : Fin 2) := by
  after_results
  refine Cert.Net.mat_ext (a := 128) (b := 128) fun p q => ?_
  exact Cert.StackedRows.slab_of_stack 0 (W (Proc.devRef .tc main_arg9)) _ _ (0 : Fin 2) rfl p q

/-- Slab 1 of the stacked weights, cut out and flattened, is the third layer's weight matrix. -/
theorem host4_v85 : after (hostOps4 (F := Ideal)) W (Proc.devRef .tc main_v85)
    = Cert.Glue.slab (W (Proc.devRef .tc main_arg9)) (1 : Fin 2) := by
  after_results
  refine Cert.Net.mat_ext (a := 128) (b := 128) fun p q => ?_
  exact Cert.StackedRows.slab_of_stack 1 (W (Proc.devRef .tc main_arg9)) _ _ (1 : Fin 2) rfl p q

end Cert.KernelIdeal.Whole

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.Region0.lean ====
import proofs.«132849_j12000138625377_2_alg».proof.Proof.Gen.KernelIdeal.Frame
import proofs.«132849_j12000138625377_2_alg».proof.Proof.Spec
import proofs.«132849_j12000138625377_2_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.Region0

open Cert.KernelIdeal Idealize.ShloMosaic Idealize.ShloMosaic.ValueIdx Idealize.ShloMosaic.TcCoe Idealize.SL.Sem
open Idealize.ShloMosaic.Pipeline (Dat)

/-- The zero offsets of a whole-buffer rectangle, as the constant function. -/
theorem zero_offsets : (![0, 0] : Fin 2 → Nat) = fun _ => 0 := funext fun a => by fin_cases a <;> rfl

/-- Entry (p, q) of the body's result is the sum over k of x (p, k) · w (k, q): rounding to the narrow format is the
    identity on the extended reals, and the product into a zero accumulator is the contraction's sum. -/
theorem pay_apply (x : Vec Ideal S10000x128 .f32) (w : Vec Ideal S128x128 .f32) (p : Fin 10000) (q : Fin 128) :
    Gen.k0_pay1 x w (ix2 p q) = ∑ k : Fin 128, x (ix2 p k) * w (ix2 k q) := by
  unfold Gen.k0_pay1
  exact Cert.PlainDot.matmul_zero_apply (n := 10000) (K := 128) (M := 128)
    dot_S10000x128_S128x128_S10000x128_1_0_0_1_n_n rfl rfl
    (fun _ _ => rfl) (fun _ _ => rfl) (fun _ _ => rfl) (fun _ _ => rfl) none x w p q

/-- One entry of a row block of the product: when x holds rows r … r + 9999 of X and w is W, entry j of the body's
    result is entry (r + j₀, j₁) of X · W. -/
theorem block_entry (X : Cert.Net.Mat 50000 128) (W : Cert.Net.Mat 128 128)
    (x : Vec Ideal S10000x128 .f32) (w : Vec Ideal S128x128 .f32) (r : Nat)
    (hx : ∀ (y : S10000x128.Idx) (i : S50000x128.Idx), (i 0).val = r + (y 0).val → (i 1).val = (y 1).val → x y = X i)
    (hw : ∀ (y i : S128x128.Idx), (i 0).val = (y 0).val → (i 1).val = (y 1).val → w y = W i)
    (j : S10000x128.Idx) (i : S50000x128.Idx) (hi0 : (i 0).val = r + (j 0).val) (hi1 : (i 1).val = (j 1).val) :
    Gen.k0_pay1 x w j = Cert.Net.dense X W i := by
  obtain ⟨p, q, rfl⟩ : ∃ (p : Fin 10000) (q : Fin 128), j = ix2 p q := ⟨j 0, j 1, eq_ix2 j⟩
  obtain ⟨a, b, rfl⟩ : ∃ (a : Fin 50000) (b : Fin 128), i = ix2 a b := ⟨i 0, i 1, eq_ix2 i⟩
  rw [pay_apply]
  show _ = ∑ k : Fin 128, X (ix2 a k) * W (ix2 k b)
  refine Finset.sum_congr rfl fun k _ => ?_
  rw [hx (ix2 p k) (ix2 a k) hi0 rfl, hw (ix2 k q) (ix2 k b) rfl hi1]

variable (V : (c : Dev nD) → (b : Ref sig .tc) → Buf (Elt Ideal) ((c : Thread nD τ).loc b))

/-- The printed index maps over the grid: at point t the row windows sit at block t, the weight window at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 10000 t … 10000 t + 9999 of the product. -/
theorem flushed_eq (c : Dev nD) (t : Fin cfg0.N) :
    (Gen.dat0 (F := Ideal) V c).flushed 2 t
      = ((cfg0.win 2).blk t).view.read (Elt Ideal)
          (Cert.Net.dense (n := 50000) (K := 128) (M := 128) (V c main_arg0) (V c main_arg3)) := by
  show (cfg0.win 2).cut (grid0.coords t) ((Gen.dat0 V c).after 2 t) = _
  rw [Gen.after0_2]
  unfold Gen.out0_2
  rw [View.canon_unit_zero zero_offsets]
  simp only [View.ld_unit_zero (S := S10000x128) zero_offsets, View.ld_unit_zero (S := S128x128) zero_offsets]
  obtain ⟨e0, e1, e2, e3, e4, e5⟩ := idx_facts t
  funext j
  refine block_entry (V c main_arg0) (V c main_arg3) (Gen.iblk0 V c 0 t) (Gen.iblk0 V c 1 t) (t.val * 10000) ?_ ?_ j
    (((cfg0.win 2).blk t).view.emb j) ?_ ?_
  · intro y i h0 h1
    show V c main_arg0 (((cfg0.win 0).blk t).view.emb y) = V c main_arg0 i
    refine congrArg _ (funext fun a => Fin.ext ?_)
    match a with
    | ⟨0, _⟩ => show win0_0.index t (0 : Fin 2) * 10000 + 1 * (y 0).val = (i 0).val; omega
    | ⟨1, _⟩ => show win0_0.index t (1 : Fin 2) * 128 + 1 * (y 1).val = (i 1).val; omega
  · intro y i h0 h1
    show V c main_arg3 (((cfg0.win 1).blk t).view.emb y) = V c main_arg3 i
    refine congrArg _ (funext fun a => Fin.ext ?_)
    match a with
    | ⟨0, _⟩ => show win0_1.index t (0 : Fin 2) * 128 + 1 * (y 0).val = (i 0).val; omega
    | ⟨1, _⟩ => show win0_1.index t (1 : Fin 2) * 128 + 1 * (y 1).val = (i 1).val; omega
  · show win0_2.index t (0 : Fin 2) * 10000 + 1 * (j 0).val = t.val * 10000 + (j 0).val; omega
  · show win0_2.index t (1 : Fin 2) * 128 + 1 * (j 1).val = (j 1).val; omega

/-- An index of the array is in point t's block iff each coordinate is in the block's range on its axis. -/
theorem mem_blk (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v32).slice (win0_2.rect t)).set ↔ _
  rw [View.set_slice_whole, Rect.mem_set_unit]
  exact Iff.rfl

/-- Row r of the array lies in the block of point r / 10000: the five blocks of 10000 rows tile the 50000 rows. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := Gen.N_0
  refine ⟨⟨(i 0).val / 10000, by rw [hN]; omega⟩, Gen.flush0_2 _, ?_⟩
  rw [mem_blk]
  obtain ⟨e0, e1, e2, e3, e4, e5⟩ := idx_facts ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e5]; omega

/-- The region's result array is the product of the two arrays it reads. -/
theorem value (c : Dev nD) :
    (Gen.dat0 (F := Ideal) V c).arrAt 2 cfg0.N
      = Cert.Net.dense (n := 50000) (K := 128) (M := 128) (V c main_arg0) (V c main_arg3) :=
  (Gen.dat0 V c).arrAt_eq_of_cover 2 (Cert.Net.dense (n := 50000) (K := 128) (M := 128) (V c main_arg0) (V c main_arg3))
    (fun t _ => flushed_eq V c t) cover

end Cert.KernelIdeal.Region0

end
-- ==== Proof.Region1.lean ====
/-
  The first normalisation region, as one function of the arrays it reads.

  The region tiles the 50000 rows of the aggregate in ten blocks of 5000 rows, all 128 channels each; the five per-channel
  parameters (bias, scale γ, shift β, running mean μ, running variance σ²) are rows of 128 entries, whole at every point.
  At a point the body computes, entry by entry of its block,
      x = ((a + b) − μ) · (σ² + ε)^(−1/2) · γ + β,
  the bias added first, then the mean removed, then the reciprocal root, the scale and the shift, in that order; and it
  keeps x where x > 0 and multiplies it by the slope elsewhere.  The strict test is the leaky rectifier itself: a positive
  entry is kept, any other is scaled.  Block t is written back to rows 5000·t … 5000·t + 4999 of the output, so row r is
  written by point r / 5000 and the ten blocks cover the array: the output is the normalised, rectified aggregate.
-/
import proofs.«132849_j12000138625377_2_alg».proof.Proof.Gen.KernelIdeal.Frame
import proofs.«132849_j12000138625377_2_alg».proof.Proof.Spec
import Idealize.ShloMosaic.Lib.Pipeline.Value
import Idealize.ShloMosaic.Lib.ValueLayout
import Idealize.ShloMosaic.Lib.ValueIdx

noncomputable section

namespace Cert.KernelIdeal.Region1

open Cert.KernelIdeal Idealize.ShloMosaic Idealize.ShloMosaic.TcCoe Idealize.ShloMosaic.ValueIdx Idealize.SL.Sem
open Idealize.ShloMosaic.Pipeline (Dat)

/-- A row of 128 entries broadcast over 5000 rows reads, at (p, q), the row's entry q. -/
theorem row_at (x : Vec Ideal S1x128 .f32) (p : Fin 5000) (q : Fin 128) :
    broadcastTo S5000x128 x Gen.broadcasts_S1x128_S5000x128 (ix2 p q) = x (ix2 (0 : Fin 1) q) := by
  refine broadcastTo_apply x _ (ix2 p q) (ix2 (0 : Fin 1) q) (fun a => ?_)
  match a with
  | ⟨0, _⟩ => rfl
  | ⟨1, _⟩ => rfl

/-- The body's result at entry (p, q) of a block: the rectifier of the normalised entry, the parameters read at channel q.
    Every operation but the broadcasts is entry by entry, and the steps come in the order of `Cert.Net.norm1`. -/
theorem pay_apply (a : Vec Ideal S5000x128 .f32) (b mu var g beta : Vec Ideal S1x128 .f32) (p : Fin 5000) (q : Fin 128) :
    Gen.k1_pay1 a b mu var g beta (ix2 p q)
      = Cert.Net.lrelu (Cert.Net.norm1 (a (ix2 p q)) (b (ix2 (0 : Fin 1) q)) (mu (ix2 (0 : Fin 1) q)) (var (ix2 (0 : Fin 1) q))
          (g (ix2 (0 : Fin 1) q)) (beta (ix2 (0 : Fin 1) q))) := by
  unfold Gen.k1_pay1
  simp only [shapeCast_self]
  unfold select cmpf mulf addf subf rsqrt broadcast
  beta_reduce
  rw [row_at b p q, row_at mu p q, row_at g p q, row_at beta p q, row_at _ p q]
  exact Cert.Net.select_gt _

/-- The zero offsets of a whole-block access. -/
theorem hz : (![0, 0] : Fin 2 → Nat) = fun _ => 0 := funext fun a => by fin_cases a <;> rfl

/-- The index maps over the ten points: the aggregate's block moves with the output's, whose block index is the point itself
    on the rows and zero on the channels; every parameter stays at block (0, 0). -/
theorem idx_facts : ∀ t : Fin cfg1.N,
    win1_0.index t (0 : Fin 2) = win1_6.index t (0 : Fin 2) ∧ win1_0.index t (1 : Fin 2) = win1_6.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- Block t of the aggregate holds rows 5000·t … 5000·t + 4999, all 128 channels: its entry (p, q) is the array's
    entry (5000·t + p, q). -/
theorem emb_agg (t : Fin cfg1.N) (p : Fin 5000) (q : Fin 128) :
    ((cfg1.win 0).blk t).view.emb (ix2 p q)
      = (ix2 (⟨t.val * 5000 + p.val, by have := t.isLt; have hN : cfg1.N = 10 := Gen.N_1; omega⟩ : Fin 50000) q : S50000x128.Idx) := by
  obtain ⟨e00, e01, -, -, -, -, -, -, -, -, -, -, e60, e61⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

/-- The output's block t is the same rectangle of rows. -/
theorem emb_out (t : Fin cfg1.N) (p : Fin 5000) (q : Fin 128) :
    ((cfg1.win 6).blk t).view.emb (ix2 p q)
      = (ix2 (⟨t.val * 5000 + p.val, by have := t.isLt; have hN : cfg1.N = 10 := Gen.N_1; omega⟩ : Fin 50000) q : S50000x128.Idx) := by
  obtain ⟨-, -, -, -, -, -, -, -, -, -, -, -, e60, e61⟩ := idx_facts t
  funext a; apply Fin.ext
  match a with
  | ⟨0, _⟩ => show win1_6.index t (0 : Fin 2) * 5000 + 1 * p.val = t.val * 5000 + p.val; omega
  | ⟨1, _⟩ => show win1_6.index t (1 : Fin 2) * 128 + 1 * q.val = q.val; omega

/-- A per-channel parameter's block is its whole row at every point. -/
theorem emb_par1 (t : Fin cfg1.N) (q : Fin 128) :
    ((cfg1.win 1).blk t).view.emb (ix2 (0 : Fin 1) q) = (ix2 (0 : Fin 1) q : S1x128.Idx) := by
  obtain ⟨-, -, e0, e1, -⟩ := idx_facts t
  funext a; apply Fin.ext
  match a with
  | ⟨0, _⟩ => show win1_1.index t (0 : Fin 2) * 1 + 1 * 0 = 0; omega
  | ⟨1, _⟩ => show win1_1.index t (1 : Fin 2) * 128 + 1 * q.val = q.val; omega
theorem emb_par2 (t : Fin cfg1.N) (q : Fin 128) :
    ((cfg1.win 2).blk t).view.emb (ix2 (0 : Fin 1) q) = (ix2 (0 : Fin 1) q : S1x128.Idx) := by
  obtain ⟨-, -, -, -, e0, e1, -⟩ := idx_facts t
  funext a; apply Fin.ext
  match a with
  | ⟨0, _⟩ => show win1_2.index t (0 : Fin 2) * 1 + 1 * 0 = 0; omega
  | ⟨1, _⟩ => show win1_2.index t (1 : Fin 2) * 128 + 1 * q.val = q.val; omega
theorem emb_par3 (t : Fin cfg1.N) (q : Fin 128) :
    ((cfg1.win 3).blk t).view.emb (ix2 (0 : Fin 1) q) = (ix2 (0 : Fin 1) q : S1x128.Idx) := by
  obtain ⟨-, -, -, -, -, -, e0, e1, -⟩ := idx_facts t
  funext a; apply Fin.ext
  match a with
  | ⟨0, _⟩ => show win1_3.index t (0 : Fin 2) * 1 + 1 * 0 = 0; omega
  | ⟨1, _⟩ => show win1_3.index t (1 : Fin 2) * 128 + 1 * q.val = q.val; omega
theorem emb_par4 (t : Fin cfg1.N) (q : Fin 128) :
    ((cfg1.win 4).blk t).view.emb (ix2 (0 : Fin 1) q) = (ix2 (0 : Fin 1) q : S1x128.Idx) := by
  obtain ⟨-, -, -, -, -, -, -, -, e0, e1, -⟩ := idx_facts t
  funext a; apply Fin.ext
  match a with
  | ⟨0, _⟩ => show win1_4.index t (0 : Fin 2) * 1 + 1 * 0 = 0; omega
  | ⟨1, _⟩ => show win1_4.index t (1 : Fin 2) * 128 + 1 * q.val = q.val; omega
theorem emb_par5 (t : Fin cfg1.N) (q : Fin 128) :
    ((cfg1.win 5).blk t).view.emb (ix2 (0 : Fin 1) q) = (ix2 (0 : Fin 1) q : S1x128.Idx) := by
  obtain ⟨-, -, -, -, -, -, -, -, -, -, e0, e1, -⟩ := idx_facts t
  funext a; apply Fin.ext
  match a with
  | ⟨0, _⟩ => show win1_5.index t (0 : Fin 2) * 1 + 1 * 0 = 0; omega
  | ⟨1, _⟩ => show win1_5.index t (1 : Fin 2) * 128 + 1 * q.val = q.val; omega

/-- What point t writes back is block t of the normalised, rectified aggregate: the payload at (p, q) reads the aggregate at
    row 5000·t + p and each parameter at channel q, which is where the output's block sits. -/
theorem flushed_eq (c : Dev nD) (t : Fin cfg1.N) :
    (Gen.dat1 (F := Ideal) V c).flushed 6 t = ((cfg1.win 6).blk t).view.read (Elt Ideal)
      (Cert.Net.normAct (n := 50000) (C := 128) (V c main_v45)
        (fun q => V c main_v46 (ix2 (0 : Fin 1) q)) (fun q => V c main_v47 (ix2 (0 : Fin 1) q)) (fun q => V c main_v48 (ix2 (0 : Fin 1) q))
        (fun q => V c main_v49 (ix2 (0 : Fin 1) q)) (fun q => V c main_v50 (ix2 (0 : Fin 1) q))) := by
  show (cfg1.win 6).cut (grid1.coords t) ((Gen.dat1 V c).after 6 t) = _
  rw [Gen.after1_6]
  unfold Gen.out1_6
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay_apply _ _ _ _ _ _ p q).trans ?_
  show Cert.Net.lrelu (Cert.Net.norm1 (V c main_v45 (((cfg1.win 0).blk t).view.emb (ix2 p q)))
        (V c main_v46 (((cfg1.win 1).blk t).view.emb (ix2 (0 : Fin 1) q))) (V c main_v49 (((cfg1.win 4).blk t).view.emb (ix2 (0 : Fin 1) q)))
        (V c main_v50 (((cfg1.win 5).blk t).view.emb (ix2 (0 : Fin 1) q))) (V c main_v47 (((cfg1.win 2).blk t).view.emb (ix2 (0 : Fin 1) q)))
        (V c main_v48 (((cfg1.win 3).blk t).view.emb (ix2 (0 : Fin 1) q))))
      = Cert.Net.normAct (n := 50000) (C := 128) (V c main_v45)
        (fun q => V c main_v46 (ix2 (0 : Fin 1) q)) (fun q => V c main_v47 (ix2 (0 : Fin 1) q)) (fun q => V c main_v48 (ix2 (0 : Fin 1) q))
        (fun q => V c main_v49 (ix2 (0 : Fin 1) q)) (fun q => V c main_v50 (ix2 (0 : Fin 1) q)) (((cfg1.win 6).blk t).view.emb (ix2 p q))
  rw [emb_agg t p q, emb_par1 t q, emb_par2 t q, emb_par3 t q, emb_par4 t q, emb_par5 t q, emb_out t p q]
  rfl

/-- An index of the array lies in point t's block exactly when each coordinate lies in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v51).slice (win1_6.rect t)).set ↔ _
  rw [View.set_slice_whole, Rect.mem_set_unit]
  exact Iff.rfl

/-- Row r lies in the block of point r / 5000, and every point writes its block back: the ten blocks cover the array. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := Gen.N_1
  obtain ⟨t, ht⟩ : ∃ t : Fin cfg1.N, t.val = (i 0).val / 5000 := ⟨⟨(i 0).val / 5000, by omega⟩, rfl⟩
  obtain ⟨-, -, -, -, -, -, -, -, -, -, -, -, e60, e61⟩ := idx_facts t
  refine ⟨t, Gen.flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The region's output array: bias, normalisation and rectifier of the aggregate, entry by entry. -/
theorem value (c : Dev nD) :
    (Gen.dat1 (F := Ideal) V c).arrAt 6 cfg1.N = Cert.Net.normAct (n := 50000) (C := 128) (V c main_v45)
      (fun q => V c main_v46 (ix2 (0 : Fin 1) q)) (fun q => V c main_v47 (ix2 (0 : Fin 1) q)) (fun q => V c main_v48 (ix2 (0 : Fin 1) q))
      (fun q => V c main_v49 (ix2 (0 : Fin 1) q)) (fun q => V c main_v50 (ix2 (0 : Fin 1) q)) :=
  (Gen.dat1 (F := Ideal) V c).arrAt_eq_of_cover 6 _ (fun t _ => flushed_eq V c t) cover

end Cert.KernelIdeal.Region1

end
-- ==== Proof.Region2.lean ====
import proofs.«132849_j12000138625377_2_alg».proof.Proof.Gen.KernelIdeal.Frame
import proofs.«132849_j12000138625377_2_alg».proof.Proof.Spec
import proofs.«132849_j12000138625377_2_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.Region2

open Cert.KernelIdeal Idealize.ShloMosaic Idealize.ShloMosaic.ValueIdx Idealize.ShloMosaic.TcCoe Idealize.SL.Sem
open Idealize.ShloMosaic.Pipeline (Dat)

/-- The zero offsets of a whole-buffer rectangle, as the constant function. -/
theorem zero_offsets : (![0, 0] : Fin 2 → Nat) = fun _ => 0 := funext fun a => by fin_cases a <;> rfl

/-- Entry (p, q) of the body's result is the sum over k of x (p, k) · w (k, q): a cast to the same shape and rounding to
    the narrow format are the identity on the extended reals, and the product into a zero accumulator is the
    contraction's sum. -/
theorem pay_apply (x : Vec Ideal S10000x128 .f32) (w : Vec Ideal S128x128 .f32) (p : Fin 10000) (q : Fin 128) :
    Gen.k2_pay1 x w (ix2 p q) = ∑ k : Fin 128, x (ix2 p k) * w (ix2 k q) := by
  unfold Gen.k2_pay1
  rw [shapeCast_self, shapeCast_self]
  exact Cert.PlainDot.matmul_zero_apply (n := 10000) (K := 128) (M := 128)
    dot_S10000x128_S128x128_S10000x128_1_0_0_1_n_n rfl rfl
    (fun _ _ => rfl) (fun _ _ => rfl) (fun _ _ => rfl) (fun _ _ => rfl) none x w p q

/-- One entry of a row block of the product: when x holds rows r … r + 9999 of X and w is W, entry j of the body's
    result is entry (r + j₀, j₁) of X · W. -/
theorem block_entry (X : Cert.Net.Mat 50000 128) (W : Cert.Net.Mat 128 128)
    (x : Vec Ideal S10000x128 .f32) (w : Vec Ideal S128x128 .f32) (r : Nat)
    (hx : ∀ (y : S10000x128.Idx) (i : S50000x128.Idx), (i 0).val = r + (y 0).val → (i 1).val = (y 1).val → x y = X i)
    (hw : ∀ (y i : S128x128.Idx), (i 0).val = (y 0).val → (i 1).val = (y 1).val → w y = W i)
    (j : S10000x128.Idx) (i : S50000x128.Idx) (hi0 : (i 0).val = r + (j 0).val) (hi1 : (i 1).val = (j 1).val) :
    Gen.k2_pay1 x w j = Cert.Net.dense X W i := by
  obtain ⟨p, q, rfl⟩ : ∃ (p : Fin 10000) (q : Fin 128), j = ix2 p q := ⟨j 0, j 1, eq_ix2 j⟩
  obtain ⟨a, b, rfl⟩ : ∃ (a : Fin 50000) (b : Fin 128), i = ix2 a b := ⟨i 0, i 1, eq_ix2 i⟩
  rw [pay_apply]
  show _ = ∑ k : Fin 128, X (ix2 a k) * W (ix2 k b)
  refine Finset.sum_congr rfl fun k _ => ?_
  rw [hx (ix2 p k) (ix2 a k) hi0 rfl, hw (ix2 k q) (ix2 k b) rfl hi1]

variable (V : (c : Dev nD) → (b : Ref sig .tc) → Buf (Elt Ideal) ((c : Thread nD τ).loc b))

/-- The printed index maps over the grid: at point t the row windows sit at block t, the weight window at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is rows 10000 t … 10000 t + 9999 of the product. -/
theorem flushed_eq (c : Dev nD) (t : Fin cfg2.N) :
    (Gen.dat2 (F := Ideal) V c).flushed 2 t
      = ((cfg2.win 2).blk t).view.read (Elt Ideal)
          (Cert.Net.dense (n := 50000) (K := 128) (M := 128) (V c main_v51) (V c main_v53)) := by
  show (cfg2.win 2).cut (grid2.coords t) ((Gen.dat2 V c).after 2 t) = _
  rw [Gen.after2_2]
  unfold Gen.out2_2
  rw [View.canon_unit_zero zero_offsets]
  simp only [View.ld_unit_zero (S := S10000x128) zero_offsets, View.ld_unit_zero (S := S128x128) zero_offsets]
  obtain ⟨e0, e1, e2, e3, e4, e5⟩ := idx_facts t
  funext j
  refine block_entry (V c main_v51) (V c main_v53) (Gen.iblk2 V c 0 t) (Gen.iblk2 V c 1 t) (t.val * 10000) ?_ ?_ j
    (((cfg2.win 2).blk t).view.emb j) ?_ ?_
  · intro y i h0 h1
    show V c main_v51 (((cfg2.win 0).blk t).view.emb y) = V c main_v51 i
    refine congrArg _ (funext fun a => Fin.ext ?_)
    match a with
    | ⟨0, _⟩ => show win2_0.index t (0 : Fin 2) * 10000 + 1 * (y 0).val = (i 0).val; omega
    | ⟨1, _⟩ => show win2_0.index t (1 : Fin 2) * 128 + 1 * (y 1).val = (i 1).val; omega
  · intro y i h0 h1
    show V c main_v53 (((cfg2.win 1).blk t).view.emb y) = V c main_v53 i
    refine congrArg _ (funext fun a => Fin.ext ?_)
    match a with
    | ⟨0, _⟩ => show win2_1.index t (0 : Fin 2) * 128 + 1 * (y 0).val = (i 0).val; omega
    | ⟨1, _⟩ => show win2_1.index t (1 : Fin 2) * 128 + 1 * (y 1).val = (i 1).val; omega
  · show win2_2.index t (0 : Fin 2) * 10000 + 1 * (j 0).val = t.val * 10000 + (j 0).val; omega
  · show win2_2.index t (1 : Fin 2) * 128 + 1 * (j 1).val = (j 1).val; omega

/-- An index of the array is in point t's block iff each coordinate is in the block's range on its axis. -/
theorem mem_blk (t : Fin cfg2.N) (i : S50000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v54).slice (win2_2.rect t)).set ↔ _
  rw [View.set_slice_whole, Rect.mem_set_unit]
  exact Iff.rfl

/-- Row r of the array lies in the block of point r / 10000: the five blocks of 10000 rows tile the 50000 rows. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 5 := Gen.N_2
  refine ⟨⟨(i 0).val / 10000, by rw [hN]; omega⟩, Gen.flush2_2 _, ?_⟩
  rw [mem_blk]
  obtain ⟨e0, e1, e2, e3, e4, e5⟩ := idx_facts ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 128 ≤ (i 1).val ∧ (i 1).val < win2_2.index _ (1 : Fin 2) * 128 + 128
    rw [e5]; omega

/-- The region's result array is the product of the two arrays it reads. -/
theorem value (c : Dev nD) :
    (Gen.dat2 (F := Ideal) V c).arrAt 2 cfg2.N
      = Cert.Net.dense (n := 50000) (K := 128) (M := 128) (V c main_v51) (V c main_v53) :=
  (Gen.dat2 V c).arrAt_eq_of_cover 2 (Cert.Net.dense (n := 50000) (K := 128) (M := 128) (V c main_v51) (V c main_v53))
    (fun t _ => flushed_eq V c t) cover

end Cert.KernelIdeal.Region2

end
-- ==== Proof.Region3.lean ====
/-
  The second normalisation region, as one function of the arrays it reads.

  The region tiles the 50000 rows of the aggregate, of the residual (the layer's input) and of the output in ten blocks of
  5000 rows, all 128 channels each; the five per-channel parameters (bias, scale γ, shift β, running mean μ, running
  variance σ²) are rows of 128 entries, whole at every point.  At a point the body computes, entry by entry of its block,
      x = ((a + b) − μ) · (σ² + ε)^(−1/2) · γ + β + h,
  the bias added first, then the mean removed, then the reciprocal root, the scale and the shift, in that order, and the
  residual entry h added last; it keeps x where x > 0 and multiplies it by the slope elsewhere.  The strict test is the
  leaky rectifier itself: a positive entry is kept, any other is scaled.  Block t is written back to rows
  5000·t … 5000·t + 4999 of the output, so row r is written by point r / 5000 and the ten blocks cover the array.
-/
import proofs.«132849_j12000138625377_2_alg».proof.Proof.Gen.KernelIdeal.Frame
import proofs.«132849_j12000138625377_2_alg».proof.Proof.Spec
import Idealize.ShloMosaic.Lib.Pipeline.Value
import Idealize.ShloMosaic.Lib.ValueLayout
import Idealize.ShloMosaic.Lib.ValueIdx

noncomputable section

namespace Cert.KernelIdeal.Region3

open Cert.KernelIdeal Idealize.ShloMosaic Idealize.ShloMosaic.TcCoe Idealize.ShloMosaic.ValueIdx Idealize.SL.Sem
open Idealize.ShloMosaic.Pipeline (Dat)

/-- A row of 128 entries broadcast over 5000 rows reads, at (p, q), the row's entry q. -/
theorem row_at (x : Vec Ideal S1x128 .f32) (p : Fin 5000) (q : Fin 128) :
    broadcastTo S5000x128 x Gen.broadcasts_S1x128_S5000x128 (ix2 p q) = x (ix2 (0 : Fin 1) q) := by
  refine broadcastTo_apply x _ (ix2 p q) (ix2 (0 : Fin 1) q) (fun a => ?_)
  match a with
  | ⟨0, _⟩ => rfl
  | ⟨1, _⟩ => rfl

/-- The body's result at entry (p, q) of a block: the rectifier of the normalised entry plus the residual entry, the
    parameters read at channel q.  Every operation but the broadcasts is entry by entry, the steps come in the order of
    `Cert.Net.norm1`, and the residual is added last, before the test. -/
theorem pay_apply (a : Vec Ideal S5000x128 .f32) (b mu var g beta : Vec Ideal S1x128 .f32) (h : Vec Ideal S5000x128 .f32)
    (p : Fin 5000) (q : Fin 128) :
    Gen.k3_pay1 a b mu var g beta h (ix2 p q)
      = Cert.Net.lrelu (Cert.Net.norm1 (a (ix2 p q)) (b (ix2 (0 : Fin 1) q)) (mu (ix2 (0 : Fin 1) q)) (var (ix2 (0 : Fin 1) q))
          (g (ix2 (0 : Fin 1) q)) (beta (ix2 (0 : Fin 1) q)) + h (ix2 p q)) := by
  unfold Gen.k3_pay1
  simp only [shapeCast_self]
  unfold select cmpf mulf addf subf rsqrt broadcast
  beta_reduce
  rw [row_at b p q, row_at mu p q, row_at g p q, row_at beta p q, row_at _ p q]
  exact Cert.Net.select_gt _

/-- The zero offsets of a whole-block access. -/
theorem hz : (![0, 0] : Fin 2 → Nat) = fun _ => 0 := funext fun a => by fin_cases a <;> rfl

/-- The index maps over the ten points: the aggregate's block and the residual's move with the output's, whose block index
    is the point itself on the rows and zero on the channels; every parameter stays at block (0, 0). -/
theorem idx_facts : ∀ t : Fin cfg3.N,
    win3_0.index t (0 : Fin 2) = win3_7.index t (0 : Fin 2) ∧ win3_0.index t (1 : Fin 2) = win3_7.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = win3_7.index t (0 : Fin 2) ∧ win3_6.index t (1 : Fin 2) = win3_7.index t (1 : Fin 2)
    ∧ win3_7.index t (0 : Fin 2) = t.val ∧ win3_7.index t (1 : Fin 2) = 0 :=
  (by decide +kernel : ∀ t : Fin grid3.N, _)

variable (V : (c : Dev nD) → (b : Ref sig .tc) → Buf (Elt Ideal) ((c : Thread nD τ).loc b))

/-- Block t of the aggregate holds rows 5000·t … 5000·t + 4999, all 128 channels: its entry (p, q) is the array's
    entry (5000·t + p, q). -/
theorem emb_agg (t : Fin cfg3.N) (p : Fin 5000) (q : Fin 128) :
    ((cfg3.win 0).blk t).view.emb (ix2 p q)
      = (ix2 (⟨t.val * 5000 + p.val, by have := t.isLt; have hN : cfg3.N = 10 := Gen.N_3; omega⟩ : Fin 50000) q : S50000x128.Idx) := by
  obtain ⟨e00, e01, -, -, -, -, -, -, -, -, -, -, -, -, e70, e71⟩ := idx_facts t
  funext a; apply Fin.ext
  match a with
  | ⟨0, _⟩ => show win3_0.index t (0 : Fin 2) * 5000 + 1 * p.val = t.val * 5000 + p.val; omega
  | ⟨1, _⟩ => show win3_0.index t (1 : Fin 2) * 128 + 1 * q.val = q.val; omega

/-- The residual's block t is the same rectangle of rows. -/
theorem emb_res (t : Fin cfg3.N) (p : Fin 5000) (q : Fin 128) :
    ((cfg3.win 6).blk t).view.emb (ix2 p q)
      = (ix2 (⟨t.val * 5000 + p.val, by have := t.isLt; have hN : cfg3.N = 10 := Gen.N_3; omega⟩ : Fin 50000) q : S50000x128.Idx) := by
  obtain ⟨-, -, -, -, -, -, -, -, -, -, -, -, e60, e61, e70, e71⟩ := idx_facts t
  funext a; apply Fin.ext
  match a with
  | ⟨0, _⟩ => show win3_6.index t (0 : Fin 2) * 5000 + 1 * p.val = t.val * 5000 + p.val; omega
  | ⟨1, _⟩ => show win3_6.index t (1 : Fin 2) * 128 + 1 * q.val = q.val; omega

/-- So is the output's. -/
theorem emb_out (t : Fin cfg3.N) (p : Fin 5000) (q : Fin 128) :
    ((cfg3.win 7).blk t).view.emb (ix2 p q)
      = (ix2 (⟨t.val * 5000 + p.val, by have := t.isLt; have hN : cfg3.N = 10 := Gen.N_3; omega⟩ : Fin 50000) q : S50000x128.Idx) := by
  obtain ⟨-, -, -, -, -, -, -, -, -, -, -, -, -, -, e70, e71⟩ := idx_facts t
  funext a; apply Fin.ext
  match a with
  | ⟨0, _⟩ => show win3_7.index t (0 : Fin 2) * 5000 + 1 * p.val = t.val * 5000 + p.val; omega
  | ⟨1, _⟩ => show win3_7.index t (1 : Fin 2) * 128 + 1 * q.val = q.val; omega

/-- A per-channel parameter's block is its whole row at every point. -/
theorem emb_par1 (t : Fin cfg3.N) (q : Fin 128) :
    ((cfg3.win 1).blk t).view.emb (ix2 (0 : Fin 1) q) = (ix2 (0 : Fin 1) q : S1x128.Idx) := by
  obtain ⟨-, -, e0, e1, -⟩ := idx_facts t
  funext a; apply Fin.ext
  match a with
  | ⟨0, _⟩ => show win3_1.index t (0 : Fin 2) * 1 + 1 * 0 = 0; omega
  | ⟨1, _⟩ => show win3_1.index t (1 : Fin 2) * 128 + 1 * q.val = q.val; omega
theorem emb_par2 (t : Fin cfg3.N) (q : Fin 128) :
    ((cfg3.win 2).blk t).view.emb (ix2 (0 : Fin 1) q) = (ix2 (0 : Fin 1) q : S1x128.Idx) := by
  obtain ⟨-, -, -, -, e0, e1, -⟩ := idx_facts t
  funext a; apply Fin.ext
  match a with
  | ⟨0, _⟩ => show win3_2.index t (0 : Fin 2) * 1 + 1 * 0 = 0; omega
  | ⟨1, _⟩ => show win3_2.index t (1 : Fin 2) * 128 + 1 * q.val = q.val; omega
theorem emb_par3 (t : Fin cfg3.N) (q : Fin 128) :
    ((cfg3.win 3).blk t).view.emb (ix2 (0 : Fin 1) q) = (ix2 (0 : Fin 1) q : S1x128.Idx) := by
  obtain ⟨-, -, -, -, -, -, e0, e1, -⟩ := idx_facts t
  funext a; apply Fin.ext
  match a with
  | ⟨0, _⟩ => show win3_3.index t (0 : Fin 2) * 1 + 1 * 0 = 0; omega
  | ⟨1, _⟩ => show win3_3.index t (1 : Fin 2) * 128 + 1 * q.val = q.val; omega
theorem emb_par4 (t : Fin cfg3.N) (q : Fin 128) :
    ((cfg3.win 4).blk t).view.emb (ix2 (0 : Fin 1) q) = (ix2 (0 : Fin 1) q : S1x128.Idx) := by
  obtain ⟨-, -, -, -, -, -, -, -, e0, e1, -⟩ := idx_facts t
  funext a; apply Fin.ext
  match a with
  | ⟨0, _⟩ => show win3_4.index t (0 : Fin 2) * 1 + 1 * 0 = 0; omega
  | ⟨1, _⟩ => show win3_4.index t (1 : Fin 2) * 128 + 1 * q.val = q.val; omega
theorem emb_par5 (t : Fin cfg3.N) (q : Fin 128) :
    ((cfg3.win 5).blk t).view.emb (ix2 (0 : Fin 1) q) = (ix2 (0 : Fin 1) q : S1x128.Idx) := by
  obtain ⟨-, -, -, -, -, -, -, -, -, -, e0, e1, -⟩ := idx_facts t
  funext a; apply Fin.ext
  match a with
  | ⟨0, _⟩ => show win3_5.index t (0 : Fin 2) * 1 + 1 * 0 = 0; omega
  | ⟨1, _⟩ => show win3_5.index t (1 : Fin 2) * 128 + 1 * q.val = q.val; omega

/-- What point t writes back is block t of the normalised aggregate plus the residual, rectified: the payload at (p, q) reads
    the aggregate and the residual at row 5000·t + p and each parameter at channel q, which is where the output's block sits. -/
theorem flushed_eq (c : Dev nD) (t : Fin cfg3.N) :
    (Gen.dat3 (F := Ideal) V c).flushed 7 t = ((cfg3.win 7).blk t).view.read (Elt Ideal)
      (Cert.Net.normResAct (n := 50000) (C := 128) (V c main_v67)
        (fun q => V c main_v78 (ix2 (0 : Fin 1) q)) (fun q => V c main_v79 (ix2 (0 : Fin 1) q)) (fun q => V c main_v80 (ix2 (0 : Fin 1) q))
        (fun q => V c main_v81 (ix2 (0 : Fin 1) q)) (fun q => V c main_v82 (ix2 (0 : Fin 1) q)) (V c main_v51)) := by
  show (cfg3.win 7).cut (grid3.coords t) ((Gen.dat3 V c).after 7 t) = _
  rw [Gen.after3_7]
  unfold Gen.out3_7
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay_apply _ _ _ _ _ _ _ p q).trans ?_
  show Cert.Net.lrelu (Cert.Net.norm1 (V c main_v67 (((cfg3.win 0).blk t).view.emb (ix2 p q)))
        (V c main_v78 (((cfg3.win 1).blk t).view.emb (ix2 (0 : Fin 1) q))) (V c main_v81 (((cfg3.win 4).blk t).view.emb (ix2 (0 : Fin 1) q)))
        (V c main_v82 (((cfg3.win 5).blk t).view.emb (ix2 (0 : Fin 1) q))) (V c main_v79 (((cfg3.win 2).blk t).view.emb (ix2 (0 : Fin 1) q)))
        (V c main_v80 (((cfg3.win 3).blk t).view.emb (ix2 (0 : Fin 1) q)))
        + V c main_v51 (((cfg3.win 6).blk t).view.emb (ix2 p q)))
      = Cert.Net.normResAct (n := 50000) (C := 128) (V c main_v67)
        (fun q => V c main_v78 (ix2 (0 : Fin 1) q)) (fun q => V c main_v79 (ix2 (0 : Fin 1) q)) (fun q => V c main_v80 (ix2 (0 : Fin 1) q))
        (fun q => V c main_v81 (ix2 (0 : Fin 1) q)) (fun q => V c main_v82 (ix2 (0 : Fin 1) q)) (V c main_v51)
        (((cfg3.win 7).blk t).view.emb (ix2 p q))
  rw [emb_agg t p q, emb_par1 t q, emb_par2 t q, emb_par3 t q, emb_par4 t q, emb_par5 t q, emb_res t p q, emb_out t p q]
  rfl

/-- An index of the array lies in point t's block exactly when each coordinate lies in the block's range on its axis. -/
theorem mem_blk (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v83).slice (win3_7.rect t)).set ↔ _
  rw [View.set_slice_whole, Rect.mem_set_unit]
  exact Iff.rfl

/-- Row r lies in the block of point r / 5000, and every point writes its block back: the ten blocks cover the array. -/
theorem cover (i : S50000x128.Idx) : ∃ t : Fin cfg3.N, (cfg3.win 7).flush t = true ∧ i ∈ ((cfg3.win 7).blk t).view.set := by
  have hi0 : (i 0).val < 50000 := (i 0).isLt
  have hi1 : (i 1).val < 128 := (i 1).isLt
  have hN : cfg3.N = 10 := Gen.N_3
  obtain ⟨t, ht⟩ : ∃ t : Fin cfg3.N, t.val = (i 0).val / 5000 := ⟨⟨(i 0).val / 5000, by omega⟩, rfl⟩
  obtain ⟨-, -, -, -, -, -, -, -, -, -, -, -, -, -, e70, e71⟩ := idx_facts t
  refine ⟨t, Gen.flush3_7 t, ?_⟩
  rw [mem_blk]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 128 ≤ (i 1).val ∧ (i 1).val < win3_7.index t (1 : Fin 2) * 128 + 128; omega

/-- The region's output array: bias, normalisation, the residual added back, and the rectifier, entry by entry. -/
theorem value (c : Dev nD) :
    (Gen.dat3 (F := Ideal) V c).arrAt 7 cfg3.N = Cert.Net.normResAct (n := 50000) (C := 128) (V c main_v67)
      (fun q => V c main_v78 (ix2 (0 : Fin 1) q)) (fun q => V c main_v79 (ix2 (0 : Fin 1) q)) (fun q => V c main_v80 (ix2 (0 : Fin 1) q))
      (fun q => V c main_v81 (ix2 (0 : Fin 1) q)) (fun q => V c main_v82 (ix2 (0 : Fin 1) q)) (V c main_v51) :=
  (Gen.dat3 (F := Ideal) V c).arrAt_eq_of_cover 7 _ (fun t _ => flushed_eq V c t) cover

end Cert.KernelIdeal.Region3

end
-- ==== Proof.Region4.lean ====
import proofs.«132849_j12000138625377_2_alg».proof.Proof.Gen.KernelIdeal.Frame
import proofs.«132849_j12000138625377_2_alg».proof.Proof.Spec
import proofs.«132849_j12000138625377_2_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.Region4

open Cert.KernelIdeal Idealize.ShloMosaic Idealize.ShloMosaic.ValueIdx Idealize.ShloMosaic.TcCoe Idealize.SL.Sem
open Idealize.ShloMosaic.Pipeline (Dat)

/-- The zero offsets of a whole-buffer rectangle, as the constant function. -/
theorem zero_offsets : (![0, 0] : Fin 2 → Nat) = fun _ => 0 := funext fun a => by fin_cases a <;> rfl

/-- Entry (p, q) of the body's result is the sum over k of x (p, k) · w (k, q): a cast to the same shape and rounding to
    the narrow format are the identity on the extended reals, and the product into a zero accumulator is the
    contraction's sum. -/
theorem pay_apply (x : Vec Ideal S10000x128 .f32) (w : Vec Ideal S128x128 .f32) (p : Fin 10000) (q : Fin 128) :
    Gen.k4_pay1 x w (ix2 p q) = ∑ k : Fin 128, x (ix2 p k) * w (ix2 k q) := by
  unfold Gen.k4_pay1
  rw [shapeCast_self, shapeCast_self]
  exact Cert.PlainDot.matmul_zero_apply (n := 10000) (K := 128) (M := 128)
    dot_S10000x128_S128x128_S10000x128_1_0_0_1_n_n rfl rfl
    (fun _ _ => rfl) (fun _ _ => rfl) (fun _ _ => rfl) (fun _ _ => rfl) none x w p q

/-- One entry of a row block of the product: when x holds rows r … r + 9999 of X and w is W, entry j of the body's
    result is entry (r + j₀, j₁) of X · W. -/
theorem block_entry (X : Cert.Net.Mat 50000 128) (W : Cert.Net.Mat 128 128)
    (x : Vec Ideal S10000x128 .f32) (w : Vec Ideal S128x128 .f32) (r : Nat)
    (hx : ∀ (y : S10000x128.Idx) (i : S50000x128.Idx), (i 0).val = r + (y 0).val → (i 1).val = (y 1).val → x y = X i)
    (hw : ∀ (y i : S128x128.Idx), (i 0).val = (y 0).val → (i 1).val = (y 1).val → w y = W i)
    (j : S10000x128.Idx) (i : S50000x128.Idx) (hi0 : (i 0).val = r + (j 0).val) (hi1 : (i 1).val = (j 1).val) :
    Gen.k4_pay1 x w j = Cert.Net.dense X W i := by
  obtain ⟨p, q, rfl⟩ : ∃ (p : Fin 10000) (q : Fin 128), j = ix2 p q := ⟨j 0, j 1, eq_ix2 j⟩
  obtain ⟨a, b, rfl⟩ : ∃ (a : Fin 50000) (b : Fin 128), i = ix2 a b := ⟨i 0, i 1, eq_ix2 i⟩
  rw [pay_apply]
  show _ = ∑ k : Fin 128, X (ix2 a k) * W (ix2 k b)
  refine Finset.sum_congr rfl fun k _ => ?_
  rw [hx (ix2 p k) (ix2 a k) hi0 rfl, hw (ix2 k q) (ix2 k b) rfl hi1]

variable (V : (c : Dev nD) → (b : Ref sig .tc) → Buf (Elt Ideal) ((c : Thread nD τ).loc b))

/-- The printed index maps over the grid: at point t the row windows sit at block t, the weight window at block 0. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is rows 10000 t … 10000 t + 9999 of the product. -/
theorem flushed_eq (c : Dev nD) (t : Fin cfg4.N) :
    (Gen.dat4 (F := Ideal) V c).flushed 2 t
      = ((cfg4.win 2).blk t).view.read (Elt Ideal)
          (Cert.Net.dense (n := 50000) (K := 128) (M := 128) (V c main_v83) (V c main_v85)) := by
  show (cfg4.win 2).cut (grid4.coords t) ((Gen.dat4 V c).after 2 t) = _
  rw [Gen.after4_2]
  unfold Gen.out4_2
  rw [View.canon_unit_zero zero_offsets]
  simp only [View.ld_unit_zero (S := S10000x128) zero_offsets, View.ld_unit_zero (S := S128x128) zero_offsets]
  obtain ⟨e0, e1, e2, e3, e4, e5⟩ := idx_facts t
  funext j
  refine block_entry (V c main_v83) (V c main_v85) (Gen.iblk4 V c 0 t) (Gen.iblk4 V c 1 t) (t.val * 10000) ?_ ?_ j
    (((cfg4.win 2).blk t).view.emb j) ?_ ?_
  · intro y i h0 h1
    show V c main_v83 (((cfg4.win 0).blk t).view.emb y) = V c main_v83 i
    refine congrArg _ (funext fun a => Fin.ext ?_)
    match a with
    | ⟨0, _⟩ => show win4_0.index t (0 : Fin 2) * 10000 + 1 * (y 0).val = (i 0).val; omega
    | ⟨1, _⟩ => show win4_0.index t (1 : Fin 2) * 128 + 1 * (y 1).val = (i 1).val; omega
  · intro y i h0 h1
    show V c main_v85 (((cfg4.win 1).blk t).view.emb y) = V c main_v85 i
    refine congrArg _ (funext fun a => Fin.ext ?_)
    match a with
    | ⟨0, _⟩ => show win4_1.index t (0 : Fin 2) * 128 + 1 * (y 0).val = (i 0).val; omega
    | ⟨1, _⟩ => show win4_1.index t (1 : Fin 2) * 128 + 1 * (y 1).val = (i 1).val; omega
  · show win4_2.index t (0 : Fin 2) * 10000 + 1 * (j 0).val = t.val * 10000 + (j 0).val; omega
  · show win4_2.index t (1 : Fin 2) * 128 + 1 * (j 1).val = (j 1).val; omega

/-- An index of the array is in point t's block iff each coordinate is in the block's range on its axis. -/
theorem mem_blk (t : Fin cfg4.N) (i : S50000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v86).slice (win4_2.rect t)).set ↔ _
  rw [View.set_slice_whole, Rect.mem_set_unit]
  exact Iff.rfl

/-- Row r of the array lies in the block of point r / 10000: the five blocks of 10000 rows tile the 50000 rows. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 5 := Gen.N_4
  refine ⟨⟨(i 0).val / 10000, by rw [hN]; omega⟩, Gen.flush4_2 _, ?_⟩
  rw [mem_blk]
  obtain ⟨e0, e1, e2, e3, e4, e5⟩ := idx_facts ⟨(i 0).val / 10000, by rw [hN]; omega⟩
  intro a
  match a with
  | ⟨0, _⟩ =>
    show win4_2.index _ (0 : Fin 2) * 10000 ≤ (i 0).val ∧ (i 0).val < win4_2.index _ (0 : Fin 2) * 10000 + 10000
    rw [e4]; show (i 0).val / 10000 * 10000 ≤ (i 0).val ∧ (i 0).val < (i 0).val / 10000 * 10000 + 10000; omega
  | ⟨1, _⟩ =>
    show win4_2.index _ (1 : Fin 2) * 128 ≤ (i 1).val ∧ (i 1).val < win4_2.index _ (1 : Fin 2) * 128 + 128
    rw [e5]; omega

/-- The region's result array is the product of the two arrays it reads. -/
theorem value (c : Dev nD) :
    (Gen.dat4 (F := Ideal) V c).arrAt 2 cfg4.N
      = Cert.Net.dense (n := 50000) (K := 128) (M := 128) (V c main_v83) (V c main_v85) :=
  (Gen.dat4 V c).arrAt_eq_of_cover 2 (Cert.Net.dense (n := 50000) (K := 128) (M := 128) (V c main_v83) (V c main_v85))
    (fun t _ => flushed_eq V c t) cover

end Cert.KernelIdeal.Region4

end
-- ==== Proof.Region5.lean ====
/-
  The third normalisation region, as one function of the arrays it reads.

  The region tiles the 50000 rows of the aggregate, of the residual (the layer's input) and of the output in ten blocks of
  5000 rows, all 128 channels each; the five per-channel parameters (bias, scale γ, shift β, running mean μ, running
  variance σ²) are rows of 128 entries, whole at every point.  At a point the body computes, entry by entry of its block,
      x = ((a + b) − μ) · (σ² + ε)^(−1/2) · γ + β + h,
  the bias added first, then the mean removed, then the reciprocal root, the scale and the shift, in that order, and the
  residual entry h added last; it keeps x where x > 0 and multiplies it by the slope elsewhere.  The strict test is the
  leaky rectifier itself: a positive entry is kept, any other is scaled.  Block t is written back to rows
  5000·t … 5000·t + 4999 of the output, so row r is written by point r / 5000 and the ten blocks cover the array.
-/
import proofs.«132849_j12000138625377_2_alg».proof.Proof.Gen.KernelIdeal.Frame
import proofs.«132849_j12000138625377_2_alg».proof.Proof.Spec
import Idealize.ShloMosaic.Lib.Pipeline.Value
import Idealize.ShloMosaic.Lib.ValueLayout
import Idealize.ShloMosaic.Lib.ValueIdx

noncomputable section

namespace Cert.KernelIdeal.Region5

open Cert.KernelIdeal Idealize.ShloMosaic Idealize.ShloMosaic.TcCoe Idealize.ShloMosaic.ValueIdx Idealize.SL.Sem
open Idealize.ShloMosaic.Pipeline (Dat)

/-- A row of 128 entries broadcast over 5000 rows reads, at (p, q), the row's entry q. -/
theorem row_at (x : Vec Ideal S1x128 .f32) (p : Fin 5000) (q : Fin 128) :
    broadcastTo S5000x128 x Gen.broadcasts_S1x128_S5000x128 (ix2 p q) = x (ix2 (0 : Fin 1) q) := by
  refine broadcastTo_apply x _ (ix2 p q) (ix2 (0 : Fin 1) q) (fun a => ?_)
  match a with
  | ⟨0, _⟩ => rfl
  | ⟨1, _⟩ => rfl

/-- The body's result at entry (p, q) of a block: the rectifier of the normalised entry plus the residual entry, the
    parameters read at channel q.  Every operation but the broadcasts is entry by entry, the steps come in the order of
    `Cert.Net.norm1`, and the residual is added last, before the test. -/
theorem pay_apply (a : Vec Ideal S5000x128 .f32) (b mu var g beta : Vec Ideal S1x128 .f32) (h : Vec Ideal S5000x128 .f32)
    (p : Fin 5000) (q : Fin 128) :
    Gen.k5_pay1 a b mu var g beta h (ix2 p q)
      = Cert.Net.lrelu (Cert.Net.norm1 (a (ix2 p q)) (b (ix2 (0 : Fin 1) q)) (mu (ix2 (0 : Fin 1) q)) (var (ix2 (0 : Fin 1) q))
          (g (ix2 (0 : Fin 1) q)) (beta (ix2 (0 : Fin 1) q)) + h (ix2 p q)) := by
  unfold Gen.k5_pay1
  simp only [shapeCast_self]
  unfold select cmpf mulf addf subf rsqrt broadcast
  beta_reduce
  rw [row_at b p q, row_at mu p q, row_at g p q, row_at beta p q, row_at _ p q]
  exact Cert.Net.select_gt _

/-- The zero offsets of a whole-block access. -/
theorem hz : (![0, 0] : Fin 2 → Nat) = fun _ => 0 := funext fun a => by fin_cases a <;> rfl

/-- The index maps over the ten points: the aggregate's block and the residual's move with the output's, whose block index
    is the point itself on the rows and zero on the channels; every parameter stays at block (0, 0). -/
theorem idx_facts : ∀ t : Fin cfg5.N,
    win5_0.index t (0 : Fin 2) = win5_7.index t (0 : Fin 2) ∧ win5_0.index t (1 : Fin 2) = win5_7.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = win5_7.index t (0 : Fin 2) ∧ win5_6.index t (1 : Fin 2) = win5_7.index t (1 : Fin 2)
    ∧ win5_7.index t (0 : Fin 2) = t.val ∧ win5_7.index t (1 : Fin 2) = 0 :=
  (by decide +kernel : ∀ t : Fin grid5.N, _)

variable (V : (c : Dev nD) → (b : Ref sig .tc) → Buf (Elt Ideal) ((c : Thread nD τ).loc b))

/-- Block t of the aggregate holds rows 5000·t … 5000·t + 4999, all 128 channels: its entry (p, q) is the array's
    entry (5000·t + p, q). -/
theorem emb_agg (t : Fin cfg5.N) (p : Fin 5000) (q : Fin 128) :
    ((cfg5.win 0).blk t).view.emb (ix2 p q)
      = (ix2 (⟨t.val * 5000 + p.val, by have := t.isLt; have hN : cfg5.N = 10 := Gen.N_5; omega⟩ : Fin 50000) q : S50000x128.Idx) := by
  obtain ⟨e00, e01, -, -, -, -, -, -, -, -, -, -, -, -, e70, e71⟩ := idx_facts t
  funext a; apply Fin.ext
  match a with
  | ⟨0, _⟩ => show win5_0.index t (0 : Fin 2) * 5000 + 1 * p.val = t.val * 5000 + p.val; omega
  | ⟨1, _⟩ => show win5_0.index t (1 : Fin 2) * 128 + 1 * q.val = q.val; omega

/-- The residual's block t is the same rectangle of rows. -/
theorem emb_res (t : Fin cfg5.N) (p : Fin 5000) (q : Fin 128) :
    ((cfg5.win 6).blk t).view.emb (ix2 p q)
      = (ix2 (⟨t.val * 5000 + p.val, by have := t.isLt; have hN : cfg5.N = 10 := Gen.N_5; omega⟩ : Fin 50000) q : S50000x128.Idx) := by
  obtain ⟨-, -, -, -, -, -, -, -, -, -, -, -, e60, e61, e70, e71⟩ := idx_facts t
  funext a; apply Fin.ext
  match a with
  | ⟨0, _⟩ => show win5_6.index t (0 : Fin 2) * 5000 + 1 * p.val = t.val * 5000 + p.val; omega
  | ⟨1, _⟩ => show win5_6.index t (1 : Fin 2) * 128 + 1 * q.val = q.val; omega

/-- So is the output's. -/
theorem emb_out (t : Fin cfg5.N) (p : Fin 5000) (q : Fin 128) :
    ((cfg5.win 7).blk t).view.emb (ix2 p q)
      = (ix2 (⟨t.val * 5000 + p.val, by have := t.isLt; have hN : cfg5.N = 10 := Gen.N_5; omega⟩ : Fin 50000) q : S50000x128.Idx) := by
  obtain ⟨-, -, -, -, -, -, -, -, -, -, -, -, -, -, e70, e71⟩ := idx_facts t
  funext a; apply Fin.ext
  match a with
  | ⟨0, _⟩ => show win5_7.index t (0 : Fin 2) * 5000 + 1 * p.val = t.val * 5000 + p.val; omega
  | ⟨1, _⟩ => show win5_7.index t (1 : Fin 2) * 128 + 1 * q.val = q.val; omega

/-- A per-channel parameter's block is its whole row at every point. -/
theorem emb_par1 (t : Fin cfg5.N) (q : Fin 128) :
    ((cfg5.win 1).blk t).view.emb (ix2 (0 : Fin 1) q) = (ix2 (0 : Fin 1) q : S1x128.Idx) := by
  obtain ⟨-, -, e0, e1, -⟩ := idx_facts t
  funext a; apply Fin.ext
  match a with
  | ⟨0, _⟩ => show win5_1.index t (0 : Fin 2) * 1 + 1 * 0 = 0; omega
  | ⟨1, _⟩ => show win5_1.index t (1 : Fin 2) * 128 + 1 * q.val = q.val; omega
theorem emb_par2 (t : Fin cfg5.N) (q : Fin 128) :
    ((cfg5.win 2).blk t).view.emb (ix2 (0 : Fin 1) q) = (ix2 (0 : Fin 1) q : S1x128.Idx) := by
  obtain ⟨-, -, -, -, e0, e1, -⟩ := idx_facts t
  funext a; apply Fin.ext
  match a with
  | ⟨0, _⟩ => show win5_2.index t (0 : Fin 2) * 1 + 1 * 0 = 0; omega
  | ⟨1, _⟩ => show win5_2.index t (1 : Fin 2) * 128 + 1 * q.val = q.val; omega
theorem emb_par3 (t : Fin cfg5.N) (q : Fin 128) :
    ((cfg5.win 3).blk t).view.emb (ix2 (0 : Fin 1) q) = (ix2 (0 : Fin 1) q : S1x128.Idx) := by
  obtain ⟨-, -, -, -, -, -, e0, e1, -⟩ := idx_facts t
  funext a; apply Fin.ext
  match a with
  | ⟨0, _⟩ => show win5_3.index t (0 : Fin 2) * 1 + 1 * 0 = 0; omega
  | ⟨1, _⟩ => show win5_3.index t (1 : Fin 2) * 128 + 1 * q.val = q.val; omega
theorem emb_par4 (t : Fin cfg5.N) (q : Fin 128) :
    ((cfg5.win 4).blk t).view.emb (ix2 (0 : Fin 1) q) = (ix2 (0 : Fin 1) q : S1x128.Idx) := by
  obtain ⟨-, -, -, -, -, -, -, -, e0, e1, -⟩ := idx_facts t
  funext a; apply Fin.ext
  match a with
  | ⟨0, _⟩ => show win5_4.index t (0 : Fin 2) * 1 + 1 * 0 = 0; omega
  | ⟨1, _⟩ => show win5_4.index t (1 : Fin 2) * 128 + 1 * q.val = q.val; omega
theorem emb_par5 (t : Fin cfg5.N) (q : Fin 128) :
    ((cfg5.win 5).blk t).view.emb (ix2 (0 : Fin 1) q) = (ix2 (0 : Fin 1) q : S1x128.Idx) := by
  obtain ⟨-, -, -, -, -, -, -, -, -, -, e0, e1, -⟩ := idx_facts t
  funext a; apply Fin.ext
  match a with
  | ⟨0, _⟩ => show win5_5.index t (0 : Fin 2) * 1 + 1 * 0 = 0; omega
  | ⟨1, _⟩ => show win5_5.index t (1 : Fin 2) * 128 + 1 * q.val = q.val; omega

/-- What point t writes back is block t of the normalised aggregate plus the residual, rectified: the payload at (p, q) reads
    the aggregate and the residual at row 5000·t + p and each parameter at channel q, which is where the output's block sits. -/
theorem flushed_eq (c : Dev nD) (t : Fin cfg5.N) :
    (Gen.dat5 (F := Ideal) V c).flushed 7 t = ((cfg5.win 7).blk t).view.read (Elt Ideal)
      (Cert.Net.normResAct (n := 50000) (C := 128) (V c main_v99)
        (fun q => V c main_v110 (ix2 (0 : Fin 1) q)) (fun q => V c main_v111 (ix2 (0 : Fin 1) q)) (fun q => V c main_v112 (ix2 (0 : Fin 1) q))
        (fun q => V c main_v113 (ix2 (0 : Fin 1) q)) (fun q => V c main_v114 (ix2 (0 : Fin 1) q)) (V c main_v83)) := by
  show (cfg5.win 7).cut (grid5.coords t) ((Gen.dat5 V c).after 7 t) = _
  rw [Gen.after5_7]
  unfold Gen.out5_7
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay_apply _ _ _ _ _ _ _ p q).trans ?_
  show Cert.Net.lrelu (Cert.Net.norm1 (V c main_v99 (((cfg5.win 0).blk t).view.emb (ix2 p q)))
        (V c main_v110 (((cfg5.win 1).blk t).view.emb (ix2 (0 : Fin 1) q))) (V c main_v113 (((cfg5.win 4).blk t).view.emb (ix2 (0 : Fin 1) q)))
        (V c main_v114 (((cfg5.win 5).blk t).view.emb (ix2 (0 : Fin 1) q))) (V c main_v111 (((cfg5.win 2).blk t).view.emb (ix2 (0 : Fin 1) q)))
        (V c main_v112 (((cfg5.win 3).blk t).view.emb (ix2 (0 : Fin 1) q)))
        + V c main_v83 (((cfg5.win 6).blk t).view.emb (ix2 p q)))
      = Cert.Net.normResAct (n := 50000) (C := 128) (V c main_v99)
        (fun q => V c main_v110 (ix2 (0 : Fin 1) q)) (fun q => V c main_v111 (ix2 (0 : Fin 1) q)) (fun q => V c main_v112 (ix2 (0 : Fin 1) q))
        (fun q => V c main_v113 (ix2 (0 : Fin 1) q)) (fun q => V c main_v114 (ix2 (0 : Fin 1) q)) (V c main_v83)
        (((cfg5.win 7).blk t).view.emb (ix2 p q))
  rw [emb_agg t p q, emb_par1 t q, emb_par2 t q, emb_par3 t q, emb_par4 t q, emb_par5 t q, emb_res t p q, emb_out t p q]
  rfl

/-- An index of the array lies in point t's block exactly when each coordinate lies in the block's range on its axis. -/
theorem mem_blk (t : Fin cfg5.N) (i : S50000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v115).slice (win5_7.rect t)).set ↔ _
  rw [View.set_slice_whole, Rect.mem_set_unit]
  exact Iff.rfl

/-- Row r lies in the block of point r / 5000, and every point writes its block back: the ten blocks cover the array. -/
theorem cover (i : S50000x128.Idx) : ∃ t : Fin cfg5.N, (cfg5.win 7).flush t = true ∧ i ∈ ((cfg5.win 7).blk t).view.set := by
  have hi0 : (i 0).val < 50000 := (i 0).isLt
  have hi1 : (i 1).val < 128 := (i 1).isLt
  have hN : cfg5.N = 10 := Gen.N_5
  obtain ⟨t, ht⟩ : ∃ t : Fin cfg5.N, t.val = (i 0).val / 5000 := ⟨⟨(i 0).val / 5000, by omega⟩, rfl⟩
  obtain ⟨-, -, -, -, -, -, -, -, -, -, -, -, -, -, e70, e71⟩ := idx_facts t
  refine ⟨t, Gen.flush5_7 t, ?_⟩
  rw [mem_blk]
  intro a
  match a with
  | ⟨0, _⟩ => show win5_7.index t (0 : Fin 2) * 5000 ≤ (i 0).val ∧ (i 0).val < win5_7.index t (0 : Fin 2) * 5000 + 5000; omega
  | ⟨1, _⟩ => show win5_7.index t (1 : Fin 2) * 128 ≤ (i 1).val ∧ (i 1).val < win5_7.index t (1 : Fin 2) * 128 + 128; omega

/-- The region's output array: bias, normalisation, the residual added back, and the rectifier, entry by entry. -/
theorem value (c : Dev nD) :
    (Gen.dat5 (F := Ideal) V c).arrAt 7 cfg5.N = Cert.Net.normResAct (n := 50000) (C := 128) (V c main_v99)
      (fun q => V c main_v110 (ix2 (0 : Fin 1) q)) (fun q => V c main_v111 (ix2 (0 : Fin 1) q)) (fun q => V c main_v112 (ix2 (0 : Fin 1) q))
      (fun q => V c main_v113 (ix2 (0 : Fin 1) q)) (fun q => V c main_v114 (ix2 (0 : Fin 1) q)) (V c main_v83) :=
  (Gen.dat5 (F := Ideal) V c).arrAt_eq_of_cover 7 _ (fun t _ => flushed_eq V c t) cover

end Cert.KernelIdeal.Region5

end
-- ==== Proof.Region6.lean ====
import proofs.«132849_j12000138625377_2_alg».proof.Proof.Gen.KernelIdeal.Frame
import proofs.«132849_j12000138625377_2_alg».proof.Proof.Spec
import proofs.«132849_j12000138625377_2_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.Region6

open Cert.KernelIdeal Idealize.ShloMosaic Idealize.ShloMosaic.ValueIdx Idealize.ShloMosaic.TcCoe Idealize.SL.Sem
open Idealize.ShloMosaic.Pipeline (Dat)

/-- The zero offsets of a whole-buffer rectangle, as the constant function. -/
theorem zero_offsets : (![0, 0] : Fin 2 → Nat) = fun _ => 0 := funext fun a => by fin_cases a <;> rfl

/-- The rectifier as the body spells it, entry by entry: the sum m + v where it is positive, the slope times it
    elsewhere. -/
theorem act_entry (m v : FVec Ideal S10000x128 .f32) (i : S10000x128.Idx) :
    select (cmpf .ogt (addf m v) (broadcast S10000x128 (Scalar.ofBits (F := Ideal) .f32 0x00000000#32))) (addf m v)
        (mulf (broadcast S10000x128 (Scalar.ofBits (F := Ideal) .f32 0x3C23D70A#32)) (addf m v)) i
      = Cert.Net.lrelu (m i + v i) :=
  Cert.Net.select_gt (m i + v i)

/-- Entry (p, q) of the body's result is the rectifier of (the sum over k of x (p, k) · w (k, q)) + b (0, q): a cast to
    the same shape and rounding to the narrow format are the identity on the extended reals, the product into a zero
    accumulator is the contraction's sum, and the one bias row is read at the entry's column. -/
theorem pay_apply (x : Vec Ideal S10000x128 .f32) (w : Vec Ideal S128x128 .f32) (b : Vec Ideal S1x128 .f32)
    (p : Fin 10000) (q : Fin 128) :
    Gen.k6_pay1 x w b (ix2 p q)
      = Cert.Net.lrelu ((∑ k : Fin 128, x (ix2 p k) * w (ix2 k q)) + b (ix2 (0 : Fin 1) q)) := by
  unfold Gen.k6_pay1
  refine (act_entry _ _ (ix2 p q)).trans (congrArg Cert.Net.lrelu (congrArg₂ (· + ·) ?_ ?_))
  · rw [shapeCast_self]
    exact Cert.PlainDot.matmul_zero_apply (n := 10000) (K := 128) (M := 128)
      dot_S10000x128_S128x128_S10000x128_1_0_0_1_n_n rfl rfl
      (fun _ _ => rfl) (fun _ _ => rfl) (fun _ _ => rfl) (fun _ _ => rfl) none x w p q
  · rw [shapeCast_self]
    exact broadcastTo_1b_ab_apply b _ p q

/-- One entry of a row block of the layer: when x holds rows r … r + 9999 of X, w is W and b is the bias row B, entry j
    of the body's result is entry (r + j₀, j₁) of the rectified X · W + B. -/
theorem block_entry (X : Cert.Net.Mat 50000 128) (W : Cert.Net.Mat 128 128) (B : Cert.Net.Mat 1 128)
    (x : Vec Ideal S10000x128 .f32) (w : Vec Ideal S128x128 .f32) (b : Vec Ideal S1x128 .f32) (r : Nat)
    (hx : ∀ (y : S10000x128.Idx) (i : S50000x128.Idx), (i 0).val = r + (y 0).val → (i 1).val = (y 1).val → x y = X i)
    (hw : ∀ (y i : S128x128.Idx), (i 0).val = (y 0).val → (i 1).val = (y 1).val → w y = W i)
    (hb : ∀ (y i : S1x128.Idx), (i 0).val = (y 0).val → (i 1).val = (y 1).val → b y = B i)
    (j : S10000x128.Idx) (i : S50000x128.Idx) (hi0 : (i 0).val = r + (j 0).val) (hi1 : (i 1).val = (j 1).val) :
    Gen.k6_pay1 x w b j = Cert.Net.denseAct X W (fun q => B (ix2 (0 : Fin 1) q)) i := by
  obtain ⟨p, q, rfl⟩ : ∃ (p : Fin 10000) (q : Fin 128), j = ix2 p q := ⟨j 0, j 1, eq_ix2 j⟩
  obtain ⟨a, d, rfl⟩ : ∃ (a : Fin 50000) (d : Fin 128), i = ix2 a d := ⟨i 0, i 1, eq_ix2 i⟩
  rw [pay_apply]
  show _ = Cert.Net.lrelu ((∑ k : Fin 128, X (ix2 a k) * W (ix2 k d)) + B (ix2 (0 : Fin 1) d))
  rw [hb (ix2 (0 : Fin 1) q) (ix2 (0 : Fin 1) d) rfl hi1]
  refine congrArg (fun s => Cert.Net.lrelu (s + B (ix2 (0 : Fin 1) d))) (Finset.sum_congr rfl fun k _ => ?_)
  rw [hx (ix2 p k) (ix2 a k) hi0 rfl, hw (ix2 k q) (ix2 k d) rfl hi1]

variable (V : (c : Dev nD) → (b : Ref sig .tc) → Buf (Elt Ideal) ((c : Thread nD τ).loc b))

/-- The printed index maps over the grid: at point t the row windows sit at block t, the weight and bias windows at
    block 0. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is rows 10000 t … 10000 t + 9999 of the layer's result. -/
theorem flushed_eq (c : Dev nD) (t : Fin cfg6.N) :
    (Gen.dat6 (F := Ideal) V c).flushed 3 t
      = ((cfg6.win 3).blk t).view.read (Elt Ideal)
          (Cert.Net.denseAct (n := 50000) (K := 128) (M := 128) (V c main_v115) (V c main_arg15)
            (fun q => V c main_v116 (ix2 (0 : Fin 1) q))) := by
  show (cfg6.win 3).cut (grid6.coords t) ((Gen.dat6 V c).after 3 t) = _
  rw [Gen.after6_3]
  unfold Gen.out6_3
  rw [View.canon_unit_zero zero_offsets]
  simp only [View.ld_unit_zero (S := S10000x128) zero_offsets, View.ld_unit_zero (S := S128x128) zero_offsets,
    View.ld_unit_zero (S := S1x128) zero_offsets]
  obtain ⟨e0, e1, e2, e3, e4, e5, e6, e7⟩ := idx_facts t
  funext j
  refine block_entry (V c main_v115) (V c main_arg15) (V c main_v116) (Gen.iblk6 V c 0 t) (Gen.iblk6 V c 1 t)
    (Gen.iblk6 V c 2 t) (t.val * 10000) ?_ ?_ ?_ j (((cfg6.win 3).blk t).view.emb j) ?_ ?_
  · intro y i h0 h1
    show V c main_v115 (((cfg6.win 0).blk t).view.emb y) = V c main_v115 i
    refine congrArg _ (funext fun a => Fin.ext ?_)
    match a with
    | ⟨0, _⟩ => show win6_0.index t (0 : Fin 2) * 10000 + 1 * (y 0).val = (i 0).val; omega
    | ⟨1, _⟩ => show win6_0.index t (1 : Fin 2) * 128 + 1 * (y 1).val = (i 1).val; omega
  · intro y i h0 h1
    show V c main_arg15 (((cfg6.win 1).blk t).view.emb y) = V c main_arg15 i
    refine congrArg _ (funext fun a => Fin.ext ?_)
    match a with
    | ⟨0, _⟩ => show win6_1.index t (0 : Fin 2) * 128 + 1 * (y 0).val = (i 0).val; omega
    | ⟨1, _⟩ => show win6_1.index t (1 : Fin 2) * 128 + 1 * (y 1).val = (i 1).val; omega
  · intro y i h0 h1
    show V c main_v116 (((cfg6.win 2).blk t).view.emb y) = V c main_v116 i
    refine congrArg _ (funext fun a => Fin.ext ?_)
    match a with
    | ⟨0, _⟩ => show win6_2.index t (0 : Fin 2) * 1 + 1 * (y 0).val = (i 0).val; omega
    | ⟨1, _⟩ => show win6_2.index t (1 : Fin 2) * 128 + 1 * (y 1).val = (i 1).val; omega
  · show win6_3.index t (0 : Fin 2) * 10000 + 1 * (j 0).val = t.val * 10000 + (j 0).val; omega
  · show win6_3.index t (1 : Fin 2) * 128 + 1 * (j 1).val = (j 1).val; omega

/-- An index of the array is in point t's block iff each coordinate is in the block's range on its axis. -/
theorem mem_blk (t : Fin cfg6.N) (i : S50000x128.Idx) :
    i ∈ ((cfg6.win 3).blk t).view.set ↔ ∀ a : Fin 2, win6_3.index t a * S10000x128.size a ≤ (i a).val
      ∧ (i a).val < win6_3.index t a * S10000x128.size a + S10000x128.size a := by
  show i ∈ ((View.whole main_v117).slice (win6_3.rect t)).set ↔ _
  rw [View.set_slice_whole, Rect.mem_set_unit]
  exact Iff.rfl

/-- Row r of the array lies in the block of point r / 10000: the five blocks of 10000 rows tile the 50000 rows. -/
theorem cover (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 5 := Gen.N_6
  refine ⟨⟨(i 0).val / 10000, by rw [hN]; omega⟩, Gen.flush6_3 _, ?_⟩
  rw [mem_blk]
  obtain ⟨e0, e1, e2, e3, e4, e5, e6, e7⟩ := idx_facts ⟨(i 0).val / 10000, by rw [hN]; omega⟩
  intro a
  match a with
  | ⟨0, _⟩ =>
    show win6_3.index _ (0 : Fin 2) * 10000 ≤ (i 0).val ∧ (i 0).val < win6_3.index _ (0 : Fin 2) * 10000 + 10000
    rw [e6]; show (i 0).val / 10000 * 10000 ≤ (i 0).val ∧ (i 0).val < (i 0).val / 10000 * 10000 + 10000; omega
  | ⟨1, _⟩ =>
    show win6_3.index _ (1 : Fin 2) * 128 ≤ (i 1).val ∧ (i 1).val < win6_3.index _ (1 : Fin 2) * 128 + 128
    rw [e7]; omega

/-- The region's result array is the dense layer, with bias and rectifier, of the arrays it reads. -/
theorem value (c : Dev nD) :
    (Gen.dat6 (F := Ideal) V c).arrAt 3 cfg6.N
      = Cert.Net.denseAct (n := 50000) (K := 128) (M := 128) (V c main_v115) (V c main_arg15)
          (fun q => V c main_v116 (ix2 (0 : Fin 1) q)) :=
  (Gen.dat6 V c).arrAt_eq_of_cover 3
    (Cert.Net.denseAct (n := 50000) (K := 128) (M := 128) (V c main_v115) (V c main_arg15)
      (fun q => V c main_v116 (ix2 (0 : Fin 1) q)))
    (fun t _ => flushed_eq V c t) cover

end Cert.KernelIdeal.Region6

end
-- ==== Proof.Region7.lean ====
import proofs.«132849_j12000138625377_2_alg».proof.Proof.Gen.KernelIdeal.Frame
import proofs.«132849_j12000138625377_2_alg».proof.Proof.Spec
import proofs.«132849_j12000138625377_2_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.Region7

open Cert.KernelIdeal Idealize.ShloMosaic Idealize.ShloMosaic.ValueIdx Idealize.ShloMosaic.TcCoe Idealize.SL.Sem
open Idealize.ShloMosaic.Pipeline (Dat)

/-- The zero offsets of a whole-buffer rectangle, as the constant function. -/
theorem zero_offsets : (![0, 0] : Fin 2 → Nat) = fun _ => 0 := funext fun a => by fin_cases a <;> rfl

/-- A sum of two arrays read at an entry is the sum of the entries. -/
theorem sum_entry (m v : FVec Ideal S10000x64 .f32) (i : S10000x64.Idx) : addf m v i = m i + v i := rfl

/-- Entry (p, q) of the body's result is (the sum over k of x (p, k) · w (k, q)) + b (0, q): a cast to the same shape and
    rounding to the narrow format are the identity on the extended reals, the product into a zero accumulator is the
    contraction's sum, and the one bias row is read at the entry's column. -/
theorem pay_apply (x : Vec Ideal S10000x128 .f32) (w : Vec Ideal S128x64 .f32) (b : Vec Ideal S1x64 .f32)
    (p : Fin 10000) (q : Fin 64) :
    Gen.k7_pay1 x w b (ix2 p q) = (∑ k : Fin 128, x (ix2 p k) * w (ix2 k q)) + b (ix2 (0 : Fin 1) q) := by
  unfold Gen.k7_pay1
  refine (sum_entry _ _ (ix2 p q)).trans (congrArg₂ (· + ·) ?_ ?_)
  · rw [shapeCast_self]
    exact Cert.PlainDot.matmul_zero_apply (n := 10000) (K := 128) (M := 64)
      dot_S10000x128_S128x64_S10000x64_1_0_0_1_n_n rfl rfl
      (fun _ _ => rfl) (fun _ _ => rfl) (fun _ _ => rfl) (fun _ _ => rfl) none x w p q
  · rw [shapeCast_self]
    exact broadcastTo_1b_ab_apply b _ p q

/-- One entry of a row block of the layer: when x holds rows r … r + 9999 of X, w is W and b is the bias row B, entry j
    of the body's result is entry (r + j₀, j₁) of X · W + B. -/
theorem block_entry (X : Cert.Net.Mat 50000 128) (W : Cert.Net.Mat 128 64) (B : Cert.Net.Mat 1 64)
    (x : Vec Ideal S10000x128 .f32) (w : Vec Ideal S128x64 .f32) (b : Vec Ideal S1x64 .f32) (r : Nat)
    (hx : ∀ (y : S10000x128.Idx) (i : S50000x128.Idx), (i 0).val = r + (y 0).val → (i 1).val = (y 1).val → x y = X i)
    (hw : ∀ (y i : S128x64.Idx), (i 0).val = (y 0).val → (i 1).val = (y 1).val → w y = W i)
    (hb : ∀ (y i : S1x64.Idx), (i 0).val = (y 0).val → (i 1).val = (y 1).val → b y = B i)
    (j : S10000x64.Idx) (i : S50000x64.Idx) (hi0 : (i 0).val = r + (j 0).val) (hi1 : (i 1).val = (j 1).val) :
    Gen.k7_pay1 x w b j = Cert.Net.denseBias X W (fun q => B (ix2 (0 : Fin 1) q)) i := by
  obtain ⟨p, q, rfl⟩ : ∃ (p : Fin 10000) (q : Fin 64), j = ix2 p q := ⟨j 0, j 1, eq_ix2 j⟩
  obtain ⟨a, d, rfl⟩ : ∃ (a : Fin 50000) (d : Fin 64), i = ix2 a d := ⟨i 0, i 1, eq_ix2 i⟩
  rw [pay_apply]
  show _ = (∑ k : Fin 128, X (ix2 a k) * W (ix2 k d)) + B (ix2 (0 : Fin 1) d)
  rw [hb (ix2 (0 : Fin 1) q) (ix2 (0 : Fin 1) d) rfl hi1]
  refine congrArg (fun s => s + B (ix2 (0 : Fin 1) d)) (Finset.sum_congr rfl fun k _ => ?_)
  rw [hx (ix2 p k) (ix2 a k) hi0 rfl, hw (ix2 k q) (ix2 k d) rfl hi1]

variable (V : (c : Dev nD) → (b : Ref sig .tc) → Buf (Elt Ideal) ((c : Thread nD τ).loc b))

/-- The printed index maps over the grid: at point t the row windows sit at block t, the weight and bias windows at
    block 0. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back is rows 10000 t … 10000 t + 9999 of the layer's result. -/
theorem flushed_eq (c : Dev nD) (t : Fin cfg7.N) :
    (Gen.dat7 (F := Ideal) V c).flushed 3 t
      = ((cfg7.win 3).blk t).view.read (Elt Ideal)
          (Cert.Net.denseBias (n := 50000) (K := 128) (M := 64) (V c main_v117) (V c main_arg17)
            (fun q => V c main_v118 (ix2 (0 : Fin 1) q))) := by
  show (cfg7.win 3).cut (grid7.coords t) ((Gen.dat7 V c).after 3 t) = _
  rw [Gen.after7_3]
  unfold Gen.out7_3
  rw [View.canon_unit_zero zero_offsets]
  simp only [View.ld_unit_zero (S := S10000x128) zero_offsets, View.ld_unit_zero (S := S128x64) zero_offsets,
    View.ld_unit_zero (S := S1x64) zero_offsets]
  obtain ⟨e0, e1, e2, e3, e4, e5, e6, e7⟩ := idx_facts t
  funext j
  refine block_entry (V c main_v117) (V c main_arg17) (V c main_v118) (Gen.iblk7 V c 0 t) (Gen.iblk7 V c 1 t)
    (Gen.iblk7 V c 2 t) (t.val * 10000) ?_ ?_ ?_ j (((cfg7.win 3).blk t).view.emb j) ?_ ?_
  · intro y i h0 h1
    show V c main_v117 (((cfg7.win 0).blk t).view.emb y) = V c main_v117 i
    refine congrArg _ (funext fun a => Fin.ext ?_)
    match a with
    | ⟨0, _⟩ => show win7_0.index t (0 : Fin 2) * 10000 + 1 * (y 0).val = (i 0).val; omega
    | ⟨1, _⟩ => show win7_0.index t (1 : Fin 2) * 128 + 1 * (y 1).val = (i 1).val; omega
  · intro y i h0 h1
    show V c main_arg17 (((cfg7.win 1).blk t).view.emb y) = V c main_arg17 i
    refine congrArg _ (funext fun a => Fin.ext ?_)
    match a with
    | ⟨0, _⟩ => show win7_1.index t (0 : Fin 2) * 128 + 1 * (y 0).val = (i 0).val; omega
    | ⟨1, _⟩ => show win7_1.index t (1 : Fin 2) * 64 + 1 * (y 1).val = (i 1).val; omega
  · intro y i h0 h1
    show V c main_v118 (((cfg7.win 2).blk t).view.emb y) = V c main_v118 i
    refine congrArg _ (funext fun a => Fin.ext ?_)
    match a with
    | ⟨0, _⟩ => show win7_2.index t (0 : Fin 2) * 1 + 1 * (y 0).val = (i 0).val; omega
    | ⟨1, _⟩ => show win7_2.index t (1 : Fin 2) * 64 + 1 * (y 1).val = (i 1).val; omega
  · show win7_3.index t (0 : Fin 2) * 10000 + 1 * (j 0).val = t.val * 10000 + (j 0).val; omega
  · show win7_3.index t (1 : Fin 2) * 64 + 1 * (j 1).val = (j 1).val; omega

/-- An index of the array is in point t's block iff each coordinate is in the block's range on its axis. -/
theorem mem_blk (t : Fin cfg7.N) (i : S50000x64.Idx) :
    i ∈ ((cfg7.win 3).blk t).view.set ↔ ∀ a : Fin 2, win7_3.index t a * S10000x64.size a ≤ (i a).val
      ∧ (i a).val < win7_3.index t a * S10000x64.size a + S10000x64.size a := by
  show i ∈ ((View.whole main_v119).slice (win7_3.rect t)).set ↔ _
  rw [View.set_slice_whole, Rect.mem_set_unit]
  exact Iff.rfl

/-- Row r of the array lies in the block of point r / 10000: the five blocks of 10000 rows tile the 50000 rows. -/
theorem cover (i : S50000x64.Idx) :
    ∃ t : Fin cfg7.N, (cfg7.win 3).flush t = true ∧ i ∈ ((cfg7.win 3).blk t).view.set := by
  have hi0 : (i 0).val < 50000 := (i 0).isLt
  have hi1 : (i 1).val < 64 := (i 1).isLt
  have hN : cfg7.N = 5 := Gen.N_7
  refine ⟨⟨(i 0).val / 10000, by rw [hN]; omega⟩, Gen.flush7_3 _, ?_⟩
  rw [mem_blk]
  obtain ⟨e0, e1, e2, e3, e4, e5, e6, e7⟩ := idx_facts ⟨(i 0).val / 10000, by rw [hN]; omega⟩
  intro a
  match a with
  | ⟨0, _⟩ =>
    show win7_3.index _ (0 : Fin 2) * 10000 ≤ (i 0).val ∧ (i 0).val < win7_3.index _ (0 : Fin 2) * 10000 + 10000
    rw [e6]; show (i 0).val / 10000 * 10000 ≤ (i 0).val ∧ (i 0).val < (i 0).val / 10000 * 10000 + 10000; omega
  | ⟨1, _⟩ =>
    show win7_3.index _ (1 : Fin 2) * 64 ≤ (i 1).val ∧ (i 1).val < win7_3.index _ (1 : Fin 2) * 64 + 64
    rw [e7]; omega

/-- The region's result array is the dense layer, with bias, of the arrays it reads. -/
theorem value (c : Dev nD) :
    (Gen.dat7 (F := Ideal) V c).arrAt 3 cfg7.N
      = Cert.Net.denseBias (n := 50000) (K := 128) (M := 64) (V c main_v117) (V c main_arg17)
          (fun q => V c main_v118 (ix2 (0 : Fin 1) q)) :=
  (Gen.dat7 V c).arrAt_eq_of_cover 3
    (Cert.Net.denseBias (n := 50000) (K := 128) (M := 64) (V c main_v117) (V c main_arg17)
      (fun q => V c main_v118 (ix2 (0 : Fin 1) q)))
    (fun t _ => flushed_eq V c t) cover

end Cert.KernelIdeal.Region7

end
-- ==== Proof.KernelValue.lean ====
/-
  The idealized kernel's result array, as the network of its nineteen arguments.

  The fold through the program's segments is walked once, front to back.  At each boundary the buffers the next segment
  reads are named: an argument still holds its launch contents; the graph's three arrays are the shared functions of the
  edge list and the edge weights; a region's output is its layer's function of the arrays the region found (the regions'
  value lemmas), which a stretch of host operations aggregates over the graph or merely keeps.  Region by region this
  builds the first layer, the two residual layers, and the two dense layers, and the last region's output is the
  network's function of the arguments.
-/
import proofs.«132849_j12000138625377_2_alg».proof.Proof.Gen.KernelIdeal.Frame
import proofs.«132849_j12000138625377_2_alg».proof.Proof.KernelSteps
import proofs.«132849_j12000138625377_2_alg».proof.Proof.KernelHost
import proofs.«132849_j12000138625377_2_alg».proof.Proof.Region0
import proofs.«132849_j12000138625377_2_alg».proof.Proof.Region1
import proofs.«132849_j12000138625377_2_alg».proof.Proof.Region2
import proofs.«132849_j12000138625377_2_alg».proof.Proof.Region3
import proofs.«132849_j12000138625377_2_alg».proof.Proof.Region4
import proofs.«132849_j12000138625377_2_alg».proof.Proof.Region5
import proofs.«132849_j12000138625377_2_alg».proof.Proof.Region6
import proofs.«132849_j12000138625377_2_alg».proof.Proof.Region7
import proofs.«132849_j12000138625377_2_alg».proof.Proof.Glue

noncomputable section

namespace Cert.KernelIdeal.Whole

open Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The layers' values, as functions of the launch contents -/

/-- The first layer's output. -/
def h1 : Cert.Glue.Arr Cert.ReferenceIdeal.S50000x128 :=
  Cert.Glue.layer1 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Cert.Glue.src (m ((c : Thread nD τ).loc main_arg1))) (Cert.Glue.dst (m ((c : Thread nD τ).loc main_arg1))) (Cert.Glue.norm (m ((c : Thread nD τ).loc main_arg1)) (m ((c : Thread nD τ).loc main_arg2)))
/-- The second layer's output. -/
def h2 : Cert.Glue.Arr Cert.ReferenceIdeal.S50000x128 :=
  Cert.Glue.layerR (h1 m c) (Cert.Glue.slab (m ((c : Thread nD τ).loc main_arg9)) (0 : Fin 2)) (Cert.Glue.rowOf (m ((c : Thread nD τ).loc main_arg10)) (0 : Fin 2)) (Cert.Glue.rowOf (m ((c : Thread nD τ).loc main_arg11)) (0 : Fin 2)) (Cert.Glue.rowOf (m ((c : Thread nD τ).loc main_arg12)) (0 : Fin 2)) (Cert.Glue.rowOf (m ((c : Thread nD τ).loc main_arg13)) (0 : Fin 2)) (Cert.Glue.rowOf (m ((c : Thread nD τ).loc main_arg14)) (0 : Fin 2)) (Cert.Glue.src (m ((c : Thread nD τ).loc main_arg1))) (Cert.Glue.dst (m ((c : Thread nD τ).loc main_arg1))) (Cert.Glue.norm (m ((c : Thread nD τ).loc main_arg1)) (m ((c : Thread nD τ).loc main_arg2)))
/-- The third layer's output. -/
def h3 : Cert.Glue.Arr Cert.ReferenceIdeal.S50000x128 :=
  Cert.Glue.layerR (h2 m c) (Cert.Glue.slab (m ((c : Thread nD τ).loc main_arg9)) (1 : Fin 2)) (Cert.Glue.rowOf (m ((c : Thread nD τ).loc main_arg10)) (1 : Fin 2)) (Cert.Glue.rowOf (m ((c : Thread nD τ).loc main_arg11)) (1 : Fin 2)) (Cert.Glue.rowOf (m ((c : Thread nD τ).loc main_arg12)) (1 : Fin 2)) (Cert.Glue.rowOf (m ((c : Thread nD τ).loc main_arg13)) (1 : Fin 2)) (Cert.Glue.rowOf (m ((c : Thread nD τ).loc main_arg14)) (1 : Fin 2)) (Cert.Glue.src (m ((c : Thread nD τ).loc main_arg1))) (Cert.Glue.dst (m ((c : Thread nD τ).loc main_arg1))) (Cert.Glue.norm (m ((c : Thread nD τ).loc main_arg1)) (m ((c : Thread nD τ).loc main_arg2)))
/-- The first dense layer's output. -/
def h4 : Cert.Glue.Arr Cert.ReferenceIdeal.S50000x128 :=
  Cert.Net.denseAct (n := 50000) (K := 128) (M := 128) (h3 m c) (m ((c : Thread nD τ).loc main_arg15)) (Cert.Glue.vec (m ((c : Thread nD τ).loc main_arg16)))

/-! ## Up to the first region: the graph's arrays -/

theorem W3_v3 : W3 m ρ c (Proc.devRef .tc main_v3) = Cert.Glue.src (m ((c : Thread nD τ).loc main_arg1)) := graph_v3 (W0 m ρ c)
theorem W3_v6 : W3 m ρ c (Proc.devRef .tc main_v6) = Cert.Glue.dst (m ((c : Thread nD τ).loc main_arg1)) := graph_v6 (W0 m ρ c)
theorem W3_v31 : W3 m ρ c (Proc.devRef .tc main_v31) = Cert.Glue.norm (m ((c : Thread nD τ).loc main_arg1)) (m ((c : Thread nD τ).loc main_arg2)) := graph_v31 (W0 m ρ c)

/-! ## The first layer -/

/-- The first region's output: the features projected. -/
theorem W4_v32 : W4 m ρ c (Proc.devRef .tc main_v32) = Cert.Net.dense (n := 50000) (K := 128) (M := 128) (m ((c : Thread nD τ).loc main_arg0)) (m ((c : Thread nD τ).loc main_arg3)) := by
  refine (W4_arr m ρ c 2).trans ((Cert.KernelIdeal.Region0.value (V3 m ρ) c).trans ?_)
  have e0 : V3 m ρ c main_arg0 = (m ((c : Thread nD τ).loc main_arg0)) := upTo3 m ρ c main_arg0 (by decide)
  have e3 : V3 m ρ c main_arg3 = (m ((c : Thread nD τ).loc main_arg3)) := upTo3 m ρ c main_arg3 (by decide)
  rw [e0, e3]

/-- Aggregated over the graph. -/
theorem W5_v45 : W5 m ρ c (Proc.devRef .tc main_v45) = Cert.Glue.aggr (Cert.Net.dense (n := 50000) (K := 128) (M := 128) (m ((c : Thread nD τ).loc main_arg0)) (m ((c : Thread nD τ).loc main_arg3))) (Cert.Glue.src (m ((c : Thread nD τ).loc main_arg1))) (Cert.Glue.dst (m ((c : Thread nD τ).loc main_arg1))) (Cert.Glue.norm (m ((c : Thread nD τ).loc main_arg1)) (m ((c : Thread nD τ).loc main_arg2))) := by
  refine (host1_v45 (W4 m ρ c)).trans ?_
  rw [W4_v32 m ρ c, graph4 m ρ c main_v3 (by decide), graph4 m ρ c main_v6 (by decide), graph4 m ρ c main_v31 (by decide),
    W3_v3 m ρ c, W3_v6 m ρ c, W3_v31 m ρ c]

/-- The second region's output: the first layer. -/
theorem W6_v51 : W6 m ρ c (Proc.devRef .tc main_v51) = h1 m c := by
  refine (W6_arr m ρ c 6).trans ((Cert.KernelIdeal.Region1.value (V5 m ρ) c).trans ?_)
  have e45 : V5 m ρ c main_v45 = _ := W5_v45 m ρ c
  have e46 : (fun q : Fin 128 => V5 m ρ c main_v46 (ix2 (0 : Fin 1) q)) = Cert.Glue.vec (m ((c : Thread nD τ).loc main_arg4)) :=
    (host1_row46 (W4 m ρ c)).trans (congrArg Cert.Glue.vec (upTo4 m ρ c main_arg4 (by decide)))
  have e47 : (fun q : Fin 128 => V5 m ρ c main_v47 (ix2 (0 : Fin 1) q)) = Cert.Glue.vec (m ((c : Thread nD τ).loc main_arg5)) :=
    (host1_row47 (W4 m ρ c)).trans (congrArg Cert.Glue.vec (upTo4 m ρ c main_arg5 (by decide)))
  have e48 : (fun q : Fin 128 => V5 m ρ c main_v48 (ix2 (0 : Fin 1) q)) = Cert.Glue.vec (m ((c : Thread nD τ).loc main_arg6)) :=
    (host1_row48 (W4 m ρ c)).trans (congrArg Cert.Glue.vec (upTo4 m ρ c main_arg6 (by decide)))
  have e49 : (fun q : Fin 128 => V5 m ρ c main_v49 (ix2 (0 : Fin 1) q)) = Cert.Glue.vec (m ((c : Thread nD τ).loc main_arg7)) :=
    (host1_row49 (W4 m ρ c)).trans (congrArg Cert.Glue.vec (upTo4 m ρ c main_arg7 (by decide)))
  have e50 : (fun q : Fin 128 => V5 m ρ c main_v50 (ix2 (0 : Fin 1) q)) = Cert.Glue.vec (m ((c : Thread nD τ).loc main_arg8)) :=
    (host1_row50 (W4 m ρ c)).trans (congrArg Cert.Glue.vec (upTo4 m ρ c main_arg8 (by decide)))
  rw [e45, e46, e47, e48, e49, e50]
  first | rfl | done

/-! ## The second layer -/

theorem W7_v51 : W7 m ρ c (Proc.devRef .tc main_v51) = h1 m c := (keep2 (W6 m ρ c) main_v51 (by decide)).trans (W6_v51 m ρ c)
theorem W7_v53 : W7 m ρ c (Proc.devRef .tc main_v53) = Cert.Glue.slab (m ((c : Thread nD τ).loc main_arg9)) (0 : Fin 2) :=
  (host2_v53 (W6 m ρ c)).trans (congrArg (fun x => Cert.Glue.slab x (0 : Fin 2)) (upTo6 m ρ c main_arg9 (by decide)))

theorem W8_v54 : W8 m ρ c (Proc.devRef .tc main_v54) = Cert.Net.dense (n := 50000) (K := 128) (M := 128) (h1 m c) (Cert.Glue.slab (m ((c : Thread nD τ).loc main_arg9)) (0 : Fin 2)) := by
  refine (W8_arr m ρ c 2).trans ((Cert.KernelIdeal.Region2.value (V7 m ρ) c).trans ?_)
  have e0 : V7 m ρ c main_v51 = _ := W7_v51 m ρ c
  have e1 : V7 m ρ c main_v53 = _ := W7_v53 m ρ c
  rw [e0, e1]

theorem W9_v67 : W9 m ρ c (Proc.devRef .tc main_v67) = Cert.Glue.aggr (Cert.Net.dense (n := 50000) (K := 128) (M := 128) (h1 m c) (Cert.Glue.slab (m ((c : Thread nD τ).loc main_arg9)) (0 : Fin 2))) (Cert.Glue.src (m ((c : Thread nD τ).loc main_arg1))) (Cert.Glue.dst (m ((c : Thread nD τ).loc main_arg1))) (Cert.Glue.norm (m ((c : Thread nD τ).loc main_arg1)) (m ((c : Thread nD τ).loc main_arg2))) := by
  refine (host3_v67 (W8 m ρ c)).trans ?_
  rw [W8_v54 m ρ c, graph8 m ρ c main_v3 (by decide), graph8 m ρ c main_v6 (by decide), graph8 m ρ c main_v31 (by decide),
    W3_v3 m ρ c, W3_v6 m ρ c, W3_v31 m ρ c]

theorem W9_v51 : W9 m ρ c (Proc.devRef .tc main_v51) = h1 m c :=
  (keep3 (W8 m ρ c) main_v51 (by decide)).trans ((W8_v51 m ρ c).trans (W7_v51 m ρ c))

/-- The fourth region's output: the second layer. -/
theorem W10_v83 : W10 m ρ c (Proc.devRef .tc main_v83) = h2 m c := by
  refine (W10_arr m ρ c 7).trans ((Cert.KernelIdeal.Region3.value (V9 m ρ) c).trans ?_)
  have e67 : V9 m ρ c main_v67 = _ := W9_v67 m ρ c
  have e51 : V9 m ρ c main_v51 = _ := W9_v51 m ρ c
  have e78 : (fun q : Fin 128 => V9 m ρ c main_v78 (ix2 (0 : Fin 1) q)) = Cert.Glue.rowOf (m ((c : Thread nD τ).loc main_arg10)) (0 : Fin 2) :=
    (host3_row78 (W8 m ρ c)).trans (congrArg (fun x => Cert.Glue.rowOf x (0 : Fin 2)) (upTo8 m ρ c main_arg10 (by decide)))
  have e79 : (fun q : Fin 128 => V9 m ρ c main_v79 (ix2 (0 : Fin 1) q)) = Cert.Glue.rowOf (m ((c : Thread nD τ).loc main_arg11)) (0 : Fin 2) :=
    (host3_row79 (W8 m ρ c)).trans (congrArg (fun x => Cert.Glue.rowOf x (0 : Fin 2)) (upTo8 m ρ c main_arg11 (by decide)))
  have e80 : (fun q : Fin 128 => V9 m ρ c main_v80 (ix2 (0 : Fin 1) q)) = Cert.Glue.rowOf (m ((c : Thread nD τ).loc main_arg12)) (0 : Fin 2) :=
    (host3_row80 (W8 m ρ c)).trans (congrArg (fun x => Cert.Glue.rowOf x (0 : Fin 2)) (upTo8 m ρ c main_arg12 (by decide)))
  have e81 : (fun q : Fin 128 => V9 m ρ c main_v81 (ix2 (0 : Fin 1) q)) = Cert.Glue.rowOf (m ((c : Thread nD τ).loc main_arg13)) (0 : Fin 2) :=
    (host3_row81 (W8 m ρ c)).trans (congrArg (fun x => Cert.Glue.rowOf x (0 : Fin 2)) (upTo8 m ρ c main_arg13 (by decide)))
  have e82 : (fun q : Fin 128 => V9 m ρ c main_v82 (ix2 (0 : Fin 1) q)) = Cert.Glue.rowOf (m ((c : Thread nD τ).loc main_arg14)) (0 : Fin 2) :=
    (host3_row82 (W8 m ρ c)).trans (congrArg (fun x => Cert.Glue.rowOf x (0 : Fin 2)) (upTo8 m ρ c main_arg14 (by decide)))
  rw [e67, e51, e78, e79, e80, e81, e82]
  first | rfl | done

/-! ## The third layer -/

theorem W11_v83 : W11 m ρ c (Proc.devRef .tc main_v83) = h2 m c := (keep4 (W10 m ρ c) main_v83 (by decide)).trans (W10_v83 m ρ c)
theorem W11_v85 : W11 m ρ c (Proc.devRef .tc main_v85) = Cert.Glue.slab (m ((c : Thread nD τ).loc main_arg9)) (1 : Fin 2) :=
  (host4_v85 (W10 m ρ c)).trans (congrArg (fun x => Cert.Glue.slab x (1 : Fin 2)) (upTo10 m ρ c main_arg9 (by decide)))

theorem W12_v86 : W12 m ρ c (Proc.devRef .tc main_v86) = Cert.Net.dense (n := 50000) (K := 128) (M := 128) (h2 m c) (Cert.Glue.slab (m ((c : Thread nD τ).loc main_arg9)) (1 : Fin 2)) := by
  refine (W12_arr m ρ c 2).trans ((Cert.KernelIdeal.Region4.value (V11 m ρ) c).trans ?_)
  have e0 : V11 m ρ c main_v83 = _ := W11_v83 m ρ c
  have e1 : V11 m ρ c main_v85 = _ := W11_v85 m ρ c
  rw [e0, e1]

theorem W13_v99 : W13 m ρ c (Proc.devRef .tc main_v99) = Cert.Glue.aggr (Cert.Net.dense (n := 50000) (K := 128) (M := 128) (h2 m c) (Cert.Glue.slab (m ((c : Thread nD τ).loc main_arg9)) (1 : Fin 2))) (Cert.Glue.src (m ((c : Thread nD τ).loc main_arg1))) (Cert.Glue.dst (m ((c : Thread nD τ).loc main_arg1))) (Cert.Glue.norm (m ((c : Thread nD τ).loc main_arg1)) (m ((c : Thread nD τ).loc main_arg2))) := by
  refine (host5_v99 (W12 m ρ c)).trans ?_
  rw [W12_v86 m ρ c, graph12 m ρ c main_v3 (by decide) (by decide), graph12 m ρ c main_v6 (by decide) (by decide),
    graph12 m ρ c main_v31 (by decide) (by decide), W3_v3 m ρ c, W3_v6 m ρ c, W3_v31 m ρ c]

theorem W13_v83 : W13 m ρ c (Proc.devRef .tc main_v83) = h2 m c :=
  (keep5 (W12 m ρ c) main_v83 (by decide)).trans ((W12_v83 m ρ c).trans (W11_v83 m ρ c))

/-- The sixth region's output: the third layer. -/
theorem W14_v115 : W14 m ρ c (Proc.devRef .tc main_v115) = h3 m c := by
  refine (W14_arr m ρ c 7).trans ((Cert.KernelIdeal.Region5.value (V13 m ρ) c).trans ?_)
  have e99 : V13 m ρ c main_v99 = _ := W13_v99 m ρ c
  have e83 : V13 m ρ c main_v83 = _ := W13_v83 m ρ c
  have e110 : (fun q : Fin 128 => V13 m ρ c main_v110 (ix2 (0 : Fin 1) q)) = Cert.Glue.rowOf (m ((c : Thread nD τ).loc main_arg10)) (1 : Fin 2) :=
    (host5_row110 (W12 m ρ c)).trans (congrArg (fun x => Cert.Glue.rowOf x (1 : Fin 2)) (upTo12 m ρ c main_arg10 (by decide)))
  have e111 : (fun q : Fin 128 => V13 m ρ c main_v111 (ix2 (0 : Fin 1) q)) = Cert.Glue.rowOf (m ((c : Thread nD τ).loc main_arg11)) (1 : Fin 2) :=
    (host5_row111 (W12 m ρ c)).trans (congrArg (fun x => Cert.Glue.rowOf x (1 : Fin 2)) (upTo12 m ρ c main_arg11 (by decide)))
  have e112 : (fun q : Fin 128 => V13 m ρ c main_v112 (ix2 (0 : Fin 1) q)) = Cert.Glue.rowOf (m ((c : Thread nD τ).loc main_arg12)) (1 : Fin 2) :=
    (host5_row112 (W12 m ρ c)).trans (congrArg (fun x => Cert.Glue.rowOf x (1 : Fin 2)) (upTo12 m ρ c main_arg12 (by decide)))
  have e113 : (fun q : Fin 128 => V13 m ρ c main_v113 (ix2 (0 : Fin 1) q)) = Cert.Glue.rowOf (m ((c : Thread nD τ).loc main_arg13)) (1 : Fin 2) :=
    (host5_row113 (W12 m ρ c)).trans (congrArg (fun x => Cert.Glue.rowOf x (1 : Fin 2)) (upTo12 m ρ c main_arg13 (by decide)))
  have e114 : (fun q : Fin 128 => V13 m ρ c main_v114 (ix2 (0 : Fin 1) q)) = Cert.Glue.rowOf (m ((c : Thread nD τ).loc main_arg14)) (1 : Fin 2) :=
    (host5_row114 (W12 m ρ c)).trans (congrArg (fun x => Cert.Glue.rowOf x (1 : Fin 2)) (upTo12 m ρ c main_arg14 (by decide)))
  rw [e99, e83, e110, e111, e112, e113, e114]
  first | rfl | done

/-! ## The two dense layers -/

theorem W15_v115 : W15 m ρ c (Proc.devRef .tc main_v115) = h3 m c := (keep6 (W14 m ρ c) main_v115 (by decide)).trans (W14_v115 m ρ c)

/-- The seventh region's output: the first dense layer. -/
theorem W16_v117 : W16 m ρ c (Proc.devRef .tc main_v117) = h4 m c := by
  refine (W16_arr m ρ c 3).trans ((Cert.KernelIdeal.Region6.value (V15 m ρ) c).trans ?_)
  have e0 : V15 m ρ c main_v115 = _ := W15_v115 m ρ c
  have e1 : V15 m ρ c main_arg15 = (m ((c : Thread nD τ).loc main_arg15)) := upTo15 m ρ c main_arg15 (by decide)
  have e2 : (fun q : Fin 128 => V15 m ρ c main_v116 (ix2 (0 : Fin 1) q)) = Cert.Glue.vec (m ((c : Thread nD τ).loc main_arg16)) :=
    (host6_row116 (W14 m ρ c)).trans (congrArg Cert.Glue.vec (upTo14 m ρ c main_arg16 (by decide)))
  rw [e0, e1, e2]
  first | rfl | done

theorem W17_v117 : W17 m ρ c (Proc.devRef .tc main_v117) = h4 m c := (keep7 (W16 m ρ c) main_v117 (by decide)).trans (W16_v117 m ρ c)

/-- The last region's output is the network of the nineteen arguments. -/
theorem result : W18 m ρ c (Proc.devRef .tc main_v119) = Cert.Glue.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W18_arr m ρ c 3).trans ((Cert.KernelIdeal.Region7.value (V17 m ρ) c).trans ?_)
  have e0 : V17 m ρ c main_v117 = _ := W17_v117 m ρ c
  have e1 : V17 m ρ c main_arg17 = (m ((c : Thread nD τ).loc main_arg17)) := upTo17 m ρ c main_arg17 (by decide)
  have e2 : (fun q : Fin 64 => V17 m ρ c main_v118 (ix2 (0 : Fin 1) q)) = Cert.Glue.vec (m ((c : Thread nD τ).loc main_arg18)) :=
    (host7_row118 (W16 m ρ c)).trans (congrArg Cert.Glue.vec (upTo16 m ρ c main_arg18 (by decide)))
  rw [e0, e1, e2]
  first | rfl | done

end Cert.KernelIdeal.Whole

end
-- ==== Proof.RefOps.lean ====
/-
  The reference program's host operations as six consecutive lists, in the program's order: the graph part, the three
  layers, the two dense layers.  An operation of a called function stands at its call, over the buffers the call names.
  212 operations: opsGraph 42, opsLayer1 43, opsLayer2 56, opsLayer3 56, opsLin1 11, opsLin2 4.
-/
import proofs.«132849_j12000138625377_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The graph part: the two index columns with the self loops appended (%3, %6), the degree by scatter-add, its inverse
    square root where positive (the call of @_where), and the edge weights %31. -/
abbrev opsGraph : List (HloOp τ sig (Elt F)) :=
  [ StableHlo.nullary main_v0 (iotaInDim S50000 32 0),  -- %0 = stablehlo.iota dim = 0 : tensor<50000xi32>
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),  -- %1 = stablehlo.slice %arg1 [0:1, 0:800000] : (tensor<2x800000xi32>) -> tensor<1x800000xi32>
    StableHlo.reshape main_v1 main_v2 rfl shapeCasts_S1x800000_S800000,  -- %2 = stablehlo.reshape %1 : (tensor<1x800000xi32>) -> tensor<800000xi32>
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %3 = stablehlo.concatenate %2, %0, dim = 0 : (tensor<800000xi32>, tensor<50000xi32>) -> tensor<850000xi32>
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),  -- %4 = stablehlo.slice %arg1 [1:2, 0:800000] : (tensor<2x800000xi32>) -> tensor<1x800000xi32>
    StableHlo.reshape main_v4 main_v5 rfl shapeCasts_S1x800000_S800000,  -- %5 = stablehlo.reshape %4 : (tensor<1x800000xi32>) -> tensor<800000xi32>
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %6 = stablehlo.concatenate %5, %0, dim = 0 : (tensor<800000xi32>, tensor<50000xi32>) -> tensor<850000xi32>
    StableHlo.nullary main_cst (constant S_ .f32 0x3F800000#32),  -- %cst = stablehlo.constant dense<1.000000e+00> : tensor<f32>
    StableHlo.unary main_cst main_v7 (broadcastInDim S50000 ![] bcast_S_S50000 : (⟨S_, .f32⟩ : BufTy).Contents (Elt F) → (⟨S50000, .f32⟩ : BufTy).Contents (Elt F)),  -- %7 = stablehlo.broadcast_in_dim %cst, dims = [] : (tensor<f32>) -> tensor<50000xf32>
    StableHlo.binary main_arg2 main_v7 main_v8 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),  -- %8 = stablehlo.concatenate %arg2, %7, dim = 0 : (tensor<800000xf32>, tensor<50000xf32>) -> tensor<850000xf32>
    StableHlo.nullary main_cst_0 (constant S_ .f32 0x00000000#32),  -- %cst_0 = stablehlo.constant dense<0.000000e+00> : tensor<f32>
    StableHlo.unary main_cst_0 main_v9 (broadcastInDim S50000 ![] bcast_S_S50000 : (⟨S_, .f32⟩ : BufTy).Contents (Elt F) → (⟨S50000, .f32⟩ : BufTy).Contents (Elt F)),  -- %9 = stablehlo.broadcast_in_dim %cst_0, dims = [] : (tensor<f32>) -> tensor<50000xf32>
    StableHlo.unary main_v6 main_v10 (broadcastInDim S850000x1 ![0] bcast_S850000_S850000x1_0 : (⟨S850000, .i32⟩ : BufTy).Contents (Elt F) → (⟨S850000x1, .i32⟩ : BufTy).Contents (Elt F)),  -- %10 = stablehlo.broadcast_in_dim %6, dims = [0] : (tensor<850000xi32>) -> tensor<850000x1xi32>
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),  -- %11 = "stablehlo.scatter"(%9, %10, %8) <{indices_are_sorted = false, scatter_dimension_numbers = #stablehlo.scatter<inserted_window_dims = [0], scatter_dims_to_operand_dims = [0], index_vector_dim = 1>, unique_indices = false}> ( {
    StableHlo.nullary main_cst_1 (constant S_ .f32 0x00000000#32),  -- %cst_1 = stablehlo.constant dense<0.000000e+00> : tensor<f32>
    StableHlo.unary main_cst_1 main_v12 (broadcastInDim S50000 ![] bcast_S_S50000 : (⟨S_, .f32⟩ : BufTy).Contents (Elt F) → (⟨S50000, .f32⟩ : BufTy).Contents (Elt F)),  -- %12 = stablehlo.broadcast_in_dim %cst_1, dims = [] : (tensor<f32>) -> tensor<50000xf32>
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),  -- %13 = stablehlo.compare GT, %11, %12, FLOAT : (tensor<50000xf32>, tensor<50000xf32>) -> tensor<50000xi1>
    StableHlo.unary main_v11 main_v14 (Host.rsqrt : (⟨S50000, .f32⟩ : BufTy).Contents (Elt F) → (⟨S50000, .f32⟩ : BufTy).Contents (Elt F)),  -- %14 = stablehlo.rsqrt %11 : tensor<50000xf32>
    StableHlo.nullary main_cst_2 (constant S_ .f32 0x00000000#32),  -- %cst_2 = stablehlo.constant dense<0.000000e+00> : tensor<f32>
    StableHlo.TRef.unary (.of main_cst_2 : StableHlo.TRef sig ⟨S_, .f32⟩) (.of main_call0_v0 : StableHlo.TRef sig ⟨S_, .f32⟩) id,  -- %0 = stablehlo.convert %arg2 : tensor<f32>
    StableHlo.TRef.unary (.of main_call0_v0 : StableHlo.TRef sig ⟨S_, .f32⟩) (.of main_call0_v1 : StableHlo.TRef sig ⟨S50000, .f32⟩) (broadcastInDim S50000 ![] bcast_S_S50000),  -- %1 = stablehlo.broadcast_in_dim %0, dims = [] : (tensor<f32>) -> tensor<50000xf32>
    StableHlo.TRef.ternary (.of main_v13 : StableHlo.TRef sig ⟨S50000, .i1⟩) (.of main_v14 : StableHlo.TRef sig ⟨S50000, .f32⟩) (.of main_call0_v1 : StableHlo.TRef sig ⟨S50000, .f32⟩) (.of main_v15 : StableHlo.TRef sig ⟨S50000, .f32⟩) select,  -- %15 = func.call @_where(%13, %14, %cst_2) : (tensor<50000xi1>, tensor<50000xf32>, tensor<f32>) -> tensor<50000xf32>
    StableHlo.nullary main_c (constantI S_ 32 0#32),  -- %c = stablehlo.constant dense<0> : tensor<i32>
    StableHlo.unary main_c main_v16 (broadcastInDim S850000 ![] bcast_S_S850000 : (⟨S_, .i32⟩ : BufTy).Contents (Elt F) → (⟨S850000, .i32⟩ : BufTy).Contents (Elt F)),  -- %16 = stablehlo.broadcast_in_dim %c, dims = [] : (tensor<i32>) -> tensor<850000xi32>
    StableHlo.binary main_v3 main_v16 main_v17 (cmpi .slt : (⟨S850000, .i32⟩ : BufTy).Contents (Elt F) → (⟨S850000, .i32⟩ : BufTy).Contents (Elt F) → (⟨S850000, .i1⟩ : BufTy).Contents (Elt F)),  -- %17 = stablehlo.compare LT, %3, %16, SIGNED : (tensor<850000xi32>, tensor<850000xi32>) -> tensor<850000xi1>
    StableHlo.nullary main_c_3 (constantI S_ 32 50000#32),  -- %c_3 = stablehlo.constant dense<50000> : tensor<i32>
    StableHlo.unary main_c_3 main_v18 (broadcastInDim S850000 ![] bcast_S_S850000 : (⟨S_, .i32⟩ : BufTy).Contents (Elt F) → (⟨S850000, .i32⟩ : BufTy).Contents (Elt F)),  -- %18 = stablehlo.broadcast_in_dim %c_3, dims = [] : (tensor<i32>) -> tensor<850000xi32>
    StableHlo.binary main_v3 main_v18 main_v19 (addi : (⟨S850000, .i32⟩ : BufTy).Contents (Elt F) → (⟨S850000, .i32⟩ : BufTy).Contents (Elt F) → (⟨S850000, .i32⟩ : BufTy).Contents (Elt F)),  -- %19 = stablehlo.add %3, %18 : tensor<850000xi32>
    StableHlo.ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %20 = stablehlo.select %17, %19, %3 : tensor<850000xi1>, tensor<850000xi32>
    StableHlo.unary main_v20 main_v21 (broadcastInDim S850000x1 ![0] bcast_S850000_S850000x1_0 : (⟨S850000, .i32⟩ : BufTy).Contents (Elt F) → (⟨S850000x1, .i32⟩ : BufTy).Contents (Elt F)),  -- %21 = stablehlo.broadcast_in_dim %20, dims = [0] : (tensor<850000xi32>) -> tensor<850000x1xi32>
    StableHlo.binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %22 = "stablehlo.gather"(%15, %21) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.binary main_v22 main_v8 main_v23 (mulf : (⟨S850000, .f32⟩ : BufTy).Contents (Elt F) → (⟨S850000, .f32⟩ : BufTy).Contents (Elt F) → (⟨S850000, .f32⟩ : BufTy).Contents (Elt F)),  -- %23 = stablehlo.multiply %22, %8 : tensor<850000xf32>
    StableHlo.nullary main_c_4 (constantI S_ 32 0#32),  -- %c_4 = stablehlo.constant dense<0> : tensor<i32>
    StableHlo.unary main_c_4 main_v24 (broadcastInDim S850000 ![] bcast_S_S850000 : (⟨S_, .i32⟩ : BufTy).Contents (Elt F) → (⟨S850000, .i32⟩ : BufTy).Contents (Elt F)),  -- %24 = stablehlo.broadcast_in_dim %c_4, dims = [] : (tensor<i32>) -> tensor<850000xi32>
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),  -- %25 = stablehlo.compare LT, %6, %24, SIGNED : (tensor<850000xi32>, tensor<850000xi32>) -> tensor<850000xi1>
    StableHlo.nullary main_c_5 (constantI S_ 32 50000#32),  -- %c_5 = stablehlo.constant dense<50000> : tensor<i32>
    StableHlo.unary main_c_5 main_v26 (broadcastInDim S850000 ![] bcast_S_S850000 : (⟨S_, .i32⟩ : BufTy).Contents (Elt F) → (⟨S850000, .i32⟩ : BufTy).Contents (Elt F)),  -- %26 = stablehlo.broadcast_in_dim %c_5, dims = [] : (tensor<i32>) -> tensor<850000xi32>
    StableHlo.binary main_v6 main_v26 main_v27 (addi : (⟨S850000, .i32⟩ : BufTy).Contents (Elt F) → (⟨S850000, .i32⟩ : BufTy).Contents (Elt F) → (⟨S850000, .i32⟩ : BufTy).Contents (Elt F)),  -- %27 = stablehlo.add %6, %26 : tensor<850000xi32>
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %28 = stablehlo.select %25, %27, %6 : tensor<850000xi1>, tensor<850000xi32>
    StableHlo.unary main_v28 main_v29 (broadcastInDim S850000x1 ![0] bcast_S850000_S850000x1_0 : (⟨S850000, .i32⟩ : BufTy).Contents (Elt F) → (⟨S850000x1, .i32⟩ : BufTy).Contents (Elt F)),  -- %29 = stablehlo.broadcast_in_dim %28, dims = [0] : (tensor<850000xi32>) -> tensor<850000x1xi32>
    StableHlo.binary main_v15 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %30 = "stablehlo.gather"(%15, %29) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.binary main_v23 main_v30 main_v31 (mulf : (⟨S850000, .f32⟩ : BufTy).Contents (Elt F) → (⟨S850000, .f32⟩ : BufTy).Contents (Elt F) → (⟨S850000, .f32⟩ : BufTy).Contents (Elt F)) ]  -- %31 = stablehlo.multiply %23, %30 : tensor<850000xf32>

/-- The buffers those operations write, in order. -/
abbrev opsGraph_W : List (Ref sig .tc) :=
  [ main_v0, main_v1, main_v2, main_v3, main_v4, main_v5, main_v6, main_cst, main_v7, main_v8,
    main_cst_0, main_v9, main_v10, main_v11, main_cst_1, main_v12, main_v13, main_v14, main_cst_2, main_call0_v0,
    main_call0_v1, main_v15, main_c, main_v16, main_v17, main_c_3, main_v18, main_v19, main_v20, main_v21,
    main_v22, main_v23, main_c_4, main_v24, main_v25, main_c_5, main_v26, main_v27, main_v28, main_v29,
    main_v30, main_v31 ]

/-- The first layer: the product %32, the weighted gather and scatter-add %45, bias, normalisation over the running
    statistics, and the rectifier (the call of @leaky_relu) into %64. -/
abbrev opsLayer1 : List (HloOp τ sig (Elt F)) :=
  [ StableHlo.binary main_arg0 main_arg3 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %32 = stablehlo.dot_general %arg0, %arg3, contracting_dims = [1] x [0], precision = [DEFAULT, DEFAULT] : (tensor<50000x128xf32>, tensor<128x128xf32>) -> tensor<50000x128xf32>
    StableHlo.nullary main_c_6 (constantI S_ 32 0#32),  -- %c_6 = stablehlo.constant dense<0> : tensor<i32>
    StableHlo.unary main_c_6 main_v33 (broadcastInDim S850000 ![] bcast_S_S850000 : (⟨S_, .i32⟩ : BufTy).Contents (Elt F) → (⟨S850000, .i32⟩ : BufTy).Contents (Elt F)),  -- %33 = stablehlo.broadcast_in_dim %c_6, dims = [] : (tensor<i32>) -> tensor<850000xi32>
    StableHlo.binary main_v3 main_v33 main_v34 (cmpi .slt : (⟨S850000, .i32⟩ : BufTy).Contents (Elt F) → (⟨S850000, .i32⟩ : BufTy).Contents (Elt F) → (⟨S850000, .i1⟩ : BufTy).Contents (Elt F)),  -- %34 = stablehlo.compare LT, %3, %33, SIGNED : (tensor<850000xi32>, tensor<850000xi32>) -> tensor<850000xi1>
    StableHlo.nullary main_c_7 (constantI S_ 32 50000#32),  -- %c_7 = stablehlo.constant dense<50000> : tensor<i32>
    StableHlo.unary main_c_7 main_v35 (broadcastInDim S850000 ![] bcast_S_S850000 : (⟨S_, .i32⟩ : BufTy).Contents (Elt F) → (⟨S850000, .i32⟩ : BufTy).Contents (Elt F)),  -- %35 = stablehlo.broadcast_in_dim %c_7, dims = [] : (tensor<i32>) -> tensor<850000xi32>
    StableHlo.binary main_v3 main_v35 main_v36 (addi : (⟨S850000, .i32⟩ : BufTy).Contents (Elt F) → (⟨S850000, .i32⟩ : BufTy).Contents (Elt F) → (⟨S850000, .i32⟩ : BufTy).Contents (Elt F)),  -- %36 = stablehlo.add %3, %35 : tensor<850000xi32>
    StableHlo.ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %37 = stablehlo.select %34, %36, %3 : tensor<850000xi1>, tensor<850000xi32>
    StableHlo.unary main_v37 main_v38 (broadcastInDim S850000x1 ![0] bcast_S850000_S850000x1_0 : (⟨S850000, .i32⟩ : BufTy).Contents (Elt F) → (⟨S850000x1, .i32⟩ : BufTy).Contents (Elt F)),  -- %38 = stablehlo.broadcast_in_dim %37, dims = [0] : (tensor<850000xi32>) -> tensor<850000x1xi32>
    StableHlo.binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),  -- %39 = "stablehlo.gather"(%32, %38) <{dimension_numbers = #stablehlo.gather<offset_dims = [1], collapsed_slice_dims = [0], start_index_map = [0], index_vector_dim = 1>, indices_are_sorted = false, slice_sizes = array<i64: 1, 128>}> : (tensor<50000x128xf32>, tensor<850000x1xi32>) -> tensor<850000x128xf32>
    StableHlo.unary main_v31 main_v40 (broadcastInDim S850000x1 ![0] bcast_S850000_S850000x1_0 : (⟨S850000, .f32⟩ : BufTy).Contents (Elt F) → (⟨S850000x1, .f32⟩ : BufTy).Contents (Elt F)),  -- %40 = stablehlo.broadcast_in_dim %31, dims = [0] : (tensor<850000xf32>) -> tensor<850000x1xf32>
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),  -- %41 = stablehlo.broadcast_in_dim %40, dims = [0, 1] : (tensor<850000x1xf32>) -> tensor<850000x128xf32>
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),  -- %42 = stablehlo.multiply %39, %41 : tensor<850000x128xf32>
    StableHlo.nullary main_cst_8 (constant S_ .f32 0x00000000#32),  -- %cst_8 = stablehlo.constant dense<0.000000e+00> : tensor<f32>
    StableHlo.unary main_cst_8 main_v43 (broadcastInDim S50000x128 ![] bcast_S_S50000x128 : (⟨S_, .f32⟩ : BufTy).Contents (Elt F) → (⟨S50000x128, .f32⟩ : BufTy).Contents (Elt F)),  -- %43 = stablehlo.broadcast_in_dim %cst_8, dims = [] : (tensor<f32>) -> tensor<50000x128xf32>
    StableHlo.unary main_v6 main_v44 (broadcastInDim S850000x1 ![0] bcast_S850000_S850000x1_0 : (⟨S850000, .i32⟩ : BufTy).Contents (Elt F) → (⟨S850000x1, .i32⟩ : BufTy).Contents (Elt F)),  -- %44 = stablehlo.broadcast_in_dim %6, dims = [0] : (tensor<850000xi32>) -> tensor<850000x1xi32>
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),  -- %45 = "stablehlo.scatter"(%43, %44, %42) <{indices_are_sorted = false, scatter_dimension_numbers = #stablehlo.scatter<update_window_dims = [1], inserted_window_dims = [0], scatter_dims_to_operand_dims = [0], index_vector_dim = 1>, unique_indices = false}> ( {
    StableHlo.unary main_arg4 main_v46 (broadcastInDim S1x128 ![1] bcast_S128_S1x128_1 : (⟨S128, .f32⟩ : BufTy).Contents (Elt F) → (⟨S1x128, .f32⟩ : BufTy).Contents (Elt F)),  -- %46 = stablehlo.broadcast_in_dim %arg4, dims = [1] : (tensor<128xf32>) -> tensor<1x128xf32>
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),  -- %47 = stablehlo.broadcast_in_dim %46, dims = [0, 1] : (tensor<1x128xf32>) -> tensor<50000x128xf32>
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),  -- %48 = stablehlo.add %45, %47 : tensor<50000x128xf32>
    StableHlo.unary main_arg7 main_v49 (broadcastInDim S1x128 ![1] bcast_S128_S1x128_1 : (⟨S128, .f32⟩ : BufTy).Contents (Elt F) → (⟨S1x128, .f32⟩ : BufTy).Contents (Elt F)),  -- %49 = stablehlo.broadcast_in_dim %arg7, dims = [1] : (tensor<128xf32>) -> tensor<1x128xf32>
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),  -- %50 = stablehlo.broadcast_in_dim %49, dims = [0, 1] : (tensor<1x128xf32>) -> tensor<50000x128xf32>
    StableHlo.binary main_v48 main_v50 main_v51 (subf : (⟨S50000x128, .f32⟩ : BufTy).Contents (Elt F) → (⟨S50000x128, .f32⟩ : BufTy).Contents (Elt F) → (⟨S50000x128, .f32⟩ : BufTy).Contents (Elt F)),  -- %51 = stablehlo.subtract %48, %50 : tensor<50000x128xf32>
    StableHlo.nullary main_cst_9 (constant S_ .f32 0x3727C5AC#32),  -- %cst_9 = stablehlo.constant dense<9.99999974E-6> : tensor<f32>
    StableHlo.unary main_cst_9 main_v52 (broadcastInDim S128 ![] bcast_S_S128 : (⟨S_, .f32⟩ : BufTy).Contents (Elt F) → (⟨S128, .f32⟩ : BufTy).Contents (Elt F)),  -- %52 = stablehlo.broadcast_in_dim %cst_9, dims = [] : (tensor<f32>) -> tensor<128xf32>
    StableHlo.binary main_arg8 main_v52 main_v53 (addf : (⟨S128, .f32⟩ : BufTy).Contents (Elt F) → (⟨S128, .f32⟩ : BufTy).Contents (Elt F) → (⟨S128, .f32⟩ : BufTy).Contents (Elt F)),  -- %53 = stablehlo.add %arg8, %52 : tensor<128xf32>
    StableHlo.unary main_v53 main_v54 (Host.rsqrt : (⟨S128, .f32⟩ : BufTy).Contents (Elt F) → (⟨S128, .f32⟩ : BufTy).Contents (Elt F)),  -- %54 = stablehlo.rsqrt %53 : tensor<128xf32>
    StableHlo.unary main_v54 main_v55 (broadcastInDim S1x128 ![1] bcast_S128_S1x128_1 : (⟨S128, .f32⟩ : BufTy).Contents (Elt F) → (⟨S1x128, .f32⟩ : BufTy).Contents (Elt F)),  -- %55 = stablehlo.broadcast_in_dim %54, dims = [1] : (tensor<128xf32>) -> tensor<1x128xf32>
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),  -- %56 = stablehlo.broadcast_in_dim %55, dims = [0, 1] : (tensor<1x128xf32>) -> tensor<50000x128xf32>
    StableHlo.binary main_v51 main_v56 main_v57 (mulf : (⟨S50000x128, .f32⟩ : BufTy).Contents (Elt F) → (⟨S50000x128, .f32⟩ : BufTy).Contents (Elt F) → (⟨S50000x128, .f32⟩ : BufTy).Contents (Elt F)),  -- %57 = stablehlo.multiply %51, %56 : tensor<50000x128xf32>
    StableHlo.unary main_arg5 main_v58 (broadcastInDim S1x128 ![1] bcast_S128_S1x128_1 : (⟨S128, .f32⟩ : BufTy).Contents (Elt F) → (⟨S1x128, .f32⟩ : BufTy).Contents (Elt F)),  -- %58 = stablehlo.broadcast_in_dim %arg5, dims = [1] : (tensor<128xf32>) -> tensor<1x128xf32>
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),  -- %59 = stablehlo.broadcast_in_dim %58, dims = [0, 1] : (tensor<1x128xf32>) -> tensor<50000x128xf32>
    StableHlo.binary main_v57 main_v59 main_v60 (mulf : (⟨S50000x128, .f32⟩ : BufTy).Contents (Elt F) → (⟨S50000x128, .f32⟩ : BufTy).Contents (Elt F) → (⟨S50000x128, .f32⟩ : BufTy).Contents (Elt F)),  -- %60 = stablehlo.multiply %57, %59 : tensor<50000x128xf32>
    StableHlo.unary main_arg6 main_v61 (broadcastInDim S1x128 ![1] bcast_S128_S1x128_1 : (⟨S128, .f32⟩ : BufTy).Contents (Elt F) → (⟨S1x128, .f32⟩ : BufTy).Contents (Elt F)),  -- %61 = stablehlo.broadcast_in_dim %arg6, dims = [1] : (tensor<128xf32>) -> tensor<1x128xf32>
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),  -- %62 = stablehlo.broadcast_in_dim %61, dims = [0, 1] : (tensor<1x128xf32>) -> tensor<50000x128xf32>
    StableHlo.binary main_v60 main_v62 main_v63 (addf : (⟨S50000x128, .f32⟩ : BufTy).Contents (Elt F) → (⟨S50000x128, .f32⟩ : BufTy).Contents (Elt F) → (⟨S50000x128, .f32⟩ : BufTy).Contents (Elt F)),  -- %63 = stablehlo.add %60, %62 : tensor<50000x128xf32>
    StableHlo.TRef.nullary (.of main_call1_cst : StableHlo.TRef sig ⟨S_, .f32⟩) (constant S_ .f32 0x00000000#32),  -- %cst = stablehlo.constant dense<0.000000e+00> : tensor<f32>
    StableHlo.TRef.unary (.of main_call1_cst : StableHlo.TRef sig ⟨S_, .f32⟩) (.of main_call1_v0 : StableHlo.TRef sig ⟨S50000x128, .f32⟩) (broadcastInDim S50000x128 ![] bcast_S_S50000x128),  -- %0 = stablehlo.broadcast_in_dim %cst, dims = [] : (tensor<f32>) -> tensor<50000x128xf32>
    StableHlo.TRef.binary (.of main_v63 : StableHlo.TRef sig ⟨S50000x128, .f32⟩) (.of main_call1_v0 : StableHlo.TRef sig ⟨S50000x128, .f32⟩) (.of main_call1_v1 : StableHlo.TRef sig ⟨S50000x128, .i1⟩) (cmpf .oge),  -- %1 = stablehlo.compare GE, %arg0, %0, FLOAT : (tensor<50000x128xf32>, tensor<50000x128xf32>) -> tensor<50000x128xi1>
    StableHlo.TRef.nullary (.of main_call1_cst_0 : StableHlo.TRef sig ⟨S_, .f32⟩) (constant S_ .f32 0x3C23D70A#32),  -- %cst_0 = stablehlo.constant dense<0.00999999977> : tensor<f32>
    StableHlo.TRef.unary (.of main_call1_cst_0 : StableHlo.TRef sig ⟨S_, .f32⟩) (.of main_call1_v2 : StableHlo.TRef sig ⟨S50000x128, .f32⟩) (broadcastInDim S50000x128 ![] bcast_S_S50000x128),  -- %2 = stablehlo.broadcast_in_dim %cst_0, dims = [] : (tensor<f32>) -> tensor<50000x128xf32>
    StableHlo.TRef.binary (.of main_call1_v2 : StableHlo.TRef sig ⟨S50000x128, .f32⟩) (.of main_v63 : StableHlo.TRef sig ⟨S50000x128, .f32⟩) (.of main_call1_v3 : StableHlo.TRef sig ⟨S50000x128, .f32⟩) mulf,  -- %3 = stablehlo.multiply %2, %arg0 : tensor<50000x128xf32>
    StableHlo.TRef.ternary (.of main_call1_v1 : StableHlo.TRef sig ⟨S50000x128, .i1⟩) (.of main_v63 : StableHlo.TRef sig ⟨S50000x128, .f32⟩) (.of main_call1_v3 : StableHlo.TRef sig ⟨S50000x128, .f32⟩) (.of main_v64 : StableHlo.TRef sig ⟨S50000x128, .f32⟩) select ]  -- %64 = func.call @leaky_relu(%63) : (tensor<50000x128xf32>) -> tensor<50000x128xf32>

/-- The buffers those operations write, in order. -/
abbrev opsLayer1_W : List (Ref sig .tc) :=
  [ main_v32, main_c_6, main_v33, main_v34, main_c_7, main_v35, main_v36, main_v37, main_v38, main_v39,
    main_v40, main_v41, main_v42, main_cst_8, main_v43, main_v44, main_v45, main_v46, main_v47, main_v48,
    main_v49, main_v50, main_v51, main_cst_9, main_v52, main_v53, main_v54, main_v55, main_v56, main_v57,
    main_v58, main_v59, main_v60, main_v61, main_v62, main_v63, main_call1_cst, main_call1_v0, main_call1_v1, main_call1_cst_0,
    main_call1_v2, main_call1_v3, main_v64 ]

/-- The second layer, on slice 0 of the stacked parameters: %65 … %109, the input %64 added back, the rectifier into %110. -/
abbrev opsLayer2 : List (HloOp τ sig (Elt F)) :=
  [ StableHlo.unary main_arg9 main_v65 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %65 = stablehlo.slice %arg9 [0:1, 0:128, 0:128] : (tensor<2x128x128xf32>) -> tensor<1x128x128xf32>
    StableHlo.reshape main_v65 main_v66 rfl shapeCasts_S1x128x128_S128x128,  -- %66 = stablehlo.reshape %65 : (tensor<1x128x128xf32>) -> tensor<128x128xf32>
    StableHlo.unary main_arg10 main_v67 ((extractStridedSlice S1x128 ![0, 0] · slices_S2x128_S1x128_0_0) : (⟨S2x128, .f32⟩ : BufTy).Contents (Elt F) → (⟨S1x128, .f32⟩ : BufTy).Contents (Elt F)),  -- %67 = stablehlo.slice %arg10 [0:1, 0:128] : (tensor<2x128xf32>) -> tensor<1x128xf32>
    StableHlo.reshape main_v67 main_v68 rfl shapeCasts_S1x128_S128,  -- %68 = stablehlo.reshape %67 : (tensor<1x128xf32>) -> tensor<128xf32>
    StableHlo.binary main_v64 main_v66 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %69 = stablehlo.dot_general %64, %66, contracting_dims = [1] x [0], precision = [DEFAULT, DEFAULT] : (tensor<50000x128xf32>, tensor<128x128xf32>) -> tensor<50000x128xf32>
    StableHlo.nullary main_c_10 (constantI S_ 32 0#32),  -- %c_10 = stablehlo.constant dense<0> : tensor<i32>
    StableHlo.unary main_c_10 main_v70 (broadcastInDim S850000 ![] bcast_S_S850000 : (⟨S_, .i32⟩ : BufTy).Contents (Elt F) → (⟨S850000, .i32⟩ : BufTy).Contents (Elt F)),  -- %70 = stablehlo.broadcast_in_dim %c_10, dims = [] : (tensor<i32>) -> tensor<850000xi32>
    StableHlo.binary main_v3 main_v70 main_v71 (cmpi .slt : (⟨S850000, .i32⟩ : BufTy).Contents (Elt F) → (⟨S850000, .i32⟩ : BufTy).Contents (Elt F) → (⟨S850000, .i1⟩ : BufTy).Contents (Elt F)),  -- %71 = stablehlo.compare LT, %3, %70, SIGNED : (tensor<850000xi32>, tensor<850000xi32>) -> tensor<850000xi1>
    StableHlo.nullary main_c_11 (constantI S_ 32 50000#32),  -- %c_11 = stablehlo.constant dense<50000> : tensor<i32>
    StableHlo.unary main_c_11 main_v72 (broadcastInDim S850000 ![] bcast_S_S850000 : (⟨S_, .i32⟩ : BufTy).Contents (Elt F) → (⟨S850000, .i32⟩ : BufTy).Contents (Elt F)),  -- %72 = stablehlo.broadcast_in_dim %c_11, dims = [] : (tensor<i32>) -> tensor<850000xi32>
    StableHlo.binary main_v3 main_v72 main_v73 (addi : (⟨S850000, .i32⟩ : BufTy).Contents (Elt F) → (⟨S850000, .i32⟩ : BufTy).Contents (Elt F) → (⟨S850000, .i32⟩ : BufTy).Contents (Elt F)),  -- %73 = stablehlo.add %3, %72 : tensor<850000xi32>
    StableHlo.ternary main_v71 main_v73 main_v3 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %74 = stablehlo.select %71, %73, %3 : tensor<850000xi1>, tensor<850000xi32>
    StableHlo.unary main_v74 main_v75 (broadcastInDim S850000x1 ![0] bcast_S850000_S850000x1_0 : (⟨S850000, .i32⟩ : BufTy).Contents (Elt F) → (⟨S850000x1, .i32⟩ : BufTy).Contents (Elt F)),  -- %75 = stablehlo.broadcast_in_dim %74, dims = [0] : (tensor<850000xi32>) -> tensor<850000x1xi32>
    StableHlo.binary main_v69 main_v75 main_v76 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),  -- %76 = "stablehlo.gather"(%69, %75) <{dimension_numbers = #stablehlo.gather<offset_dims = [1], collapsed_slice_dims = [0], start_index_map = [0], index_vector_dim = 1>, indices_are_sorted = false, slice_sizes = array<i64: 1, 128>}> : (tensor<50000x128xf32>, tensor<850000x1xi32>) -> tensor<850000x128xf32>
    StableHlo.unary main_v31 main_v77 (broadcastInDim S850000x1 ![0] bcast_S850000_S850000x1_0 : (⟨S850000, .f32⟩ : BufTy).Contents (Elt F) → (⟨S850000x1, .f32⟩ : BufTy).Contents (Elt F)),  -- %77 = stablehlo.broadcast_in_dim %31, dims = [0] : (tensor<850000xf32>) -> tensor<850000x1xf32>
    StableHlo.unary main_v77 main_v78 (broadcastInDim S850000x128 ![0, 1] bcast_S850000x1_S850000x128_0_1 : (⟨S850000x1, .f32⟩ : BufTy).Contents (Elt F) → (⟨S850000x128, .f32⟩ : BufTy).Contents (Elt F)),  -- %78 = stablehlo.broadcast_in_dim %77, dims = [0, 1] : (tensor<850000x1xf32>) -> tensor<850000x128xf32>
    StableHlo.binary main_v76 main_v78 main_v79 (mulf : (⟨S850000x128, .f32⟩ : BufTy).Contents (Elt F) → (⟨S850000x128, .f32⟩ : BufTy).Contents (Elt F) → (⟨S850000x128, .f32⟩ : BufTy).Contents (Elt F)),  -- %79 = stablehlo.multiply %76, %78 : tensor<850000x128xf32>
    StableHlo.nullary main_cst_12 (constant S_ .f32 0x00000000#32),  -- %cst_12 = stablehlo.constant dense<0.000000e+00> : tensor<f32>
    StableHlo.unary main_cst_12 main_v80 (broadcastInDim S50000x128 ![] bcast_S_S50000x128 : (⟨S_, .f32⟩ : BufTy).Contents (Elt F) → (⟨S50000x128, .f32⟩ : BufTy).Contents (Elt F)),  -- %80 = stablehlo.broadcast_in_dim %cst_12, dims = [] : (tensor<f32>) -> tensor<50000x128xf32>
    StableHlo.unary main_v6 main_v81 (broadcastInDim S850000x1 ![0] bcast_S850000_S850000x1_0 : (⟨S850000, .i32⟩ : BufTy).Contents (Elt F) → (⟨S850000x1, .i32⟩ : BufTy).Contents (Elt F)),  -- %81 = stablehlo.broadcast_in_dim %6, dims = [0] : (tensor<850000xi32>) -> tensor<850000x1xi32>
    StableHlo.ternary main_v80 main_v81 main_v79 main_v82 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),  -- %82 = "stablehlo.scatter"(%80, %81, %79) <{indices_are_sorted = false, scatter_dimension_numbers = #stablehlo.scatter<update_window_dims = [1], inserted_window_dims = [0], scatter_dims_to_operand_dims = [0], index_vector_dim = 1>, unique_indices = false}> ( {
    StableHlo.unary main_v68 main_v83 (broadcastInDim S1x128 ![1] bcast_S128_S1x128_1 : (⟨S128, .f32⟩ : BufTy).Contents (Elt F) → (⟨S1x128, .f32⟩ : BufTy).Contents (Elt F)),  -- %83 = stablehlo.broadcast_in_dim %68, dims = [1] : (tensor<128xf32>) -> tensor<1x128xf32>
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),  -- %84 = stablehlo.broadcast_in_dim %83, dims = [0, 1] : (tensor<1x128xf32>) -> tensor<50000x128xf32>
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)),  -- %85 = stablehlo.add %82, %84 : tensor<50000x128xf32>
    StableHlo.unary main_arg11 main_v86 ((extractStridedSlice S1x128 ![0, 0] · slices_S2x128_S1x128_0_0) : (⟨S2x128, .f32⟩ : BufTy).Contents (Elt F) → (⟨S1x128, .f32⟩ : BufTy).Contents (Elt F)),  -- %86 = stablehlo.slice %arg11 [0:1, 0:128] : (tensor<2x128xf32>) -> tensor<1x128xf32>
    StableHlo.reshape main_v86 main_v87 rfl shapeCasts_S1x128_S128,  -- %87 = stablehlo.reshape %86 : (tensor<1x128xf32>) -> tensor<128xf32>
    StableHlo.unary main_arg12 main_v88 ((extractStridedSlice S1x128 ![0, 0] · slices_S2x128_S1x128_0_0) : (⟨S2x128, .f32⟩ : BufTy).Contents (Elt F) → (⟨S1x128, .f32⟩ : BufTy).Contents (Elt F)),  -- %88 = stablehlo.slice %arg12 [0:1, 0:128] : (tensor<2x128xf32>) -> tensor<1x128xf32>
    StableHlo.reshape main_v88 main_v89 rfl shapeCasts_S1x128_S128,  -- %89 = stablehlo.reshape %88 : (tensor<1x128xf32>) -> tensor<128xf32>
    StableHlo.unary main_arg13 main_v90 ((extractStridedSlice S1x128 ![0, 0] · slices_S2x128_S1x128_0_0) : (⟨S2x128, .f32⟩ : BufTy).Contents (Elt F) → (⟨S1x128, .f32⟩ : BufTy).Contents (Elt F)),  -- %90 = stablehlo.slice %arg13 [0:1, 0:128] : (tensor<2x128xf32>) -> tensor<1x128xf32>
    StableHlo.reshape main_v90 main_v91 rfl shapeCasts_S1x128_S128,  -- %91 = stablehlo.reshape %90 : (tensor<1x128xf32>) -> tensor<128xf32>
    StableHlo.unary main_arg14 main_v92 ((extractStridedSlice S1x128 ![0, 0] · slices_S2x128_S1x128_0_0) : (⟨S2x128, .f32⟩ : BufTy).Contents (Elt F) → (⟨S1x128, .f32⟩ : BufTy).Contents (Elt F)),  -- %92 = stablehlo.slice %arg14 [0:1, 0:128] : (tensor<2x128xf32>) -> tensor<1x128xf32>
    StableHlo.reshape main_v92 main_v93 rfl shapeCasts_S1x128_S128,  -- %93 = stablehlo.reshape %92 : (tensor<1x128xf32>) -> tensor<128xf32>
    StableHlo.unary main_v91 main_v94 (broadcastInDim S1x128 ![1] bcast_S128_S1x128_1 : (⟨S128, .f32⟩ : BufTy).Contents (Elt F) → (⟨S1x128, .f32⟩ : BufTy).Contents (Elt F)),  -- %94 = stablehlo.broadcast_in_dim %91, dims = [1] : (tensor<128xf32>) -> tensor<1x128xf32>
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),  -- %95 = stablehlo.broadcast_in_dim %94, dims = [0, 1] : (tensor<1x128xf32>) -> tensor<50000x128xf32>
    StableHlo.binary main_v85 main_v95 main_v96 (subf : (⟨S50000x128, .f32⟩ : BufTy).Contents (Elt F) → (⟨S50000x128, .f32⟩ : BufTy).Contents (Elt F) → (⟨S50000x128, .f32⟩ : BufTy).Contents (Elt F)),  -- %96 = stablehlo.subtract %85, %95 : tensor<50000x128xf32>
    StableHlo.nullary main_cst_13 (constant S_ .f32 0x3727C5AC#32),  -- %cst_13 = stablehlo.constant dense<9.99999974E-6> : tensor<f32>
    StableHlo.unary main_cst_13 main_v97 (broadcastInDim S128 ![] bcast_S_S128 : (⟨S_, .f32⟩ : BufTy).Contents (Elt F) → (⟨S128, .f32⟩ : BufTy).Contents (Elt F)),  -- %97 = stablehlo.broadcast_in_dim %cst_13, dims = [] : (tensor<f32>) -> tensor<128xf32>
    StableHlo.binary main_v93 main_v97 main_v98 (addf : (⟨S128, .f32⟩ : BufTy).Contents (Elt F) → (⟨S128, .f32⟩ : BufTy).Contents (Elt F) → (⟨S128, .f32⟩ : BufTy).Contents (Elt F)),  -- %98 = stablehlo.add %93, %97 : tensor<128xf32>
    StableHlo.unary main_v98 main_v99 (Host.rsqrt : (⟨S128, .f32⟩ : BufTy).Contents (Elt F) → (⟨S128, .f32⟩ : BufTy).Contents (Elt F)),  -- %99 = stablehlo.rsqrt %98 : tensor<128xf32>
    StableHlo.unary main_v99 main_v100 (broadcastInDim S1x128 ![1] bcast_S128_S1x128_1 : (⟨S128, .f32⟩ : BufTy).Contents (Elt F) → (⟨S1x128, .f32⟩ : BufTy).Contents (Elt F)),  -- %100 = stablehlo.broadcast_in_dim %99, dims = [1] : (tensor<128xf32>) -> tensor<1x128xf32>
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),  -- %101 = stablehlo.broadcast_in_dim %100, dims = [0, 1] : (tensor<1x128xf32>) -> tensor<50000x128xf32>
    StableHlo.binary main_v96 main_v101 main_v102 (mulf : (⟨S50000x128, .f32⟩ : BufTy).Contents (Elt F) → (⟨S50000x128, .f32⟩ : BufTy).Contents (Elt F) → (⟨S50000x128, .f32⟩ : BufTy).Contents (Elt F)),  -- %102 = stablehlo.multiply %96, %101 : tensor<50000x128xf32>
    StableHlo.unary main_v87 main_v103 (broadcastInDim S1x128 ![1] bcast_S128_S1x128_1 : (⟨S128, .f32⟩ : BufTy).Contents (Elt F) → (⟨S1x128, .f32⟩ : BufTy).Contents (Elt F)),  -- %103 = stablehlo.broadcast_in_dim %87, dims = [1] : (tensor<128xf32>) -> tensor<1x128xf32>
    StableHlo.unary main_v103 main_v104 (broadcastInDim S50000x128 ![0, 1] bcast_S1x128_S50000x128_0_1 : (⟨S1x128, .f32⟩ : BufTy).Contents (Elt F) → (⟨S50000x128, .f32⟩ : BufTy).Contents (Elt F)),  -- %104 = stablehlo.broadcast_in_dim %103, dims = [0, 1] : (tensor<1x128xf32>) -> tensor<50000x128xf32>
    StableHlo.binary main_v102 main_v104 main_v105 (mulf : (⟨S50000x128, .f32⟩ : BufTy).Contents (Elt F) → (⟨S50000x128, .f32⟩ : BufTy).Contents (Elt F) → (⟨S50000x128, .f32⟩ : BufTy).Contents (Elt F)),  -- %105 = stablehlo.multiply %102, %104 : tensor<50000x128xf32>
    StableHlo.unary main_v89 main_v106 (broadcastInDim S1x128 ![1] bcast_S128_S1x128_1 : (⟨S128, .f32⟩ : BufTy).Contents (Elt F) → (⟨S1x128, .f32⟩ : BufTy).Contents (Elt F)),  -- %106 = stablehlo.broadcast_in_dim %89, dims = [1] : (tensor<128xf32>) -> tensor<1x128xf32>
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),  -- %107 = stablehlo.broadcast_in_dim %106, dims = [0, 1] : (tensor<1x128xf32>) -> tensor<50000x128xf32>
    StableHlo.binary main_v105 main_v107 main_v108 (addf : (⟨S50000x128, .f32⟩ : BufTy).Contents (Elt F) → (⟨S50000x128, .f32⟩ : BufTy).Contents (Elt F) → (⟨S50000x128, .f32⟩ : BufTy).Contents (Elt F)),  -- %108 = stablehlo.add %105, %107 : tensor<50000x128xf32>
    StableHlo.binary main_v108 main_v64 main_v109 (addf : (⟨S50000x128, .f32⟩ : BufTy).Contents (Elt F) → (⟨S50000x128, .f32⟩ : BufTy).Contents (Elt F) → (⟨S50000x128, .f32⟩ : BufTy).Contents (Elt F)),  -- %109 = stablehlo.add %108, %64 : tensor<50000x128xf32>
    StableHlo.TRef.nullary (.of main_call2_cst : StableHlo.TRef sig ⟨S_, .f32⟩) (constant S_ .f32 0x00000000#32),  -- %cst = stablehlo.constant dense<0.000000e+00> : tensor<f32>
    StableHlo.TRef.unary (.of main_call2_cst : StableHlo.TRef sig ⟨S_, .f32⟩) (.of main_call2_v0 : StableHlo.TRef sig ⟨S50000x128, .f32⟩) (broadcastInDim S50000x128 ![] bcast_S_S50000x128),  -- %0 = stablehlo.broadcast_in_dim %cst, dims = [] : (tensor<f32>) -> tensor<50000x128xf32>
    StableHlo.TRef.binary (.of main_v109 : StableHlo.TRef sig ⟨S50000x128, .f32⟩) (.of main_call2_v0 : StableHlo.TRef sig ⟨S50000x128, .f32⟩) (.of main_call2_v1 : StableHlo.TRef sig ⟨S50000x128, .i1⟩) (cmpf .oge),  -- %1 = stablehlo.compare GE, %arg0, %0, FLOAT : (tensor<50000x128xf32>, tensor<50000x128xf32>) -> tensor<50000x128xi1>
    StableHlo.TRef.nullary (.of main_call2_cst_0 : StableHlo.TRef sig ⟨S_, .f32⟩) (constant S_ .f32 0x3C23D70A#32),  -- %cst_0 = stablehlo.constant dense<0.00999999977> : tensor<f32>
    StableHlo.TRef.unary (.of main_call2_cst_0 : StableHlo.TRef sig ⟨S_, .f32⟩) (.of main_call2_v2 : StableHlo.TRef sig ⟨S50000x128, .f32⟩) (broadcastInDim S50000x128 ![] bcast_S_S50000x128),  -- %2 = stablehlo.broadcast_in_dim %cst_0, dims = [] : (tensor<f32>) -> tensor<50000x128xf32>
    StableHlo.TRef.binary (.of main_call2_v2 : StableHlo.TRef sig ⟨S50000x128, .f32⟩) (.of main_v109 : StableHlo.TRef sig ⟨S50000x128, .f32⟩) (.of main_call2_v3 : StableHlo.TRef sig ⟨S50000x128, .f32⟩) mulf,  -- %3 = stablehlo.multiply %2, %arg0 : tensor<50000x128xf32>
    StableHlo.TRef.ternary (.of main_call2_v1 : StableHlo.TRef sig ⟨S50000x128, .i1⟩) (.of main_v109 : StableHlo.TRef sig ⟨S50000x128, .f32⟩) (.of main_call2_v3 : StableHlo.TRef sig ⟨S50000x128, .f32⟩) (.of main_v110 : StableHlo.TRef sig ⟨S50000x128, .f32⟩) select ]  -- %110 = func.call @leaky_relu(%109) : (tensor<50000x128xf32>) -> tensor<50000x128xf32>

/-- The buffers those operations write, in order. -/
abbrev opsLayer2_W : List (Ref sig .tc) :=
  [ main_v65, main_v66, main_v67, main_v68, main_v69, main_c_10, main_v70, main_v71, main_c_11, main_v72,
    main_v73, main_v74, main_v75, main_v76, main_v77, main_v78, main_v79, main_cst_12, main_v80, main_v81,
    main_v82, main_v83, main_v84, main_v85, main_v86, main_v87, main_v88, main_v89, main_v90, main_v91,
    main_v92, main_v93, main_v94, main_v95, main_v96, main_cst_13, main_v97, main_v98, main_v99, main_v100,
    main_v101, main_v102, main_v103, main_v104, main_v105, main_v106, main_v107, main_v108, main_v109, main_call2_cst,
    main_call2_v0, main_call2_v1, main_call2_cst_0, main_call2_v2, main_call2_v3, main_v110 ]

/-- The third layer, on slice 1 of the stacked parameters: %111 … %155, the input %110 added back, the rectifier into %156. -/
abbrev opsLayer3 : List (HloOp τ sig (Elt F)) :=
  [ StableHlo.unary main_arg9 main_v111 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %111 = stablehlo.slice %arg9 [1:2, 0:128, 0:128] : (tensor<2x128x128xf32>) -> tensor<1x128x128xf32>
    StableHlo.reshape main_v111 main_v112 rfl shapeCasts_S1x128x128_S128x128,  -- %112 = stablehlo.reshape %111 : (tensor<1x128x128xf32>) -> tensor<128x128xf32>
    StableHlo.unary main_arg10 main_v113 ((extractStridedSlice S1x128 ![1, 0] · slices_S2x128_S1x128_1_0) : (⟨S2x128, .f32⟩ : BufTy).Contents (Elt F) → (⟨S1x128, .f32⟩ : BufTy).Contents (Elt F)),  -- %113 = stablehlo.slice %arg10 [1:2, 0:128] : (tensor<2x128xf32>) -> tensor<1x128xf32>
    StableHlo.reshape main_v113 main_v114 rfl shapeCasts_S1x128_S128,  -- %114 = stablehlo.reshape %113 : (tensor<1x128xf32>) -> tensor<128xf32>
    StableHlo.binary main_v110 main_v112 main_v115 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %115 = stablehlo.dot_general %110, %112, contracting_dims = [1] x [0], precision = [DEFAULT, DEFAULT] : (tensor<50000x128xf32>, tensor<128x128xf32>) -> tensor<50000x128xf32>
    StableHlo.nullary main_c_14 (constantI S_ 32 0#32),  -- %c_14 = stablehlo.constant dense<0> : tensor<i32>
    StableHlo.unary main_c_14 main_v116 (broadcastInDim S850000 ![] bcast_S_S850000 : (⟨S_, .i32⟩ : BufTy).Contents (Elt F) → (⟨S850000, .i32⟩ : BufTy).Contents (Elt F)),  -- %116 = stablehlo.broadcast_in_dim %c_14, dims = [] : (tensor<i32>) -> tensor<850000xi32>
    StableHlo.binary main_v3 main_v116 main_v117 (cmpi .slt : (⟨S850000, .i32⟩ : BufTy).Contents (Elt F) → (⟨S850000, .i32⟩ : BufTy).Contents (Elt F) → (⟨S850000, .i1⟩ : BufTy).Contents (Elt F)),  -- %117 = stablehlo.compare LT, %3, %116, SIGNED : (tensor<850000xi32>, tensor<850000xi32>) -> tensor<850000xi1>
    StableHlo.nullary main_c_15 (constantI S_ 32 50000#32),  -- %c_15 = stablehlo.constant dense<50000> : tensor<i32>
    StableHlo.unary main_c_15 main_v118 (broadcastInDim S850000 ![] bcast_S_S850000 : (⟨S_, .i32⟩ : BufTy).Contents (Elt F) → (⟨S850000, .i32⟩ : BufTy).Contents (Elt F)),  -- %118 = stablehlo.broadcast_in_dim %c_15, dims = [] : (tensor<i32>) -> tensor<850000xi32>
    StableHlo.binary main_v3 main_v118 main_v119 (addi : (⟨S850000, .i32⟩ : BufTy).Contents (Elt F) → (⟨S850000, .i32⟩ : BufTy).Contents (Elt F) → (⟨S850000, .i32⟩ : BufTy).Contents (Elt F)),  -- %119 = stablehlo.add %3, %118 : tensor<850000xi32>
    StableHlo.ternary main_v117 main_v119 main_v3 main_v120 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %120 = stablehlo.select %117, %119, %3 : tensor<850000xi1>, tensor<850000xi32>
    StableHlo.unary main_v120 main_v121 (broadcastInDim S850000x1 ![0] bcast_S850000_S850000x1_0 : (⟨S850000, .i32⟩ : BufTy).Contents (Elt F) → (⟨S850000x1, .i32⟩ : BufTy).Contents (Elt F)),  -- %121 = stablehlo.broadcast_in_dim %120, dims = [0] : (tensor<850000xi32>) -> tensor<850000x1xi32>
    StableHlo.binary main_v115 main_v121 main_v122 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),  -- %122 = "stablehlo.gather"(%115, %121) <{dimension_numbers = #stablehlo.gather<offset_dims = [1], collapsed_slice_dims = [0], start_index_map = [0], index_vector_dim = 1>, indices_are_sorted = false, slice_sizes = array<i64: 1, 128>}> : (tensor<50000x128xf32>, tensor<850000x1xi32>) -> tensor<850000x128xf32>
    StableHlo.unary main_v31 main_v123 (broadcastInDim S850000x1 ![0] bcast_S850000_S850000x1_0 : (⟨S850000, .f32⟩ : BufTy).Contents (Elt F) → (⟨S850000x1, .f32⟩ : BufTy).Contents (Elt F)),  -- %123 = stablehlo.broadcast_in_dim %31, dims = [0] : (tensor<850000xf32>) -> tensor<850000x1xf32>
    StableHlo.unary main_v123 main_v124 (broadcastInDim S850000x128 ![0, 1] bcast_S850000x1_S850000x128_0_1 : (⟨S850000x1, .f32⟩ : BufTy).Contents (Elt F) → (⟨S850000x128, .f32⟩ : BufTy).Contents (Elt F)),  -- %124 = stablehlo.broadcast_in_dim %123, dims = [0, 1] : (tensor<850000x1xf32>) -> tensor<850000x128xf32>
    StableHlo.binary main_v122 main_v124 main_v125 (mulf : (⟨S850000x128, .f32⟩ : BufTy).Contents (Elt F) → (⟨S850000x128, .f32⟩ : BufTy).Contents (Elt F) → (⟨S850000x128, .f32⟩ : BufTy).Contents (Elt F)),  -- %125 = stablehlo.multiply %122, %124 : tensor<850000x128xf32>
    StableHlo.nullary main_cst_16 (constant S_ .f32 0x00000000#32),  -- %cst_16 = stablehlo.constant dense<0.000000e+00> : tensor<f32>
    StableHlo.unary main_cst_16 main_v126 (broadcastInDim S50000x128 ![] bcast_S_S50000x128 : (⟨S_, .f32⟩ : BufTy).Contents (Elt F) → (⟨S50000x128, .f32⟩ : BufTy).Contents (Elt F)),  -- %126 = stablehlo.broadcast_in_dim %cst_16, dims = [] : (tensor<f32>) -> tensor<50000x128xf32>
    StableHlo.unary main_v6 main_v127 (broadcastInDim S850000x1 ![0] bcast_S850000_S850000x1_0 : (⟨S850000, .i32⟩ : BufTy).Contents (Elt F) → (⟨S850000x1, .i32⟩ : BufTy).Contents (Elt F)),  -- %127 = stablehlo.broadcast_in_dim %6, dims = [0] : (tensor<850000xi32>) -> tensor<850000x1xi32>
    StableHlo.ternary main_v126 main_v127 main_v125 main_v128 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),  -- %128 = "stablehlo.scatter"(%126, %127, %125) <{indices_are_sorted = false, scatter_dimension_numbers = #stablehlo.scatter<update_window_dims = [1], inserted_window_dims = [0], scatter_dims_to_operand_dims = [0], index_vector_dim = 1>, unique_indices = false}> ( {
    StableHlo.unary main_v114 main_v129 (broadcastInDim S1x128 ![1] bcast_S128_S1x128_1 : (⟨S128, .f32⟩ : BufTy).Contents (Elt F) → (⟨S1x128, .f32⟩ : BufTy).Contents (Elt F)),  -- %129 = stablehlo.broadcast_in_dim %114, dims = [1] : (tensor<128xf32>) -> tensor<1x128xf32>
    StableHlo.unary main_v129 main_v130 (broadcastInDim S50000x128 ![0, 1] bcast_S1x128_S50000x128_0_1 : (⟨S1x128, .f32⟩ : BufTy).Contents (Elt F) → (⟨S50000x128, .f32⟩ : BufTy).Contents (Elt F)),  -- %130 = stablehlo.broadcast_in_dim %129, dims = [0, 1] : (tensor<1x128xf32>) -> tensor<50000x128xf32>
    StableHlo.binary main_v128 main_v130 main_v131 (addf : (⟨S50000x128, .f32⟩ : BufTy).Contents (Elt F) → (⟨S50000x128, .f32⟩ : BufTy).Contents (Elt F) → (⟨S50000x128, .f32⟩ : BufTy).Contents (Elt F)),  -- %131 = stablehlo.add %128, %130 : tensor<50000x128xf32>
    StableHlo.unary main_arg11 main_v132 ((extractStridedSlice S1x128 ![1, 0] · slices_S2x128_S1x128_1_0) : (⟨S2x128, .f32⟩ : BufTy).Contents (Elt F) → (⟨S1x128, .f32⟩ : BufTy).Contents (Elt F)),  -- %132 = stablehlo.slice %arg11 [1:2, 0:128] : (tensor<2x128xf32>) -> tensor<1x128xf32>
    StableHlo.reshape main_v132 main_v133 rfl shapeCasts_S1x128_S128,  -- %133 = stablehlo.reshape %132 : (tensor<1x128xf32>) -> tensor<128xf32>
    StableHlo.unary main_arg12 main_v134 ((extractStridedSlice S1x128 ![1, 0] · slices_S2x128_S1x128_1_0) : (⟨S2x128, .f32⟩ : BufTy).Contents (Elt F) → (⟨S1x128, .f32⟩ : BufTy).Contents (Elt F)),  -- %134 = stablehlo.slice %arg12 [1:2, 0:128] : (tensor<2x128xf32>) -> tensor<1x128xf32>
    StableHlo.reshape main_v134 main_v135 rfl shapeCasts_S1x128_S128,  -- %135 = stablehlo.reshape %134 : (tensor<1x128xf32>) -> tensor<128xf32>
    StableHlo.unary main_arg13 main_v136 ((extractStridedSlice S1x128 ![1, 0] · slices_S2x128_S1x128_1_0) : (⟨S2x128, .f32⟩ : BufTy).Contents (Elt F) → (⟨S1x128, .f32⟩ : BufTy).Contents (Elt F)),  -- %136 = stablehlo.slice %arg13 [1:2, 0:128] : (tensor<2x128xf32>) -> tensor<1x128xf32>
    StableHlo.reshape main_v136 main_v137 rfl shapeCasts_S1x128_S128,  -- %137 = stablehlo.reshape %136 : (tensor<1x128xf32>) -> tensor<128xf32>
    StableHlo.unary main_arg14 main_v138 ((extractStridedSlice S1x128 ![1, 0] · slices_S2x128_S1x128_1_0) : (⟨S2x128, .f32⟩ : BufTy).Contents (Elt F) → (⟨S1x128, .f32⟩ : BufTy).Contents (Elt F)),  -- %138 = stablehlo.slice %arg14 [1:2, 0:128] : (tensor<2x128xf32>) -> tensor<1x128xf32>
    StableHlo.reshape main_v138 main_v139 rfl shapeCasts_S1x128_S128,  -- %139 = stablehlo.reshape %138 : (tensor<1x128xf32>) -> tensor<128xf32>
    StableHlo.unary main_v137 main_v140 (broadcastInDim S1x128 ![1] bcast_S128_S1x128_1 : (⟨S128, .f32⟩ : BufTy).Contents (Elt F) → (⟨S1x128, .f32⟩ : BufTy).Contents (Elt F)),  -- %140 = stablehlo.broadcast_in_dim %137, dims = [1] : (tensor<128xf32>) -> tensor<1x128xf32>
    StableHlo.unary main_v140 main_v141 (broadcastInDim S50000x128 ![0, 1] bcast_S1x128_S50000x128_0_1 : (⟨S1x128, .f32⟩ : BufTy).Contents (Elt F) → (⟨S50000x128, .f32⟩ : BufTy).Contents (Elt F)),  -- %141 = stablehlo.broadcast_in_dim %140, dims = [0, 1] : (tensor<1x128xf32>) -> tensor<50000x128xf32>
    StableHlo.binary main_v131 main_v141 main_v142 (subf : (⟨S50000x128, .f32⟩ : BufTy).Contents (Elt F) → (⟨S50000x128, .f32⟩ : BufTy).Contents (Elt F) → (⟨S50000x128, .f32⟩ : BufTy).Contents (Elt F)),  -- %142 = stablehlo.subtract %131, %141 : tensor<50000x128xf32>
    StableHlo.nullary main_cst_17 (constant S_ .f32 0x3727C5AC#32),  -- %cst_17 = stablehlo.constant dense<9.99999974E-6> : tensor<f32>
    StableHlo.unary main_cst_17 main_v143 (broadcastInDim S128 ![] bcast_S_S128 : (⟨S_, .f32⟩ : BufTy).Contents (Elt F) → (⟨S128, .f32⟩ : BufTy).Contents (Elt F)),  -- %143 = stablehlo.broadcast_in_dim %cst_17, dims = [] : (tensor<f32>) -> tensor<128xf32>
    StableHlo.binary main_v139 main_v143 main_v144 (addf : (⟨S128, .f32⟩ : BufTy).Contents (Elt F) → (⟨S128, .f32⟩ : BufTy).Contents (Elt F) → (⟨S128, .f32⟩ : BufTy).Contents (Elt F)),  -- %144 = stablehlo.add %139, %143 : tensor<128xf32>
    StableHlo.unary main_v144 main_v145 (Host.rsqrt : (⟨S128, .f32⟩ : BufTy).Contents (Elt F) → (⟨S128, .f32⟩ : BufTy).Contents (Elt F)),  -- %145 = stablehlo.rsqrt %144 : tensor<128xf32>
    StableHlo.unary main_v145 main_v146 (broadcastInDim S1x128 ![1] bcast_S128_S1x128_1 : (⟨S128, .f32⟩ : BufTy).Contents (Elt F) → (⟨S1x128, .f32⟩ : BufTy).Contents (Elt F)),  -- %146 = stablehlo.broadcast_in_dim %145, dims = [1] : (tensor<128xf32>) -> tensor<1x128xf32>
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),  -- %147 = stablehlo.broadcast_in_dim %146, dims = [0, 1] : (tensor<1x128xf32>) -> tensor<50000x128xf32>
    StableHlo.binary main_v142 main_v147 main_v148 (mulf : (⟨S50000x128, .f32⟩ : BufTy).Contents (Elt F) → (⟨S50000x128, .f32⟩ : BufTy).Contents (Elt F) → (⟨S50000x128, .f32⟩ : BufTy).Contents (Elt F)),  -- %148 = stablehlo.multiply %142, %147 : tensor<50000x128xf32>
    StableHlo.unary main_v133 main_v149 (broadcastInDim S1x128 ![1] bcast_S128_S1x128_1 : (⟨S128, .f32⟩ : BufTy).Contents (Elt F) → (⟨S1x128, .f32⟩ : BufTy).Contents (Elt F)),  -- %149 = stablehlo.broadcast_in_dim %133, dims = [1] : (tensor<128xf32>) -> tensor<1x128xf32>
    StableHlo.unary main_v149 main_v150 (broadcastInDim S50000x128 ![0, 1] bcast_S1x128_S50000x128_0_1 : (⟨S1x128, .f32⟩ : BufTy).Contents (Elt F) → (⟨S50000x128, .f32⟩ : BufTy).Contents (Elt F)),  -- %150 = stablehlo.broadcast_in_dim %149, dims = [0, 1] : (tensor<1x128xf32>) -> tensor<50000x128xf32>
    StableHlo.binary main_v148 main_v150 main_v151 (mulf : (⟨S50000x128, .f32⟩ : BufTy).Contents (Elt F) → (⟨S50000x128, .f32⟩ : BufTy).Contents (Elt F) → (⟨S50000x128, .f32⟩ : BufTy).Contents (Elt F)),  -- %151 = stablehlo.multiply %148, %150 : tensor<50000x128xf32>
    StableHlo.unary main_v135 main_v152 (broadcastInDim S1x128 ![1] bcast_S128_S1x128_1 : (⟨S128, .f32⟩ : BufTy).Contents (Elt F) → (⟨S1x128, .f32⟩ : BufTy).Contents (Elt F)),  -- %152 = stablehlo.broadcast_in_dim %135, dims = [1] : (tensor<128xf32>) -> tensor<1x128xf32>
    StableHlo.unary main_v152 main_v153 (broadcastInDim S50000x128 ![0, 1] bcast_S1x128_S50000x128_0_1 : (⟨S1x128, .f32⟩ : BufTy).Contents (Elt F) → (⟨S50000x128, .f32⟩ : BufTy).Contents (Elt F)),  -- %153 = stablehlo.broadcast_in_dim %152, dims = [0, 1] : (tensor<1x128xf32>) -> tensor<50000x128xf32>
    StableHlo.binary main_v151 main_v153 main_v154 (addf : (⟨S50000x128, .f32⟩ : BufTy).Contents (Elt F) → (⟨S50000x128, .f32⟩ : BufTy).Contents (Elt F) → (⟨S50000x128, .f32⟩ : BufTy).Contents (Elt F)),  -- %154 = stablehlo.add %151, %153 : tensor<50000x128xf32>
    StableHlo.binary main_v154 main_v110 main_v155 (addf : (⟨S50000x128, .f32⟩ : BufTy).Contents (Elt F) → (⟨S50000x128, .f32⟩ : BufTy).Contents (Elt F) → (⟨S50000x128, .f32⟩ : BufTy).Contents (Elt F)),  -- %155 = stablehlo.add %154, %110 : tensor<50000x128xf32>
    StableHlo.TRef.nullary (.of main_call3_cst : StableHlo.TRef sig ⟨S_, .f32⟩) (constant S_ .f32 0x00000000#32),  -- %cst = stablehlo.constant dense<0.000000e+00> : tensor<f32>
    StableHlo.TRef.unary (.of main_call3_cst : StableHlo.TRef sig ⟨S_, .f32⟩) (.of main_call3_v0 : StableHlo.TRef sig ⟨S50000x128, .f32⟩) (broadcastInDim S50000x128 ![] bcast_S_S50000x128),  -- %0 = stablehlo.broadcast_in_dim %cst, dims = [] : (tensor<f32>) -> tensor<50000x128xf32>
    StableHlo.TRef.binary (.of main_v155 : StableHlo.TRef sig ⟨S50000x128, .f32⟩) (.of main_call3_v0 : StableHlo.TRef sig ⟨S50000x128, .f32⟩) (.of main_call3_v1 : StableHlo.TRef sig ⟨S50000x128, .i1⟩) (cmpf .oge),  -- %1 = stablehlo.compare GE, %arg0, %0, FLOAT : (tensor<50000x128xf32>, tensor<50000x128xf32>) -> tensor<50000x128xi1>
    StableHlo.TRef.nullary (.of main_call3_cst_0 : StableHlo.TRef sig ⟨S_, .f32⟩) (constant S_ .f32 0x3C23D70A#32),  -- %cst_0 = stablehlo.constant dense<0.00999999977> : tensor<f32>
    StableHlo.TRef.unary (.of main_call3_cst_0 : StableHlo.TRef sig ⟨S_, .f32⟩) (.of main_call3_v2 : StableHlo.TRef sig ⟨S50000x128, .f32⟩) (broadcastInDim S50000x128 ![] bcast_S_S50000x128),  -- %2 = stablehlo.broadcast_in_dim %cst_0, dims = [] : (tensor<f32>) -> tensor<50000x128xf32>
    StableHlo.TRef.binary (.of main_call3_v2 : StableHlo.TRef sig ⟨S50000x128, .f32⟩) (.of main_v155 : StableHlo.TRef sig ⟨S50000x128, .f32⟩) (.of main_call3_v3 : StableHlo.TRef sig ⟨S50000x128, .f32⟩) mulf,  -- %3 = stablehlo.multiply %2, %arg0 : tensor<50000x128xf32>
    StableHlo.TRef.ternary (.of main_call3_v1 : StableHlo.TRef sig ⟨S50000x128, .i1⟩) (.of main_v155 : StableHlo.TRef sig ⟨S50000x128, .f32⟩) (.of main_call3_v3 : StableHlo.TRef sig ⟨S50000x128, .f32⟩) (.of main_v156 : StableHlo.TRef sig ⟨S50000x128, .f32⟩) select ]  -- %156 = func.call @leaky_relu(%155) : (tensor<50000x128xf32>) -> tensor<50000x128xf32>

/-- The buffers those operations write, in order. -/
abbrev opsLayer3_W : List (Ref sig .tc) :=
  [ main_v111, main_v112, main_v113, main_v114, main_v115, main_c_14, main_v116, main_v117, main_c_15, main_v118,
    main_v119, main_v120, main_v121, main_v122, main_v123, main_v124, main_v125, main_cst_16, main_v126, main_v127,
    main_v128, main_v129, main_v130, main_v131, main_v132, main_v133, main_v134, main_v135, main_v136, main_v137,
    main_v138, main_v139, main_v140, main_v141, main_v142, main_cst_17, main_v143, main_v144, main_v145, main_v146,
    main_v147, main_v148, main_v149, main_v150, main_v151, main_v152, main_v153, main_v154, main_v155, main_call3_cst,
    main_call3_v0, main_call3_v1, main_call3_cst_0, main_call3_v2, main_call3_v3, main_v156 ]

/-- The first dense layer: product, bias and rectifier, %157 … %161. -/
abbrev opsLin1 : List (HloOp τ sig (Elt F)) :=
  [ StableHlo.binary main_v156 main_arg15 main_v157 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %157 = stablehlo.dot_general %156, %arg15, contracting_dims = [1] x [0], precision = [DEFAULT, DEFAULT] : (tensor<50000x128xf32>, tensor<128x128xf32>) -> tensor<50000x128xf32>
    StableHlo.unary main_arg16 main_v158 (broadcastInDim S1x128 ![1] bcast_S128_S1x128_1 : (⟨S128, .f32⟩ : BufTy).Contents (Elt F) → (⟨S1x128, .f32⟩ : BufTy).Contents (Elt F)),  -- %158 = stablehlo.broadcast_in_dim %arg16, dims = [1] : (tensor<128xf32>) -> tensor<1x128xf32>
    StableHlo.unary main_v158 main_v159 (broadcastInDim S50000x128 ![0, 1] bcast_S1x128_S50000x128_0_1 : (⟨S1x128, .f32⟩ : BufTy).Contents (Elt F) → (⟨S50000x128, .f32⟩ : BufTy).Contents (Elt F)),  -- %159 = stablehlo.broadcast_in_dim %158, dims = [0, 1] : (tensor<1x128xf32>) -> tensor<50000x128xf32>
    StableHlo.binary main_v157 main_v159 main_v160 (addf : (⟨S50000x128, .f32⟩ : BufTy).Contents (Elt F) → (⟨S50000x128, .f32⟩ : BufTy).Contents (Elt F) → (⟨S50000x128, .f32⟩ : BufTy).Contents (Elt F)),  -- %160 = stablehlo.add %157, %159 : tensor<50000x128xf32>
    StableHlo.TRef.nullary (.of main_call4_cst : StableHlo.TRef sig ⟨S_, .f32⟩) (constant S_ .f32 0x00000000#32),  -- %cst = stablehlo.constant dense<0.000000e+00> : tensor<f32>
    StableHlo.TRef.unary (.of main_call4_cst : StableHlo.TRef sig ⟨S_, .f32⟩) (.of main_call4_v0 : StableHlo.TRef sig ⟨S50000x128, .f32⟩) (broadcastInDim S50000x128 ![] bcast_S_S50000x128),  -- %0 = stablehlo.broadcast_in_dim %cst, dims = [] : (tensor<f32>) -> tensor<50000x128xf32>
    StableHlo.TRef.binary (.of main_v160 : StableHlo.TRef sig ⟨S50000x128, .f32⟩) (.of main_call4_v0 : StableHlo.TRef sig ⟨S50000x128, .f32⟩) (.of main_call4_v1 : StableHlo.TRef sig ⟨S50000x128, .i1⟩) (cmpf .oge),  -- %1 = stablehlo.compare GE, %arg0, %0, FLOAT : (tensor<50000x128xf32>, tensor<50000x128xf32>) -> tensor<50000x128xi1>
    StableHlo.TRef.nullary (.of main_call4_cst_0 : StableHlo.TRef sig ⟨S_, .f32⟩) (constant S_ .f32 0x3C23D70A#32),  -- %cst_0 = stablehlo.constant dense<0.00999999977> : tensor<f32>
    StableHlo.TRef.unary (.of main_call4_cst_0 : StableHlo.TRef sig ⟨S_, .f32⟩) (.of main_call4_v2 : StableHlo.TRef sig ⟨S50000x128, .f32⟩) (broadcastInDim S50000x128 ![] bcast_S_S50000x128),  -- %2 = stablehlo.broadcast_in_dim %cst_0, dims = [] : (tensor<f32>) -> tensor<50000x128xf32>
    StableHlo.TRef.binary (.of main_call4_v2 : StableHlo.TRef sig ⟨S50000x128, .f32⟩) (.of main_v160 : StableHlo.TRef sig ⟨S50000x128, .f32⟩) (.of main_call4_v3 : StableHlo.TRef sig ⟨S50000x128, .f32⟩) mulf,  -- %3 = stablehlo.multiply %2, %arg0 : tensor<50000x128xf32>
    StableHlo.TRef.ternary (.of main_call4_v1 : StableHlo.TRef sig ⟨S50000x128, .i1⟩) (.of main_v160 : StableHlo.TRef sig ⟨S50000x128, .f32⟩) (.of main_call4_v3 : StableHlo.TRef sig ⟨S50000x128, .f32⟩) (.of main_v161 : StableHlo.TRef sig ⟨S50000x128, .f32⟩) select ]  -- %161 = func.call @leaky_relu(%160) : (tensor<50000x128xf32>) -> tensor<50000x128xf32>

/-- The buffers those operations write, in order. -/
abbrev opsLin1_W : List (Ref sig .tc) :=
  [ main_v157, main_v158, main_v159, main_v160, main_call4_cst, main_call4_v0, main_call4_v1, main_call4_cst_0, main_call4_v2, main_call4_v3,
    main_v161 ]

/-- The last dense layer: product and bias, %162 … %165. -/
abbrev opsLin2 : List (HloOp τ sig (Elt F)) :=
  [ StableHlo.binary main_v161 main_arg17 main_v162 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),  -- %162 = stablehlo.dot_general %161, %arg17, contracting_dims = [1] x [0], precision = [DEFAULT, DEFAULT] : (tensor<50000x128xf32>, tensor<128x64xf32>) -> tensor<50000x64xf32>
    StableHlo.unary main_arg18 main_v163 (broadcastInDim S1x64 ![1] bcast_S64_S1x64_1 : (⟨S64, .f32⟩ : BufTy).Contents (Elt F) → (⟨S1x64, .f32⟩ : BufTy).Contents (Elt F)),  -- %163 = stablehlo.broadcast_in_dim %arg18, dims = [1] : (tensor<64xf32>) -> tensor<1x64xf32>
    StableHlo.unary main_v163 main_v164 (broadcastInDim S50000x64 ![0, 1] bcast_S1x64_S50000x64_0_1 : (⟨S1x64, .f32⟩ : BufTy).Contents (Elt F) → (⟨S50000x64, .f32⟩ : BufTy).Contents (Elt F)),  -- %164 = stablehlo.broadcast_in_dim %163, dims = [0, 1] : (tensor<1x64xf32>) -> tensor<50000x64xf32>
    StableHlo.binary main_v162 main_v164 main_v165 (addf : (⟨S50000x64, .f32⟩ : BufTy).Contents (Elt F) → (⟨S50000x64, .f32⟩ : BufTy).Contents (Elt F) → (⟨S50000x64, .f32⟩ : BufTy).Contents (Elt F)) ]  -- %165 = stablehlo.add %162, %164 : tensor<50000x64xf32>

/-- The buffers those operations write, in order. -/
abbrev opsLin2_W : List (Ref sig .tc) :=
  [ main_v162, main_v163, main_v164, main_v165 ]

/-- The whole program's operations, in order. -/
abbrev ops : List (HloOp τ sig (Elt F)) :=
  opsGraph ++ (opsLayer1 ++ (opsLayer2 ++ (opsLayer3 ++ (opsLin1 ++ (opsLin2)))))

end Cert.RefSide

end
-- ==== Proof.RefRun.lean ====
/-
  The reference program's run.

  The program is a straight line: its four windows in order, each a chain of host operations, a call standing for the
  called function's own operations over the buffers the call names.  Once the calls are unfolded and the sequencing is
  reassociated to the right, the program is the line of the six lists of operations, graph part first.  No operation
  touches anything but a TensorCore buffer and none allocates, so from any memory with zero counters every weakly fair
  execution terminates, and each TensorCore buffer ends at what the operations, folded in order over the launch
  contents, leave in it.
-/
import proofs.«132849_j12000138625377_2_alg».proof.Proof.RefOps
import proofs.«132849_j12000138625377_2_alg».proof.Proof.LibHostLine

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

-- one bind per operation is reassociated under the chain: the rewriting recurses once per statement
set_option maxRecDepth 16384 in
set_option maxHeartbeats 4000000 in
/-- The program is the line of its operations: the windows and the called functions unfolded, the records read at their
    fields, both sides are one chain of steps once sequencing is reassociated. -/
theorem main_eq (c : Dev nD) : main (F := F) c = seq ops := by
  simp only [main, main_part0, main_part1, main_part2, main_part3, fn_where.body, fn_where_0.body, fn_leaky_relu.body,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation of a literal list touches TensorCore buffers only: each builder's own inclusion, found by the
    builder's name. -/
macro "each_bufs_sub" : tactic =>
  `(tactic| simp only [List.Forall, nullary_bufs_sub, unary_bufs_sub, binary_bufs_sub, ternary_bufs_sub, reshape_bufs_sub,
      and_self])

/-- No operation of a literal list allocates: operation by operation, by computation. -/
macro "each_fresh" : tactic =>
  `(tactic| (simp only [List.Forall]; (repeat' apply And.intro); all_goals rfl))

theorem opsGraph_sub : (opsGraph : List (HloOp τ sig (Elt F))).Forall fun op => op.bufs ⊆ tcRefs τ sig := by each_bufs_sub
theorem opsLayer1_sub : (opsLayer1 : List (HloOp τ sig (Elt F))).Forall fun op => op.bufs ⊆ tcRefs τ sig := by each_bufs_sub
theorem opsLayer2_sub : (opsLayer2 : List (HloOp τ sig (Elt F))).Forall fun op => op.bufs ⊆ tcRefs τ sig := by each_bufs_sub
theorem opsLayer3_sub : (opsLayer3 : List (HloOp τ sig (Elt F))).Forall fun op => op.bufs ⊆ tcRefs τ sig := by each_bufs_sub
theorem opsLin1_sub : (opsLin1 : List (HloOp τ sig (Elt F))).Forall fun op => op.bufs ⊆ tcRefs τ sig := by each_bufs_sub
theorem opsLin2_sub : (opsLin2 : List (HloOp τ sig (Elt F))).Forall fun op => op.bufs ⊆ tcRefs τ sig := by each_bufs_sub

/-- Every operation of the program touches TensorCore buffers only: list by list. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp opsGraph_sub op h, List.forall_iff_forall_mem.mp opsLayer1_sub op h,
      List.forall_iff_forall_mem.mp opsLayer2_sub op h, List.forall_iff_forall_mem.mp opsLayer3_sub op h,
      List.forall_iff_forall_mem.mp opsLin1_sub op h, List.forall_iff_forall_mem.mp opsLin2_sub op h]

theorem opsGraph_fresh : (opsGraph : List (HloOp τ sig (Elt F))).Forall fun op => op.fresh = ∅ := by each_fresh
theorem opsLayer1_fresh : (opsLayer1 : List (HloOp τ sig (Elt F))).Forall fun op => op.fresh = ∅ := by each_fresh
theorem opsLayer2_fresh : (opsLayer2 : List (HloOp τ sig (Elt F))).Forall fun op => op.fresh = ∅ := by each_fresh
theorem opsLayer3_fresh : (opsLayer3 : List (HloOp τ sig (Elt F))).Forall fun op => op.fresh = ∅ := by each_fresh
theorem opsLin1_fresh : (opsLin1 : List (HloOp τ sig (Elt F))).Forall fun op => op.fresh = ∅ := by each_fresh
theorem opsLin2_fresh : (opsLin2 : List (HloOp τ sig (Elt F))).Forall fun op => op.fresh = ∅ := by each_fresh

/-- No operation of the program allocates: each determines its results. -/
theorem ops_fresh : ∀ op ∈ (ops : List (HloOp τ sig (Elt F))), op.fresh = ∅ := fun op h => by
  simp only [ops, List.mem_append] at h
  rcases h with h | h | h | h | h | h
  exacts [List.forall_iff_forall_mem.mp opsGraph_fresh op h, List.forall_iff_forall_mem.mp opsLayer1_fresh op h,
    List.forall_iff_forall_mem.mp opsLayer2_fresh op h, List.forall_iff_forall_mem.mp opsLayer3_fresh op h,
    List.forall_iff_forall_mem.mp opsLin1_fresh op h, List.forall_iff_forall_mem.mp opsLin2_fresh op h]

/-- On every device, for any float values, from any memory with zero counters: every weakly fair execution of the
    program terminates, and every TensorCore buffer ends at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (launchContents m c) (Proc.devRef .tc b) :=
  run_seq scopedRefs_eq scopedSems_eq defs main (fun _ => ops) main_eq (fun _ => ops_sub) m ρ (fun _ => ops_fresh)

end Cert.RefSide

end
-- ==== Proof.RefOpsCut.lean ====
/-
  The reference program's lists of host operations cut into consecutive pieces, each with the buffers it writes: a
  list is its pieces in order.  A piece ends where one named array is complete: an aggregation's result, the
  rectifier's input, the rectifier's result.
-/
import proofs.«132849_j12000138625377_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- A piece of opsGraph: the two index columns, the weights with the self loops, the degree %11, its sign test %13 and inverse square root %14. -/
abbrev opsGraph_deg : List (HloOp τ sig (Elt F)) :=
  [ StableHlo.nullary main_v0 (iotaInDim S50000 32 0),  -- %0 = stablehlo.iota dim = 0 : tensor<50000xi32>
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),  -- %1 = stablehlo.slice %arg1 [0:1, 0:800000] : (tensor<2x800000xi32>) -> tensor<1x800000xi32>
    StableHlo.reshape main_v1 main_v2 rfl shapeCasts_S1x800000_S800000,  -- %2 = stablehlo.reshape %1 : (tensor<1x800000xi32>) -> tensor<800000xi32>
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %3 = stablehlo.concatenate %2, %0, dim = 0 : (tensor<800000xi32>, tensor<50000xi32>) -> tensor<850000xi32>
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),  -- %4 = stablehlo.slice %arg1 [1:2, 0:800000] : (tensor<2x800000xi32>) -> tensor<1x800000xi32>
    StableHlo.reshape main_v4 main_v5 rfl shapeCasts_S1x800000_S800000,  -- %5 = stablehlo.reshape %4 : (tensor<1x800000xi32>) -> tensor<800000xi32>
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %6 = stablehlo.concatenate %5, %0, dim = 0 : (tensor<800000xi32>, tensor<50000xi32>) -> tensor<850000xi32>
    StableHlo.nullary main_cst (constant S_ .f32 0x3F800000#32),  -- %cst = stablehlo.constant dense<1.000000e+00> : tensor<f32>
    StableHlo.unary main_cst main_v7 (broadcastInDim S50000 ![] bcast_S_S50000 : (⟨S_, .f32⟩ : BufTy).Contents (Elt F) → (⟨S50000, .f32⟩ : BufTy).Contents (Elt F)),  -- %7 = stablehlo.broadcast_in_dim %cst, dims = [] : (tensor<f32>) -> tensor<50000xf32>
    StableHlo.binary main_arg2 main_v7 main_v8 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),  -- %8 = stablehlo.concatenate %arg2, %7, dim = 0 : (tensor<800000xf32>, tensor<50000xf32>) -> tensor<850000xf32>
    StableHlo.nullary main_cst_0 (constant S_ .f32 0x00000000#32),  -- %cst_0 = stablehlo.constant dense<0.000000e+00> : tensor<f32>
    StableHlo.unary main_cst_0 main_v9 (broadcastInDim S50000 ![] bcast_S_S50000 : (⟨S_, .f32⟩ : BufTy).Contents (Elt F) → (⟨S50000, .f32⟩ : BufTy).Contents (Elt F)),  -- %9 = stablehlo.broadcast_in_dim %cst_0, dims = [] : (tensor<f32>) -> tensor<50000xf32>
    StableHlo.unary main_v6 main_v10 (broadcastInDim S850000x1 ![0] bcast_S850000_S850000x1_0 : (⟨S850000, .i32⟩ : BufTy).Contents (Elt F) → (⟨S850000x1, .i32⟩ : BufTy).Contents (Elt F)),  -- %10 = stablehlo.broadcast_in_dim %6, dims = [0] : (tensor<850000xi32>) -> tensor<850000x1xi32>
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),  -- %11 = "stablehlo.scatter"(%9, %10, %8) <{indices_are_sorted = false, scatter_dimension_numbers = #stablehlo.scatter<inserted_window_dims = [0], scatter_dims_to_operand_dims = [0], index_vector_dim = 1>, unique_indices = false}> ( {
    StableHlo.nullary main_cst_1 (constant S_ .f32 0x00000000#32),  -- %cst_1 = stablehlo.constant dense<0.000000e+00> : tensor<f32>
    StableHlo.unary main_cst_1 main_v12 (broadcastInDim S50000 ![] bcast_S_S50000 : (⟨S_, .f32⟩ : BufTy).Contents (Elt F) → (⟨S50000, .f32⟩ : BufTy).Contents (Elt F)),  -- %12 = stablehlo.broadcast_in_dim %cst_1, dims = [] : (tensor<f32>) -> tensor<50000xf32>
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),  -- %13 = stablehlo.compare GT, %11, %12, FLOAT : (tensor<50000xf32>, tensor<50000xf32>) -> tensor<50000xi1>
    StableHlo.unary main_v11 main_v14 (Host.rsqrt : (⟨S50000, .f32⟩ : BufTy).Contents (Elt F) → (⟨S50000, .f32⟩ : BufTy).Contents (Elt F)),  -- %14 = stablehlo.rsqrt %11 : tensor<50000xf32>
    StableHlo.nullary main_cst_2 (constant S_ .f32 0x00000000#32) ]  -- %cst_2 = stablehlo.constant dense<0.000000e+00> : tensor<f32>

/-- The buffers that piece's operations write, in order. -/
abbrev opsGraph_deg_W : List (Ref sig .tc) :=
  [ main_v0, main_v1, main_v2, main_v3, main_v4, main_v5, main_v6, main_cst, main_v7, main_v8,
    main_cst_0, main_v9, main_v10, main_v11, main_cst_1, main_v12, main_v13, main_v14, main_cst_2 ]

/-- A piece of opsGraph: the call of @_where: the inverse square root where the degree is positive, zero elsewhere, %15. -/
abbrev opsGraph_inv : List (HloOp τ sig (Elt F)) :=
  [ StableHlo.TRef.unary (.of main_cst_2 : StableHlo.TRef sig ⟨S_, .f32⟩) (.of main_call0_v0 : StableHlo.TRef sig ⟨S_, .f32⟩) id,  -- %0 = stablehlo.convert %arg2 : tensor<f32>
    StableHlo.TRef.unary (.of main_call0_v0 : StableHlo.TRef sig ⟨S_, .f32⟩) (.of main_call0_v1 : StableHlo.TRef sig ⟨S50000, .f32⟩) (broadcastInDim S50000 ![] bcast_S_S50000),  -- %1 = stablehlo.broadcast_in_dim %0, dims = [] : (tensor<f32>) -> tensor<50000xf32>
    StableHlo.TRef.ternary (.of main_v13 : StableHlo.TRef sig ⟨S50000, .i1⟩) (.of main_v14 : StableHlo.TRef sig ⟨S50000, .f32⟩) (.of main_call0_v1 : StableHlo.TRef sig ⟨S50000, .f32⟩) (.of main_v15 : StableHlo.TRef sig ⟨S50000, .f32⟩) select ]  -- %15 = func.call @_where(%13, %14, %cst_2) : (tensor<50000xi1>, tensor<50000xf32>, tensor<f32>) -> tensor<50000xf32>

/-- The buffers that piece's operations write, in order. -/
abbrev opsGraph_inv_W : List (Ref sig .tc) :=
  [ main_call0_v0, main_call0_v1, main_v15 ]

/-- A piece of opsGraph: the edge weights %31: each weight between the two gathered inverse square roots. -/
abbrev opsGraph_nrm : List (HloOp τ sig (Elt F)) :=
  [ StableHlo.nullary main_c (constantI S_ 32 0#32),  -- %c = stablehlo.constant dense<0> : tensor<i32>
    StableHlo.unary main_c main_v16 (broadcastInDim S850000 ![] bcast_S_S850000 : (⟨S_, .i32⟩ : BufTy).Contents (Elt F) → (⟨S850000, .i32⟩ : BufTy).Contents (Elt F)),  -- %16 = stablehlo.broadcast_in_dim %c, dims = [] : (tensor<i32>) -> tensor<850000xi32>
    StableHlo.binary main_v3 main_v16 main_v17 (cmpi .slt : (⟨S850000, .i32⟩ : BufTy).Contents (Elt F) → (⟨S850000, .i32⟩ : BufTy).Contents (Elt F) → (⟨S850000, .i1⟩ : BufTy).Contents (Elt F)),  -- %17 = stablehlo.compare LT, %3, %16, SIGNED : (tensor<850000xi32>, tensor<850000xi32>) -> tensor<850000xi1>
    StableHlo.nullary main_c_3 (constantI S_ 32 50000#32),  -- %c_3 = stablehlo.constant dense<50000> : tensor<i32>
    StableHlo.unary main_c_3 main_v18 (broadcastInDim S850000 ![] bcast_S_S850000 : (⟨S_, .i32⟩ : BufTy).Contents (Elt F) → (⟨S850000, .i32⟩ : BufTy).Contents (Elt F)),  -- %18 = stablehlo.broadcast_in_dim %c_3, dims = [] : (tensor<i32>) -> tensor<850000xi32>
    StableHlo.binary main_v3 main_v18 main_v19 (addi : (⟨S850000, .i32⟩ : BufTy).Contents (Elt F) → (⟨S850000, .i32⟩ : BufTy).Contents (Elt F) → (⟨S850000, .i32⟩ : BufTy).Contents (Elt F)),  -- %19 = stablehlo.add %3, %18 : tensor<850000xi32>
    StableHlo.ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %20 = stablehlo.select %17, %19, %3 : tensor<850000xi1>, tensor<850000xi32>
    StableHlo.unary main_v20 main_v21 (broadcastInDim S850000x1 ![0] bcast_S850000_S850000x1_0 : (⟨S850000, .i32⟩ : BufTy).Contents (Elt F) → (⟨S850000x1, .i32⟩ : BufTy).Contents (Elt F)),  -- %21 = stablehlo.broadcast_in_dim %20, dims = [0] : (tensor<850000xi32>) -> tensor<850000x1xi32>
    StableHlo.binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %22 = "stablehlo.gather"(%15, %21) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.binary main_v22 main_v8 main_v23 (mulf : (⟨S850000, .f32⟩ : BufTy).Contents (Elt F) → (⟨S850000, .f32⟩ : BufTy).Contents (Elt F) → (⟨S850000, .f32⟩ : BufTy).Contents (Elt F)),  -- %23 = stablehlo.multiply %22, %8 : tensor<850000xf32>
    StableHlo.nullary main_c_4 (constantI S_ 32 0#32),  -- %c_4 = stablehlo.constant dense<0> : tensor<i32>
    StableHlo.unary main_c_4 main_v24 (broadcastInDim S850000 ![] bcast_S_S850000 : (⟨S_, .i32⟩ : BufTy).Contents (Elt F) → (⟨S850000, .i32⟩ : BufTy).Contents (Elt F)),  -- %24 = stablehlo.broadcast_in_dim %c_4, dims = [] : (tensor<i32>) -> tensor<850000xi32>
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),  -- %25 = stablehlo.compare LT, %6, %24, SIGNED : (tensor<850000xi32>, tensor<850000xi32>) -> tensor<850000xi1>
    StableHlo.nullary main_c_5 (constantI S_ 32 50000#32),  -- %c_5 = stablehlo.constant dense<50000> : tensor<i32>
    StableHlo.unary main_c_5 main_v26 (broadcastInDim S850000 ![] bcast_S_S850000 : (⟨S_, .i32⟩ : BufTy).Contents (Elt F) → (⟨S850000, .i32⟩ : BufTy).Contents (Elt F)),  -- %26 = stablehlo.broadcast_in_dim %c_5, dims = [] : (tensor<i32>) -> tensor<850000xi32>
    StableHlo.binary main_v6 main_v26 main_v27 (addi : (⟨S850000, .i32⟩ : BufTy).Contents (Elt F) → (⟨S850000, .i32⟩ : BufTy).Contents (Elt F) → (⟨S850000, .i32⟩ : BufTy).Contents (Elt F)),  -- %27 = stablehlo.add %6, %26 : tensor<850000xi32>
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %28 = stablehlo.select %25, %27, %6 : tensor<850000xi1>, tensor<850000xi32>
    StableHlo.unary main_v28 main_v29 (broadcastInDim S850000x1 ![0] bcast_S850000_S850000x1_0 : (⟨S850000, .i32⟩ : BufTy).Contents (Elt F) → (⟨S850000x1, .i32⟩ : BufTy).Contents (Elt F)),  -- %29 = stablehlo.broadcast_in_dim %28, dims = [0] : (tensor<850000xi32>) -> tensor<850000x1xi32>
    StableHlo.binary main_v15 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %30 = "stablehlo.gather"(%15, %29) <{dimension_numbers = #stablehlo.gather<collapsed_slice_dims = [0], start_index_map = [0], index_vector_dim = 1>, indices_are_sorted = false, slice_sizes = array<i64: 1>}> : (tensor<50000xf32>, tensor<850000x1xi32>) -> tensor<850000xf32>
    StableHlo.binary main_v23 main_v30 main_v31 (mulf : (⟨S850000, .f32⟩ : BufTy).Contents (Elt F) → (⟨S850000, .f32⟩ : BufTy).Contents (Elt F) → (⟨S850000, .f32⟩ : BufTy).Contents (Elt F)) ]  -- %31 = stablehlo.multiply %23, %30 : tensor<850000xf32>

/-- The buffers that piece's operations write, in order. -/
abbrev opsGraph_nrm_W : List (Ref sig .tc) :=
  [ main_c, main_v16, main_v17, main_c_3, main_v18, main_v19, main_v20, main_v21, main_v22, main_v23,
    main_c_4, main_v24, main_v25, main_c_5, main_v26, main_v27, main_v28, main_v29, main_v30, main_v31 ]

/-- A piece of opsLayer1: the product %32 and its aggregation over the graph %45. -/
abbrev opsLayer1_agg : List (HloOp τ sig (Elt F)) :=
  [ StableHlo.binary main_arg0 main_arg3 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %32 = stablehlo.dot_general %arg0, %arg3, contracting_dims = [1] x [0], precision = [DEFAULT, DEFAULT] : (tensor<50000x128xf32>, tensor<128x128xf32>) -> tensor<50000x128xf32>
    StableHlo.nullary main_c_6 (constantI S_ 32 0#32),  -- %c_6 = stablehlo.constant dense<0> : tensor<i32>
    StableHlo.unary main_c_6 main_v33 (broadcastInDim S850000 ![] bcast_S_S850000 : (⟨S_, .i32⟩ : BufTy).Contents (Elt F) → (⟨S850000, .i32⟩ : BufTy).Contents (Elt F)),  -- %33 = stablehlo.broadcast_in_dim %c_6, dims = [] : (tensor<i32>) -> tensor<850000xi32>
    StableHlo.binary main_v3 main_v33 main_v34 (cmpi .slt : (⟨S850000, .i32⟩ : BufTy).Contents (Elt F) → (⟨S850000, .i32⟩ : BufTy).Contents (Elt F) → (⟨S850000, .i1⟩ : BufTy).Contents (Elt F)),  -- %34 = stablehlo.compare LT, %3, %33, SIGNED : (tensor<850000xi32>, tensor<850000xi32>) -> tensor<850000xi1>
    StableHlo.nullary main_c_7 (constantI S_ 32 50000#32),  -- %c_7 = stablehlo.constant dense<50000> : tensor<i32>
    StableHlo.unary main_c_7 main_v35 (broadcastInDim S850000 ![] bcast_S_S850000 : (⟨S_, .i32⟩ : BufTy).Contents (Elt F) → (⟨S850000, .i32⟩ : BufTy).Contents (Elt F)),  -- %35 = stablehlo.broadcast_in_dim %c_7, dims = [] : (tensor<i32>) -> tensor<850000xi32>
    StableHlo.binary main_v3 main_v35 main_v36 (addi : (⟨S850000, .i32⟩ : BufTy).Contents (Elt F) → (⟨S850000, .i32⟩ : BufTy).Contents (Elt F) → (⟨S850000, .i32⟩ : BufTy).Contents (Elt F)),  -- %36 = stablehlo.add %3, %35 : tensor<850000xi32>
    StableHlo.ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %37 = stablehlo.select %34, %36, %3 : tensor<850000xi1>, tensor<850000xi32>
    StableHlo.unary main_v37 main_v38 (broadcastInDim S850000x1 ![0] bcast_S850000_S850000x1_0 : (⟨S850000, .i32⟩ : BufTy).Contents (Elt F) → (⟨S850000x1, .i32⟩ : BufTy).Contents (Elt F)),  -- %38 = stablehlo.broadcast_in_dim %37, dims = [0] : (tensor<850000xi32>) -> tensor<850000x1xi32>
    StableHlo.binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),  -- %39 = "stablehlo.gather"(%32, %38) <{dimension_numbers = #stablehlo.gather<offset_dims = [1], collapsed_slice_dims = [0], start_index_map = [0], index_vector_dim = 1>, indices_are_sorted = false, slice_sizes = array<i64: 1, 128>}> : (tensor<50000x128xf32>, tensor<850000x1xi32>) -> tensor<850000x128xf32>
    StableHlo.unary main_v31 main_v40 (broadcastInDim S850000x1 ![0] bcast_S850000_S850000x1_0 : (⟨S850000, .f32⟩ : BufTy).Contents (Elt F) → (⟨S850000x1, .f32⟩ : BufTy).Contents (Elt F)),  -- %40 = stablehlo.broadcast_in_dim %31, dims = [0] : (tensor<850000xf32>) -> tensor<850000x1xf32>
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),  -- %41 = stablehlo.broadcast_in_dim %40, dims = [0, 1] : (tensor<850000x1xf32>) -> tensor<850000x128xf32>
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),  -- %42 = stablehlo.multiply %39, %41 : tensor<850000x128xf32>
    StableHlo.nullary main_cst_8 (constant S_ .f32 0x00000000#32),  -- %cst_8 = stablehlo.constant dense<0.000000e+00> : tensor<f32>
    StableHlo.unary main_cst_8 main_v43 (broadcastInDim S50000x128 ![] bcast_S_S50000x128 : (⟨S_, .f32⟩ : BufTy).Contents (Elt F) → (⟨S50000x128, .f32⟩ : BufTy).Contents (Elt F)),  -- %43 = stablehlo.broadcast_in_dim %cst_8, dims = [] : (tensor<f32>) -> tensor<50000x128xf32>
    StableHlo.unary main_v6 main_v44 (broadcastInDim S850000x1 ![0] bcast_S850000_S850000x1_0 : (⟨S850000, .i32⟩ : BufTy).Contents (Elt F) → (⟨S850000x1, .i32⟩ : BufTy).Contents (Elt F)),  -- %44 = stablehlo.broadcast_in_dim %6, dims = [0] : (tensor<850000xi32>) -> tensor<850000x1xi32>
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]  -- %45 = "stablehlo.scatter"(%43, %44, %42) <{indices_are_sorted = false, scatter_dimension_numbers = #stablehlo.scatter<update_window_dims = [1], inserted_window_dims = [0], scatter_dims_to_operand_dims = [0], index_vector_dim = 1>, unique_indices = false}> ( {

/-- The buffers that piece's operations write, in order. -/
abbrev opsLayer1_agg_W : List (Ref sig .tc) :=
  [ main_v32, main_c_6, main_v33, main_v34, main_c_7, main_v35, main_v36, main_v37, main_v38, main_v39,
    main_v40, main_v41, main_v42, main_cst_8, main_v43, main_v44, main_v45 ]

/-- A piece of opsLayer1: bias and normalisation, %46 … %63. -/
abbrev opsLayer1_norm : List (HloOp τ sig (Elt F)) :=
  [ StableHlo.unary main_arg4 main_v46 (broadcastInDim S1x128 ![1] bcast_S128_S1x128_1 : (⟨S128, .f32⟩ : BufTy).Contents (Elt F) → (⟨S1x128, .f32⟩ : BufTy).Contents (Elt F)),  -- %46 = stablehlo.broadcast_in_dim %arg4, dims = [1] : (tensor<128xf32>) -> tensor<1x128xf32>
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),  -- %47 = stablehlo.broadcast_in_dim %46, dims = [0, 1] : (tensor<1x128xf32>) -> tensor<50000x128xf32>
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),  -- %48 = stablehlo.add %45, %47 : tensor<50000x128xf32>
    StableHlo.unary main_arg7 main_v49 (broadcastInDim S1x128 ![1] bcast_S128_S1x128_1 : (⟨S128, .f32⟩ : BufTy).Contents (Elt F) → (⟨S1x128, .f32⟩ : BufTy).Contents (Elt F)),  -- %49 = stablehlo.broadcast_in_dim %arg7, dims = [1] : (tensor<128xf32>) -> tensor<1x128xf32>
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),  -- %50 = stablehlo.broadcast_in_dim %49, dims = [0, 1] : (tensor<1x128xf32>) -> tensor<50000x128xf32>
    StableHlo.binary main_v48 main_v50 main_v51 (subf : (⟨S50000x128, .f32⟩ : BufTy).Contents (Elt F) → (⟨S50000x128, .f32⟩ : BufTy).Contents (Elt F) → (⟨S50000x128, .f32⟩ : BufTy).Contents (Elt F)),  -- %51 = stablehlo.subtract %48, %50 : tensor<50000x128xf32>
    StableHlo.nullary main_cst_9 (constant S_ .f32 0x3727C5AC#32),  -- %cst_9 = stablehlo.constant dense<9.99999974E-6> : tensor<f32>
    StableHlo.unary main_cst_9 main_v52 (broadcastInDim S128 ![] bcast_S_S128 : (⟨S_, .f32⟩ : BufTy).Contents (Elt F) → (⟨S128, .f32⟩ : BufTy).Contents (Elt F)),  -- %52 = stablehlo.broadcast_in_dim %cst_9, dims = [] : (tensor<f32>) -> tensor<128xf32>
    StableHlo.binary main_arg8 main_v52 main_v53 (addf : (⟨S128, .f32⟩ : BufTy).Contents (Elt F) → (⟨S128, .f32⟩ : BufTy).Contents (Elt F) → (⟨S128, .f32⟩ : BufTy).Contents (Elt F)),  -- %53 = stablehlo.add %arg8, %52 : tensor<128xf32>
    StableHlo.unary main_v53 main_v54 (Host.rsqrt : (⟨S128, .f32⟩ : BufTy).Contents (Elt F) → (⟨S128, .f32⟩ : BufTy).Contents (Elt F)),  -- %54 = stablehlo.rsqrt %53 : tensor<128xf32>
    StableHlo.unary main_v54 main_v55 (broadcastInDim S1x128 ![1] bcast_S128_S1x128_1 : (⟨S128, .f32⟩ : BufTy).Contents (Elt F) → (⟨S1x128, .f32⟩ : BufTy).Contents (Elt F)),  -- %55 = stablehlo.broadcast_in_dim %54, dims = [1] : (tensor<128xf32>) -> tensor<1x128xf32>
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),  -- %56 = stablehlo.broadcast_in_dim %55, dims = [0, 1] : (tensor<1x128xf32>) -> tensor<50000x128xf32>
    StableHlo.binary main_v51 main_v56 main_v57 (mulf : (⟨S50000x128, .f32⟩ : BufTy).Contents (Elt F) → (⟨S50000x128, .f32⟩ : BufTy).Contents (Elt F) → (⟨S50000x128, .f32⟩ : BufTy).Contents (Elt F)),  -- %57 = stablehlo.multiply %51, %56 : tensor<50000x128xf32>
    StableHlo.unary main_arg5 main_v58 (broadcastInDim S1x128 ![1] bcast_S128_S1x128_1 : (⟨S128, .f32⟩ : BufTy).Contents (Elt F) → (⟨S1x128, .f32⟩ : BufTy).Contents (Elt F)),  -- %58 = stablehlo.broadcast_in_dim %arg5, dims = [1] : (tensor<128xf32>) -> tensor<1x128xf32>
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),  -- %59 = stablehlo.broadcast_in_dim %58, dims = [0, 1] : (tensor<1x128xf32>) -> tensor<50000x128xf32>
    StableHlo.binary main_v57 main_v59 main_v60 (mulf : (⟨S50000x128, .f32⟩ : BufTy).Contents (Elt F) → (⟨S50000x128, .f32⟩ : BufTy).Contents (Elt F) → (⟨S50000x128, .f32⟩ : BufTy).Contents (Elt F)),  -- %60 = stablehlo.multiply %57, %59 : tensor<50000x128xf32>
    StableHlo.unary main_arg6 main_v61 (broadcastInDim S1x128 ![1] bcast_S128_S1x128_1 : (⟨S128, .f32⟩ : BufTy).Contents (Elt F) → (⟨S1x128, .f32⟩ : BufTy).Contents (Elt F)),  -- %61 = stablehlo.broadcast_in_dim %arg6, dims = [1] : (tensor<128xf32>) -> tensor<1x128xf32>
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),  -- %62 = stablehlo.broadcast_in_dim %61, dims = [0, 1] : (tensor<1x128xf32>) -> tensor<50000x128xf32>
    StableHlo.binary main_v60 main_v62 main_v63 (addf : (⟨S50000x128, .f32⟩ : BufTy).Contents (Elt F) → (⟨S50000x128, .f32⟩ : BufTy).Contents (Elt F) → (⟨S50000x128, .f32⟩ : BufTy).Contents (Elt F)) ]  -- %63 = stablehlo.add %60, %62 : tensor<50000x128xf32>

/-- The buffers that piece's operations write, in order. -/
abbrev opsLayer1_norm_W : List (Ref sig .tc) :=
  [ main_v46, main_v47, main_v48, main_v49, main_v50, main_v51, main_cst_9, main_v52, main_v53, main_v54,
    main_v55, main_v56, main_v57, main_v58, main_v59, main_v60, main_v61, main_v62, main_v63 ]

/-- A piece of opsLayer1: the call of @leaky_relu, into %64. -/
abbrev opsLayer1_act : List (HloOp τ sig (Elt F)) :=
  [ StableHlo.TRef.nullary (.of main_call1_cst : StableHlo.TRef sig ⟨S_, .f32⟩) (constant S_ .f32 0x00000000#32),  -- %cst = stablehlo.constant dense<0.000000e+00> : tensor<f32>
    StableHlo.TRef.unary (.of main_call1_cst : StableHlo.TRef sig ⟨S_, .f32⟩) (.of main_call1_v0 : StableHlo.TRef sig ⟨S50000x128, .f32⟩) (broadcastInDim S50000x128 ![] bcast_S_S50000x128),  -- %0 = stablehlo.broadcast_in_dim %cst, dims = [] : (tensor<f32>) -> tensor<50000x128xf32>
    StableHlo.TRef.binary (.of main_v63 : StableHlo.TRef sig ⟨S50000x128, .f32⟩) (.of main_call1_v0 : StableHlo.TRef sig ⟨S50000x128, .f32⟩) (.of main_call1_v1 : StableHlo.TRef sig ⟨S50000x128, .i1⟩) (cmpf .oge),  -- %1 = stablehlo.compare GE, %arg0, %0, FLOAT : (tensor<50000x128xf32>, tensor<50000x128xf32>) -> tensor<50000x128xi1>
    StableHlo.TRef.nullary (.of main_call1_cst_0 : StableHlo.TRef sig ⟨S_, .f32⟩) (constant S_ .f32 0x3C23D70A#32),  -- %cst_0 = stablehlo.constant dense<0.00999999977> : tensor<f32>
    StableHlo.TRef.unary (.of main_call1_cst_0 : StableHlo.TRef sig ⟨S_, .f32⟩) (.of main_call1_v2 : StableHlo.TRef sig ⟨S50000x128, .f32⟩) (broadcastInDim S50000x128 ![] bcast_S_S50000x128),  -- %2 = stablehlo.broadcast_in_dim %cst_0, dims = [] : (tensor<f32>) -> tensor<50000x128xf32>
    StableHlo.TRef.binary (.of main_call1_v2 : StableHlo.TRef sig ⟨S50000x128, .f32⟩) (.of main_v63 : StableHlo.TRef sig ⟨S50000x128, .f32⟩) (.of main_call1_v3 : StableHlo.TRef sig ⟨S50000x128, .f32⟩) mulf,  -- %3 = stablehlo.multiply %2, %arg0 : tensor<50000x128xf32>
    StableHlo.TRef.ternary (.of main_call1_v1 : StableHlo.TRef sig ⟨S50000x128, .i1⟩) (.of main_v63 : StableHlo.TRef sig ⟨S50000x128, .f32⟩) (.of main_call1_v3 : StableHlo.TRef sig ⟨S50000x128, .f32⟩) (.of main_v64 : StableHlo.TRef sig ⟨S50000x128, .f32⟩) select ]  -- %64 = func.call @leaky_relu(%63) : (tensor<50000x128xf32>) -> tensor<50000x128xf32>

/-- The buffers that piece's operations write, in order. -/
abbrev opsLayer1_act_W : List (Ref sig .tc) :=
  [ main_call1_cst, main_call1_v0, main_call1_v1, main_call1_cst_0, main_call1_v2, main_call1_v3, main_v64 ]

/-- A piece of opsLayer2: matrix 0 and bias row 0 of the stacks, the product %69 and its aggregation %82. -/
abbrev opsLayer2_agg : List (HloOp τ sig (Elt F)) :=
  [ StableHlo.unary main_arg9 main_v65 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %65 = stablehlo.slice %arg9 [0:1, 0:128, 0:128] : (tensor<2x128x128xf32>) -> tensor<1x128x128xf32>
    StableHlo.reshape main_v65 main_v66 rfl shapeCasts_S1x128x128_S128x128,  -- %66 = stablehlo.reshape %65 : (tensor<1x128x128xf32>) -> tensor<128x128xf32>
    StableHlo.unary main_arg10 main_v67 ((extractStridedSlice S1x128 ![0, 0] · slices_S2x128_S1x128_0_0) : (⟨S2x128, .f32⟩ : BufTy).Contents (Elt F) → (⟨S1x128, .f32⟩ : BufTy).Contents (Elt F)),  -- %67 = stablehlo.slice %arg10 [0:1, 0:128] : (tensor<2x128xf32>) -> tensor<1x128xf32>
    StableHlo.reshape main_v67 main_v68 rfl shapeCasts_S1x128_S128,  -- %68 = stablehlo.reshape %67 : (tensor<1x128xf32>) -> tensor<128xf32>
    StableHlo.binary main_v64 main_v66 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %69 = stablehlo.dot_general %64, %66, contracting_dims = [1] x [0], precision = [DEFAULT, DEFAULT] : (tensor<50000x128xf32>, tensor<128x128xf32>) -> tensor<50000x128xf32>
    StableHlo.nullary main_c_10 (constantI S_ 32 0#32),  -- %c_10 = stablehlo.constant dense<0> : tensor<i32>
    StableHlo.unary main_c_10 main_v70 (broadcastInDim S850000 ![] bcast_S_S850000 : (⟨S_, .i32⟩ : BufTy).Contents (Elt F) → (⟨S850000, .i32⟩ : BufTy).Contents (Elt F)),  -- %70 = stablehlo.broadcast_in_dim %c_10, dims = [] : (tensor<i32>) -> tensor<850000xi32>
    StableHlo.binary main_v3 main_v70 main_v71 (cmpi .slt : (⟨S850000, .i32⟩ : BufTy).Contents (Elt F) → (⟨S850000, .i32⟩ : BufTy).Contents (Elt F) → (⟨S850000, .i1⟩ : BufTy).Contents (Elt F)),  -- %71 = stablehlo.compare LT, %3, %70, SIGNED : (tensor<850000xi32>, tensor<850000xi32>) -> tensor<850000xi1>
    StableHlo.nullary main_c_11 (constantI S_ 32 50000#32),  -- %c_11 = stablehlo.constant dense<50000> : tensor<i32>
    StableHlo.unary main_c_11 main_v72 (broadcastInDim S850000 ![] bcast_S_S850000 : (⟨S_, .i32⟩ : BufTy).Contents (Elt F) → (⟨S850000, .i32⟩ : BufTy).Contents (Elt F)),  -- %72 = stablehlo.broadcast_in_dim %c_11, dims = [] : (tensor<i32>) -> tensor<850000xi32>
    StableHlo.binary main_v3 main_v72 main_v73 (addi : (⟨S850000, .i32⟩ : BufTy).Contents (Elt F) → (⟨S850000, .i32⟩ : BufTy).Contents (Elt F) → (⟨S850000, .i32⟩ : BufTy).Contents (Elt F)),  -- %73 = stablehlo.add %3, %72 : tensor<850000xi32>
    StableHlo.ternary main_v71 main_v73 main_v3 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %74 = stablehlo.select %71, %73, %3 : tensor<850000xi1>, tensor<850000xi32>
    StableHlo.unary main_v74 main_v75 (broadcastInDim S850000x1 ![0] bcast_S850000_S850000x1_0 : (⟨S850000, .i32⟩ : BufTy).Contents (Elt F) → (⟨S850000x1, .i32⟩ : BufTy).Contents (Elt F)),  -- %75 = stablehlo.broadcast_in_dim %74, dims = [0] : (tensor<850000xi32>) -> tensor<850000x1xi32>
    StableHlo.binary main_v69 main_v75 main_v76 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),  -- %76 = "stablehlo.gather"(%69, %75) <{dimension_numbers = #stablehlo.gather<offset_dims = [1], collapsed_slice_dims = [0], start_index_map = [0], index_vector_dim = 1>, indices_are_sorted = false, slice_sizes = array<i64: 1, 128>}> : (tensor<50000x128xf32>, tensor<850000x1xi32>) -> tensor<850000x128xf32>
    StableHlo.unary main_v31 main_v77 (broadcastInDim S850000x1 ![0] bcast_S850000_S850000x1_0 : (⟨S850000, .f32⟩ : BufTy).Contents (Elt F) → (⟨S850000x1, .f32⟩ : BufTy).Contents (Elt F)),  -- %77 = stablehlo.broadcast_in_dim %31, dims = [0] : (tensor<850000xf32>) -> tensor<850000x1xf32>
    StableHlo.unary main_v77 main_v78 (broadcastInDim S850000x128 ![0, 1] bcast_S850000x1_S850000x128_0_1 : (⟨S850000x1, .f32⟩ : BufTy).Contents (Elt F) → (⟨S850000x128, .f32⟩ : BufTy).Contents (Elt F)),  -- %78 = stablehlo.broadcast_in_dim %77, dims = [0, 1] : (tensor<850000x1xf32>) -> tensor<850000x128xf32>
    StableHlo.binary main_v76 main_v78 main_v79 (mulf : (⟨S850000x128, .f32⟩ : BufTy).Contents (Elt F) → (⟨S850000x128, .f32⟩ : BufTy).Contents (Elt F) → (⟨S850000x128, .f32⟩ : BufTy).Contents (Elt F)),  -- %79 = stablehlo.multiply %76, %78 : tensor<850000x128xf32>
    StableHlo.nullary main_cst_12 (constant S_ .f32 0x00000000#32),  -- %cst_12 = stablehlo.constant dense<0.000000e+00> : tensor<f32>
    StableHlo.unary main_cst_12 main_v80 (broadcastInDim S50000x128 ![] bcast_S_S50000x128 : (⟨S_, .f32⟩ : BufTy).Contents (Elt F) → (⟨S50000x128, .f32⟩ : BufTy).Contents (Elt F)),  -- %80 = stablehlo.broadcast_in_dim %cst_12, dims = [] : (tensor<f32>) -> tensor<50000x128xf32>
    StableHlo.unary main_v6 main_v81 (broadcastInDim S850000x1 ![0] bcast_S850000_S850000x1_0 : (⟨S850000, .i32⟩ : BufTy).Contents (Elt F) → (⟨S850000x1, .i32⟩ : BufTy).Contents (Elt F)),  -- %81 = stablehlo.broadcast_in_dim %6, dims = [0] : (tensor<850000xi32>) -> tensor<850000x1xi32>
    StableHlo.ternary main_v80 main_v81 main_v79 main_v82 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]  -- %82 = "stablehlo.scatter"(%80, %81, %79) <{indices_are_sorted = false, scatter_dimension_numbers = #stablehlo.scatter<update_window_dims = [1], inserted_window_dims = [0], scatter_dims_to_operand_dims = [0], index_vector_dim = 1>, unique_indices = false}> ( {

/-- The buffers that piece's operations write, in order. -/
abbrev opsLayer2_agg_W : List (Ref sig .tc) :=
  [ main_v65, main_v66, main_v67, main_v68, main_v69, main_c_10, main_v70, main_v71, main_c_11, main_v72,
    main_v73, main_v74, main_v75, main_v76, main_v77, main_v78, main_v79, main_cst_12, main_v80, main_v81,
    main_v82 ]

/-- A piece of opsLayer2: the bias, rows 0 of the four statistics' stacks, the normalisation and the input %64 added back, %83 … %109. -/
abbrev opsLayer2_norm : List (HloOp τ sig (Elt F)) :=
  [ StableHlo.unary main_v68 main_v83 (broadcastInDim S1x128 ![1] bcast_S128_S1x128_1 : (⟨S128, .f32⟩ : BufTy).Contents (Elt F) → (⟨S1x128, .f32⟩ : BufTy).Contents (Elt F)),  -- %83 = stablehlo.broadcast_in_dim %68, dims = [1] : (tensor<128xf32>) -> tensor<1x128xf32>
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),  -- %84 = stablehlo.broadcast_in_dim %83, dims = [0, 1] : (tensor<1x128xf32>) -> tensor<50000x128xf32>
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)),  -- %85 = stablehlo.add %82, %84 : tensor<50000x128xf32>
    StableHlo.unary main_arg11 main_v86 ((extractStridedSlice S1x128 ![0, 0] · slices_S2x128_S1x128_0_0) : (⟨S2x128, .f32⟩ : BufTy).Contents (Elt F) → (⟨S1x128, .f32⟩ : BufTy).Contents (Elt F)),  -- %86 = stablehlo.slice %arg11 [0:1, 0:128] : (tensor<2x128xf32>) -> tensor<1x128xf32>
    StableHlo.reshape main_v86 main_v87 rfl shapeCasts_S1x128_S128,  -- %87 = stablehlo.reshape %86 : (tensor<1x128xf32>) -> tensor<128xf32>
    StableHlo.unary main_arg12 main_v88 ((extractStridedSlice S1x128 ![0, 0] · slices_S2x128_S1x128_0_0) : (⟨S2x128, .f32⟩ : BufTy).Contents (Elt F) → (⟨S1x128, .f32⟩ : BufTy).Contents (Elt F)),  -- %88 = stablehlo.slice %arg12 [0:1, 0:128] : (tensor<2x128xf32>) -> tensor<1x128xf32>
    StableHlo.reshape main_v88 main_v89 rfl shapeCasts_S1x128_S128,  -- %89 = stablehlo.reshape %88 : (tensor<1x128xf32>) -> tensor<128xf32>
    StableHlo.unary main_arg13 main_v90 ((extractStridedSlice S1x128 ![0, 0] · slices_S2x128_S1x128_0_0) : (⟨S2x128, .f32⟩ : BufTy).Contents (Elt F) → (⟨S1x128, .f32⟩ : BufTy).Contents (Elt F)),  -- %90 = stablehlo.slice %arg13 [0:1, 0:128] : (tensor<2x128xf32>) -> tensor<1x128xf32>
    StableHlo.reshape main_v90 main_v91 rfl shapeCasts_S1x128_S128,  -- %91 = stablehlo.reshape %90 : (tensor<1x128xf32>) -> tensor<128xf32>
    StableHlo.unary main_arg14 main_v92 ((extractStridedSlice S1x128 ![0, 0] · slices_S2x128_S1x128_0_0) : (⟨S2x128, .f32⟩ : BufTy).Contents (Elt F) → (⟨S1x128, .f32⟩ : BufTy).Contents (Elt F)),  -- %92 = stablehlo.slice %arg14 [0:1, 0:128] : (tensor<2x128xf32>) -> tensor<1x128xf32>
    StableHlo.reshape main_v92 main_v93 rfl shapeCasts_S1x128_S128,  -- %93 = stablehlo.reshape %92 : (tensor<1x128xf32>) -> tensor<128xf32>
    StableHlo.unary main_v91 main_v94 (broadcastInDim S1x128 ![1] bcast_S128_S1x128_1 : (⟨S128, .f32⟩ : BufTy).Contents (Elt F) → (⟨S1x128, .f32⟩ : BufTy).Contents (Elt F)),  -- %94 = stablehlo.broadcast_in_dim %91, dims = [1] : (tensor<128xf32>) -> tensor<1x128xf32>
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),  -- %95 = stablehlo.broadcast_in_dim %94, dims = [0, 1] : (tensor<1x128xf32>) -> tensor<50000x128xf32>
    StableHlo.binary main_v85 main_v95 main_v96 (subf : (⟨S50000x128, .f32⟩ : BufTy).Contents (Elt F) → (⟨S50000x128, .f32⟩ : BufTy).Contents (Elt F) → (⟨S50000x128, .f32⟩ : BufTy).Contents (Elt F)),  -- %96 = stablehlo.subtract %85, %95 : tensor<50000x128xf32>
    StableHlo.nullary main_cst_13 (constant S_ .f32 0x3727C5AC#32),  -- %cst_13 = stablehlo.constant dense<9.99999974E-6> : tensor<f32>
    StableHlo.unary main_cst_13 main_v97 (broadcastInDim S128 ![] bcast_S_S128 : (⟨S_, .f32⟩ : BufTy).Contents (Elt F) → (⟨S128, .f32⟩ : BufTy).Contents (Elt F)),  -- %97 = stablehlo.broadcast_in_dim %cst_13, dims = [] : (tensor<f32>) -> tensor<128xf32>
    StableHlo.binary main_v93 main_v97 main_v98 (addf : (⟨S128, .f32⟩ : BufTy).Contents (Elt F) → (⟨S128, .f32⟩ : BufTy).Contents (Elt F) → (⟨S128, .f32⟩ : BufTy).Contents (Elt F)),  -- %98 = stablehlo.add %93, %97 : tensor<128xf32>
    StableHlo.unary main_v98 main_v99 (Host.rsqrt : (⟨S128, .f32⟩ : BufTy).Contents (Elt F) → (⟨S128, .f32⟩ : BufTy).Contents (Elt F)),  -- %99 = stablehlo.rsqrt %98 : tensor<128xf32>
    StableHlo.unary main_v99 main_v100 (broadcastInDim S1x128 ![1] bcast_S128_S1x128_1 : (⟨S128, .f32⟩ : BufTy).Contents (Elt F) → (⟨S1x128, .f32⟩ : BufTy).Contents (Elt F)),  -- %100 = stablehlo.broadcast_in_dim %99, dims = [1] : (tensor<128xf32>) -> tensor<1x128xf32>
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),  -- %101 = stablehlo.broadcast_in_dim %100, dims = [0, 1] : (tensor<1x128xf32>) -> tensor<50000x128xf32>
    StableHlo.binary main_v96 main_v101 main_v102 (mulf : (⟨S50000x128, .f32⟩ : BufTy).Contents (Elt F) → (⟨S50000x128, .f32⟩ : BufTy).Contents (Elt F) → (⟨S50000x128, .f32⟩ : BufTy).Contents (Elt F)),  -- %102 = stablehlo.multiply %96, %101 : tensor<50000x128xf32>
    StableHlo.unary main_v87 main_v103 (broadcastInDim S1x128 ![1] bcast_S128_S1x128_1 : (⟨S128, .f32⟩ : BufTy).Contents (Elt F) → (⟨S1x128, .f32⟩ : BufTy).Contents (Elt F)),  -- %103 = stablehlo.broadcast_in_dim %87, dims = [1] : (tensor<128xf32>) -> tensor<1x128xf32>
    StableHlo.unary main_v103 main_v104 (broadcastInDim S50000x128 ![0, 1] bcast_S1x128_S50000x128_0_1 : (⟨S1x128, .f32⟩ : BufTy).Contents (Elt F) → (⟨S50000x128, .f32⟩ : BufTy).Contents (Elt F)),  -- %104 = stablehlo.broadcast_in_dim %103, dims = [0, 1] : (tensor<1x128xf32>) -> tensor<50000x128xf32>
    StableHlo.binary main_v102 main_v104 main_v105 (mulf : (⟨S50000x128, .f32⟩ : BufTy).Contents (Elt F) → (⟨S50000x128, .f32⟩ : BufTy).Contents (Elt F) → (⟨S50000x128, .f32⟩ : BufTy).Contents (Elt F)),  -- %105 = stablehlo.multiply %102, %104 : tensor<50000x128xf32>
    StableHlo.unary main_v89 main_v106 (broadcastInDim S1x128 ![1] bcast_S128_S1x128_1 : (⟨S128, .f32⟩ : BufTy).Contents (Elt F) → (⟨S1x128, .f32⟩ : BufTy).Contents (Elt F)),  -- %106 = stablehlo.broadcast_in_dim %89, dims = [1] : (tensor<128xf32>) -> tensor<1x128xf32>
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),  -- %107 = stablehlo.broadcast_in_dim %106, dims = [0, 1] : (tensor<1x128xf32>) -> tensor<50000x128xf32>
    StableHlo.binary main_v105 main_v107 main_v108 (addf : (⟨S50000x128, .f32⟩ : BufTy).Contents (Elt F) → (⟨S50000x128, .f32⟩ : BufTy).Contents (Elt F) → (⟨S50000x128, .f32⟩ : BufTy).Contents (Elt F)),  -- %108 = stablehlo.add %105, %107 : tensor<50000x128xf32>
    StableHlo.binary main_v108 main_v64 main_v109 (addf : (⟨S50000x128, .f32⟩ : BufTy).Contents (Elt F) → (⟨S50000x128, .f32⟩ : BufTy).Contents (Elt F) → (⟨S50000x128, .f32⟩ : BufTy).Contents (Elt F)) ]  -- %109 = stablehlo.add %108, %64 : tensor<50000x128xf32>

/-- The buffers that piece's operations write, in order. -/
abbrev opsLayer2_norm_W : List (Ref sig .tc) :=
  [ main_v83, main_v84, main_v85, main_v86, main_v87, main_v88, main_v89, main_v90, main_v91, main_v92,
    main_v93, main_v94, main_v95, main_v96, main_cst_13, main_v97, main_v98, main_v99, main_v100, main_v101,
    main_v102, main_v103, main_v104, main_v105, main_v106, main_v107, main_v108, main_v109 ]

/-- A piece of opsLayer2: the call of @leaky_relu, into %110. -/
abbrev opsLayer2_act : List (HloOp τ sig (Elt F)) :=
  [ StableHlo.TRef.nullary (.of main_call2_cst : StableHlo.TRef sig ⟨S_, .f32⟩) (constant S_ .f32 0x00000000#32),  -- %cst = stablehlo.constant dense<0.000000e+00> : tensor<f32>
    StableHlo.TRef.unary (.of main_call2_cst : StableHlo.TRef sig ⟨S_, .f32⟩) (.of main_call2_v0 : StableHlo.TRef sig ⟨S50000x128, .f32⟩) (broadcastInDim S50000x128 ![] bcast_S_S50000x128),  -- %0 = stablehlo.broadcast_in_dim %cst, dims = [] : (tensor<f32>) -> tensor<50000x128xf32>
    StableHlo.TRef.binary (.of main_v109 : StableHlo.TRef sig ⟨S50000x128, .f32⟩) (.of main_call2_v0 : StableHlo.TRef sig ⟨S50000x128, .f32⟩) (.of main_call2_v1 : StableHlo.TRef sig ⟨S50000x128, .i1⟩) (cmpf .oge),  -- %1 = stablehlo.compare GE, %arg0, %0, FLOAT : (tensor<50000x128xf32>, tensor<50000x128xf32>) -> tensor<50000x128xi1>
    StableHlo.TRef.nullary (.of main_call2_cst_0 : StableHlo.TRef sig ⟨S_, .f32⟩) (constant S_ .f32 0x3C23D70A#32),  -- %cst_0 = stablehlo.constant dense<0.00999999977> : tensor<f32>
    StableHlo.TRef.unary (.of main_call2_cst_0 : StableHlo.TRef sig ⟨S_, .f32⟩) (.of main_call2_v2 : StableHlo.TRef sig ⟨S50000x128, .f32⟩) (broadcastInDim S50000x128 ![] bcast_S_S50000x128),  -- %2 = stablehlo.broadcast_in_dim %cst_0, dims = [] : (tensor<f32>) -> tensor<50000x128xf32>
    StableHlo.TRef.binary (.of main_call2_v2 : StableHlo.TRef sig ⟨S50000x128, .f32⟩) (.of main_v109 : StableHlo.TRef sig ⟨S50000x128, .f32⟩) (.of main_call2_v3 : StableHlo.TRef sig ⟨S50000x128, .f32⟩) mulf,  -- %3 = stablehlo.multiply %2, %arg0 : tensor<50000x128xf32>
    StableHlo.TRef.ternary (.of main_call2_v1 : StableHlo.TRef sig ⟨S50000x128, .i1⟩) (.of main_v109 : StableHlo.TRef sig ⟨S50000x128, .f32⟩) (.of main_call2_v3 : StableHlo.TRef sig ⟨S50000x128, .f32⟩) (.of main_v110 : StableHlo.TRef sig ⟨S50000x128, .f32⟩) select ]  -- %110 = func.call @leaky_relu(%109) : (tensor<50000x128xf32>) -> tensor<50000x128xf32>

/-- The buffers that piece's operations write, in order. -/
abbrev opsLayer2_act_W : List (Ref sig .tc) :=
  [ main_call2_cst, main_call2_v0, main_call2_v1, main_call2_cst_0, main_call2_v2, main_call2_v3, main_v110 ]

/-- A piece of opsLayer3: matrix 1 and bias row 1 of the stacks, the product %115 and its aggregation %128. -/
abbrev opsLayer3_agg : List (HloOp τ sig (Elt F)) :=
  [ StableHlo.unary main_arg9 main_v111 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %111 = stablehlo.slice %arg9 [1:2, 0:128, 0:128] : (tensor<2x128x128xf32>) -> tensor<1x128x128xf32>
    StableHlo.reshape main_v111 main_v112 rfl shapeCasts_S1x128x128_S128x128,  -- %112 = stablehlo.reshape %111 : (tensor<1x128x128xf32>) -> tensor<128x128xf32>
    StableHlo.unary main_arg10 main_v113 ((extractStridedSlice S1x128 ![1, 0] · slices_S2x128_S1x128_1_0) : (⟨S2x128, .f32⟩ : BufTy).Contents (Elt F) → (⟨S1x128, .f32⟩ : BufTy).Contents (Elt F)),  -- %113 = stablehlo.slice %arg10 [1:2, 0:128] : (tensor<2x128xf32>) -> tensor<1x128xf32>
    StableHlo.reshape main_v113 main_v114 rfl shapeCasts_S1x128_S128,  -- %114 = stablehlo.reshape %113 : (tensor<1x128xf32>) -> tensor<128xf32>
    StableHlo.binary main_v110 main_v112 main_v115 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %115 = stablehlo.dot_general %110, %112, contracting_dims = [1] x [0], precision = [DEFAULT, DEFAULT] : (tensor<50000x128xf32>, tensor<128x128xf32>) -> tensor<50000x128xf32>
    StableHlo.nullary main_c_14 (constantI S_ 32 0#32),  -- %c_14 = stablehlo.constant dense<0> : tensor<i32>
    StableHlo.unary main_c_14 main_v116 (broadcastInDim S850000 ![] bcast_S_S850000 : (⟨S_, .i32⟩ : BufTy).Contents (Elt F) → (⟨S850000, .i32⟩ : BufTy).Contents (Elt F)),  -- %116 = stablehlo.broadcast_in_dim %c_14, dims = [] : (tensor<i32>) -> tensor<850000xi32>
    StableHlo.binary main_v3 main_v116 main_v117 (cmpi .slt : (⟨S850000, .i32⟩ : BufTy).Contents (Elt F) → (⟨S850000, .i32⟩ : BufTy).Contents (Elt F) → (⟨S850000, .i1⟩ : BufTy).Contents (Elt F)),  -- %117 = stablehlo.compare LT, %3, %116, SIGNED : (tensor<850000xi32>, tensor<850000xi32>) -> tensor<850000xi1>
    StableHlo.nullary main_c_15 (constantI S_ 32 50000#32),  -- %c_15 = stablehlo.constant dense<50000> : tensor<i32>
    StableHlo.unary main_c_15 main_v118 (broadcastInDim S850000 ![] bcast_S_S850000 : (⟨S_, .i32⟩ : BufTy).Contents (Elt F) → (⟨S850000, .i32⟩ : BufTy).Contents (Elt F)),  -- %118 = stablehlo.broadcast_in_dim %c_15, dims = [] : (tensor<i32>) -> tensor<850000xi32>
    StableHlo.binary main_v3 main_v118 main_v119 (addi : (⟨S850000, .i32⟩ : BufTy).Contents (Elt F) → (⟨S850000, .i32⟩ : BufTy).Contents (Elt F) → (⟨S850000, .i32⟩ : BufTy).Contents (Elt F)),  -- %119 = stablehlo.add %3, %118 : tensor<850000xi32>
    StableHlo.ternary main_v117 main_v119 main_v3 main_v120 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %120 = stablehlo.select %117, %119, %3 : tensor<850000xi1>, tensor<850000xi32>
    StableHlo.unary main_v120 main_v121 (broadcastInDim S850000x1 ![0] bcast_S850000_S850000x1_0 : (⟨S850000, .i32⟩ : BufTy).Contents (Elt F) → (⟨S850000x1, .i32⟩ : BufTy).Contents (Elt F)),  -- %121 = stablehlo.broadcast_in_dim %120, dims = [0] : (tensor<850000xi32>) -> tensor<850000x1xi32>
    StableHlo.binary main_v115 main_v121 main_v122 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),  -- %122 = "stablehlo.gather"(%115, %121) <{dimension_numbers = #stablehlo.gather<offset_dims = [1], collapsed_slice_dims = [0], start_index_map = [0], index_vector_dim = 1>, indices_are_sorted = false, slice_sizes = array<i64: 1, 128>}> : (tensor<50000x128xf32>, tensor<850000x1xi32>) -> tensor<850000x128xf32>
    StableHlo.unary main_v31 main_v123 (broadcastInDim S850000x1 ![0] bcast_S850000_S850000x1_0 : (⟨S850000, .f32⟩ : BufTy).Contents (Elt F) → (⟨S850000x1, .f32⟩ : BufTy).Contents (Elt F)),  -- %123 = stablehlo.broadcast_in_dim %31, dims = [0] : (tensor<850000xf32>) -> tensor<850000x1xf32>
    StableHlo.unary main_v123 main_v124 (broadcastInDim S850000x128 ![0, 1] bcast_S850000x1_S850000x128_0_1 : (⟨S850000x1, .f32⟩ : BufTy).Contents (Elt F) → (⟨S850000x128, .f32⟩ : BufTy).Contents (Elt F)),  -- %124 = stablehlo.broadcast_in_dim %123, dims = [0, 1] : (tensor<850000x1xf32>) -> tensor<850000x128xf32>
    StableHlo.binary main_v122 main_v124 main_v125 (mulf : (⟨S850000x128, .f32⟩ : BufTy).Contents (Elt F) → (⟨S850000x128, .f32⟩ : BufTy).Contents (Elt F) → (⟨S850000x128, .f32⟩ : BufTy).Contents (Elt F)),  -- %125 = stablehlo.multiply %122, %124 : tensor<850000x128xf32>
    StableHlo.nullary main_cst_16 (constant S_ .f32 0x00000000#32),  -- %cst_16 = stablehlo.constant dense<0.000000e+00> : tensor<f32>
    StableHlo.unary main_cst_16 main_v126 (broadcastInDim S50000x128 ![] bcast_S_S50000x128 : (⟨S_, .f32⟩ : BufTy).Contents (Elt F) → (⟨S50000x128, .f32⟩ : BufTy).Contents (Elt F)),  -- %126 = stablehlo.broadcast_in_dim %cst_16, dims = [] : (tensor<f32>) -> tensor<50000x128xf32>
    StableHlo.unary main_v6 main_v127 (broadcastInDim S850000x1 ![0] bcast_S850000_S850000x1_0 : (⟨S850000, .i32⟩ : BufTy).Contents (Elt F) → (⟨S850000x1, .i32⟩ : BufTy).Contents (Elt F)),  -- %127 = stablehlo.broadcast_in_dim %6, dims = [0] : (tensor<850000xi32>) -> tensor<850000x1xi32>
    StableHlo.ternary main_v126 main_v127 main_v125 main_v128 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]  -- %128 = "stablehlo.scatter"(%126, %127, %125) <{indices_are_sorted = false, scatter_dimension_numbers = #stablehlo.scatter<update_window_dims = [1], inserted_window_dims = [0], scatter_dims_to_operand_dims = [0], index_vector_dim = 1>, unique_indices = false}> ( {

/-- The buffers that piece's operations write, in order. -/
abbrev opsLayer3_agg_W : List (Ref sig .tc) :=
  [ main_v111, main_v112, main_v113, main_v114, main_v115, main_c_14, main_v116, main_v117, main_c_15, main_v118,
    main_v119, main_v120, main_v121, main_v122, main_v123, main_v124, main_v125, main_cst_16, main_v126, main_v127,
    main_v128 ]

/-- A piece of opsLayer3: the bias, rows 1 of the four statistics' stacks, the normalisation and the input %110 added back, %129 … %155. -/
abbrev opsLayer3_norm : List (HloOp τ sig (Elt F)) :=
  [ StableHlo.unary main_v114 main_v129 (broadcastInDim S1x128 ![1] bcast_S128_S1x128_1 : (⟨S128, .f32⟩ : BufTy).Contents (Elt F) → (⟨S1x128, .f32⟩ : BufTy).Contents (Elt F)),  -- %129 = stablehlo.broadcast_in_dim %114, dims = [1] : (tensor<128xf32>) -> tensor<1x128xf32>
    StableHlo.unary main_v129 main_v130 (broadcastInDim S50000x128 ![0, 1] bcast_S1x128_S50000x128_0_1 : (⟨S1x128, .f32⟩ : BufTy).Contents (Elt F) → (⟨S50000x128, .f32⟩ : BufTy).Contents (Elt F)),  -- %130 = stablehlo.broadcast_in_dim %129, dims = [0, 1] : (tensor<1x128xf32>) -> tensor<50000x128xf32>
    StableHlo.binary main_v128 main_v130 main_v131 (addf : (⟨S50000x128, .f32⟩ : BufTy).Contents (Elt F) → (⟨S50000x128, .f32⟩ : BufTy).Contents (Elt F) → (⟨S50000x128, .f32⟩ : BufTy).Contents (Elt F)),  -- %131 = stablehlo.add %128, %130 : tensor<50000x128xf32>
    StableHlo.unary main_arg11 main_v132 ((extractStridedSlice S1x128 ![1, 0] · slices_S2x128_S1x128_1_0) : (⟨S2x128, .f32⟩ : BufTy).Contents (Elt F) → (⟨S1x128, .f32⟩ : BufTy).Contents (Elt F)),  -- %132 = stablehlo.slice %arg11 [1:2, 0:128] : (tensor<2x128xf32>) -> tensor<1x128xf32>
    StableHlo.reshape main_v132 main_v133 rfl shapeCasts_S1x128_S128,  -- %133 = stablehlo.reshape %132 : (tensor<1x128xf32>) -> tensor<128xf32>
    StableHlo.unary main_arg12 main_v134 ((extractStridedSlice S1x128 ![1, 0] · slices_S2x128_S1x128_1_0) : (⟨S2x128, .f32⟩ : BufTy).Contents (Elt F) → (⟨S1x128, .f32⟩ : BufTy).Contents (Elt F)),  -- %134 = stablehlo.slice %arg12 [1:2, 0:128] : (tensor<2x128xf32>) -> tensor<1x128xf32>
    StableHlo.reshape main_v134 main_v135 rfl shapeCasts_S1x128_S128,  -- %135 = stablehlo.reshape %134 : (tensor<1x128xf32>) -> tensor<128xf32>
    StableHlo.unary main_arg13 main_v136 ((extractStridedSlice S1x128 ![1, 0] · slices_S2x128_S1x128_1_0) : (⟨S2x128, .f32⟩ : BufTy).Contents (Elt F) → (⟨S1x128, .f32⟩ : BufTy).Contents (Elt F)),  -- %136 = stablehlo.slice %arg13 [1:2, 0:128] : (tensor<2x128xf32>) -> tensor<1x128xf32>
    StableHlo.reshape main_v136 main_v137 rfl shapeCasts_S1x128_S128,  -- %137 = stablehlo.reshape %136 : (tensor<1x128xf32>) -> tensor<128xf32>
    StableHlo.unary main_arg14 main_v138 ((extractStridedSlice S1x128 ![1, 0] · slices_S2x128_S1x128_1_0) : (⟨S2x128, .f32⟩ : BufTy).Contents (Elt F) → (⟨S1x128, .f32⟩ : BufTy).Contents (Elt F)),  -- %138 = stablehlo.slice %arg14 [1:2, 0:128] : (tensor<2x128xf32>) -> tensor<1x128xf32>
    StableHlo.reshape main_v138 main_v139 rfl shapeCasts_S1x128_S128,  -- %139 = stablehlo.reshape %138 : (tensor<1x128xf32>) -> tensor<128xf32>
    StableHlo.unary main_v137 main_v140 (broadcastInDim S1x128 ![1] bcast_S128_S1x128_1 : (⟨S128, .f32⟩ : BufTy).Contents (Elt F) → (⟨S1x128, .f32⟩ : BufTy).Contents (Elt F)),  -- %140 = stablehlo.broadcast_in_dim %137, dims = [1] : (tensor<128xf32>) -> tensor<1x128xf32>
    StableHlo.unary main_v140 main_v141 (broadcastInDim S50000x128 ![0, 1] bcast_S1x128_S50000x128_0_1 : (⟨S1x128, .f32⟩ : BufTy).Contents (Elt F) → (⟨S50000x128, .f32⟩ : BufTy).Contents (Elt F)),  -- %141 = stablehlo.broadcast_in_dim %140, dims = [0, 1] : (tensor<1x128xf32>) -> tensor<50000x128xf32>
    StableHlo.binary main_v131 main_v141 main_v142 (subf : (⟨S50000x128, .f32⟩ : BufTy).Contents (Elt F) → (⟨S50000x128, .f32⟩ : BufTy).Contents (Elt F) → (⟨S50000x128, .f32⟩ : BufTy).Contents (Elt F)),  -- %142 = stablehlo.subtract %131, %141 : tensor<50000x128xf32>
    StableHlo.nullary main_cst_17 (constant S_ .f32 0x3727C5AC#32),  -- %cst_17 = stablehlo.constant dense<9.99999974E-6> : tensor<f32>
    StableHlo.unary main_cst_17 main_v143 (broadcastInDim S128 ![] bcast_S_S128 : (⟨S_, .f32⟩ : BufTy).Contents (Elt F) → (⟨S128, .f32⟩ : BufTy).Contents (Elt F)),  -- %143 = stablehlo.broadcast_in_dim %cst_17, dims = [] : (tensor<f32>) -> tensor<128xf32>
    StableHlo.binary main_v139 main_v143 main_v144 (addf : (⟨S128, .f32⟩ : BufTy).Contents (Elt F) → (⟨S128, .f32⟩ : BufTy).Contents (Elt F) → (⟨S128, .f32⟩ : BufTy).Contents (Elt F)),  -- %144 = stablehlo.add %139, %143 : tensor<128xf32>
    StableHlo.unary main_v144 main_v145 (Host.rsqrt : (⟨S128, .f32⟩ : BufTy).Contents (Elt F) → (⟨S128, .f32⟩ : BufTy).Contents (Elt F)),  -- %145 = stablehlo.rsqrt %144 : tensor<128xf32>
    StableHlo.unary main_v145 main_v146 (broadcastInDim S1x128 ![1] bcast_S128_S1x128_1 : (⟨S128, .f32⟩ : BufTy).Contents (Elt F) → (⟨S1x128, .f32⟩ : BufTy).Contents (Elt F)),  -- %146 = stablehlo.broadcast_in_dim %145, dims = [1] : (tensor<128xf32>) -> tensor<1x128xf32>
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),  -- %147 = stablehlo.broadcast_in_dim %146, dims = [0, 1] : (tensor<1x128xf32>) -> tensor<50000x128xf32>
    StableHlo.binary main_v142 main_v147 main_v148 (mulf : (⟨S50000x128, .f32⟩ : BufTy).Contents (Elt F) → (⟨S50000x128, .f32⟩ : BufTy).Contents (Elt F) → (⟨S50000x128, .f32⟩ : BufTy).Contents (Elt F)),  -- %148 = stablehlo.multiply %142, %147 : tensor<50000x128xf32>
    StableHlo.unary main_v133 main_v149 (broadcastInDim S1x128 ![1] bcast_S128_S1x128_1 : (⟨S128, .f32⟩ : BufTy).Contents (Elt F) → (⟨S1x128, .f32⟩ : BufTy).Contents (Elt F)),  -- %149 = stablehlo.broadcast_in_dim %133, dims = [1] : (tensor<128xf32>) -> tensor<1x128xf32>
    StableHlo.unary main_v149 main_v150 (broadcastInDim S50000x128 ![0, 1] bcast_S1x128_S50000x128_0_1 : (⟨S1x128, .f32⟩ : BufTy).Contents (Elt F) → (⟨S50000x128, .f32⟩ : BufTy).Contents (Elt F)),  -- %150 = stablehlo.broadcast_in_dim %149, dims = [0, 1] : (tensor<1x128xf32>) -> tensor<50000x128xf32>
    StableHlo.binary main_v148 main_v150 main_v151 (mulf : (⟨S50000x128, .f32⟩ : BufTy).Contents (Elt F) → (⟨S50000x128, .f32⟩ : BufTy).Contents (Elt F) → (⟨S50000x128, .f32⟩ : BufTy).Contents (Elt F)),  -- %151 = stablehlo.multiply %148, %150 : tensor<50000x128xf32>
    StableHlo.unary main_v135 main_v152 (broadcastInDim S1x128 ![1] bcast_S128_S1x128_1 : (⟨S128, .f32⟩ : BufTy).Contents (Elt F) → (⟨S1x128, .f32⟩ : BufTy).Contents (Elt F)),  -- %152 = stablehlo.broadcast_in_dim %135, dims = [1] : (tensor<128xf32>) -> tensor<1x128xf32>
    StableHlo.unary main_v152 main_v153 (broadcastInDim S50000x128 ![0, 1] bcast_S1x128_S50000x128_0_1 : (⟨S1x128, .f32⟩ : BufTy).Contents (Elt F) → (⟨S50000x128, .f32⟩ : BufTy).Contents (Elt F)),  -- %153 = stablehlo.broadcast_in_dim %152, dims = [0, 1] : (tensor<1x128xf32>) -> tensor<50000x128xf32>
    StableHlo.binary main_v151 main_v153 main_v154 (addf : (⟨S50000x128, .f32⟩ : BufTy).Contents (Elt F) → (⟨S50000x128, .f32⟩ : BufTy).Contents (Elt F) → (⟨S50000x128, .f32⟩ : BufTy).Contents (Elt F)),  -- %154 = stablehlo.add %151, %153 : tensor<50000x128xf32>
    StableHlo.binary main_v154 main_v110 main_v155 (addf : (⟨S50000x128, .f32⟩ : BufTy).Contents (Elt F) → (⟨S50000x128, .f32⟩ : BufTy).Contents (Elt F) → (⟨S50000x128, .f32⟩ : BufTy).Contents (Elt F)) ]  -- %155 = stablehlo.add %154, %110 : tensor<50000x128xf32>

/-- The buffers that piece's operations write, in order. -/
abbrev opsLayer3_norm_W : List (Ref sig .tc) :=
  [ main_v129, main_v130, main_v131, main_v132, main_v133, main_v134, main_v135, main_v136, main_v137, main_v138,
    main_v139, main_v140, main_v141, main_v142, main_cst_17, main_v143, main_v144, main_v145, main_v146, main_v147,
    main_v148, main_v149, main_v150, main_v151, main_v152, main_v153, main_v154, main_v155 ]

/-- A piece of opsLayer3: the call of @leaky_relu, into %156. -/
abbrev opsLayer3_act : List (HloOp τ sig (Elt F)) :=
  [ StableHlo.TRef.nullary (.of main_call3_cst : StableHlo.TRef sig ⟨S_, .f32⟩) (constant S_ .f32 0x00000000#32),  -- %cst = stablehlo.constant dense<0.000000e+00> : tensor<f32>
    StableHlo.TRef.unary (.of main_call3_cst : StableHlo.TRef sig ⟨S_, .f32⟩) (.of main_call3_v0 : StableHlo.TRef sig ⟨S50000x128, .f32⟩) (broadcastInDim S50000x128 ![] bcast_S_S50000x128),  -- %0 = stablehlo.broadcast_in_dim %cst, dims = [] : (tensor<f32>) -> tensor<50000x128xf32>
    StableHlo.TRef.binary (.of main_v155 : StableHlo.TRef sig ⟨S50000x128, .f32⟩) (.of main_call3_v0 : StableHlo.TRef sig ⟨S50000x128, .f32⟩) (.of main_call3_v1 : StableHlo.TRef sig ⟨S50000x128, .i1⟩) (cmpf .oge),  -- %1 = stablehlo.compare GE, %arg0, %0, FLOAT : (tensor<50000x128xf32>, tensor<50000x128xf32>) -> tensor<50000x128xi1>
    StableHlo.TRef.nullary (.of main_call3_cst_0 : StableHlo.TRef sig ⟨S_, .f32⟩) (constant S_ .f32 0x3C23D70A#32),  -- %cst_0 = stablehlo.constant dense<0.00999999977> : tensor<f32>
    StableHlo.TRef.unary (.of main_call3_cst_0 : StableHlo.TRef sig ⟨S_, .f32⟩) (.of main_call3_v2 : StableHlo.TRef sig ⟨S50000x128, .f32⟩) (broadcastInDim S50000x128 ![] bcast_S_S50000x128),  -- %2 = stablehlo.broadcast_in_dim %cst_0, dims = [] : (tensor<f32>) -> tensor<50000x128xf32>
    StableHlo.TRef.binary (.of main_call3_v2 : StableHlo.TRef sig ⟨S50000x128, .f32⟩) (.of main_v155 : StableHlo.TRef sig ⟨S50000x128, .f32⟩) (.of main_call3_v3 : StableHlo.TRef sig ⟨S50000x128, .f32⟩) mulf,  -- %3 = stablehlo.multiply %2, %arg0 : tensor<50000x128xf32>
    StableHlo.TRef.ternary (.of main_call3_v1 : StableHlo.TRef sig ⟨S50000x128, .i1⟩) (.of main_v155 : StableHlo.TRef sig ⟨S50000x128, .f32⟩) (.of main_call3_v3 : StableHlo.TRef sig ⟨S50000x128, .f32⟩) (.of main_v156 : StableHlo.TRef sig ⟨S50000x128, .f32⟩) select ]  -- %156 = func.call @leaky_relu(%155) : (tensor<50000x128xf32>) -> tensor<50000x128xf32>

/-- The buffers that piece's operations write, in order. -/
abbrev opsLayer3_act_W : List (Ref sig .tc) :=
  [ main_call3_cst, main_call3_v0, main_call3_v1, main_call3_cst_0, main_call3_v2, main_call3_v3, main_v156 ]

/-- A piece of opsLin1: product and bias, %157 … %160. -/
abbrev opsLin1_lin : List (HloOp τ sig (Elt F)) :=
  [ StableHlo.binary main_v156 main_arg15 main_v157 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %157 = stablehlo.dot_general %156, %arg15, contracting_dims = [1] x [0], precision = [DEFAULT, DEFAULT] : (tensor<50000x128xf32>, tensor<128x128xf32>) -> tensor<50000x128xf32>
    StableHlo.unary main_arg16 main_v158 (broadcastInDim S1x128 ![1] bcast_S128_S1x128_1 : (⟨S128, .f32⟩ : BufTy).Contents (Elt F) → (⟨S1x128, .f32⟩ : BufTy).Contents (Elt F)),  -- %158 = stablehlo.broadcast_in_dim %arg16, dims = [1] : (tensor<128xf32>) -> tensor<1x128xf32>
    StableHlo.unary main_v158 main_v159 (broadcastInDim S50000x128 ![0, 1] bcast_S1x128_S50000x128_0_1 : (⟨S1x128, .f32⟩ : BufTy).Contents (Elt F) → (⟨S50000x128, .f32⟩ : BufTy).Contents (Elt F)),  -- %159 = stablehlo.broadcast_in_dim %158, dims = [0, 1] : (tensor<1x128xf32>) -> tensor<50000x128xf32>
    StableHlo.binary main_v157 main_v159 main_v160 (addf : (⟨S50000x128, .f32⟩ : BufTy).Contents (Elt F) → (⟨S50000x128, .f32⟩ : BufTy).Contents (Elt F) → (⟨S50000x128, .f32⟩ : BufTy).Contents (Elt F)) ]  -- %160 = stablehlo.add %157, %159 : tensor<50000x128xf32>

/-- The buffers that piece's operations write, in order. -/
abbrev opsLin1_lin_W : List (Ref sig .tc) :=
  [ main_v157, main_v158, main_v159, main_v160 ]

/-- A piece of opsLin1: the call of @leaky_relu, into %161. -/
abbrev opsLin1_act : List (HloOp τ sig (Elt F)) :=
  [ StableHlo.TRef.nullary (.of main_call4_cst : StableHlo.TRef sig ⟨S_, .f32⟩) (constant S_ .f32 0x00000000#32),  -- %cst = stablehlo.constant dense<0.000000e+00> : tensor<f32>
    StableHlo.TRef.unary (.of main_call4_cst : StableHlo.TRef sig ⟨S_, .f32⟩) (.of main_call4_v0 : StableHlo.TRef sig ⟨S50000x128, .f32⟩) (broadcastInDim S50000x128 ![] bcast_S_S50000x128),  -- %0 = stablehlo.broadcast_in_dim %cst, dims = [] : (tensor<f32>) -> tensor<50000x128xf32>
    StableHlo.TRef.binary (.of main_v160 : StableHlo.TRef sig ⟨S50000x128, .f32⟩) (.of main_call4_v0 : StableHlo.TRef sig ⟨S50000x128, .f32⟩) (.of main_call4_v1 : StableHlo.TRef sig ⟨S50000x128, .i1⟩) (cmpf .oge),  -- %1 = stablehlo.compare GE, %arg0, %0, FLOAT : (tensor<50000x128xf32>, tensor<50000x128xf32>) -> tensor<50000x128xi1>
    StableHlo.TRef.nullary (.of main_call4_cst_0 : StableHlo.TRef sig ⟨S_, .f32⟩) (constant S_ .f32 0x3C23D70A#32),  -- %cst_0 = stablehlo.constant dense<0.00999999977> : tensor<f32>
    StableHlo.TRef.unary (.of main_call4_cst_0 : StableHlo.TRef sig ⟨S_, .f32⟩) (.of main_call4_v2 : StableHlo.TRef sig ⟨S50000x128, .f32⟩) (broadcastInDim S50000x128 ![] bcast_S_S50000x128),  -- %2 = stablehlo.broadcast_in_dim %cst_0, dims = [] : (tensor<f32>) -> tensor<50000x128xf32>
    StableHlo.TRef.binary (.of main_call4_v2 : StableHlo.TRef sig ⟨S50000x128, .f32⟩) (.of main_v160 : StableHlo.TRef sig ⟨S50000x128, .f32⟩) (.of main_call4_v3 : StableHlo.TRef sig ⟨S50000x128, .f32⟩) mulf,  -- %3 = stablehlo.multiply %2, %arg0 : tensor<50000x128xf32>
    StableHlo.TRef.ternary (.of main_call4_v1 : StableHlo.TRef sig ⟨S50000x128, .i1⟩) (.of main_v160 : StableHlo.TRef sig ⟨S50000x128, .f32⟩) (.of main_call4_v3 : StableHlo.TRef sig ⟨S50000x128, .f32⟩) (.of main_v161 : StableHlo.TRef sig ⟨S50000x128, .f32⟩) select ]  -- %161 = func.call @leaky_relu(%160) : (tensor<50000x128xf32>) -> tensor<50000x128xf32>

/-- The buffers that piece's operations write, in order. -/
abbrev opsLin1_act_W : List (Ref sig .tc) :=
  [ main_call4_cst, main_call4_v0, main_call4_v1, main_call4_cst_0, main_call4_v2, main_call4_v3, main_v161 ]

end Cert.RefSide

end
-- ==== Proof.RefKeep.lean ====
/-
  What a stretch of the reference program leaves alone.

  An operation writes one buffer, its result.  Beside each of the six lists of operations stands the list of the
  buffers its operations write; a buffer that is not on that list holds after the stretch what it held before.  The
  program's arguments are on none of the six lists, and a stretch's results are on no later list.
-/
import proofs.«132849_j12000138625377_2_alg».proof.Proof.RefOps
import proofs.«132849_j12000138625377_2_alg».proof.Proof.LibHostLine

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Every operation of a literal list writes a buffer of the literal list beside it: each builder writes its result
    only, and the result is found on the list. -/
macro "each_writes" : tactic =>
  `(tactic|
    (simp only [List.Forall, nullary_writes, unary_writes, binary_writes, ternary_writes, reshape_writes,
       Finset.singleton_subset_iff, List.mem_toFinset]
     (repeat' apply And.intro)
     all_goals exact List.mem_map_of_mem (by decide)))

theorem opsGraph_writes : (opsGraph : List (HloOp τ sig (Elt F))).Forall fun op =>
    op.writes ⊆ (opsGraph_W.map (Proc.devRef (τ := τ) .tc)).toFinset := by each_writes
theorem opsLayer1_writes : (opsLayer1 : List (HloOp τ sig (Elt F))).Forall fun op =>
    op.writes ⊆ (opsLayer1_W.map (Proc.devRef (τ := τ) .tc)).toFinset := by each_writes
theorem opsLayer2_writes : (opsLayer2 : List (HloOp τ sig (Elt F))).Forall fun op =>
    op.writes ⊆ (opsLayer2_W.map (Proc.devRef (τ := τ) .tc)).toFinset := by each_writes
theorem opsLayer3_writes : (opsLayer3 : List (HloOp τ sig (Elt F))).Forall fun op =>
    op.writes ⊆ (opsLayer3_W.map (Proc.devRef (τ := τ) .tc)).toFinset := by each_writes
theorem opsLin1_writes : (opsLin1 : List (HloOp τ sig (Elt F))).Forall fun op =>
    op.writes ⊆ (opsLin1_W.map (Proc.devRef (τ := τ) .tc)).toFinset := by each_writes
theorem opsLin2_writes : (opsLin2 : List (HloOp τ sig (Elt F))).Forall fun op =>
    op.writes ⊆ (opsLin2_W.map (Proc.devRef (τ := τ) .tc)).toFinset := by each_writes

/-- A buffer the graph part does not write keeps its contents through it. -/
theorem opsGraph_keep (W : Valuation τ sig (Elt F)) (r : Ref sig .tc) (h : r ∉ opsGraph_W) :
    after opsGraph W (Proc.devRef .tc r) = W (Proc.devRef .tc r) := after_of_writes_sub opsGraph W opsGraph_writes h
/-- A buffer the first layer does not write keeps its contents through it. -/
theorem opsLayer1_keep (W : Valuation τ sig (Elt F)) (r : Ref sig .tc) (h : r ∉ opsLayer1_W) :
    after opsLayer1 W (Proc.devRef .tc r) = W (Proc.devRef .tc r) := after_of_writes_sub opsLayer1 W opsLayer1_writes h
/-- A buffer the second layer does not write keeps its contents through it. -/
theorem opsLayer2_keep (W : Valuation τ sig (Elt F)) (r : Ref sig .tc) (h : r ∉ opsLayer2_W) :
    after opsLayer2 W (Proc.devRef .tc r) = W (Proc.devRef .tc r) := after_of_writes_sub opsLayer2 W opsLayer2_writes h
/-- A buffer the third layer does not write keeps its contents through it. -/
theorem opsLayer3_keep (W : Valuation τ sig (Elt F)) (r : Ref sig .tc) (h : r ∉ opsLayer3_W) :
    after opsLayer3 W (Proc.devRef .tc r) = W (Proc.devRef .tc r) := after_of_writes_sub opsLayer3 W opsLayer3_writes h
/-- A buffer the first dense layer does not write keeps its contents through it. -/
theorem opsLin1_keep (W : Valuation τ sig (Elt F)) (r : Ref sig .tc) (h : r ∉ opsLin1_W) :
    after opsLin1 W (Proc.devRef .tc r) = W (Proc.devRef .tc r) := after_of_writes_sub opsLin1 W opsLin1_writes h
/-- A buffer the last dense layer does not write keeps its contents through it. -/
theorem opsLin2_keep (W : Valuation τ sig (Elt F)) (r : Ref sig .tc) (h : r ∉ opsLin2_W) :
    after opsLin2 W (Proc.devRef .tc r) = W (Proc.devRef .tc r) := after_of_writes_sub opsLin2 W opsLin2_writes h

/-- The whole program is the six stretches run one after the other. -/
theorem after_ops (V : Valuation τ sig (Elt F)) :
    after ops V = after opsLin2 (after opsLin1 (after opsLayer3 (after opsLayer2 (after opsLayer1 (after opsGraph V))))) := by
  show after (opsGraph ++ (opsLayer1 ++ (opsLayer2 ++ (opsLayer3 ++ (opsLin1 ++ opsLin2))))) V = _
  rw [Cert.LibHostLine.after_append, Cert.LibHostLine.after_append, Cert.LibHostLine.after_append,
    Cert.LibHostLine.after_append, Cert.LibHostLine.after_append]

/-- A buffer no stretch writes keeps its contents through the whole program. -/
theorem ops_keep (V : Valuation τ sig (Elt F)) (r : Ref sig .tc) (h1 : r ∉ opsGraph_W) (h2 : r ∉ opsLayer1_W)
    (h3 : r ∉ opsLayer2_W) (h4 : r ∉ opsLayer3_W) (h5 : r ∉ opsLin1_W) (h6 : r ∉ opsLin2_W) :
    after ops V (Proc.devRef .tc r) = V (Proc.devRef .tc r) := by
  rw [after_ops, opsLin2_keep _ r h6, opsLin1_keep _ r h5, opsLayer3_keep _ r h4, opsLayer2_keep _ r h3,
    opsLayer1_keep _ r h2, opsGraph_keep _ r h1]

end Cert.RefSide

end
-- ==== Proof.RefCut.lean ====
/-
  Each stretch of the reference program as its pieces run in order.

  A list of operations cut into consecutive pieces is the pieces appended, so running it is running the pieces one after
  the other.  Across an aggregation piece the later pieces still read the layer's channel parameters and the layer's
  input: the piece writes none of them, so they hold what they held.
-/
import proofs.«132849_j12000138625377_2_alg».proof.Proof.RefOpsCut
import proofs.«132849_j12000138625377_2_alg».proof.Proof.RefKeep

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem opsGraph_cut : (opsGraph : List (HloOp τ sig (Elt F))) = opsGraph_deg ++ (opsGraph_inv ++ opsGraph_nrm) := rfl
theorem opsLayer1_cut : (opsLayer1 : List (HloOp τ sig (Elt F))) = opsLayer1_agg ++ (opsLayer1_norm ++ opsLayer1_act) := rfl
theorem opsLayer2_cut : (opsLayer2 : List (HloOp τ sig (Elt F))) = opsLayer2_agg ++ (opsLayer2_norm ++ opsLayer2_act) := rfl
theorem opsLayer3_cut : (opsLayer3 : List (HloOp τ sig (Elt F))) = opsLayer3_agg ++ (opsLayer3_norm ++ opsLayer3_act) := rfl
theorem opsLin1_cut : (opsLin1 : List (HloOp τ sig (Elt F))) = opsLin1_lin ++ opsLin1_act := rfl

/-- The graph part is its three pieces run in order. -/
theorem after_opsGraph (W : Valuation τ sig (Elt F)) :
    after opsGraph W = after opsGraph_nrm (after opsGraph_inv (after opsGraph_deg W)) := by
  rw [opsGraph_cut, Cert.LibHostLine.after_append, Cert.LibHostLine.after_append]
/-- The first layer is its three pieces run in order. -/
theorem after_opsLayer1 (W : Valuation τ sig (Elt F)) :
    after opsLayer1 W = after opsLayer1_act (after opsLayer1_norm (after opsLayer1_agg W)) := by
  rw [opsLayer1_cut, Cert.LibHostLine.after_append, Cert.LibHostLine.after_append]
/-- The second layer is its three pieces run in order. -/
theorem after_opsLayer2 (W : Valuation τ sig (Elt F)) :
    after opsLayer2 W = after opsLayer2_act (after opsLayer2_norm (after opsLayer2_agg W)) := by
  rw [opsLayer2_cut, Cert.LibHostLine.after_append, Cert.LibHostLine.after_append]
/-- The third layer is its three pieces run in order. -/
theorem after_opsLayer3 (W : Valuation τ sig (Elt F)) :
    after opsLayer3 W = after opsLayer3_act (after opsLayer3_norm (after opsLayer3_agg W)) := by
  rw [opsLayer3_cut, Cert.LibHostLine.after_append, Cert.LibHostLine.after_append]
/-- The first dense layer is its two pieces run in order. -/
theorem after_opsLin1 (W : Valuation τ sig (Elt F)) :
    after opsLin1 W = after opsLin1_act (after opsLin1_lin W) := by
  rw [opsLin1_cut, Cert.LibHostLine.after_append]

theorem opsLayer1_agg_writes : (opsLayer1_agg : List (HloOp τ sig (Elt F))).Forall fun op =>
    op.writes ⊆ (opsLayer1_agg_W.map (Proc.devRef (τ := τ) .tc)).toFinset := by each_writes
theorem opsLayer2_agg_writes : (opsLayer2_agg : List (HloOp τ sig (Elt F))).Forall fun op =>
    op.writes ⊆ (opsLayer2_agg_W.map (Proc.devRef (τ := τ) .tc)).toFinset := by each_writes
theorem opsLayer3_agg_writes : (opsLayer3_agg : List (HloOp τ sig (Elt F))).Forall fun op =>
    op.writes ⊆ (opsLayer3_agg_W.map (Proc.devRef (τ := τ) .tc)).toFinset := by each_writes

/-- A buffer the first layer's aggregation piece does not write keeps its contents through it. -/
theorem opsLayer1_agg_keep (W : Valuation τ sig (Elt F)) (r : Ref sig .tc) (h : r ∉ opsLayer1_agg_W) :
    after opsLayer1_agg W (Proc.devRef .tc r) = W (Proc.devRef .tc r) :=
  after_of_writes_sub opsLayer1_agg W opsLayer1_agg_writes h
/-- A buffer the second layer's aggregation piece does not write keeps its contents through it. -/
theorem opsLayer2_agg_keep (W : Valuation τ sig (Elt F)) (r : Ref sig .tc) (h : r ∉ opsLayer2_agg_W) :
    after opsLayer2_agg W (Proc.devRef .tc r) = W (Proc.devRef .tc r) :=
  after_of_writes_sub opsLayer2_agg W opsLayer2_agg_writes h
/-- A buffer the third layer's aggregation piece does not write keeps its contents through it. -/
theorem opsLayer3_agg_keep (W : Valuation τ sig (Elt F)) (r : Ref sig .tc) (h : r ∉ opsLayer3_agg_W) :
    after opsLayer3_agg W (Proc.devRef .tc r) = W (Proc.devRef .tc r) :=
  after_of_writes_sub opsLayer3_agg W opsLayer3_agg_writes h

end Cert.RefSide

end
-- ==== Proof.RefGraph.lean ====
/-
  The reference program's graph part, read: the edge lists and the normalised edge weights.

  The graph part is one line of 42 host operations, which is three pieces run in order: the first builds the edge lists
  with their self loops, the edge weights, each node's degree, the test "the degree is positive" and d^(−1/2); the second
  selects d^(−1/2) where the test holds and zero elsewhere; the third
  gathers that at each edge's two wrapped ends and multiplies the three factors.  Running the whole line is running the
  three in turn, each from the contents the one before leaves; an operation's result buffer holds the operation's
  function of its operand buffers and a buffer a line does not write keeps its contents.  So after the line the source
  list, the target list and the edge weights are the shared host functions of the two graph arguments.
-/
import proofs.«132849_j12000138625377_2_alg».proof.Proof.RefOps
import proofs.«132849_j12000138625377_2_alg».proof.Proof.RefCut
import proofs.«132849_j12000138625377_2_alg».proof.Proof.Glue
import proofs.«132849_j12000138625377_2_alg».proof.Proof.LibHostLine
import Idealize.ShloMosaic.Lib.StableHlo.Run

noncomputable section

namespace Cert.RefSide

open Cert.ReferenceIdeal Cert.ReferenceIdeal.Gen Idealize.ShloMosaic Idealize.ShloMosaic.TcCoe Idealize.SL.Sem
open Idealize.ShloMosaic.StableHlo

variable (W : Valuation τ sig (Elt Ideal))

section FirstLine

set_option maxHeartbeats 8000000

/-- The source of each edge: row 0 of the edge list, then the self loops. -/
theorem line0_v3 : after (opsGraph_deg (F := Ideal)) W (Proc.devRef .tc main_v3) = Cert.Glue.src (W (Proc.devRef .tc main_arg1)) := by
  after_results
  rfl

/-- The target of each edge: row 1 of the edge list, then the self loops. -/
theorem line0_v6 : after (opsGraph_deg (F := Ideal)) W (Proc.devRef .tc main_v6) = Cert.Glue.dst (W (Proc.devRef .tc main_arg1)) := by
  after_results
  rfl

/-- The edge weights followed by weight one for every self loop. -/
theorem line0_v8 : after (opsGraph_deg (F := Ideal)) W (Proc.devRef .tc main_v8) = Cert.Glue.weights (W (Proc.devRef .tc main_arg2)) := by
  after_results
  rfl

/-- The test "the degree is positive", node by node. -/
theorem line0_v13 : after (opsGraph_deg (F := Ideal)) W (Proc.devRef .tc main_v13)
    = cmpf (F := Ideal) (φ := .f32) .ogt (Cert.Glue.degree (W (Proc.devRef .tc main_arg1)) (W (Proc.devRef .tc main_arg2)))
        (broadcastInDim S50000 ![] bcast_S_S50000 (constant (F := Ideal) S_ .f32 0x00000000#32)) := by
  after_results
  rfl

/-- d^(−1/2), node by node. -/
theorem line0_v14 : after (opsGraph_deg (F := Ideal)) W (Proc.devRef .tc main_v14)
    = Host.rsqrt (F := Ideal) (φ := .f32) (Cert.Glue.degree (W (Proc.devRef .tc main_arg1)) (W (Proc.devRef .tc main_arg2))) := by
  after_results
  rfl

/-- The constant zero the selection falls back to. -/
theorem line0_zero : after (opsGraph_deg (F := Ideal)) W (Proc.devRef .tc main_cst_2) = constant (F := Ideal) S_ .f32 0x00000000#32 := by
  after_results

end FirstLine

section SecondLine

/-- d^(−1/2) where the test holds, zero elsewhere. -/
theorem line1_v15 : after (opsGraph_inv (F := Ideal)) W (Proc.devRef .tc main_v15)
    = select (W (Proc.devRef .tc main_v13)) (W (Proc.devRef .tc main_v14)) (broadcastInDim S50000 ![] bcast_S_S50000 (W (Proc.devRef .tc main_cst_2))) := by
  after_results
  simp only [Cert.LibHostLine.ofBuf_toBuf]
  rfl

/-- The second line leaves the edge lists and the edge weights as they were. -/
theorem line1_v3 : after (opsGraph_inv (F := Ideal)) W (Proc.devRef .tc main_v3) = W (Proc.devRef .tc main_v3) := by after_results
theorem line1_v6 : after (opsGraph_inv (F := Ideal)) W (Proc.devRef .tc main_v6) = W (Proc.devRef .tc main_v6) := by after_results
theorem line1_v8 : after (opsGraph_inv (F := Ideal)) W (Proc.devRef .tc main_v8) = W (Proc.devRef .tc main_v8) := by after_results

end SecondLine

section ThirdLine

set_option maxHeartbeats 8000000

/-- Each edge's normalised weight: d^(−1/2) at the wrapped source, times the edge's weight, times d^(−1/2) at the
    wrapped target. -/
theorem line2_v31 : after (opsGraph_nrm (F := Ideal)) W (Proc.devRef .tc main_v31)
    = mulf (F := Ideal) (φ := .f32)
        (mulf (F := Ideal) (φ := .f32)
          (Host.gather gather_S50000_S850000x1_S850000_n_0_n_n_0_1_1 (W (Proc.devRef .tc main_v15)) (Cert.Glue.wrapCol (W (Proc.devRef .tc main_v3))))
          (W (Proc.devRef .tc main_v8)))
        (Host.gather gather_S50000_S850000x1_S850000_n_0_n_n_0_1_1 (W (Proc.devRef .tc main_v15)) (Cert.Glue.wrapCol (W (Proc.devRef .tc main_v6)))) := by
  after_results_simp
  rfl

/-- The third line leaves the edge lists as they were. -/
theorem line2_v3 : after (opsGraph_nrm (F := Ideal)) W (Proc.devRef .tc main_v3) = W (Proc.devRef .tc main_v3) := by after_results_simp
theorem line2_v6 : after (opsGraph_nrm (F := Ideal)) W (Proc.devRef .tc main_v6) = W (Proc.devRef .tc main_v6) := by after_results_simp

end ThirdLine

/-- After the graph part the source list is the graph's. -/
theorem graph_v3 : after (opsGraph (F := Ideal)) W (Proc.devRef .tc main_v3) = Cert.Glue.src (W (Proc.devRef .tc main_arg1)) := by
  rw [after_opsGraph, line2_v3, line1_v3, line0_v3]

/-- After the graph part the target list is the graph's. -/
theorem graph_v6 : after (opsGraph (F := Ideal)) W (Proc.devRef .tc main_v6) = Cert.Glue.dst (W (Proc.devRef .tc main_arg1)) := by
  rw [after_opsGraph, line2_v6, line1_v6, line0_v6]

/-- After the graph part the edges carry their normalised weights. -/
theorem graph_v31 : after (opsGraph (F := Ideal)) W (Proc.devRef .tc main_v31)
    = Cert.Glue.norm (W (Proc.devRef .tc main_arg1)) (W (Proc.devRef .tc main_arg2)) := by
  rw [after_opsGraph, line2_v31, line1_v15, line1_v3, line1_v6, line1_v8, line0_v13, line0_v14, line0_zero, line0_v3,
    line0_v6, line0_v8]
  rfl

end Cert.RefSide

end
-- ==== Proof.RefLayers.lean ====
/-
  The reference's layers, entry by entry.

  Each stretch of the reference program after the graph part computes one function of whole arrays: a dense product, the
  aggregation over the graph, a bias, the normalisation ((a + b) − μ) · (σ² + ε)^(−1/2) · γ + β with each channel vector
  first written as one row and then repeated over all rows, the layer's input added back, the leaky rectifier spelt as a
  select on "at least zero" between the entry and the slope times the entry.  Here each is written once, as the host
  writes it, and read at an entry (p, q): the repeated vectors give the vector's entry q, the pointwise operations act
  on the entries, the product's entry is the sum over the contracted coordinate.  So each stretch is the specification's
  layer.  The aggregation is not opened: it is applied to equal arrays on both sides.  A slice of a stack of parameters
  followed by the reshape that drops the unit axis is the stack's slab, or row, of that number.
-/
import proofs.«132849_j12000138625377_2_alg».proof.Proof.Glue
import proofs.«132849_j12000138625377_2_alg».proof.Proof.LibPlainDot
import Idealize.ShloMosaic.Lib.ValueLayout
import Idealize.ShloMosaic.Lib.IdealHost

noncomputable section

open scoped BigOperators

namespace Cert.RefSide

open Cert.ReferenceIdeal Cert.ReferenceIdeal.Facts₀ Idealize.ShloMosaic Idealize.ShloMosaic.ValueIdx Cert.Glue

/-! ## Channel vectors repeated over the rows -/

/-- A vector of 128 channel parameters as one row, then repeated over the 50000 rows. -/
def spread (v : Arr S128) : Arr S50000x128 :=
  broadcastInDim S50000x128 ![0, 1] bcast_S1x128_S50000x128_0_1 (broadcastInDim S1x128 ![1] bcast_S128_S1x128_1 v)

/-- Entry (p, q) of the repeated vector is the vector's entry q. -/
theorem spread_apply (v : Arr S128) (p : Fin 50000) (q : Fin 128) : spread v (ix2 p q) = v (ix1 q) := by
  unfold spread
  rw [broadcastInDim_apply _ _ _ (ix2 p q) (ix2 (0 : Fin 1) q) (fun a => by
        match a with
        | ⟨0, _⟩ => rfl
        | ⟨1, _⟩ => rfl),
    broadcastInDim_apply _ _ _ (ix2 (0 : Fin 1) q) (ix1 q) (fun a => by
        match a with
        | ⟨0, _⟩ => rfl)]

/-- The same for the 64 output channels. -/
def spread64 (v : Arr S64) : Arr S50000x64 :=
  broadcastInDim S50000x64 ![0, 1] bcast_S1x64_S50000x64_0_1 (broadcastInDim S1x64 ![1] bcast_S64_S1x64_1 v)

theorem spread64_apply (v : Arr S64) (p : Fin 50000) (q : Fin 64) : spread64 v (ix2 p q) = v (ix1 q) := by
  unfold spread64
  rw [broadcastInDim_apply _ _ _ (ix2 p q) (ix2 (0 : Fin 1) q) (fun a => by
        match a with
        | ⟨0, _⟩ => rfl
        | ⟨1, _⟩ => rfl),
    broadcastInDim_apply _ _ _ (ix2 (0 : Fin 1) q) (ix1 q) (fun a => by
        match a with
        | ⟨0, _⟩ => rfl)]

/-! ## The rectifier -/

/-- The leaky rectifier as the program spells it: where the entry is at least zero the entry, elsewhere the slope
    times the entry. -/
def hostRelu (x : Arr S50000x128) : Arr S50000x128 :=
  select
    (cmpf (F := Ideal) (φ := .f32) .oge x
      (broadcastInDim S50000x128 ![] bcast_S_S50000x128 (constant (F := Ideal) S_ .f32 0x00000000#32)))
    x
    (mulf (F := Ideal) (φ := .f32)
      (broadcastInDim S50000x128 ![] bcast_S_S50000x128 (constant (F := Ideal) S_ .f32 0x3C23D70A#32)) x)

theorem hostRelu_apply (x : Arr S50000x128) (p : Fin 50000) (q : Fin 128) :
    hostRelu x (ix2 p q) = Cert.Net.lrelu (x (ix2 p q)) := by
  unfold hostRelu
  rw [select_apply, cmpf_apply, mulf_apply, broadcastInDim_scalar_apply, broadcastInDim_scalar_apply, constant_apply,
    constant_apply]
  exact Cert.Net.select_ge _

/-! ## The normalisation -/

/-- Bias, running mean removed, scaled by (σ² + ε)^(−1/2), then by γ, shifted by β: on whole arrays. -/
def hostNorm (agg : Arr S50000x128) (b g be mu va : Arr S128) : Arr S50000x128 :=
  addf (F := Ideal) (φ := .f32)
    (mulf (F := Ideal) (φ := .f32)
      (mulf (F := Ideal) (φ := .f32)
        (subf (F := Ideal) (φ := .f32) (addf (F := Ideal) (φ := .f32) agg (spread b)) (spread mu))
        (spread (Host.rsqrt (F := Ideal) (φ := .f32)
          (addf (F := Ideal) (φ := .f32) va
            (broadcastInDim S128 ![] bcast_S_S128 (constant (F := Ideal) S_ .f32 0x3727C5AC#32))))))
      (spread g))
    (spread be)

theorem hostNorm_apply (agg : Arr S50000x128) (b g be mu va : Arr S128) (p : Fin 50000) (q : Fin 128) :
    hostNorm agg b g be mu va (ix2 p q)
      = Cert.Net.norm1 (agg (ix2 p q)) (b (ix1 q)) (mu (ix1 q)) (va (ix1 q)) (g (ix1 q)) (be (ix1 q)) := by
  unfold hostNorm
  rw [addf_apply, mulf_apply, mulf_apply, subf_apply, addf_apply, spread_apply, spread_apply, spread_apply, spread_apply,
    spread_apply]
  show _ * Ideal.rsqrt (va (ix1 q)
      + broadcastInDim S128 ![] bcast_S_S128 (constant (F := Ideal) S_ .f32 0x3727C5AC#32) (ix1 q)) * _ + _ = _
  rw [broadcastInDim_scalar_apply, constant_apply]
  rfl

/-! ## The dense products -/

/-- The host's product of the 50000 × 128 features with a 128 × 128 matrix is the specification's. -/
theorem hostDot_eq (x : Arr S50000x128) (w : Arr S128x128) :
    Host.dotGeneral (F := Ideal) (φ₁ := .f32) (φ₂ := .f32) dot_S50000x128_S128x128_S50000x128_1_0_0_1_n_n none x w
      = Cert.Net.dense (n := 50000) (K := 128) (M := 128) x w :=
  Cert.Net.mat_ext fun p q =>
    Cert.PlainDot.dotGeneral_apply dot_S50000x128_S128x128_S50000x128_1_0_0_1_n_n rfl rfl (fun _ _ => rfl) (fun _ _ => rfl)
      (fun _ _ => rfl) (fun _ _ => rfl) none .single x w p q

/-- The same for the last, 128 × 64 matrix. -/
theorem hostDot64_eq (x : Arr S50000x128) (w : Arr S128x64) :
    Host.dotGeneral (F := Ideal) (φ₁ := .f32) (φ₂ := .f32) dot_S50000x128_S128x64_S50000x64_1_0_0_1_n_n none x w
      = Cert.Net.dense (n := 50000) (K := 128) (M := 64) x w :=
  Cert.Net.mat_ext fun p q =>
    Cert.PlainDot.dotGeneral_apply dot_S50000x128_S128x64_S50000x64_1_0_0_1_n_n rfl rfl (fun _ _ => rfl) (fun _ _ => rfl)
      (fun _ _ => rfl) (fun _ _ => rfl) none .single x w p q

/-! ## The layers -/

/-- The first layer as the host computes it. -/
def hostLayer1 (x : Arr S50000x128) (w : Arr S128x128) (b g be mu va : Arr S128) (s d : Ind S850000) (nrm : Arr S850000) :
    Arr S50000x128 :=
  hostRelu (hostNorm (aggr (Host.dotGeneral (F := Ideal) (φ₁ := .f32) (φ₂ := .f32) dot_S50000x128_S128x128_S50000x128_1_0_0_1_n_n none x w) s d nrm)
    b g be mu va)

theorem hostLayer1_eq (x : Arr S50000x128) (w : Arr S128x128) (b g be mu va : Arr S128) (s d : Ind S850000)
    (nrm : Arr S850000) : hostLayer1 x w b g be mu va s d nrm = layer1 x w b g be mu va s d nrm := by
  unfold hostLayer1 layer1
  rw [hostDot_eq]
  exact Cert.Net.mat_ext fun p q => by
    rw [hostRelu_apply, hostNorm_apply]
    rfl

/-- A residual layer as the host computes it: the layer's input is added back before the rectifier. -/
def hostLayerR (h : Arr S50000x128) (w : Arr S128x128) (b g be mu va : Arr S128) (s d : Ind S850000) (nrm : Arr S850000) :
    Arr S50000x128 :=
  hostRelu (addf (F := Ideal) (φ := .f32)
    (hostNorm (aggr (Host.dotGeneral (F := Ideal) (φ₁ := .f32) (φ₂ := .f32) dot_S50000x128_S128x128_S50000x128_1_0_0_1_n_n none h w) s d nrm)
      b g be mu va) h)

theorem hostLayerR_eq (h : Arr S50000x128) (w : Arr S128x128) (b g be mu va : Arr S128) (s d : Ind S850000)
    (nrm : Arr S850000) :
    hostLayerR h w b g be mu va s d nrm = layerR h w (vec b) (vec g) (vec be) (vec mu) (vec va) s d nrm := by
  unfold hostLayerR layerR
  rw [hostDot_eq]
  exact Cert.Net.mat_ext fun p q => by
    rw [hostRelu_apply, addf_apply, hostNorm_apply]
    rfl

/-- The first dense layer as the host computes it: product, bias, rectifier. -/
def hostLin1 (h : Arr S50000x128) (w : Arr S128x128) (b : Arr S128) : Arr S50000x128 :=
  hostRelu (addf (F := Ideal) (φ := .f32)
    (Host.dotGeneral (F := Ideal) (φ₁ := .f32) (φ₂ := .f32) dot_S50000x128_S128x128_S50000x128_1_0_0_1_n_n none h w) (spread b))

theorem hostLin1_eq (h : Arr S50000x128) (w : Arr S128x128) (b : Arr S128) :
    hostLin1 h w b = Cert.Net.denseAct (n := 50000) (K := 128) (M := 128) h w (vec b) := by
  unfold hostLin1
  rw [hostDot_eq]
  exact Cert.Net.mat_ext fun p q => by
    rw [hostRelu_apply, addf_apply, spread_apply]
    rfl

/-- The last dense layer as the host computes it: product and bias. -/
def hostLin2 (h : Arr S50000x128) (w : Arr S128x64) (b : Arr S64) : Arr S50000x64 :=
  addf (F := Ideal) (φ := .f32)
    (Host.dotGeneral (F := Ideal) (φ₁ := .f32) (φ₂ := .f32) dot_S50000x128_S128x64_S50000x64_1_0_0_1_n_n none h w) (spread64 b)

theorem hostLin2_eq (h : Arr S50000x128) (w : Arr S128x64) (b : Arr S64) :
    hostLin2 h w b = Cert.Net.denseBias (n := 50000) (K := 128) (M := 64) h w (vec b) := by
  unfold hostLin2
  rw [hostDot64_eq]
  exact Cert.Net.mat_ext fun p q => by
    rw [addf_apply, spread64_apply]
    rfl

/-! ## The stacked parameters -/

/-- Matrix 0 of the stack of two, as the host takes it: the slice [0 : 1] reshaped to drop the unit axis. -/
def hostSlab0 (a : Arr S2x128x128) : Arr S128x128 :=
  shapeCast S128x128 (extractStridedSlice S1x128x128 ![0, 0, 0] a slices_S2x128x128_S1x128x128_0_0_0) shapeCasts_S1x128x128_S128x128
/-- Matrix 1 of the stack of two, as the host takes it: the slice [1 : 2] reshaped to drop the unit axis. -/
def hostSlab1 (a : Arr S2x128x128) : Arr S128x128 :=
  shapeCast S128x128 (extractStridedSlice S1x128x128 ![1, 0, 0] a slices_S2x128x128_S1x128x128_1_0_0) shapeCasts_S1x128x128_S128x128

theorem hostSlab0_eq (a : Arr S2x128x128) : hostSlab0 a = slab (a := 2) (n := 128) (k := 128) a 0 :=
  Cert.Net.mat_ext fun p q => by
    unfold hostSlab0
    rw [shapeCast_1ab_ab_apply]
    exact extractStridedSlice_apply _ _ _ _ (ix3 (0 : Fin 2) p q) (fun ax => by
      match ax with
      | ⟨0, _⟩ => rfl
      | ⟨1, _⟩ => exact (Nat.zero_add _).symm
      | ⟨2, _⟩ => exact (Nat.zero_add _).symm)

theorem hostSlab1_eq (a : Arr S2x128x128) : hostSlab1 a = slab (a := 2) (n := 128) (k := 128) a 1 :=
  Cert.Net.mat_ext fun p q => by
    unfold hostSlab1
    rw [shapeCast_1ab_ab_apply]
    exact extractStridedSlice_apply _ _ _ _ (ix3 (1 : Fin 2) p q) (fun ax => by
      match ax with
      | ⟨0, _⟩ => rfl
      | ⟨1, _⟩ => exact (Nat.zero_add _).symm
      | ⟨2, _⟩ => exact (Nat.zero_add _).symm)

/-- Row 0 of a stack of two channel vectors, as the host takes it. -/
def hostRow0 (a : Arr S2x128) : Arr S128 :=
  shapeCast S128 (extractStridedSlice S1x128 ![0, 0] a slices_S2x128_S1x128_0_0) shapeCasts_S1x128_S128
/-- Row 1 of a stack of two channel vectors, as the host takes it. -/
def hostRow1 (a : Arr S2x128) : Arr S128 :=
  shapeCast S128 (extractStridedSlice S1x128 ![1, 0] a slices_S2x128_S1x128_1_0) shapeCasts_S1x128_S128

theorem hostRow0_eq (a : Arr S2x128) : vec (hostRow0 a) = rowOf (a := 2) (n := 128) a 0 :=
  funext fun q => by
    unfold vec hostRow0 rowOf
    rw [shapeCast_1a_a_apply]
    exact slice2_axis0_apply 0 a _ (0 : Fin 1) q (0 : Fin 2) rfl

theorem hostRow1_eq (a : Arr S2x128) : vec (hostRow1 a) = rowOf (a := 2) (n := 128) a 1 :=
  funext fun q => by
    unfold vec hostRow1 rowOf
    rw [shapeCast_1a_a_apply]
    exact slice2_axis0_apply 1 a _ (0 : Fin 1) q (1 : Fin 2) rfl

end Cert.RefSide

end
-- ==== Proof.RefStretchL1.lean ====
/-
  The first layer's stretch, read piece by piece.

  From any contents of the buffers: the product and the aggregation leave in %45 the aggregation of the product of the
  features with the layer's matrix over the graph's three arrays; bias and normalisation leave in %63 the normalised
  array of %45 and the five channel vectors; the rectifier's seven operations leave in %64 the rectified %63.  Each
  operation's result is its function of its operands' contents, and what a called function's operation writes through
  a typed reference and the next reads back through the same reference is the value itself.  Run in order, with the
  channel vectors untouched by the first piece, the three give the first layer as the host computes it.
-/
import proofs.«132849_j12000138625377_2_alg».proof.Proof.RefCut
import proofs.«132849_j12000138625377_2_alg».proof.Proof.RefLayers
import proofs.«132849_j12000138625377_2_alg».proof.Proof.LibHostLine

noncomputable section

namespace Cert.RefSide

open Cert.ReferenceIdeal Idealize.ShloMosaic Idealize.ShloMosaic.TcCoe Idealize.SL.Sem Idealize.ShloMosaic.StableHlo Cert.Glue

set_option maxHeartbeats 8000000 in
theorem opsLayer1_agg_v45 (W : Valuation τ sig (Elt Ideal)) :
    after (opsLayer1_agg (F := Ideal)) W (Proc.devRef .tc main_v45)
      = aggr (Host.dotGeneral (F := Ideal) (φ₁ := .f32) (φ₂ := .f32) dot_S50000x128_S128x128_S50000x128_1_0_0_1_n_n none
            (W (Proc.devRef .tc main_arg0)) (W (Proc.devRef .tc main_arg3)))
          (W (Proc.devRef .tc main_v3)) (W (Proc.devRef .tc main_v6)) (W (Proc.devRef .tc main_v31)) := by
  after_results_simp
  rfl

set_option maxHeartbeats 8000000 in
theorem opsLayer1_norm_v63 (W : Valuation τ sig (Elt Ideal)) :
    after (opsLayer1_norm (F := Ideal)) W (Proc.devRef .tc main_v63)
      = hostNorm (W (Proc.devRef .tc main_v45)) (W (Proc.devRef .tc main_arg4)) (W (Proc.devRef .tc main_arg5))
          (W (Proc.devRef .tc main_arg6)) (W (Proc.devRef .tc main_arg7)) (W (Proc.devRef .tc main_arg8)) := by
  after_results_simp
  rfl

set_option maxHeartbeats 8000000 in
theorem opsLayer1_act_v64 (W : Valuation τ sig (Elt Ideal)) :
    after (opsLayer1_act (F := Ideal)) W (Proc.devRef .tc main_v64) = hostRelu (W (Proc.devRef .tc main_v63)) := by
  after_results_simp
  simp only [Cert.LibHostLine.ofBuf_toBuf]
  rfl

/-- The first layer's stretch leaves in %64 the first layer, as the host computes it, of the contents before it. -/
theorem opsLayer1_value (W : Valuation τ sig (Elt Ideal)) :
    after (opsLayer1 (F := Ideal)) W (Proc.devRef .tc main_v64)
      = hostLayer1 (W (Proc.devRef .tc main_arg0)) (W (Proc.devRef .tc main_arg3)) (W (Proc.devRef .tc main_arg4))
          (W (Proc.devRef .tc main_arg5)) (W (Proc.devRef .tc main_arg6)) (W (Proc.devRef .tc main_arg7))
          (W (Proc.devRef .tc main_arg8)) (W (Proc.devRef .tc main_v3)) (W (Proc.devRef .tc main_v6))
          (W (Proc.devRef .tc main_v31)) := by
  rw [after_opsLayer1, opsLayer1_act_v64, opsLayer1_norm_v63, opsLayer1_agg_v45,
    opsLayer1_agg_keep _ main_arg4 (by decide), opsLayer1_agg_keep _ main_arg5 (by decide),
    opsLayer1_agg_keep _ main_arg6 (by decide), opsLayer1_agg_keep _ main_arg7 (by decide),
    opsLayer1_agg_keep _ main_arg8 (by decide)]
  rfl

end Cert.RefSide

end
-- ==== Proof.RefStretchL2.lean ====
/-
  The second layer's stretch, read piece by piece.

  From any contents of the buffers: the first piece takes matrix 0 and bias row 0 of the stacked parameters and leaves in
  %82 the aggregation, over the graph's three arrays, of the product of the layer's input %64 with that matrix; the
  second takes rows 0 of the four stacks of statistics and leaves in %109 the normalised array with the layer's input
  added back; the rectifier's seven operations leave in %110 the rectified %109.  Run in order, with the four stacks
  and the layer's input untouched by the first piece, they give the residual layer as the host computes it.
-/
import proofs.«132849_j12000138625377_2_alg».proof.Proof.RefCut
import proofs.«132849_j12000138625377_2_alg».proof.Proof.RefLayers
import proofs.«132849_j12000138625377_2_alg».proof.Proof.LibHostLine

noncomputable section

namespace Cert.RefSide

open Cert.ReferenceIdeal Idealize.ShloMosaic Idealize.ShloMosaic.TcCoe Idealize.SL.Sem Idealize.ShloMosaic.StableHlo Cert.Glue

set_option maxHeartbeats 8000000 in
theorem opsLayer2_agg_v82 (W : Valuation τ sig (Elt Ideal)) :
    after (opsLayer2_agg (F := Ideal)) W (Proc.devRef .tc main_v82)
      = aggr (Host.dotGeneral (F := Ideal) (φ₁ := .f32) (φ₂ := .f32) dot_S50000x128_S128x128_S50000x128_1_0_0_1_n_n none
            (W (Proc.devRef .tc main_v64)) (hostSlab0 (W (Proc.devRef .tc main_arg9))))
          (W (Proc.devRef .tc main_v3)) (W (Proc.devRef .tc main_v6)) (W (Proc.devRef .tc main_v31)) := by
  after_results_simp
  rfl

set_option maxHeartbeats 8000000 in
theorem opsLayer2_agg_v68 (W : Valuation τ sig (Elt Ideal)) :
    after (opsLayer2_agg (F := Ideal)) W (Proc.devRef .tc main_v68) = hostRow0 (W (Proc.devRef .tc main_arg10)) := by
  after_results_simp
  rfl

set_option maxHeartbeats 8000000 in
theorem opsLayer2_norm_v109 (W : Valuation τ sig (Elt Ideal)) :
    after (opsLayer2_norm (F := Ideal)) W (Proc.devRef .tc main_v109)
      = addf (F := Ideal) (φ := .f32)
          (hostNorm (W (Proc.devRef .tc main_v82)) (W (Proc.devRef .tc main_v68))
            (hostRow0 (W (Proc.devRef .tc main_arg11))) (hostRow0 (W (Proc.devRef .tc main_arg12)))
            (hostRow0 (W (Proc.devRef .tc main_arg13))) (hostRow0 (W (Proc.devRef .tc main_arg14))))
          (W (Proc.devRef .tc main_v64)) := by
  after_results_simp
  rfl

set_option maxHeartbeats 8000000 in
theorem opsLayer2_act_v110 (W : Valuation τ sig (Elt Ideal)) :
    after (opsLayer2_act (F := Ideal)) W (Proc.devRef .tc main_v110) = hostRelu (W (Proc.devRef .tc main_v109)) := by
  after_results_simp
  simp only [Cert.LibHostLine.ofBuf_toBuf]
  rfl

/-- The stretch leaves in %110 the residual layer, as the host computes it, of the contents before it. -/
theorem opsLayer2_value (W : Valuation τ sig (Elt Ideal)) :
    after (opsLayer2 (F := Ideal)) W (Proc.devRef .tc main_v110)
      = hostLayerR (W (Proc.devRef .tc main_v64)) (hostSlab0 (W (Proc.devRef .tc main_arg9)))
          (hostRow0 (W (Proc.devRef .tc main_arg10))) (hostRow0 (W (Proc.devRef .tc main_arg11)))
          (hostRow0 (W (Proc.devRef .tc main_arg12))) (hostRow0 (W (Proc.devRef .tc main_arg13)))
          (hostRow0 (W (Proc.devRef .tc main_arg14))) (W (Proc.devRef .tc main_v3)) (W (Proc.devRef .tc main_v6))
          (W (Proc.devRef .tc main_v31)) := by
  rw [after_opsLayer2, opsLayer2_act_v110, opsLayer2_norm_v109, opsLayer2_agg_v82, opsLayer2_agg_v68,
    opsLayer2_agg_keep _ main_arg11 (by decide), opsLayer2_agg_keep _ main_arg12 (by decide),
    opsLayer2_agg_keep _ main_arg13 (by decide), opsLayer2_agg_keep _ main_arg14 (by decide),
    opsLayer2_agg_keep _ main_v64 (by decide)]
  rfl

end Cert.RefSide

end
-- ==== Proof.RefStretchL3.lean ====
/-
  The third layer's stretch, read piece by piece.

  From any contents of the buffers: the first piece takes matrix 1 and bias row 1 of the stacked parameters and leaves in
  %128 the aggregation, over the graph's three arrays, of the product of the layer's input %110 with that matrix; the
  second takes rows 1 of the four stacks of statistics and leaves in %155 the normalised array with the layer's input
  added back; the rectifier's seven operations leave in %156 the rectified %155.  Run in order, with the four stacks
  and the layer's input untouched by the first piece, they give the residual layer as the host computes it.
-/
import proofs.«132849_j12000138625377_2_alg».proof.Proof.RefCut
import proofs.«132849_j12000138625377_2_alg».proof.Proof.RefLayers
import proofs.«132849_j12000138625377_2_alg».proof.Proof.LibHostLine

noncomputable section

namespace Cert.RefSide

open Cert.ReferenceIdeal Idealize.ShloMosaic Idealize.ShloMosaic.TcCoe Idealize.SL.Sem Idealize.ShloMosaic.StableHlo Cert.Glue

set_option maxHeartbeats 8000000 in
theorem opsLayer3_agg_v128 (W : Valuation τ sig (Elt Ideal)) :
    after (opsLayer3_agg (F := Ideal)) W (Proc.devRef .tc main_v128)
      = aggr (Host.dotGeneral (F := Ideal) (φ₁ := .f32) (φ₂ := .f32) dot_S50000x128_S128x128_S50000x128_1_0_0_1_n_n none
            (W (Proc.devRef .tc main_v110)) (hostSlab1 (W (Proc.devRef .tc main_arg9))))
          (W (Proc.devRef .tc main_v3)) (W (Proc.devRef .tc main_v6)) (W (Proc.devRef .tc main_v31)) := by
  after_results_simp
  rfl

set_option maxHeartbeats 8000000 in
theorem opsLayer3_agg_v114 (W : Valuation τ sig (Elt Ideal)) :
    after (opsLayer3_agg (F := Ideal)) W (Proc.devRef .tc main_v114) = hostRow1 (W (Proc.devRef .tc main_arg10)) := by
  after_results_simp
  rfl

set_option maxHeartbeats 8000000 in
theorem opsLayer3_norm_v155 (W : Valuation τ sig (Elt Ideal)) :
    after (opsLayer3_norm (F := Ideal)) W (Proc.devRef .tc main_v155)
      = addf (F := Ideal) (φ := .f32)
          (hostNorm (W (Proc.devRef .tc main_v128)) (W (Proc.devRef .tc main_v114))
            (hostRow1 (W (Proc.devRef .tc main_arg11))) (hostRow1 (W (Proc.devRef .tc main_arg12)))
            (hostRow1 (W (Proc.devRef .tc main_arg13))) (hostRow1 (W (Proc.devRef .tc main_arg14))))
          (W (Proc.devRef .tc main_v110)) := by
  after_results_simp
  rfl

set_option maxHeartbeats 8000000 in
theorem opsLayer3_act_v156 (W : Valuation τ sig (Elt Ideal)) :
    after (opsLayer3_act (F := Ideal)) W (Proc.devRef .tc main_v156) = hostRelu (W (Proc.devRef .tc main_v155)) := by
  after_results_simp
  simp only [Cert.LibHostLine.ofBuf_toBuf]
  rfl

/-- The stretch leaves in %156 the residual layer, as the host computes it, of the contents before it. -/
theorem opsLayer3_value (W : Valuation τ sig (Elt Ideal)) :
    after (opsLayer3 (F := Ideal)) W (Proc.devRef .tc main_v156)
      = hostLayerR (W (Proc.devRef .tc main_v110)) (hostSlab1 (W (Proc.devRef .tc main_arg9)))
          (hostRow1 (W (Proc.devRef .tc main_arg10))) (hostRow1 (W (Proc.devRef .tc main_arg11)))
          (hostRow1 (W (Proc.devRef .tc main_arg12))) (hostRow1 (W (Proc.devRef .tc main_arg13)))
          (hostRow1 (W (Proc.devRef .tc main_arg14))) (W (Proc.devRef .tc main_v3)) (W (Proc.devRef .tc main_v6))
          (W (Proc.devRef .tc main_v31)) := by
  rw [after_opsLayer3, opsLayer3_act_v156, opsLayer3_norm_v155, opsLayer3_agg_v128, opsLayer3_agg_v114,
    opsLayer3_agg_keep _ main_arg11 (by decide), opsLayer3_agg_keep _ main_arg12 (by decide),
    opsLayer3_agg_keep _ main_arg13 (by decide), opsLayer3_agg_keep _ main_arg14 (by decide),
    opsLayer3_agg_keep _ main_v110 (by decide)]
  rfl

end Cert.RefSide

end
-- ==== Proof.RefStretchLin.lean ====
/-
  The two dense layers' stretches, read.

  From any contents of the buffers: product and bias leave in %160 the product of %156 with the first dense matrix plus
  its bias repeated over the rows, and the rectifier's seven operations leave in %161 the rectified %160; the last four
  operations leave in %165 the product of %161 with the last matrix plus its bias repeated over the rows.
-/
import proofs.«132849_j12000138625377_2_alg».proof.Proof.RefCut
import proofs.«132849_j12000138625377_2_alg».proof.Proof.RefLayers
import proofs.«132849_j12000138625377_2_alg».proof.Proof.LibHostLine

noncomputable section

namespace Cert.RefSide

open Cert.ReferenceIdeal Idealize.ShloMosaic Idealize.ShloMosaic.TcCoe Idealize.SL.Sem Idealize.ShloMosaic.StableHlo Cert.Glue

set_option maxHeartbeats 8000000 in
theorem opsLin1_lin_v160 (W : Valuation τ sig (Elt Ideal)) :
    after (opsLin1_lin (F := Ideal)) W (Proc.devRef .tc main_v160)
      = addf (F := Ideal) (φ := .f32)
          (Host.dotGeneral (F := Ideal) (φ₁ := .f32) (φ₂ := .f32) dot_S50000x128_S128x128_S50000x128_1_0_0_1_n_n none
            (W (Proc.devRef .tc main_v156)) (W (Proc.devRef .tc main_arg15)))
          (spread (W (Proc.devRef .tc main_arg16))) := by
  after_results_simp
  rfl

set_option maxHeartbeats 8000000 in
theorem opsLin1_act_v161 (W : Valuation τ sig (Elt Ideal)) :
    after (opsLin1_act (F := Ideal)) W (Proc.devRef .tc main_v161) = hostRelu (W (Proc.devRef .tc main_v160)) := by
  after_results_simp
  simp only [Cert.LibHostLine.ofBuf_toBuf]
  rfl

/-- The first dense layer's stretch leaves in %161 that layer, as the host computes it, of the contents before it. -/
theorem opsLin1_value (W : Valuation τ sig (Elt Ideal)) :
    after (opsLin1 (F := Ideal)) W (Proc.devRef .tc main_v161)
      = hostLin1 (W (Proc.devRef .tc main_v156)) (W (Proc.devRef .tc main_arg15)) (W (Proc.devRef .tc main_arg16)) := by
  rw [after_opsLin1, opsLin1_act_v161, opsLin1_lin_v160]
  rfl

set_option maxHeartbeats 8000000 in
/-- The last dense layer's stretch leaves in %165 that layer, as the host computes it, of the contents before it. -/
theorem opsLin2_value (W : Valuation τ sig (Elt Ideal)) :
    after (opsLin2 (F := Ideal)) W (Proc.devRef .tc main_v165)
      = hostLin2 (W (Proc.devRef .tc main_v161)) (W (Proc.devRef .tc main_arg17)) (W (Proc.devRef .tc main_arg18)) := by
  after_results_simp
  rfl

end Cert.RefSide

end
-- ==== Proof.RefValue.lean ====
/-
  The reference program's value.

  The program is six stretches run in order.  The graph part leaves the two index columns and the edge weights; each
  later stretch leaves one layer of the network, as the host computes it, of the arrays before it; no stretch writes an
  argument, and the layers do not write the graph's three arrays.  So the arrays a stretch reads are the arguments and
  the layers before it, the host's layers are the specification's, and the last buffer holds the network of the
  nineteen arguments, which themselves end as they began.
-/
import proofs.«132849_j12000138625377_2_alg».proof.Proof.RefRun
import proofs.«132849_j12000138625377_2_alg».proof.Proof.RefGraph
import proofs.«132849_j12000138625377_2_alg».proof.Proof.RefStretchL1
import proofs.«132849_j12000138625377_2_alg».proof.Proof.RefStretchL2
import proofs.«132849_j12000138625377_2_alg».proof.Proof.RefStretchL3
import proofs.«132849_j12000138625377_2_alg».proof.Proof.RefStretchLin

noncomputable section

namespace Cert.RefSide

open Cert.ReferenceIdeal Idealize.ShloMosaic Idealize.ShloMosaic.TcCoe Idealize.SL.Sem Idealize.ShloMosaic.StableHlo Cert.Glue

/-! ## What the first stretches leave alone -/

section Keep
variable {F : FTy → Type} [FloatOps F] (V : Valuation τ sig (Elt F)) (r : Ref sig .tc)

/-- A buffer the graph part and the first layer do not write holds after them what it held before. -/
theorem keep2 (h1 : r ∉ opsGraph_W) (h2 : r ∉ opsLayer1_W) :
    after opsLayer1 (after opsGraph V) (Proc.devRef .tc r) = V (Proc.devRef .tc r) := by
  rw [opsLayer1_keep _ r h2, opsGraph_keep _ r h1]
/-- The same through the second layer. -/
theorem keep3 (h1 : r ∉ opsGraph_W) (h2 : r ∉ opsLayer1_W) (h3 : r ∉ opsLayer2_W) :
    after opsLayer2 (after opsLayer1 (after opsGraph V)) (Proc.devRef .tc r) = V (Proc.devRef .tc r) := by
  rw [opsLayer2_keep _ r h3, keep2 V r h1 h2]
/-- The same through the third layer. -/
theorem keep4 (h1 : r ∉ opsGraph_W) (h2 : r ∉ opsLayer1_W) (h3 : r ∉ opsLayer2_W) (h4 : r ∉ opsLayer3_W) :
    after opsLayer3 (after opsLayer2 (after opsLayer1 (after opsGraph V))) (Proc.devRef .tc r) = V (Proc.devRef .tc r) := by
  rw [opsLayer3_keep _ r h4, keep3 V r h1 h2 h3]
/-- The same through the first dense layer. -/
theorem keep5 (h1 : r ∉ opsGraph_W) (h2 : r ∉ opsLayer1_W) (h3 : r ∉ opsLayer2_W) (h4 : r ∉ opsLayer3_W) (h5 : r ∉ opsLin1_W) :
    after opsLin1 (after opsLayer3 (after opsLayer2 (after opsLayer1 (after opsGraph V)))) (Proc.devRef .tc r)
      = V (Proc.devRef .tc r) := by
  rw [opsLin1_keep _ r h5, keep4 V r h1 h2 h3 h4]

end Keep

/-! ## The value, stretch by stretch -/

section Value
variable (V : Valuation τ sig (Elt Ideal))

/-- After the first layer's stretch, %64 holds the specification's first layer of the arguments. -/
theorem value1 : after opsLayer1 (after opsGraph V) (Proc.devRef .tc main_v64) = layer1 (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (src (V (Proc.devRef .tc main_arg1))) (dst (V (Proc.devRef .tc main_arg1))) (norm (V (Proc.devRef .tc main_arg1)) (V (Proc.devRef .tc main_arg2))) := by
  rw [opsLayer1_value, opsGraph_keep V main_arg0 (by decide), opsGraph_keep V main_arg3 (by decide),
    opsGraph_keep V main_arg4 (by decide), opsGraph_keep V main_arg5 (by decide), opsGraph_keep V main_arg6 (by decide),
    opsGraph_keep V main_arg7 (by decide), opsGraph_keep V main_arg8 (by decide), graph_v3, graph_v6, graph_v31,
    hostLayer1_eq]

/-- After the second layer's stretch, %110 holds the specification's second layer. -/
theorem value2 : after opsLayer2 (after opsLayer1 (after opsGraph V)) (Proc.devRef .tc main_v110) = layerR (layer1 (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (src (V (Proc.devRef .tc main_arg1))) (dst (V (Proc.devRef .tc main_arg1))) (norm (V (Proc.devRef .tc main_arg1)) (V (Proc.devRef .tc main_arg2)))) (slab (a := 2) (n := 128) (k := 128) (V (Proc.devRef .tc main_arg9)) 0) (rowOf (a := 2) (n := 128) (V (Proc.devRef .tc main_arg10)) 0) (rowOf (a := 2) (n := 128) (V (Proc.devRef .tc main_arg11)) 0) (rowOf (a := 2) (n := 128) (V (Proc.devRef .tc main_arg12)) 0) (rowOf (a := 2) (n := 128) (V (Proc.devRef .tc main_arg13)) 0) (rowOf (a := 2) (n := 128) (V (Proc.devRef .tc main_arg14)) 0) (src (V (Proc.devRef .tc main_arg1))) (dst (V (Proc.devRef .tc main_arg1))) (norm (V (Proc.devRef .tc main_arg1)) (V (Proc.devRef .tc main_arg2))) := by
  rw [opsLayer2_value, value1, keep2 V main_arg9 (by decide) (by decide), keep2 V main_arg10 (by decide) (by decide), keep2 V main_arg11 (by decide) (by decide),
    keep2 V main_arg12 (by decide) (by decide), keep2 V main_arg13 (by decide) (by decide), keep2 V main_arg14 (by decide) (by decide),
    opsLayer1_keep _ main_v3 (by decide), opsLayer1_keep _ main_v6 (by decide), opsLayer1_keep _ main_v31 (by decide),
    graph_v3, graph_v6, graph_v31, hostLayerR_eq, hostSlab0_eq, hostRow0_eq, hostRow0_eq, hostRow0_eq, hostRow0_eq,
    hostRow0_eq]

/-- After the third layer's stretch, %156 holds the specification's third layer. -/
theorem value3 : after opsLayer3 (after opsLayer2 (after opsLayer1 (after opsGraph V))) (Proc.devRef .tc main_v156) = layerR (layerR (layer1 (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (src (V (Proc.devRef .tc main_arg1))) (dst (V (Proc.devRef .tc main_arg1))) (norm (V (Proc.devRef .tc main_arg1)) (V (Proc.devRef .tc main_arg2)))) (slab (a := 2) (n := 128) (k := 128) (V (Proc.devRef .tc main_arg9)) 0) (rowOf (a := 2) (n := 128) (V (Proc.devRef .tc main_arg10)) 0) (rowOf (a := 2) (n := 128) (V (Proc.devRef .tc main_arg11)) 0) (rowOf (a := 2) (n := 128) (V (Proc.devRef .tc main_arg12)) 0) (rowOf (a := 2) (n := 128) (V (Proc.devRef .tc main_arg13)) 0) (rowOf (a := 2) (n := 128) (V (Proc.devRef .tc main_arg14)) 0) (src (V (Proc.devRef .tc main_arg1))) (dst (V (Proc.devRef .tc main_arg1))) (norm (V (Proc.devRef .tc main_arg1)) (V (Proc.devRef .tc main_arg2)))) (slab (a := 2) (n := 128) (k := 128) (V (Proc.devRef .tc main_arg9)) 1) (rowOf (a := 2) (n := 128) (V (Proc.devRef .tc main_arg10)) 1) (rowOf (a := 2) (n := 128) (V (Proc.devRef .tc main_arg11)) 1) (rowOf (a := 2) (n := 128) (V (Proc.devRef .tc main_arg12)) 1) (rowOf (a := 2) (n := 128) (V (Proc.devRef .tc main_arg13)) 1) (rowOf (a := 2) (n := 128) (V (Proc.devRef .tc main_arg14)) 1) (src (V (Proc.devRef .tc main_arg1))) (dst (V (Proc.devRef .tc main_arg1))) (norm (V (Proc.devRef .tc main_arg1)) (V (Proc.devRef .tc main_arg2))) := by
  rw [opsLayer3_value, value2, keep3 V main_arg9 (by decide) (by decide) (by decide), keep3 V main_arg10 (by decide) (by decide) (by decide), keep3 V main_arg11 (by decide) (by decide) (by decide),
    keep3 V main_arg12 (by decide) (by decide) (by decide), keep3 V main_arg13 (by decide) (by decide) (by decide), keep3 V main_arg14 (by decide) (by decide) (by decide),
    opsLayer2_keep _ main_v3 (by decide), opsLayer2_keep _ main_v6 (by decide), opsLayer2_keep _ main_v31 (by decide),
    opsLayer1_keep _ main_v3 (by decide), opsLayer1_keep _ main_v6 (by decide), opsLayer1_keep _ main_v31 (by decide),
    graph_v3, graph_v6, graph_v31, hostLayerR_eq, hostSlab1_eq, hostRow1_eq, hostRow1_eq, hostRow1_eq, hostRow1_eq,
    hostRow1_eq]

/-- After the first dense layer's stretch, %161 holds the specification's first dense layer. -/
theorem value4 : after opsLin1 (after opsLayer3 (after opsLayer2 (after opsLayer1 (after opsGraph V)))) (Proc.devRef .tc main_v161) = Cert.Net.denseAct (n := 50000) (K := 128) (M := 128) (layerR (layerR (layer1 (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (src (V (Proc.devRef .tc main_arg1))) (dst (V (Proc.devRef .tc main_arg1))) (norm (V (Proc.devRef .tc main_arg1)) (V (Proc.devRef .tc main_arg2)))) (slab (a := 2) (n := 128) (k := 128) (V (Proc.devRef .tc main_arg9)) 0) (rowOf (a := 2) (n := 128) (V (Proc.devRef .tc main_arg10)) 0) (rowOf (a := 2) (n := 128) (V (Proc.devRef .tc main_arg11)) 0) (rowOf (a := 2) (n := 128) (V (Proc.devRef .tc main_arg12)) 0) (rowOf (a := 2) (n := 128) (V (Proc.devRef .tc main_arg13)) 0) (rowOf (a := 2) (n := 128) (V (Proc.devRef .tc main_arg14)) 0) (src (V (Proc.devRef .tc main_arg1))) (dst (V (Proc.devRef .tc main_arg1))) (norm (V (Proc.devRef .tc main_arg1)) (V (Proc.devRef .tc main_arg2)))) (slab (a := 2) (n := 128) (k := 128) (V (Proc.devRef .tc main_arg9)) 1) (rowOf (a := 2) (n := 128) (V (Proc.devRef .tc main_arg10)) 1) (rowOf (a := 2) (n := 128) (V (Proc.devRef .tc main_arg11)) 1) (rowOf (a := 2) (n := 128) (V (Proc.devRef .tc main_arg12)) 1) (rowOf (a := 2) (n := 128) (V (Proc.devRef .tc main_arg13)) 1) (rowOf (a := 2) (n := 128) (V (Proc.devRef .tc main_arg14)) 1) (src (V (Proc.devRef .tc main_arg1))) (dst (V (Proc.devRef .tc main_arg1))) (norm (V (Proc.devRef .tc main_arg1)) (V (Proc.devRef .tc main_arg2)))) (V (Proc.devRef .tc main_arg15)) (vec (V (Proc.devRef .tc main_arg16))) := by
  rw [opsLin1_value, value3, keep4 V main_arg15 (by decide) (by decide) (by decide) (by decide), keep4 V main_arg16 (by decide) (by decide) (by decide) (by decide), hostLin1_eq]

/-- After the whole program, %165 holds the network of the arguments. -/
theorem value (V : Valuation τ sig (Elt Ideal)) :
    after (ops (F := Ideal)) V (Proc.devRef .tc main_v165)
      = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [after_ops, opsLin2_value, value4, keep5 V main_arg17 (by decide) (by decide) (by decide) (by decide) (by decide), keep5 V main_arg18 (by decide) (by decide) (by decide) (by decide) (by decide), hostLin2_eq]
  rfl

end Value

/-! ## The run -/

/-- On every device, from any memory with zero counters: every weakly fair execution of the reference program
    terminates with the network of the nineteen arguments in its result buffer, and the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v165)
          = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
    ⟨(h c main_v165).trans (value (launchContents m c)),
      (h c main_arg0).trans (ops_keep (launchContents m c) main_arg0 (by decide) (by decide) (by decide) (by decide) (by decide) (by decide)),
      (h c main_arg1).trans (ops_keep (launchContents m c) main_arg1 (by decide) (by decide) (by decide) (by decide) (by decide) (by decide)),
      (h c main_arg2).trans (ops_keep (launchContents m c) main_arg2 (by decide) (by decide) (by decide) (by decide) (by decide) (by decide)),
      (h c main_arg3).trans (ops_keep (launchContents m c) main_arg3 (by decide) (by decide) (by decide) (by decide) (by decide) (by decide)),
      (h c main_arg4).trans (ops_keep (launchContents m c) main_arg4 (by decide) (by decide) (by decide) (by decide) (by decide) (by decide)),
      (h c main_arg5).trans (ops_keep (launchContents m c) main_arg5 (by decide) (by decide) (by decide) (by decide) (by decide) (by decide)),
      (h c main_arg6).trans (ops_keep (launchContents m c) main_arg6 (by decide) (by decide) (by decide) (by decide) (by decide) (by decide)),
      (h c main_arg7).trans (ops_keep (launchContents m c) main_arg7 (by decide) (by decide) (by decide) (by decide) (by decide) (by decide)),
      (h c main_arg8).trans (ops_keep (launchContents m c) main_arg8 (by decide) (by decide) (by decide) (by decide) (by decide) (by decide)),
      (h c main_arg9).trans (ops_keep (launchContents m c) main_arg9 (by decide) (by decide) (by decide) (by decide) (by decide) (by decide)),
      (h c main_arg10).trans (ops_keep (launchContents m c) main_arg10 (by decide) (by decide) (by decide) (by decide) (by decide) (by decide)),
      (h c main_arg11).trans (ops_keep (launchContents m c) main_arg11 (by decide) (by decide) (by decide) (by decide) (by decide) (by decide)),
      (h c main_arg12).trans (ops_keep (launchContents m c) main_arg12 (by decide) (by decide) (by decide) (by decide) (by decide) (by decide)),
      (h c main_arg13).trans (ops_keep (launchContents m c) main_arg13 (by decide) (by decide) (by decide) (by decide) (by decide) (by decide)),
      (h c main_arg14).trans (ops_keep (launchContents m c) main_arg14 (by decide) (by decide) (by decide) (by decide) (by decide) (by decide)),
      (h c main_arg15).trans (ops_keep (launchContents m c) main_arg15 (by decide) (by decide) (by decide) (by decide) (by decide) (by decide)),
      (h c main_arg16).trans (ops_keep (launchContents m c) main_arg16 (by decide) (by decide) (by decide) (by decide) (by decide) (by decide)),
      (h c main_arg17).trans (ops_keep (launchContents m c) main_arg17 (by decide) (by decide) (by decide) (by decide) (by decide) (by decide)),
      (h c main_arg18).trans (ops_keep (launchContents m c) main_arg18 (by decide) (by decide) (by decide) (by decide) (by decide) (by decide))⟩)
    (run_after (F := Ideal) m ρ)

end Cert.RefSide

end
-- ==== Proof.lean ====
/-
  The claim: on the extended reals, the kernel and its reference end with equal result arrays and unchanged arguments.

  Both programs compute the same network entry by entry: three graph-convolution layers (a dense product, the aggregation
  over the edges, bias, normalisation over running statistics, and the leaky rectifier, the last two layers with their input
  added back before the rectifier) and two dense layers.  The kernel's result is read off the fold through its eighteen
  segments, the reference's off its line of host operations; both are one function of the nineteen arguments, so equal
  arguments give equal results.  Every operation is exact on the extended reals and no finiteness is used.
-/
import proofs.«132849_j12000138625377_2_alg».proof.Defs
import proofs.«132849_j12000138625377_2_alg».proof.Proof.Gen.Kernel
import proofs.«132849_j12000138625377_2_alg».proof.Proof.Gen.Kernel.Skeleton
import proofs.«132849_j12000138625377_2_alg».proof.Proof.Gen.Kernel.Launch
import proofs.«132849_j12000138625377_2_alg».proof.Proof.Gen.Kernel.Points
import proofs.«132849_j12000138625377_2_alg».proof.Proof.Gen.Kernel.Frame
import proofs.«132849_j12000138625377_2_alg».proof.Proof.Gen.KernelIdeal
import proofs.«132849_j12000138625377_2_alg».proof.Proof.Gen.KernelIdeal.Skeleton
import proofs.«132849_j12000138625377_2_alg».proof.Proof.Gen.KernelIdeal.Launch
import proofs.«132849_j12000138625377_2_alg».proof.Proof.Gen.KernelIdeal.Points
import proofs.«132849_j12000138625377_2_alg».proof.Proof.Gen.KernelIdeal.Frame
import proofs.«132849_j12000138625377_2_alg».proof.Proof.Gen.ReferenceIdeal
import proofs.«132849_j12000138625377_2_alg».proof.Proof.Gen.Pre_finite_inputs
import proofs.«132849_j12000138625377_2_alg».proof.Proof.Glue
import proofs.«132849_j12000138625377_2_alg».proof.Proof.KernelRun
import proofs.«132849_j12000138625377_2_alg».proof.Proof.KernelValue
import proofs.«132849_j12000138625377_2_alg».proof.Proof.RefValue
import Idealize.ShloMosaic.Adequacy
import Idealize.ShloMosaic.Init

noncomputable section

namespace Cert.Proof

open Idealize.ShloMosaic Idealize.SL.Sem Cert.Kernel

/-- The bit-level kernel runs and keeps its arguments: the generated frame. -/
theorem frame_k : Cert.frame_Kernel := fun m ρ _ => Cert.Kernel.Gen.frame m ρ

/-- So does the kernel on the extended reals. -/
theorem frame_ki : Cert.frame_KernelIdeal := fun m ρ _ => Cert.KernelIdeal.Gen.frame m ρ

/-- The reference runs and keeps its arguments: its value run, the result forgotten. -/
theorem frame_ri : Cert.frame_ReferenceIdeal := fun m ρ _ =>
  (θ_run Cert.ReferenceIdeal.defs _ _).mono (fun _ h c => (h c).2) (Cert.RefSide.run m ρ)

/-- No operation was rewritten on the way to the extended reals. -/
theorem preserves : Cert.preserves_Kernel_KernelIdeal := trivial

/-- From arguments that agree, both programs end with the network's output of those arguments: the kernel's result is the
    value its eighteen segments fold to, the reference's the value of its line of host operations, and both are the same
    function of the nineteen arguments. -/
theorem algebraic : Cert.algebraic_KernelIdeal_ReferenceIdeal := by
  intro m ρ m' ρ' _ hagree
  refine ⟨fun c => Cert.Glue.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Whole.result m ρ c), (h c).2⟩) (Cert.KernelIdeal.Whole.run_fold m ρ)
  · refine (θ_run Cert.ReferenceIdeal.defs _ _).mono (fun _ h c => ⟨(h c).1.trans ?_, (h c).2⟩) (Cert.RefSide.run m' ρ')
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
